-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v135)) (v2 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v135) = v1 c
          ∧ r.2.mem ((c.tc : Thread Cert.KernelIdeal.nD Cert.KernelIdeal.τ).loc Cert.KernelIdeal.main_v67) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S256x256 .f32) (main_arg7 : FVec F S256 .f32) (main_arg8 : FVec F S256x64 .f32) (main_arg9 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_v33

def fn {F : FTy → Type} [FloatOps F] (main_arg0 : IVec S2x800000 32) (main_arg1 : FVec F S50000x256 .f32) (main_arg2 : FVec F S800000 .f32) (main_arg3 : IVec S2x800000 32) (main_arg4 : FVec F S256x256 .f32) (main_arg5 : FVec F S256 .f32) (main_arg6 : FVec F S256x256 .f32) (main_arg7 : FVec F S256 .f32) (main_arg8 : FVec F S256x64 .f32) (main_arg9 : FVec F S64 .f32) : IVec S_ 1 :=
  let main_v0 : FVec F S50000x256 .f32 := Host.absf main_arg1
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S2x800000 : Shape := ⟨2, ![2, 800000]⟩
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S5000 : Shape := ⟨1, ![5000]⟩
abbrev S5000x1 : Shape := ⟨2, ![5000, 1]⟩
abbrev S50000x64 : Shape := ⟨2, ![50000, 64]⟩
abbrev S5000x64 : Shape := ⟨2, ![5000, 64]⟩
abbrev S1x64 : Shape := ⟨2, ![1, 64]⟩
abbrev S800000x1 : Shape := ⟨2, ![800000, 1]⟩
abbrev S800000x256 : Shape := ⟨2, ![800000, 256]⟩
abbrev S1x2 : Shape := ⟨2, ![1, 2]⟩
abbrev S2000x256 : Shape := ⟨2, ![2000, 256]⟩
abbrev S2000x1 : Shape := ⟨2, ![2000, 1]⟩
abbrev S1x1 : Shape := ⟨2, ![1, 1]⟩
abbrev S2000 : Shape := ⟨1, ![2000]⟩
abbrev S1 : Shape := ⟨1, ![1]⟩

abbrev nBuf : Space → Nat
  | .hbm => 181
  | .vmem => 55
  | .smem => 0
  | _ => 0

abbrev hbmTy0_0 (i : Nat) : BufTy := match i % 128 with
  | 0 => ⟨S2x800000, .i32⟩
  | 1 => ⟨S50000x256, .f32⟩
  | 2 => ⟨S800000, .f32⟩
  | 3 => ⟨S2x800000, .i32⟩
  | 4 => ⟨S256x256, .f32⟩
  | 5 => ⟨S256, .f32⟩
  | 6 => ⟨S256x256, .f32⟩
  | 7 => ⟨S256, .f32⟩
  | 8 => ⟨S256x64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S850000x1, .f32⟩
  | 58 => ⟨S50000x256, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x256, .f32⟩
  | 68 => ⟨S850000x256, .f32⟩
  | 69 => ⟨S850000x256, .f32⟩
  | 70 => ⟨S_, .f32⟩
  | 71 => ⟨S50000x256, .f32⟩
  | 72 => ⟨S850000x1, .i32⟩
  | 73 => ⟨S50000x256, .f32⟩
  | 74 => ⟨S1x256, .f32⟩
  | 75 => ⟨S50000x256, .f32⟩
  | 76 => ⟨S50000x256, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x256, .f32⟩
  | 86 => ⟨S850000x256, .f32⟩
  | 87 => ⟨S850000x256, .f32⟩
  | 88 => ⟨S_, .f32⟩
  | 89 => ⟨S50000x256, .f32⟩
  | 90 => ⟨S850000x1, .i32⟩
  | 91 => ⟨S50000x256, .f32⟩
  | 92 => ⟨S1x256, .f32⟩
  | 93 => ⟨S50000x256, .f32⟩
  | 94 => ⟨S50000x256, .f32⟩
  | 95 => ⟨S50000x64, .f32⟩
  | 96 => ⟨S1x64, .f32⟩
  | 97 => ⟨S50000x64, .f32⟩
  | 98 => ⟨S1x800000, .i32⟩
  | 99 => ⟨S800000, .i32⟩
  | 100 => ⟨S1x800000, .i32⟩
  | 101 => ⟨S800000, .i32⟩
  | 102 => ⟨S1x800000, .i32⟩
  | 103 => ⟨S800000, .i32⟩
  | 104 => ⟨S1x800000, .i32⟩
  | 105 => ⟨S800000, .i32⟩
  | 106 => ⟨S800000, .i1⟩
  | 107 => ⟨S800000, .f32⟩
  | 108 => ⟨S800000, .i1⟩
  | 109 => ⟨S800000, .f32⟩
  | 110 => ⟨S_, .f32⟩
  | 111 => ⟨S_, .f32⟩
  | 112 => ⟨S_, .f32⟩
  | 113 => ⟨S_, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x256, .f32⟩
  | 123 => ⟨S_, .i32⟩
  | 124 => ⟨S800000, .i32⟩
  | 125 => ⟨S800000, .i1⟩
  | 126 => ⟨S_, .i32⟩
  | 127 => ⟨S800000, .i32⟩
  | _ => ⟨S2x800000, .i32⟩

abbrev hbmTy0_1 (i : Nat) : BufTy := match i % 128 with
  | 0 => ⟨S800000, .i32⟩
  | 1 => ⟨S800000, .i32⟩
  | 2 => ⟨S800000x1, .i32⟩
  | 3 => ⟨S800000x256, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x256, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x256, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x256, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x256, .f32⟩
  | 40 => ⟨S800000x1, .f32⟩
  | 41 => ⟨S800000x1, .f32⟩
  | 42 => ⟨S800000x1, .f32⟩
  | 43 => ⟨S1x2, .f32⟩
  | 44 => ⟨S1x1, .f32⟩
  | 45 => ⟨S_, .f32⟩
  | 46 => ⟨S1x1, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S256x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x1, .f32⟩
  | .local _ .vmem, ⟨47, _⟩ => ⟨S2000x1, .f32⟩
  | .local _ .vmem, ⟨48, _⟩ => ⟨S2000x1, .f32⟩
  | .local _ .vmem, ⟨49, _⟩ => ⟨S2000x1, .f32⟩
  | .local _ .vmem, ⟨50, _⟩ => ⟨S2000x1, .f32⟩
  | .local _ .vmem, ⟨51, _⟩ => ⟨S2000x1, .f32⟩
  | .local _ .vmem, ⟨52, _⟩ => ⟨S1x2, .f32⟩
  | .local _ .vmem, ⟨53, _⟩ => ⟨S1x1, .f32⟩
  | .local _ .vmem, ⟨54, _⟩ => ⟨S1x1, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_20 : Ref sig .tc := ⟨.hbm, 132, rfl⟩
abbrev main_v96 : Ref sig .tc := ⟨.hbm, 133, rfl⟩
abbrev main_v97 : Ref sig .tc := ⟨.hbm, 134, rfl⟩
abbrev main_c_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_22 : Ref sig .tc := ⟨.hbm, 141, rfl⟩
abbrev main_v103 : Ref sig .tc := ⟨.hbm, 142, rfl⟩
abbrev main_v104 : Ref sig .tc := ⟨.hbm, 143, rfl⟩
abbrev main_c_23 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_24 : Ref sig .tc := ⟨.hbm, 150, rfl⟩
abbrev main_v110 : Ref sig .tc := ⟨.hbm, 151, rfl⟩
abbrev main_v111 : Ref sig .tc := ⟨.hbm, 152, rfl⟩
abbrev main_c_25 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_26 : Ref sig .tc := ⟨.hbm, 159, rfl⟩
abbrev main_v117 : Ref sig .tc := ⟨.hbm, 160, rfl⟩
abbrev main_v118 : Ref sig .tc := ⟨.hbm, 161, rfl⟩
abbrev main_c_27 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_28 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg1_1 : Ref sig .tc := ⟨.vmem, 37, rfl⟩
abbrev cc7_stg2_0 : Ref sig .tc := ⟨.vmem, 38, rfl⟩
abbrev cc7_stg2_1 : Ref sig .tc := ⟨.vmem, 39, rfl⟩
abbrev cc7_stg3_0 : Ref sig .tc := ⟨.vmem, 40, rfl⟩
abbrev cc7_stg3_1 : Ref sig .tc := ⟨.vmem, 41, rfl⟩
abbrev cc7_stg4_0 : Ref sig .tc := ⟨.vmem, 42, rfl⟩
abbrev cc7_stg4_1 : Ref sig .tc := ⟨.vmem, 43, rfl⟩
abbrev cc7_stg5_0 : Ref sig .tc := ⟨.vmem, 44, rfl⟩
abbrev cc7_stg5_1 : Ref sig .tc := ⟨.vmem, 45, rfl⟩
abbrev cc7_stg6_0 : Ref sig .tc := ⟨.vmem, 46, rfl⟩
abbrev cc7_stg6_1 : Ref sig .tc := ⟨.vmem, 47, rfl⟩
abbrev cc7_stg7_0 : Ref sig .tc := ⟨.vmem, 48, rfl⟩
abbrev cc7_stg7_1 : Ref sig .tc := ⟨.vmem, 49, rfl⟩
abbrev cc7_stg8_0 : Ref sig .tc := ⟨.vmem, 50, rfl⟩
abbrev cc7_stg8_1 : Ref sig .tc := ⟨.vmem, 51, rfl⟩
abbrev cc7_stg9_0 : Ref sig .tc := ⟨.vmem, 52, rfl⟩
abbrev cc7_scratch0 : Ref sig .tc := ⟨.vmem, 53, rfl⟩
abbrev cc7_scratch1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem2_1 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem1_1 : DmaSem sig := 37
abbrev cc7_sem2_0 : DmaSem sig := 38
abbrev cc7_sem2_1 : DmaSem sig := 39
abbrev cc7_sem3_0 : DmaSem sig := 40
abbrev cc7_sem3_1 : DmaSem sig := 41
abbrev cc7_sem4_0 : DmaSem sig := 42
abbrev cc7_sem4_1 : DmaSem sig := 43
abbrev cc7_sem5_0 : DmaSem sig := 44
abbrev cc7_sem5_1 : DmaSem sig := 45
abbrev cc7_sem6_0 : DmaSem sig := 46
abbrev cc7_sem6_1 : DmaSem sig := 47
abbrev cc7_sem7_0 : DmaSem sig := 48
abbrev cc7_sem7_1 : DmaSem sig := 49
abbrev cc7_sem8_0 : DmaSem sig := 50
abbrev cc7_sem8_1 : DmaSem sig := 51
abbrev cc7_sem9_0 : DmaSem sig := 52

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![400], ![false]⟩

def k7_cond2 (i : grid7.Coords) : BitVec 1 :=
  let arg0 : BitVec 32 := BitVec.ofNat 32 (i 0).val
  let c399_i32 : BitVec 32 := 399#32
  let v58 : BitVec 1 := Scalar.cmpi .eq arg0 c399_i32
  let v59 : BitVec 32 := Scalar.extui v58
  let c0_i32_34 : BitVec 32 := 0#32
  let v60 : BitVec 1 := Scalar.cmpi .ne v59 c0_i32_34
  v60

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2000x1 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S2000x1 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S2000x1 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 1 → Memref sig .tc .vmem S1x2 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  reduces_S5000x256_S5000 : S5000x256.Reduces [1] S5000
  shapeCasts_S5000_S5000x1 : S5000.ShapeCasts S5000x1
  broadcasts_S5000x1_S5000x256 : S5000x1.Broadcasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reducesTo_S800000_S_d0 : S800000.ReducesTo [0] S_
  h_S_ : 0 < S_.numel
  bcast_S_S800000 : S_.BroadcastsInDim S800000 (![] : Fin 0 → Fin S800000.rank)
  bcast_S800000_S800000x1_0 : S800000.BroadcastsInDim S800000x1 (![0] : Fin 1 → Fin S800000x1.rank)
  shapeCasts_S800000_S800000x1 : S800000.ShapeCasts S800000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S2000x256_S2000 : S2000x256.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  reduces_S2000x1_S1 : S2000x1.Reduces [0] S1
  shapeCasts_S1_S1x1 : S1.ShapeCasts S1x1
  inb_S1x2_S1x1_0_0 : ∀ a, (![0, 0] : Fin 2 → Nat) a + S1x1.size a ≤ S1x2.size a
  inb_S1x2_S1x1_0_1 : ∀ a, (![0, 1] : Fin 2 → Nat) a + S1x1.size a ≤ S1x2.size a
  slices_S1x2_S1x1_0_0 : S1x2.Slices ![0, 0] S1x1
  shapeCasts_S1x1_S_ : S1x1.ShapeCasts S_
  slices_S1x2_S1x1_0_1 : S1x2.Slices ![0, 1] S1x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x256_S800000x1_S800000x256_1_0_n_n_0_1_1256_wf : GatherDims.WF S50000x256 S800000x1 S800000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x256.size a ≤ S50000x256.size a
  hwx4_1 : ∀ i : grid4.Coords, EltTy.bits .f32 = 32 ∨ (Rect.block (s := S50000x256) S5000x256.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x64.size a ≤ S256x64.size a
  hwx5_1 : ∀ i : grid5.Coords, EltTy.bits .f32 = 32 ∨ (Rect.block (s := S256x64) S256x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S800000x256.size a
  hwx7_0 : ∀ i : grid7.Coords, EltTy.bits .f32 = 32 ∨ (Rect.block (s := S800000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S800000x256.size a
  hwx7_1 : ∀ i : grid7.Coords, EltTy.bits .f32 = 32 ∨ (Rect.block (s := S800000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x256.size a ≤ S800000x256.size a
  hwx7_2 : ∀ i : grid7.Coords, EltTy.bits .f32 = 32 ∨ (Rect.block (s := S800000x256) S2000x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x256.size a ≤ S800000x256.size a
  hwx7_3 : ∀ i : grid7.Coords, EltTy.bits .f32 = 32 ∨ (Rect.block (s := S800000x256) S2000x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x256.size a ≤ S800000x256.size a
  hwx7_4 : ∀ i : grid7.Coords, EltTy.bits .f32 = 32 ∨ (Rect.block (s := S800000x256) S2000x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S800000x256.size a
  hwx7_5 : ∀ i : grid7.Coords, EltTy.bits .f32 = 32 ∨ (Rect.block (s := S800000x256) S2000x256.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x1.size a ≤ S800000x1.size a
  hwx7_6 : ∀ i : grid7.Coords, EltTy.bits .f32 = 32 ∨ (Rect.block (s := S800000x1) S2000x1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x1.size a ≤ S800000x1.size a
  hwx7_7 : ∀ i : grid7.Coords, EltTy.bits .f32 = 32 ∨ (Rect.block (s := S800000x1) S2000x1.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S2000x1.size a ≤ S800000x1.size a
  hwx7_8 : ∀ i : grid7.Coords, EltTy.bits .f32 = 32 ∨ (Rect.block (s := S800000x1) S2000x1.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x2.size a ≤ S1x2.size a
  hwx7_9 : ∀ i : grid7.Coords, EltTy.bits .f32 = 32 ∨ (Rect.block (s := S1x2) S1x2.size (cc7_transform_9 i) (hinb7_9 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf

abbrev win0_0 : Pipeline.Window sig grid0 :=
  Pipeline.Window.ofSpec (Memref.whole main_arg1) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x256.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v64) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S256x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v65) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v102) S2000x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v109) S2000x256.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v116) S2000x256.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v123) S2000x256.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v124) S2000x1.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_v125) S2000x1.size cc7_transform_7 reads7_7 false false 2 stage7_7 sem7_7
    hrank7 hreads7_7 hinb7_7 nbuf7_7 (Memref.isWhole_whole _) hwx7_7 hstage7_7

abbrev win7_8 : Pipeline.Window sig grid7 :=
  Pipeline.Window.ofSpec (Memref.whole main_v126) S2000x1.size cc7_transform_8 reads7_8 false false 2 stage7_8 sem7_8
    hrank7 hreads7_8 hinb7_8 nbuf7_8 (Memref.isWhole_whole _) hwx7_8 hstage7_8

abbrev win7_9 : Pipeline.Window sig grid7 :=
  Pipeline.Window.ofSpec (Memref.whole main_v127) S1x2.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev idle7 : Fin 10 → grid7.Coords → Bool := fun | 0 => fun _ => false | 1 => fun _ => false | 2 => fun _ => false | 3 => fun _ => false | 4 => fun _ => false | 5 => fun _ => false | 6 => fun _ => false | 7 => fun _ => false | 8 => fun _ => false | 9 => fun i => !(k7_cond2 i == 1#1) | ⟨_ + 10, h⟩ => absurd h (Nat.not_lt.2 (Nat.le_add_left _ _))

class Facts : Prop extends Facts₀ where

variable [Facts]
-- ==== ReferenceIdeal.lean ====
abbrev S2x800000 : Shape := ⟨2, ![2, 800000]⟩
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S50000x64 : Shape := ⟨2, ![50000, 64]⟩
abbrev S1x64 : Shape := ⟨2, ![1, 64]⟩
abbrev S800000x1 : Shape := ⟨2, ![800000, 1]⟩
abbrev S800000x256 : Shape := ⟨2, ![800000, 256]⟩

abbrev nBuf : Space → Nat
  | .hbm => 270
  | .vmem => 0
  | .smem => 0
  | _ => 0

abbrev hbmTy0_0 (i : Nat) : BufTy := match i % 128 with
  | 0 => ⟨S2x800000, .i32⟩
  | 1 => ⟨S50000x256, .f32⟩
  | 2 => ⟨S800000, .f32⟩
  | 3 => ⟨S2x800000, .i32⟩
  | 4 => ⟨S256x256, .f32⟩
  | 5 => ⟨S256, .f32⟩
  | 6 => ⟨S256x256, .f32⟩
  | 7 => ⟨S256, .f32⟩
  | 8 => ⟨S256x64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S50000x256, .f32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S850000x1, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x256, .f32⟩
  | 68 => ⟨S850000x256, .f32⟩
  | 69 => ⟨S850000x256, .f32⟩
  | 70 => ⟨S_, .f32⟩
  | 71 => ⟨S50000x256, .f32⟩
  | 72 => ⟨S850000x1, .i32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S50000x256, .f32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S_, .f32⟩
  | 91 => ⟨S_, .f32⟩
  | 92 => ⟨S50000, .f32⟩
  | 93 => ⟨S50000, .f32⟩
  | 94 => ⟨S_, .f32⟩
  | 95 => ⟨S50000, .f32⟩
  | 96 => ⟨S50000, .i1⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S850000, .f32⟩
  | 121 => ⟨S850000x1, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S2x800000, .i32⟩

abbrev hbmTy0_1 (i : Nat) : BufTy := match i % 128 with
  | 0 => ⟨S850000, .i32⟩
  | 1 => ⟨S850000x1, .i32⟩
  | 2 => ⟨S850000x256, .f32⟩
  | 3 => ⟨S850000x256, .f32⟩
  | 4 => ⟨S850000x256, .f32⟩
  | 5 => ⟨S_, .f32⟩
  | 6 => ⟨S50000x256, .f32⟩
  | 7 => ⟨S850000x1, .i32⟩
  | 8 => ⟨S50000x256, .f32⟩
  | 9 => ⟨S1x256, .f32⟩
  | 10 => ⟨S50000x256, .f32⟩
  | 11 => ⟨S50000x256, .f32⟩
  | 12 => ⟨S50000x256, .f32⟩
  | 13 => ⟨S_, .f32⟩
  | 14 => ⟨S50000, .f32⟩
  | 15 => ⟨S50000x1, .f32⟩
  | 16 => ⟨S50000x1, .f32⟩
  | 17 => ⟨S_, .f32⟩
  | 18 => ⟨S50000x1, .f32⟩
  | 19 => ⟨S50000x1, .f32⟩
  | 20 => ⟨S50000x256, .f32⟩
  | 21 => ⟨S50000x256, .f32⟩
  | 22 => ⟨S50000x256, .f32⟩
  | 23 => ⟨S_, .f32⟩
  | 24 => ⟨S50000, .f32⟩
  | 25 => ⟨S50000x1, .f32⟩
  | 26 => ⟨S50000x1, .f32⟩
  | 27 => ⟨S_, .f32⟩
  | 28 => ⟨S50000x1, .f32⟩
  | 29 => ⟨S50000x1, .f32⟩
  | 30 => ⟨S50000x256, .f32⟩
  | 31 => ⟨S50000x256, .f32⟩
  | 32 => ⟨S50000x64, .f32⟩
  | 33 => ⟨S1x64, .f32⟩
  | 34 => ⟨S50000x64, .f32⟩
  | 35 => ⟨S50000x64, .f32⟩
  | 36 => ⟨S1x800000, .i32⟩
  | 37 => ⟨S800000, .i32⟩
  | 38 => ⟨S1x800000, .i32⟩
  | 39 => ⟨S800000, .i32⟩
  | 40 => ⟨S1x800000, .i32⟩
  | 41 => ⟨S800000, .i32⟩
  | 42 => ⟨S1x800000, .i32⟩
  | 43 => ⟨S800000, .i32⟩
  | 44 => ⟨S800000, .i1⟩
  | 45 => ⟨S800000, .f32⟩
  | 46 => ⟨S800000, .i1⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x256, .f32⟩
  | 66 => ⟨S800000x256, .f32⟩
  | 67 => ⟨S_, .f32⟩
  | 68 => ⟨S800000, .f32⟩
  | 69 => ⟨S_, .f32⟩
  | 70 => ⟨S800000, .f32⟩
  | 71 => ⟨S800000, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x256, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x256, .f32⟩
  | 90 => ⟨S800000x256, .f32⟩
  | 91 => ⟨S_, .f32⟩
  | 92 => ⟨S800000, .f32⟩
  | 93 => ⟨S_, .f32⟩
  | 94 => ⟨S800000, .f32⟩
  | 95 => ⟨S800000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x256, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x256, .f32⟩
  | 114 => ⟨S800000x256, .f32⟩
  | 115 => ⟨S_, .f32⟩
  | 116 => ⟨S800000, .f32⟩
  | 117 => ⟨S_, .f32⟩
  | 118 => ⟨S800000, .f32⟩
  | 119 => ⟨S800000, .f32⟩
  | 120 => ⟨S_, .f32⟩
  | 121 => ⟨S800000, .f32⟩
  | 122 => ⟨S800000, .f32⟩
  | 123 => ⟨S800000, .f32⟩
  | 124 => ⟨S_, .f32⟩
  | 125 => ⟨S_, .f32⟩
  | 126 => ⟨S_, .f32⟩
  | 127 => ⟨S_, .f32⟩
  | _ => ⟨S2x800000, .i32⟩

abbrev hbmTy0_2 (i : Nat) : BufTy := match i % 128 with
  | 0 => ⟨S800000, .f32⟩
  | 1 => ⟨S800000, .f32⟩
  | 2 => ⟨S_, .f32⟩
  | 3 => ⟨S_, .f32⟩
  | 4 => ⟨S800000, .f32⟩
  | 5 => ⟨S800000, .f32⟩
  | 6 => ⟨S800000, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S2x800000, .i32⟩

abbrev hbmTy (i : Nat) : BufTy := match i / 128 with
  | 0 => hbmTy0_0 i
  | 1 => hbmTy0_1 i
  | 2 => hbmTy0_2 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call2_cst : Ref sig .tc := ⟨.hbm, 77, rfl⟩
abbrev main_call2_v0 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v58 : Ref sig .tc := ⟨.hbm, 93, rfl⟩
abbrev main_cst_15 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_call4_v0 : Ref sig .tc := ⟨.hbm, 99, rfl⟩
abbrev main_call4_v1 : Ref sig .tc := ⟨.hbm, 100, rfl⟩
abbrev main_v62 : Ref sig .tc := ⟨.hbm, 101, rfl⟩
abbrev main_c_17 : Ref sig .tc := ⟨.hbm, 102, rfl⟩
abbrev main_v63 : Ref sig .tc := ⟨.hbm, 103, rfl⟩
abbrev main_v64 : Ref sig .tc := ⟨.hbm, 104, rfl⟩
abbrev main_c_18 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_19 : Ref sig .tc := ⟨.hbm, 111, rfl⟩
abbrev main_v70 : Ref sig .tc := ⟨.hbm, 112, rfl⟩
abbrev main_v71 : Ref sig .tc := ⟨.hbm, 113, rfl⟩
abbrev main_c_20 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_21 : Ref sig .tc := ⟨.hbm, 122, rfl⟩
abbrev main_v79 : Ref sig .tc := ⟨.hbm, 123, rfl⟩
abbrev main_v80 : Ref sig .tc := ⟨.hbm, 124, rfl⟩
abbrev main_c_22 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_23 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_24 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_25 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_26 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_27 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_28 : Ref sig .tc := ⟨.hbm, 176, rfl⟩
abbrev main_v126 : Ref sig .tc := ⟨.hbm, 177, rfl⟩
abbrev main_v127 : Ref sig .tc := ⟨.hbm, 178, rfl⟩
abbrev main_c_29 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_c_30 : Ref sig .tc := ⟨.hbm, 185, rfl⟩
abbrev main_v133 : Ref sig .tc := ⟨.hbm, 186, rfl⟩
abbrev main_v134 : Ref sig .tc := ⟨.hbm, 187, rfl⟩
abbrev main_c_31 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_32 : Ref sig .tc := ⟨.hbm, 195, rfl⟩
abbrev main_v141 : Ref sig .tc := ⟨.hbm, 196, rfl⟩
abbrev main_call5_cst : Ref sig .tc := ⟨.hbm, 197, rfl⟩
abbrev main_call5_v0 : Ref sig .tc := ⟨.hbm, 198, rfl⟩
abbrev main_v142 : Ref sig .tc := ⟨.hbm, 199, rfl⟩
abbrev main_c_33 : Ref sig .tc := ⟨.hbm, 200, rfl⟩
abbrev main_v143 : Ref sig .tc := ⟨.hbm, 201, rfl⟩
abbrev main_v144 : Ref sig .tc := ⟨.hbm, 202, rfl⟩
abbrev main_c_34 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_c_35 : Ref sig .tc := ⟨.hbm, 209, rfl⟩
abbrev main_v150 : Ref sig .tc := ⟨.hbm, 210, rfl⟩
abbrev main_v151 : Ref sig .tc := ⟨.hbm, 211, rfl⟩
abbrev main_c_36 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_37 : Ref sig .tc := ⟨.hbm, 219, rfl⟩
abbrev main_v158 : Ref sig .tc := ⟨.hbm, 220, rfl⟩
abbrev main_call6_cst : Ref sig .tc := ⟨.hbm, 221, rfl⟩
abbrev main_call6_v0 : Ref sig .tc := ⟨.hbm, 222, rfl⟩
abbrev main_v159 : Ref sig .tc := ⟨.hbm, 223, rfl⟩
abbrev main_c_38 : Ref sig .tc := ⟨.hbm, 224, rfl⟩
abbrev main_v160 : Ref sig .tc := ⟨.hbm, 225, rfl⟩
abbrev main_v161 : Ref sig .tc := ⟨.hbm, 226, rfl⟩
abbrev main_c_39 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_c_40 : Ref sig .tc := ⟨.hbm, 233, rfl⟩
abbrev main_v167 : Ref sig .tc := ⟨.hbm, 234, rfl⟩
abbrev main_v168 : Ref sig .tc := ⟨.hbm, 235, rfl⟩
abbrev main_c_41 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_cst_42 : Ref sig .tc := ⟨.hbm, 243, rfl⟩
abbrev main_v175 : Ref sig .tc := ⟨.hbm, 244, rfl⟩
abbrev main_cst_43 : Ref sig .tc := ⟨.hbm, 245, rfl⟩
abbrev main_v176 : Ref sig .tc := ⟨.hbm, 246, rfl⟩
abbrev main_v177 : Ref sig .tc := ⟨.hbm, 247, rfl⟩
abbrev main_cst_44 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_cst_45 : Ref sig .tc := ⟨.hbm, 252, rfl⟩
abbrev main_v181 : Ref sig .tc := ⟨.hbm, 253, rfl⟩
abbrev main_cst_46 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_cst_47 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_cst_48 : Ref sig .tc := ⟨.hbm, 263, rfl⟩
abbrev main_v189 : Ref sig .tc := ⟨.hbm, 264, rfl⟩
abbrev main_v190 : Ref sig .tc := ⟨.hbm, 265, rfl⟩
abbrev main_cst_49 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x256_S800000_d1 : S800000x256.ReducesTo [1] S800000
  reducesTo_S800000_S_d0 : S800000.ReducesTo [0] S_
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x256_S800000x1_S800000x256_1_0_n_n_0_1_1256_wf : GatherDims.WF S50000x256 S800000x1 S800000x256 [1] [0] [] [0] [] 1 ![1, 256]

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf

class Facts : Prop extends Facts₀ where

variable [Facts]
-- ==== Proof.K.Reg0.lean ====
/-
  Region 0 (the first layer's product of the node features with its weights, 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.Kernel.Launch
import proofs.«160566_j58506044506613_1_alg».proof.Proof.Gen.Kernel.Skeleton
import proofs.«160566_j58506044506613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each staging buffer. -/
abbrev rA0 : Rect S5000x256 := Rect.unit (s := S5000x256) ![0, 0] S5000x256.size inb_S5000x256_S5000x256_0_0
abbrev rB0 : Rect S256x256 := Rect.unit (s := S256x256) ![0, 0] S256x256.size inb_S256x256_S256x256_0_0
abbrev rO0 : Rect S5000x256 := Rect.unit (s := S5000x256) ![0, 0] S5000x256.size inb_S5000x256_S5000x256_0_0

/-- The output's staging buffer after the body, from the two input blocks: its one store. -/
def out0 (x0 : Vec F S5000x256 .f32) (x1 : Vec F S256x256 .f32) : Vec F S5000x256 .f32 :=
  View.canon [⟨rO0, k0_pay1 (View.ld x0 rA0) (View.ld x1 rB0)⟩]

/-- The one store covers the buffer. -/
theorem cover0 (p0 : Vec F S5000x256 .f32) (y : S5000x256.Idx) :
    ∃ pc ∈ ([⟨rO0, p0⟩] : List (View.Piece (Elt F) S5000x256 .f32)), y ∈ pc.1.set :=
  View.cover_of_tiled [⟨rO0, p0⟩] S5000x256.size (by rfl) y

set_option maxHeartbeats 1000000 in
/-- The body on whole staging memrefs, the inputs' at contents x0, x1 and the output's at anything, runs to the
    continuation holding the inputs' as they were and the output's at out0 of them. -/
theorem sound_kernel0 (c : Dev nD) (E : Set ℕ) (i : grid0.Coords) (arg1 : Memref sig .tc .vmem S5000x256 .f32) (harg1 : arg1.IsWhole)
    (arg2 : Memref sig .tc .vmem S256x256 .f32) (harg2 : arg2.IsWhole) (arg3 : Memref sig .tc .vmem S5000x256 .f32) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of pipeline 0 on core c: the arrays as the region finds them; after the body at point t each
    input's buffer at its block and the output's at out0 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 (the first layer's bias row added to 5000 rows at a time, then the maximum with zero) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.Kernel.Launch
import proofs.«160566_j58506044506613_1_alg».proof.Proof.Gen.Kernel.Skeleton
import proofs.«160566_j58506044506613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each staging buffer. -/
abbrev rA1 : Rect S5000x256 := Rect.unit (s := S5000x256) ![0, 0] S5000x256.size inb_S5000x256_S5000x256_0_0
abbrev rB1 : Rect S1x256 := Rect.unit (s := S1x256) ![0, 0] S1x256.size inb_S1x256_S1x256_0_0
abbrev rO1 : Rect S5000x256 := Rect.unit (s := S5000x256) ![0, 0] S5000x256.size inb_S5000x256_S5000x256_0_0

/-- The output's staging buffer after the body, from the two input blocks: its one store. -/
def out1 (x0 : Vec F S5000x256 .f32) (x1 : Vec F S1x256 .f32) : Vec F S5000x256 .f32 :=
  View.canon [⟨rO1, k1_pay1 (View.ld x0 rA1) (View.ld x1 rB1)⟩]

/-- The one store covers the buffer. -/
theorem cover1 (p0 : Vec F S5000x256 .f32) (y : S5000x256.Idx) :
    ∃ pc ∈ ([⟨rO1, p0⟩] : List (View.Piece (Elt F) S5000x256 .f32)), y ∈ pc.1.set :=
  View.cover_of_tiled [⟨rO1, p0⟩] S5000x256.size (by rfl) y

set_option maxHeartbeats 1000000 in
/-- The body on whole staging memrefs, the inputs' at contents x0, x1 and the output's at anything, runs to the
    continuation holding the inputs' as they were and the output's at out1 of them. -/
theorem sound_kernel1 (c : Dev nD) (E : Set ℕ) (i : grid1.Coords) (arg1 : Memref sig .tc .vmem S5000x256 .f32) (harg1 : arg1.IsWhole)
    (arg2 : Memref sig .tc .vmem S1x256 .f32) (harg2 : arg2.IsWhole) (arg3 : Memref sig .tc .vmem S5000x256 .f32) (harg3 : arg3.IsWhole)
    (x0 : Vec F S5000x256 .f32) (x1 : Vec F S1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of pipeline 1 on core c: the arrays as the region finds them; after the body at point t each
    input's buffer at its block and the output's at out1 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 (the second layer's product of the hidden rows with its weights, 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.Kernel.Launch
import proofs.«160566_j58506044506613_1_alg».proof.Proof.Gen.Kernel.Skeleton
import proofs.«160566_j58506044506613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each staging buffer. -/
abbrev rA2 : Rect S5000x256 := Rect.unit (s := S5000x256) ![0, 0] S5000x256.size inb_S5000x256_S5000x256_0_0
abbrev rB2 : Rect S256x256 := Rect.unit (s := S256x256) ![0, 0] S256x256.size inb_S256x256_S256x256_0_0
abbrev rO2 : Rect S5000x256 := Rect.unit (s := S5000x256) ![0, 0] S5000x256.size inb_S5000x256_S5000x256_0_0

/-- The output's staging buffer after the body, from the two input blocks: its one store. -/
def out2 (x0 : Vec F S5000x256 .f32) (x1 : Vec F S256x256 .f32) : Vec F S5000x256 .f32 :=
  View.canon [⟨rO2, k2_pay1 (View.ld x0 rA2) (View.ld x1 rB2)⟩]

/-- The one store covers the buffer. -/
theorem cover2 (p0 : Vec F S5000x256 .f32) (y : S5000x256.Idx) :
    ∃ pc ∈ ([⟨rO2, p0⟩] : List (View.Piece (Elt F) S5000x256 .f32)), y ∈ pc.1.set :=
  View.cover_of_tiled [⟨rO2, p0⟩] S5000x256.size (by rfl) y

set_option maxHeartbeats 1000000 in
/-- The body on whole staging memrefs, the inputs' at contents x0, x1 and the output's at anything, runs to the
    continuation holding the inputs' as they were and the output's at out2 of them. -/
theorem sound_kernel2 (c : Dev nD) (E : Set ℕ) (i : grid2.Coords) (arg1 : Memref sig .tc .vmem S5000x256 .f32) (harg1 : arg1.IsWhole)
    (arg2 : Memref sig .tc .vmem S256x256 .f32) (harg2 : arg2.IsWhole) (arg3 : Memref sig .tc .vmem S5000x256 .f32) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of pipeline 2 on core c: the arrays as the region finds them; after the body at point t each
    input's buffer at its block and the output's at out2 of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 (the second layer's bias row added to 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.Kernel.Launch
import proofs.«160566_j58506044506613_1_alg».proof.Proof.Gen.Kernel.Skeleton
import proofs.«160566_j58506044506613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole rectangle of each staging buffer. -/
abbrev rA3 : Rect S5000x256 := Rect.unit (s := S5000x256) ![0, 0] S5000x256.size inb_S5000x256_S5000x256_0_0
abbrev rB3 : Rect S1x256 := Rect.unit (s := S1x256) ![0, 0] S1x256.size inb_S1x256_S1x256_0_0
abbrev rO3 : Rect S5000x256 := Rect.unit (s := S5000x256) ![0, 0] S5000x256.size inb_S5000x256_S5000x256_0_0

/-- The output's staging buffer after the body, from the two input blocks: its one store. -/
def out3 (x0 : Vec F S5000x256 .f32) (x1 : Vec F S1x256 .f32) : Vec F S5000x256 .f32 :=
  View.canon [⟨rO3, k3_pay1 (View.ld x0 rA3) (View.ld x1 rB3)⟩]

/-- The one store covers the buffer. -/
theorem cover3 (p0 : Vec F S5000x256 .f32) (y : S5000x256.Idx) :
    ∃ pc ∈ ([⟨rO3, p0⟩] : List (View.Piece (Elt F) S5000x256 .f32)), y ∈ pc.1.set :=
  View.cover_of_tiled [⟨rO3, p0⟩] S5000x256.size (by rfl) y

set_option maxHeartbeats 1000000 in
/-- The body on whole staging memrefs, the inputs' at contents x0, x1 and the output's at anything, runs to the
    continuation holding the inputs' as they were and the output's at out3 of them. -/
theorem sound_kernel3 (c : Dev nD) (E : Set ℕ) (i : grid3.Coords) (arg1 : Memref sig .tc .vmem S5000x256 .f32) (harg1 : arg1.IsWhole)
    (arg2 : Memref sig .tc .vmem S1x256 .f32) (harg2 : arg2.IsWhole) (arg3 : Memref sig .tc .vmem S5000x256 .f32) (harg3 : arg3.IsWhole)
    (x0 : Vec F S5000x256 .f32) (x1 : Vec F S1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The proof data of pipeline 3 on core c: the arrays as the region finds them; after the body at point t each
    input's buffer at its block and the output's at out3 of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 (each row divided by the larger of its Euclidean norm and a tiny constant, twice over, 5000 rows at a
  time) at the contents V the region is entered from: a block of the input is staged, the body reads it whole and
  overwrites the output's staging buffer whole with the payload of the block, and the block is written back. Stated
  here: what each window's staging buffer holds after the body at a grid point, the body's triple, and the body
  obligation at every point.
-/
import proofs.«160566_j58506044506613_1_alg».proof.Proof.Gen.Kernel.Launch
import proofs.«160566_j58506044506613_1_alg».proof.Proof.Gen.Kernel.Skeleton
import proofs.«160566_j58506044506613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The whole rectangle of a staging buffer. -/
abbrev rA4 : Rect S5000x256 := Rect.unit (s := S5000x256) ![0, 0] S5000x256.size inb_S5000x256_S5000x256_0_0

/-- The output's staging buffer after the body, from the input block: its one store. -/
def out4 (x0 : Vec F S5000x256 .f32) : Vec F S5000x256 .f32 :=
  View.canon [⟨rA4, k4_pay1 (View.ld x0 rA4)⟩]

/-- The one store covers the buffer. -/
theorem cover4 (p0 : Vec F S5000x256 .f32) (y : S5000x256.Idx) :
    ∃ pc ∈ ([⟨rA4, p0⟩] : List (View.Piece (Elt F) S5000x256 .f32)), y ∈ pc.1.set :=
  View.cover_of_tiled [⟨rA4, p0⟩] S5000x256.size (by rfl) y

set_option maxHeartbeats 1000000 in
/-- The body on whole staging memrefs, the input's at contents x0 and the output's at anything, runs to the
    continuation holding the input's as it was and the output's at out4 of it. -/
theorem sound_kernel4 (c : Dev nD) (E : Set ℕ) (i : grid4.Coords) (arg1 : Memref sig .tc .vmem S5000x256 .f32) (harg1 : arg1.IsWhole)
    (arg2 : Memref sig .tc .vmem S5000x256 .f32) (harg2 : arg2.IsWhole)
    (x0 : Vec F S5000x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4 x0)) -∗ K ⟨⟩))
      ⊢ wp frame (wpE (defs₀ (F := F)) Variants.none c none) E (cc4__l2norm_kernel i arg1 harg1 arg2 harg2) K := by
  simp only [cc4__l2norm_kernel_eq_skeleton]; unfold cc4__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4 _)

/-- The proof data of pipeline 4 on core c: the arrays as the region finds them; after the body at point t the
    input's buffer at its block and the output's at out4 of it; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4 (iblk4 V c 0 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4 (iblk4 V c 0 t) := by dsimp only [dat4]

theorem before4_0 (c : Dev nD) (t : Fin cfg4.N) (d) : (dat4 V c).before 0 t d = iblk4 V c 0 t :=
  before4_0_of V (dat4 V c) (A_eq4 V c 0) (after4_0 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/-
  Region 5 (the read-out's product of the normalised rows with its weights, 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.Kernel.Launch
import proofs.«160566_j58506044506613_1_alg».proof.Proof.Gen.Kernel.Skeleton
import proofs.«160566_j58506044506613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (unfetched, the
    block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole rectangle of each staging buffer. -/
abbrev rA5 : Rect S5000x256 := Rect.unit (s := S5000x256) ![0, 0] S5000x256.size inb_S5000x256_S5000x256_0_0
abbrev rB5 : Rect S256x64 := Rect.unit (s := S256x64) ![0, 0] S256x64.size inb_S256x64_S256x64_0_0
abbrev rO5 : Rect S5000x64 := Rect.unit (s := S5000x64) ![0, 0] S5000x64.size inb_S5000x64_S5000x64_0_0

/-- The output's staging buffer after the body, from the two input blocks: its one store. -/
def out5 (x0 : Vec F S5000x256 .f32) (x1 : Vec F S256x64 .f32) : Vec F S5000x64 .f32 :=
  View.canon [⟨rO5, k5_pay1 (View.ld x0 rA5) (View.ld x1 rB5)⟩]

/-- The one store covers the buffer. -/
theorem cover5 (p0 : Vec F S5000x64 .f32) (y : S5000x64.Idx) :
    ∃ pc ∈ ([⟨rO5, p0⟩] : List (View.Piece (Elt F) S5000x64 .f32)), y ∈ pc.1.set :=
  View.cover_of_tiled [⟨rO5, p0⟩] S5000x64.size (by rfl) y

set_option maxHeartbeats 1000000 in
/-- The body on whole staging memrefs, the inputs' at contents x0, x1 and the output's at anything, runs to the
    continuation holding the inputs' as they were and the output's at out5 of them. -/
theorem sound_kernel5 (c : Dev nD) (E : Set ℕ) (i : grid5.Coords) (arg1 : Memref sig .tc .vmem S5000x256 .f32) (harg1 : arg1.IsWhole)
    (arg2 : Memref sig .tc .vmem S256x64 .f32) (harg2 : arg2.IsWhole) (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The proof data of pipeline 5 on core c: the arrays as the region finds them; after the body at point t each
    input's buffer at its block and the output's at out5 of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/-
  Region 6 (the read-out's bias row added to 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.Kernel.Launch
import proofs.«160566_j58506044506613_1_alg».proof.Proof.Gen.Kernel.Skeleton
import proofs.«160566_j58506044506613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (unfetched, the
    block index has not moved). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole rectangle of each staging buffer. -/
abbrev rA6 : Rect S5000x64 := Rect.unit (s := S5000x64) ![0, 0] S5000x64.size inb_S5000x64_S5000x64_0_0
abbrev rB6 : Rect S1x64 := Rect.unit (s := S1x64) ![0, 0] S1x64.size inb_S1x64_S1x64_0_0
abbrev rO6 : Rect S5000x64 := Rect.unit (s := S5000x64) ![0, 0] S5000x64.size inb_S5000x64_S5000x64_0_0

/-- The output's staging buffer after the body, from the two input blocks: its one store. -/
def out6 (x0 : Vec F S5000x64 .f32) (x1 : Vec F S1x64 .f32) : Vec F S5000x64 .f32 :=
  View.canon [⟨rO6, k6_pay1 (View.ld x0 rA6) (View.ld x1 rB6)⟩]

/-- The one store covers the buffer. -/
theorem cover6 (p0 : Vec F S5000x64 .f32) (y : S5000x64.Idx) :
    ∃ pc ∈ ([⟨rO6, p0⟩] : List (View.Piece (Elt F) S5000x64 .f32)), y ∈ pc.1.set :=
  View.cover_of_tiled [⟨rO6, p0⟩] S5000x64.size (by rfl) y

set_option maxHeartbeats 1000000 in
/-- The body on whole staging memrefs, the inputs' at contents x0, x1 and the output's at anything, runs to the
    continuation holding the inputs' as they were and the output's at out6 of them. -/
theorem sound_kernel6 (c : Dev nD) (E : Set ℕ) (i : grid6.Coords) (arg1 : Memref sig .tc .vmem S5000x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6 x0 x1)) -∗ K ⟨⟩))
      ⊢ wp frame (wpE (defs₀ (F := F)) Variants.none c none) E (cc6__bias_act_kernel i arg1 harg1 arg2 harg2 arg3 harg3) K := by
  simp only [cc6__bias_act_kernel_eq_skeleton]; unfold cc6__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-- The proof data of pipeline 6 on core c: the arrays as the region finds them; after the body at point t each
    input's buffer at its block and the output's at out6 of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
/-
  Region 7 (the edge reconstruction loss, 2000 edges at a time over 400 grid points) at the contents V the region is
  entered from: a block of each of the nine inputs is staged; the body resets its two one-element accumulators at the
  first point, adds the point's weighted squared errors of the negative and of the positive edges into them at every
  point, and at the last point only copies the two sums into the two elements of the output's staging buffer, which is
  written back there and nowhere else. Stated here: the two running sums after each point, what each window's staging
  buffer holds after the body at a grid point, the invariant that carries the two sums from point to point, the body's
  triple in its three control cases, and the body obligation at every point.
-/
import proofs.«160566_j58506044506613_1_alg».proof.Proof.Gen.Kernel.Launch
import proofs.«160566_j58506044506613_1_alg».proof.Proof.Gen.Kernel.Skeleton
import proofs.«160566_j58506044506613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- One point's step of the two running sums: the first takes the weighted squared scores of the point's negative
    edges, the second the weighted squared errors of its positive edges. -/
def step7 (c : Dev nD) (t : Fin cfg7.N) (s : Vec F S1x1 .f32 × Vec F S1x1 .f32) : Vec F S1x1 .f32 × Vec F S1x1 .f32 :=
  (k7_pay1 (k7_pay5 (iblk7 V c 2 t) (iblk7 V c 3 t)) (k7_pay7 (iblk7 V c 8 t)) s.1,
   k7_pay2 (k7_pay6 (iblk7 V c 0 t) (iblk7 V c 1 t) (iblk7 V c 4 t) (iblk7 V c 5 t)) (iblk7 V c 6 t) (iblk7 V c 7 t) s.2)

/-- The two running sums after the body at point n: from zero at the first point, one step per point. -/
def accs7 (c : Dev nD) : (n : ℕ) → n < cfg7.N → Vec F S1x1 .f32 × Vec F S1x1 .f32
  | 0, hn => step7 V c ⟨0, hn⟩ (k7_pay3, k7_pay4)
  | n + 1, hn => step7 V c ⟨n + 1, hn⟩ (accs7 c n (Nat.lt_of_succ_lt hn))

/-- The two one-element rectangles of the output's staging buffer. -/
abbrev r00 : Rect S1x2 := Rect.unit (s := S1x2) ![0, 0] S1x1.size inb_S1x2_S1x1_0_0
abbrev r01 : Rect S1x2 := Rect.unit (s := S1x2) ![0, 1] S1x1.size inb_S1x2_S1x1_0_1

/-- The output's staging buffer after the last point's two stores, last first: the first sum at element 0, the
    second at element 1. -/
def out7 (a0 a1 : Vec F S1x1 .f32) : Vec F S1x2 .f32 := View.canon [⟨r01, a1⟩, ⟨r00, a0⟩]

/-- The two accumulators as memrefs: whole scoped buffers of the kernel's own, passed beside the windows. -/
abbrev scM7_0 : Memref sig .tc .vmem S1x1 .f32 := Memref.whole cc7_scratch0
abbrev scM7_1 : Memref sig .tc .vmem S1x1 .f32 := Memref.whole cc7_scratch1

/-- The invariant before position n: before the first point every scoped buffer that is no staging buffer at anything;
    afterwards the two accumulators at the sums the point before left, the other scoped buffers at anything; the
    generator register at some state throughout. -/
def PhiS7 (c : Dev nD) : (n : ℕ) → n ≤ cfg7.N → sProp 𝕄
  | 0, _ => Pipeline.ΦA spec7 c
  | n + 1, hn => iprop(iprop(iprop(owns (c : Thread nD τ) scM7_0 fullShare (accs7 V c n hn).1 ∗ owns (c : Thread nD τ) scM7_1 fullShare (accs7 V c n hn).2)
      ∗ Pipeline.scopedRestBut (Ix := Unit) (Name := ℕ) (U := UR sig nD τ) (Lvl := ℕ) (Val := Elt F) spec7 c [cc7_scratch0, cc7_scratch1]) ∗ (∃ r, prngReg c r))

/-- The proof data of pipeline 7 on core c: the arrays as the region finds them; after the body at point t each
    input's buffer at its block and the output's at the two sums so far laid out as the last point stores them (what it
    holds at the last point, the only one that stores into it and writes it back); the invariant carrying the two sums;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7 (accs7 V c t.val t.isLt).1 (accs7 V c t.val t.isLt).2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) :
    (dat7 V c).after 9 t = out7 (accs7 V c t.val t.isLt).1 (accs7 V c t.val t.isLt).2 := by dsimp only [dat7]

/-- An input window's current staging buffer holds its block at every point, fetched there or not (unfetched, the
    block index has not moved). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-! ## The body's two conditions and where the output window is idle -/

/-- The condition under which the body resets the two accumulators, from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)

/-- The condition under which the body copies the two sums into the output's staging buffer. -/
abbrev cond7_1 (i : grid7.Coords) : Prop := k7_cond2 i = 1#1
/-- It holds at the last point only. -/
theorem hcond7_1 : ∀ t : Fin cfg7.N, cond7_1 (grid7.coords t) ↔ t.val = 399 :=
  (by decide +kernel : ∀ t : Fin grid7.N, cond7_1 (grid7.coords t) ↔ t.val = 399)

/-- The input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem liveAt7_5 : ∀ t : Fin cfg7.N, cfg7.idle 5 (grid7.coords t) = false := by decide +kernel
theorem liveAt7_6 : ∀ t : Fin cfg7.N, cfg7.idle 6 (grid7.coords t) = false := by decide +kernel
theorem liveAt7_7 : ∀ t : Fin cfg7.N, cfg7.idle 7 (grid7.coords t) = false := by decide +kernel
theorem liveAt7_8 : ∀ t : Fin cfg7.N, cfg7.idle 8 (grid7.coords t) = false := by decide +kernel
/-- Off the last point the output window is idle, and not written back; -/
theorem idleAt7_9 : ∀ t : Fin cfg7.N, ¬cond7_1 (grid7.coords t) → cfg7.idle 9 (grid7.coords t) = true := by decide +kernel
theorem noFlush7_9 : ∀ t : Fin cfg7.N, ¬cond7_1 (grid7.coords t) → (cfg7.win 9).flush t = false := by decide +kernel
/-- at the last point it is live. -/
theorem liveAt7_9 : ∀ t : Fin cfg7.N, cond7_1 (grid7.coords t) → cfg7.idle 9 (grid7.coords t) = false := by decide +kernel

/-! ## The invariant's two forms -/

/-- What the launch hands the region, with the two accumulators as memrefs owned at some contents and the other scoped
    buffers unopened. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (accs7 V c n hn).1 ∗ owns (c : Thread nD τ) scM7_1 fullShare (accs7 V c n hn).2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (accs7 V c (n - 1) (by omega)).1 ∗ owns (c : Thread nD τ) scM7_1 fullShare (accs7 V c (n - 1) (by omega)).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

theorem PhiS7_castSucc (c : Dev nD) (t : Fin cfg7.N) :
    (dat7 V c).Φ t.castSucc = PhiS7 V c t.val (Nat.le_of_lt t.isLt) := by
  dsimp only [dat7]; simp only [Fin.coe_castSucc]

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the launch's back: the two sums' names are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 400 := N_7; omega)

/-! ## Reading and storing through whole buffers -/

theorem zeros7 : (![0, 0] : Fin 2 → ℕ) = fun _ => 0 := funext fun a => by fin_cases a <;> rfl

/-- A load of a whole buffer reads its contents. -/
theorem rd_whole7 {S : Shape} {e : EltTy} (v : View sig .tc .vmem S e) (f : v.ty.Contents (Elt F)) {off : Fin S.rank → ℕ} (h : off = fun _ => 0)
    (inb : ∀ a, off a + S.size a ≤ S.size a) :
    v.readAt (Elt F) (Rect.unit (s := S) off S.size inb).toLoadRect f = v.read (Elt F) f := by
  rw [View.readAt_eq_ld]; exact View.ld_unit_zero h inb _

/-- A store through the whole of a buffer, last, leaves its payload: read back whole, -/
theorem read_writes_whole7 {S : Shape} {e : EltTy} (v : View sig .tc .vmem S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit (s := S) off S.size inb, w⟩ :: L)) = w := by
  rw [View.read_writes_eq_canon v f _ (fun y => ⟨_, List.mem_cons_self, View.mem_set_unit_zero h inb y⟩)]
  exact View.canon_cons_unit_zero h inb w L
/-- and loaded back whole. -/
theorem readCov_whole7 {S : Shape} {e : EltTy} (v : View sig .tc .vmem S e) {off : Fin S.rank → ℕ} (h : off = fun _ => 0)
    (inb : ∀ a, off a + S.size a ≤ S.size a) (w : S.Idx → Elt F e) (L : List (View.Piece (Elt F) S e)) :
    v.readCov (⟨Rect.unit (s := S) off S.size inb, w⟩ :: L) (Rect.unit (s := S) off S.size inb).toLoadRect = w := by
  rw [View.readCov_eq_canon_ld v _ _ (fun y => ⟨_, List.mem_cons_self, View.mem_set_unit_zero h inb y⟩),
    View.canon_cons_unit_zero h inb w L]
  exact View.ld_unit_zero h inb w

theorem rd7_S2000x256 (v : View sig .tc .vmem S2000x256 .f32) (f : v.ty.Contents (Elt F)) :
    v.readAt (Elt F) (Rect.unit (s := S2000x256) ![0, 0] S2000x256.size inb_S2000x256_S2000x256_0_0).toLoadRect f = v.read (Elt F) f :=
  rd_whole7 v f zeros7 _
theorem rd7_S2000x1 (v : View sig .tc .vmem S2000x1 .f32) (f : v.ty.Contents (Elt F)) :
    v.readAt (Elt F) (Rect.unit (s := S2000x1) ![0, 0] S2000x1.size inb_S2000x1_S2000x1_0_0).toLoadRect f = v.read (Elt F) f :=
  rd_whole7 v f zeros7 _
theorem rd7_S1x1 (v : View sig .tc .vmem S1x1 .f32) (f : v.ty.Contents (Elt F)) :
    v.readAt (Elt F) (Rect.unit (s := S1x1) ![0, 0] S1x1.size inb_S1x1_S1x1_0_0).toLoadRect f = v.read (Elt F) f :=
  rd_whole7 v f zeros7 _
theorem read_writes7_S1x1 (v : View sig .tc .vmem S1x1 .f32) (f : v.ty.Contents (Elt F)) (w : Vec F S1x1 .f32)
    (L : List (View.Piece (Elt F) S1x1 .f32)) :
    v.read (Elt F) (v.writes (Elt F) f (⟨Rect.unit (s := S1x1) ![0, 0] S1x1.size inb_S1x1_S1x1_0_0, w⟩ :: L)) = w :=
  read_writes_whole7 v f zeros7 _ w L
theorem readCov7_S1x1 (v : View sig .tc .vmem S1x1 .f32) (w : Vec F S1x1 .f32) (L : List (View.Piece (Elt F) S1x1 .f32)) :
    v.readCov (⟨Rect.unit (s := S1x1) ![0, 0] S1x1.size inb_S1x1_S1x1_0_0, w⟩ :: L) (Rect.unit (s := S1x1) ![0, 0] S1x1.size inb_S1x1_S1x1_0_0).toLoadRect = w :=
  readCov_whole7 v zeros7 _ w L

theorem rd7_S2000x256' (v : View sig .tc .vmem S2000x256 .f32) (f : v.ty.Contents (Elt F)) :
    v.readAt (Elt F) (Rect.unit (s := S2000x256) ![0, 0] ![2000, 256] inb_S2000x256_S2000x256_0_0).toLoadRect f = v.read (Elt F) f :=
  rd_whole7 v f zeros7 _
theorem rd7_S2000x1' (v : View sig .tc .vmem S2000x1 .f32) (f : v.ty.Contents (Elt F)) :
    v.readAt (Elt F) (Rect.unit (s := S2000x1) ![0, 0] ![2000, 1] inb_S2000x1_S2000x1_0_0).toLoadRect f = v.read (Elt F) f :=
  rd_whole7 v f zeros7 _
theorem rd7_S1x1' (v : View sig .tc .vmem S1x1 .f32) (f : v.ty.Contents (Elt F)) :
    v.readAt (Elt F) (Rect.unit (s := S1x1) ![0, 0] ![1, 1] inb_S1x1_S1x1_0_0).toLoadRect f = v.read (Elt F) f :=
  rd_whole7 v f zeros7 _

/-- The last point's two stores cover the output's staging buffer. -/
theorem cover7 (a0 a1 : Vec F S1x1 .f32) (y : S1x2.Idx) :
    ∃ pc ∈ ([⟨r01, a1⟩, ⟨r00, a0⟩] : List (View.Piece (Elt F) S1x2 .f32)), y ∈ pc.1.set :=
  View.cover_of_tiled [⟨r01, a1⟩, ⟨r00, a0⟩] S1x1.size (by rfl) y

/-! ## The running sums, point by point -/

theorem accs7_zero_fst (c : Dev nD) (t : Fin cfg7.N) (h0 : t.val = 0) :
    (accs7 V c t.val t.isLt).1 = k7_pay1 (k7_pay5 (iblk7 V c 2 t) (iblk7 V c 3 t)) (k7_pay7 (iblk7 V c 8 t)) k7_pay3 := by
  obtain ⟨n, hn⟩ := t
  cases n with
  | zero => rfl
  | succ n => exact absurd h0 (Nat.succ_ne_zero n)
theorem accs7_zero_snd (c : Dev nD) (t : Fin cfg7.N) (h0 : t.val = 0) :
    (accs7 V c t.val t.isLt).2 = k7_pay2 (k7_pay6 (iblk7 V c 0 t) (iblk7 V c 1 t) (iblk7 V c 4 t) (iblk7 V c 5 t)) (iblk7 V c 6 t) (iblk7 V c 7 t) k7_pay4 := by
  obtain ⟨n, hn⟩ := t
  cases n with
  | zero => rfl
  | succ n => exact absurd h0 (Nat.succ_ne_zero n)
theorem accs7_pos_fst (c : Dev nD) (t : Fin cfg7.N) (h0 : t.val ≠ 0) :
    (accs7 V c t.val t.isLt).1 = k7_pay1 (k7_pay5 (iblk7 V c 2 t) (iblk7 V c 3 t)) (k7_pay7 (iblk7 V c 8 t))
      (accs7 V c (t.val - 1) (Nat.lt_of_le_of_lt (Nat.sub_le _ _) t.isLt)).1 := by
  obtain ⟨n, hn⟩ := t
  cases n with
  | zero => exact absurd rfl h0
  | succ n => rfl
theorem accs7_pos_snd (c : Dev nD) (t : Fin cfg7.N) (h0 : t.val ≠ 0) :
    (accs7 V c t.val t.isLt).2 = k7_pay2 (k7_pay6 (iblk7 V c 0 t) (iblk7 V c 1 t) (iblk7 V c 4 t) (iblk7 V c 5 t)) (iblk7 V c 6 t) (iblk7 V c 7 t)
      (accs7 V c (t.val - 1) (Nat.lt_of_le_of_lt (Nat.sub_le _ _) t.isLt)).2 := by
  obtain ⟨n, hn⟩ := t
  cases n with
  | zero => exact absurd rfl h0
  | succ n => rfl

/-! ## The body's triple, in its three control cases -/

set_option maxHeartbeats 4000000 in
/-- At the first point: the body on whole memrefs, the inputs' at contents x0 … x8, the output's at contents it
    hands back untouched, the two accumulators at anything, runs to the continuation holding the inputs' as they were
    and the accumulators at one step from zero. -/
theorem sound_kernel7_first (c : Dev nD) (E : Set ℕ) (i : grid7.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S2000x256 .f32) (harg6 : arg6.IsWhole) (arg7 : Memref sig .tc .vmem S2000x1 .f32) (harg7 : arg7.IsWhole) (arg8 : Memref sig .tc .vmem S2000x1 .f32) (harg8 : arg8.IsWhole) (arg9 : Memref sig .tc .vmem S2000x1 .f32) (harg9 : arg9.IsWhole) (arg10 : Memref sig .tc .vmem S1x2 .f32) (harg10 : arg10.IsWhole) (arg11 : Memref sig .tc .vmem S1x1 .f32) (harg11 : arg11.IsWhole) (arg12 : Memref sig .tc .vmem S1x1 .f32) (harg12 : arg12.IsWhole)
    (hc0 : cond7_0 i) (hc1 : ¬cond7_1 i) (x0 x1 x2 x3 x4 x5 : Vec F S2000x256 .f32) (x6 x7 x8 : Vec F S2000x1 .f32) (xi : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi
            ∗ owns (c : Thread nD τ) arg11 fullShare (k7_pay1 (k7_pay5 x2 x3) (k7_pay7 x8) k7_pay3)
            ∗ owns (c : Thread nD τ) arg12 fullShare (k7_pay2 (k7_pay6 x0 x1 x4 x5) x6 x7 k7_pay4)) -∗ K ⟨⟩))
      ⊢ wp frame (wpE (defs₀ (F := F)) Variants.none c none) E (cc7__loss_kernel i arg1 harg1 arg2 harg2 arg3 harg3 arg4 harg4 arg5 harg5 arg6 harg6 arg7 harg7 arg8 harg8 arg9 harg9 arg10 harg10 arg11 harg11 arg12 harg12) K := by
  simp only [cc7__loss_kernel_eq_skeleton]; unfold cc7__loss_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    dsimp only
    rw [read_writes7_S1x1, readCov7_S1x1]
    simp only [rd7_S2000x256, rd7_S2000x1, rd7_S1x1, rd7_S2000x256', rd7_S2000x1', rd7_S1x1']
  · iexists _; isplitr
    swap; · iexact H11
    ipureintro
    sl_unfold_run_names
    dsimp only
    rw [read_writes7_S1x1, readCov7_S1x1]
    simp only [rd7_S2000x256, rd7_S2000x1, rd7_S1x1, rd7_S2000x256', rd7_S2000x1', rd7_S1x1']

set_option maxHeartbeats 4000000 in
/-- At a point neither first nor last: the same with the two accumulators at contents s0, s1, left at one step
    from them. -/
theorem sound_kernel7_mid (c : Dev nD) (E : Set ℕ) (i : grid7.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S2000x256 .f32) (harg6 : arg6.IsWhole) (arg7 : Memref sig .tc .vmem S2000x1 .f32) (harg7 : arg7.IsWhole) (arg8 : Memref sig .tc .vmem S2000x1 .f32) (harg8 : arg8.IsWhole) (arg9 : Memref sig .tc .vmem S2000x1 .f32) (harg9 : arg9.IsWhole) (arg10 : Memref sig .tc .vmem S1x2 .f32) (harg10 : arg10.IsWhole) (arg11 : Memref sig .tc .vmem S1x1 .f32) (harg11 : arg11.IsWhole) (arg12 : Memref sig .tc .vmem S1x1 .f32) (harg12 : arg12.IsWhole)
    (hc0 : ¬cond7_0 i) (hc1 : ¬cond7_1 i) (x0 x1 x2 x3 x4 x5 : Vec F S2000x256 .f32) (x6 x7 x8 : Vec F S2000x1 .f32) (xi : Vec F S1x2 .f32) (s0 s1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi
            ∗ owns (c : Thread nD τ) arg11 fullShare (k7_pay1 (k7_pay5 x2 x3) (k7_pay7 x8) s0)
            ∗ owns (c : Thread nD τ) arg12 fullShare (k7_pay2 (k7_pay6 x0 x1 x4 x5) x6 x7 s1)) -∗ K ⟨⟩))
      ⊢ wp frame (wpE (defs₀ (F := F)) Variants.none c none) E (cc7__loss_kernel i arg1 harg1 arg2 harg2 arg3 harg3 arg4 harg4 arg5 harg5 arg6 harg6 arg7 harg7 arg8 harg8 arg9 harg9 arg10 harg10 arg11 harg11 arg12 harg12) K := by
  simp only [cc7__loss_kernel_eq_skeleton]; unfold cc7__loss_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0; subst hf1; subst hf2; subst hf3; subst hf4; subst hf5; subst hf6; subst hf7; subst hf8; subst hf9; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    dsimp only
    rw [read_writes7_S1x1]
    simp only [rd7_S2000x256, rd7_S2000x1, rd7_S1x1, rd7_S2000x256', rd7_S2000x1', rd7_S1x1']
  · iexists _; isplitr
    swap; · iexact H11
    ipureintro
    sl_unfold_run_names
    dsimp only
    rw [read_writes7_S1x1]
    simp only [rd7_S2000x256, rd7_S2000x1, rd7_S1x1, rd7_S2000x256', rd7_S2000x1', rd7_S1x1']

set_option maxHeartbeats 4000000 in
/-- At the last point: the same with the output's at anything, left holding the two new sums. -/
theorem sound_kernel7_last (c : Dev nD) (E : Set ℕ) (i : grid7.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S2000x256 .f32) (harg6 : arg6.IsWhole) (arg7 : Memref sig .tc .vmem S2000x1 .f32) (harg7 : arg7.IsWhole) (arg8 : Memref sig .tc .vmem S2000x1 .f32) (harg8 : arg8.IsWhole) (arg9 : Memref sig .tc .vmem S2000x1 .f32) (harg9 : arg9.IsWhole) (arg10 : Memref sig .tc .vmem S1x2 .f32) (harg10 : arg10.IsWhole) (arg11 : Memref sig .tc .vmem S1x1 .f32) (harg11 : arg11.IsWhole) (arg12 : Memref sig .tc .vmem S1x1 .f32) (harg12 : arg12.IsWhole)
    (hc0 : ¬cond7_0 i) (hc1 : cond7_1 i) (x0 x1 x2 x3 x4 x5 : Vec F S2000x256 .f32) (x6 x7 x8 : Vec F S2000x1 .f32) (s0 s1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out7 (k7_pay1 (k7_pay5 x2 x3) (k7_pay7 x8) s0) (k7_pay2 (k7_pay6 x0 x1 x4 x5) x6 x7 s1))
            ∗ owns (c : Thread nD τ) arg11 fullShare (k7_pay1 (k7_pay5 x2 x3) (k7_pay7 x8) s0)
            ∗ owns (c : Thread nD τ) arg12 fullShare (k7_pay2 (k7_pay6 x0 x1 x4 x5) x6 x7 s1)) -∗ K ⟨⟩))
      ⊢ wp frame (wpE (defs₀ (F := F)) Variants.none c none) E (cc7__loss_kernel i arg1 harg1 arg2 harg2 arg3 harg3 arg4 harg4 arg5 harg5 arg6 harg6 arg7 harg7 arg8 harg8 arg9 harg9 arg10 harg10 arg11 harg11 arg12 harg12) K := by
  simp only [cc7__loss_kernel_eq_skeleton]; unfold cc7__loss_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf0; subst hf1; subst hf2; subst hf3; subst hf4; subst hf5; subst hf6; subst hf7; subst hf8; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    dsimp only
    rw [View.read_writes_eq_canon _ _ _ (cover7 _ _)]
    unfold out7
    rw [readCov7_S1x1, readCov7_S1x1]
    simp only [rd7_S2000x256, rd7_S2000x1, rd7_S1x1, rd7_S2000x256', rd7_S2000x1', rd7_S1x1']
  isplitl [H10]
  · iexists _; isplitr
    swap; · iexact H10
    ipureintro
    sl_unfold_run_names
    dsimp only
    rw [read_writes7_S1x1]
    simp only [rd7_S2000x256, rd7_S2000x1, rd7_S1x1, rd7_S2000x256', rd7_S2000x1', rd7_S1x1']
  · iexists _; isplitr
    swap; · iexact H11
    ipureintro
    sl_unfold_run_names
    dsimp only
    rw [read_writes7_S1x1]
    simp only [rd7_S2000x256, rd7_S2000x1, rd7_S1x1, rd7_S2000x256', rd7_S2000x1', rd7_S1x1']

/-! ## The body obligation, at a generic point -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t
    ∗ (dat7 V c).leavesExact 8 t
    ∗ (dat7 V c).leavesExact 9 t)

set_option maxHeartbeats 4800000 in
/-- The body at any point: the inputs' memrefs hold their blocks; the point is the first, the last or neither, which
    decides the body's two conditions; the invariant hands the body the two accumulators at what the point before left
    (at anything at the first point) and takes them back at this point's sums; off the last point the output's buffer
    is handed back as found, at the last it holds the two sums; the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  rw [show (dat7 V c).leavesExact 4 t = owns (c : Thread nD τ) (st7_4 t) fullShare ((dat7 V c).after 4 t) from by
    unfold Dat.leavesExact; rw [liveAt7_4 t], after7_4]
  rw [show (dat7 V c).leavesExact 5 t = owns (c : Thread nD τ) (st7_5 t) fullShare ((dat7 V c).after 5 t) from by
    unfold Dat.leavesExact; rw [liveAt7_5 t], after7_5]
  rw [show (dat7 V c).leavesExact 6 t = owns (c : Thread nD τ) (st7_6 t) fullShare ((dat7 V c).after 6 t) from by
    unfold Dat.leavesExact; rw [liveAt7_6 t], after7_6]
  rw [show (dat7 V c).leavesExact 7 t = owns (c : Thread nD τ) (st7_7 t) fullShare ((dat7 V c).after 7 t) from by
    unfold Dat.leavesExact; rw [liveAt7_7 t], after7_7]
  rw [show (dat7 V c).leavesExact 8 t = owns (c : Thread nD τ) (st7_8 t) fullShare ((dat7 V c).after 8 t) from by
    unfold Dat.leavesExact; rw [liveAt7_8 t], after7_8]
  have hN : t.val < 400 := lt_of_lt_of_eq t.isLt (show cfg7.N = 400 from N_7)
  by_cases h0 : t.val = 0
  · have h1 : ¬t.val = 399 := by omega
    have hc0 : cond7_0 (grid7.coords t) := (hcond7_0 t).mpr h0
    have hc1 : ¬cond7_1 (grid7.coords t) := fun h => h1 ((hcond7_1 t).mp h)
    rw [Dat.leavesExact_idle (dat7 V c) 9 t (idleAt7_9 t hc1) (noFlush7_9 t hc1)]
    rw [accs7_zero_fst V c t h0, accs7_zero_snd V c t h0]
    rw [PhiS7_castSucc V c t, PhiS7_zero V c _ _ h0, PhiA7_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel7_first c Set.univ _ _ _ _ _ _ _ _ _ _ _ _ _ _ _ _ _ _ _ _ _ _ _ _ _ hc0 hc1 (iblk7 V c 0 t) (iblk7 V c 1 t) (iblk7 V c 2 t) (iblk7 V c 3 t) (iblk7 V c 4 t) (iblk7 V c 5 t) (iblk7 V c 6 t) (iblk7 V c 7 t) (iblk7 V c 8 t) ((dat7 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h1 : t.val = 399
    · have hc0 : ¬cond7_0 (grid7.coords t) := fun h => h0 ((hcond7_0 t).mp h)
      have hc1 : cond7_1 (grid7.coords t) := (hcond7_1 t).mpr h1
      rw [show (dat7 V c).leavesExact 9 t = owns (c : Thread nD τ) (st7_9 t) fullShare ((dat7 V c).after 9 t) from by
        unfold Dat.leavesExact; rw [liveAt7_9 t hc1], after7_9]
      rw [accs7_pos_fst V c t h0, accs7_pos_snd V c t h0]
      rw [PhiS7_castSucc V c t, PhiS7_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel7_last c Set.univ _ _ _ _ _ _ _ _ _ _ _ _ _ _ _ _ _ _ _ _ _ _ _ _ _ hc0 hc1 (iblk7 V c 0 t) (iblk7 V c 1 t) (iblk7 V c 2 t) (iblk7 V c 3 t) (iblk7 V c 4 t) (iblk7 V c 5 t) (iblk7 V c 6 t) (iblk7 V c 7 t) (iblk7 V c 8 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc0 : ¬cond7_0 (grid7.coords t) := fun h => h0 ((hcond7_0 t).mp h)
      have hc1 : ¬cond7_1 (grid7.coords t) := fun h => h1 ((hcond7_1 t).mp h)
      rw [Dat.leavesExact_idle (dat7 V c) 9 t (idleAt7_9 t hc1) (noFlush7_9 t hc1)]
      rw [accs7_pos_fst V c t h0, accs7_pos_snd V c t h0]
      rw [PhiS7_castSucc V c t, PhiS7_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel7_mid c Set.univ _ _ _ _ _ _ _ _ _ _ _ _ _ _ _ _ _ _ _ _ _ _ _ _ _ hc0 hc1 (iblk7 V c 0 t) (iblk7 V c 1 t) (iblk7 V c 2 t) (iblk7 V c 3 t) (iblk7 V c 4 t) (iblk7 V c 5 t) (iblk7 V c 6 t) (iblk7 V c 7 t) (iblk7 V c 8 t) ((dat7 V c).before 9 t d9) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Fold.lean ====
/-
  The buffer contents at every boundary of @main's items, as a fold from the launch memory: a stretch of host
  operations applies its operations to the contents before it; a region leaves its windows' arrays at what its
  write-backs leave (the inputs as entered, the output at the blocks written back) and every other buffer as
  entered. Region K is entered from the contents named V<j> below; its proof data are taken at them.
-/
import proofs.«160566_j58506044506613_1_alg».proof.Proof.K.Reg0
import proofs.«160566_j58506044506613_1_alg».proof.Proof.K.Reg1
import proofs.«160566_j58506044506613_1_alg».proof.Proof.K.Reg2
import proofs.«160566_j58506044506613_1_alg».proof.Proof.K.Reg3
import proofs.«160566_j58506044506613_1_alg».proof.Proof.K.Reg4
import proofs.«160566_j58506044506613_1_alg».proof.Proof.K.Reg5
import proofs.«160566_j58506044506613_1_alg».proof.Proof.K.Reg6
import proofs.«160566_j58506044506613_1_alg».proof.Proof.K.Reg7

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch main_part0_ops0. -/
abbrev W1 : Dev nD → Valuation τ sig (Elt F) := fun c => StableHlo.after main_part0_ops0 (W0 m ρ c)
/-- After the host stretch main_part0_ops1. -/
abbrev W2 : Dev nD → Valuation τ sig (Elt F) := fun c => StableHlo.after main_part0_ops1 (W1 m ρ c)
/-- After the host stretch main_part0_ops2. -/
abbrev W3 : Dev nD → Valuation τ sig (Elt F) := fun c => StableHlo.after main_part0_ops2 (W2 m ρ c)
/-- After the host stretch main_part0_ops3. -/
abbrev W4 : Dev nD → Valuation τ sig (Elt F) := fun c => StableHlo.after main_part0_ops3 (W3 m ρ c)
/-- After the host stretch main_part0_ops4. -/
abbrev W5 : Dev nD → Valuation τ sig (Elt F) := fun c => StableHlo.after main_part0_ops4 (W4 m ρ c)
/-- Region 0's entry contents, read at the core's references. -/
abbrev V5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- Region 0's exit contents, read at the core's references. -/
abbrev X6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = X6 m ρ c (Pipeline.arrRef spec0 w) :=
  (W6_arr m ρ c w).symm
theorem hrest0 (c : Dev nD) : ∀ b, b ∉ Finset.univ.image (Pipeline.arrRef spec0) → X6 m ρ c b = V5 m ρ c b :=
  fun b hb => W6_of_ne m ρ c b fun w e => hb (Finset.mem_image.mpr ⟨w, Finset.mem_univ _, e⟩)
/-- After the host stretch main_part0_ops5. -/
abbrev W7 : Dev nD → Valuation τ sig (Elt F) := fun c => StableHlo.after main_part0_ops5 (W6 m ρ c)
/-- After the host stretch main_part1_ops0. -/
abbrev W8 : Dev nD → Valuation τ sig (Elt F) := fun c => StableHlo.after main_part1_ops0 (W7 m ρ c)
/-- Region 1's entry contents, read at the core's references. -/
abbrev V8 : (c : Dev nD) → (b : Ref sig .tc) → Buf (Elt F) ((c : Thread nD τ).loc b) := fun c b => W8 m ρ c b
/-- At region 1's exit: its arrays at what the pipeline leaves, every other buffer as entered. -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- Region 1's exit contents, read at the core's references. -/
abbrev X9 : (c : Dev nD) → (b : Ref sig .tc) → Buf (Elt F) ((c : Thread nD τ).loc b) := fun c b => W9 m ρ c b
theorem hF1 (c : Dev nD) (w : Fin cfg1.W) : (dat1 (V8 m ρ) c).arrAt w cfg1.N = X9 m ρ c (Pipeline.arrRef spec1 w) :=
  (W9_arr m ρ c w).symm
theorem hrest1 (c : Dev nD) : ∀ b, b ∉ Finset.univ.image (Pipeline.arrRef spec1) → X9 m ρ c b = V8 m ρ c b :=
  fun b hb => W9_of_ne m ρ c b fun w e => hb (Finset.mem_image.mpr ⟨w, Finset.mem_univ _, e⟩)
/-- Region 2's entry contents, read at the core's references. -/
abbrev V9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- Region 2's exit contents, read at the core's references. -/
abbrev X10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = X10 m ρ c (Pipeline.arrRef spec2 w) :=
  (W10_arr m ρ c w).symm
theorem hrest2 (c : Dev nD) : ∀ b, b ∉ Finset.univ.image (Pipeline.arrRef spec2) → X10 m ρ c b = V9 m ρ c b :=
  fun b hb => W10_of_ne m ρ c b fun w e => hb (Finset.mem_image.mpr ⟨w, Finset.mem_univ _, e⟩)
/-- After the host stretch main_part1_ops1. -/
abbrev W11 : Dev nD → Valuation τ sig (Elt F) := fun c => StableHlo.after main_part1_ops1 (W10 m ρ c)
/-- Region 3's entry contents, read at the core's references. -/
abbrev V11 : (c : Dev nD) → (b : Ref sig .tc) → Buf (Elt F) ((c : Thread nD τ).loc b) := fun c b => W11 m ρ c b
/-- At region 3's exit: its arrays at what the pipeline leaves, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- Region 3's exit contents, read at the core's references. -/
abbrev X12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = X12 m ρ c (Pipeline.arrRef spec3 w) :=
  (W12_arr m ρ c w).symm
theorem hrest3 (c : Dev nD) : ∀ b, b ∉ Finset.univ.image (Pipeline.arrRef spec3) → X12 m ρ c b = V11 m ρ c b :=
  fun b hb => W12_of_ne m ρ c b fun w e => hb (Finset.mem_image.mpr ⟨w, Finset.mem_univ _, e⟩)
/-- Region 4's entry contents, read at the core's references. -/
abbrev V12 : (c : Dev nD) → (b : Ref sig .tc) → Buf (Elt F) ((c : Thread nD τ).loc b) := fun c b => W12 m ρ c b
/-- At region 4's exit: its arrays at what the pipeline leaves, every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
/-- Region 4's exit contents, read at the core's references. -/
abbrev X13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = X13 m ρ c (Pipeline.arrRef spec4 w) :=
  (W13_arr m ρ c w).symm
theorem hrest4 (c : Dev nD) : ∀ b, b ∉ Finset.univ.image (Pipeline.arrRef spec4) → X13 m ρ c b = V12 m ρ c b :=
  fun b hb => W13_of_ne m ρ c b fun w e => hb (Finset.mem_image.mpr ⟨w, Finset.mem_univ _, e⟩)
/-- Region 5's entry contents, read at the core's references. -/
abbrev V13 : (c : Dev nD) → (b : Ref sig .tc) → Buf (Elt F) ((c : Thread nD τ).loc b) := fun c b => W13 m ρ c b
/-- At region 5's exit: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- Region 5's exit contents, read at the core's references. -/
abbrev X14 : (c : Dev nD) → (b : Ref sig .tc) → Buf (Elt F) ((c : Thread nD τ).loc b) := fun c b => W14 m ρ c b
theorem hF5 (c : Dev nD) (w : Fin cfg5.W) : (dat5 (V13 m ρ) c).arrAt w cfg5.N = X14 m ρ c (Pipeline.arrRef spec5 w) :=
  (W14_arr m ρ c w).symm
theorem hrest5 (c : Dev nD) : ∀ b, b ∉ Finset.univ.image (Pipeline.arrRef spec5) → X14 m ρ c b = V13 m ρ c b :=
  fun b hb => W14_of_ne m ρ c b fun w e => hb (Finset.mem_image.mpr ⟨w, Finset.mem_univ _, e⟩)
/-- After the host stretch main_part1_ops2. -/
abbrev W15 : Dev nD → Valuation τ sig (Elt F) := fun c => StableHlo.after main_part1_ops2 (W14 m ρ c)
/-- Region 6's entry contents, read at the core's references. -/
abbrev V15 : (c : Dev nD) → (b : Ref sig .tc) → Buf (Elt F) ((c : Thread nD τ).loc b) := fun c b => W15 m ρ c b
/-- At region 6's exit: its arrays at what the pipeline leaves, every other buffer as entered. -/
def W16 (c : Dev nD) : Valuation τ sig (Elt F) :=
  Pipeline.withArrays spec6 c (W15 m ρ c) fun w => (dat6 (V15 m ρ) c).arrAt w cfg6.N
theorem W16_arr (c : Dev nD) (w : Fin cfg6.W) :
    W16 m ρ c (Proc.devRef .tc (Pipeline.arrRef spec6 w)) = (dat6 (V15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
/-- Region 6's exit contents, read at the core's references. -/
abbrev X16 : (c : Dev nD) → (b : Ref sig .tc) → Buf (Elt F) ((c : Thread nD τ).loc b) := fun c b => W16 m ρ c b
theorem hF6 (c : Dev nD) (w : Fin cfg6.W) : (dat6 (V15 m ρ) c).arrAt w cfg6.N = X16 m ρ c (Pipeline.arrRef spec6 w) :=
  (W16_arr m ρ c w).symm
theorem hrest6 (c : Dev nD) : ∀ b, b ∉ Finset.univ.image (Pipeline.arrRef spec6) → X16 m ρ c b = V15 m ρ c b :=
  fun b hb => W16_of_ne m ρ c b fun w e => hb (Finset.mem_image.mpr ⟨w, Finset.mem_univ _, e⟩)
/-- After the host stretch main_part1_ops3. -/
abbrev W17 : Dev nD → Valuation τ sig (Elt F) := fun c => StableHlo.after main_part1_ops3 (W16 m ρ c)
/-- After the host stretch main_part2_ops0. -/
abbrev W18 : Dev nD → Valuation τ sig (Elt F) := fun c => StableHlo.after main_part2_ops0 (W17 m ρ c)
/-- Region 7's entry contents, read at the core's references. -/
abbrev V18 : (c : Dev nD) → (b : Ref sig .tc) → Buf (Elt F) ((c : Thread nD τ).loc b) := fun c b => W18 m ρ c b
/-- At region 7's exit: its arrays at what the pipeline leaves, every other buffer as entered. -/
def W19 (c : Dev nD) : Valuation τ sig (Elt F) :=
  Pipeline.withArrays spec7 c (W18 m ρ c) fun w => (dat7 (V18 m ρ) c).arrAt w cfg7.N
theorem W19_arr (c : Dev nD) (w : Fin cfg7.W) :
    W19 m ρ c (Proc.devRef .tc (Pipeline.arrRef spec7 w)) = (dat7 (V18 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb
/-- Region 7's exit contents, read at the core's references. -/
abbrev X19 : (c : Dev nD) → (b : Ref sig .tc) → Buf (Elt F) ((c : Thread nD τ).loc b) := fun c b => W19 m ρ c b
theorem hF7 (c : Dev nD) (w : Fin cfg7.W) : (dat7 (V18 m ρ) c).arrAt w cfg7.N = X19 m ρ c (Pipeline.arrRef spec7 w) :=
  (W19_arr m ρ c w).symm
theorem hrest7 (c : Dev nD) : ∀ b, b ∉ Finset.univ.image (Pipeline.arrRef spec7) → X19 m ρ c b = V18 m ρ c b :=
  fun b hb => W19_of_ne m ρ c b fun w e => hb (Finset.mem_image.mpr ⟨w, Finset.mem_univ _, e⟩)
/-- After the host stretch main_part2_ops1. -/
abbrev W20 : Dev nD → Valuation τ sig (Elt F) := fun c => StableHlo.after main_part2_ops1 (W19 m ρ c)

end Cert.Kernel.Hand

end
-- ==== Proof.K.Run.lean ====
/-
  The run of @main from the launch to the return, cut into its twenty items: twelve stretches of host operations and
  eight kernel regions. Each stretch is a segment over the thread state "every unscoped buffer at the contents of the
  boundary before it, the generator register at some state, nothing owed", and runs to the same state at the contents
  after its operations. Each region is a segment over the same state: its windows' arrays are split out of the
  unscoped buffers at entry and put back at the exit contents, the generator register passes through the region's
  invariant, nothing is owed. Regions 0 to 6 keep the invariant "the scoped buffers that are no staging buffer at
  anything, the generator register at some state" at every point; region 7's invariant carries its two running sums
  and is entered from and left at that same invariant. The run then says: @main terminates from any memory with zero
  counters, and every final state holds, on every core, every unscoped buffer at the last boundary's contents.
-/
import proofs.«160566_j58506044506613_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V8 m ρ) c
  | ⟨2, _⟩ => fun c => dat2 (V9 m ρ) c
  | ⟨3, _⟩ => fun c => dat3 (V11 m ρ) c
  | ⟨4, _⟩ => fun c => dat4 (V12 m ρ) c
  | ⟨5, _⟩ => fun c => dat5 (V13 m ρ) c
  | ⟨6, _⟩ => fun c => dat6 (V15 m ρ) c
  | ⟨7, _⟩ => fun c => dat7 (V18 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A stretch of host operations as a segment over the unscoped references from the contents W, R riding along: it
    runs to those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem main_part0_ops0_fresh : (main_part0_ops0 : List (HloOp τ sig (Elt F))).Forall fun op => op.fresh = ∅ := by
  simp only [List.Forall]; repeat' constructor
/-- No operation of this stretch allocates a buffer. -/
theorem main_part0_ops1_fresh : (main_part0_ops1 : List (HloOp τ sig (Elt F))).Forall fun op => op.fresh = ∅ := by
  simp only [List.Forall]; repeat' constructor
/-- No operation of this stretch allocates a buffer. -/
theorem main_part0_ops2_fresh : (main_part0_ops2 : List (HloOp τ sig (Elt F))).Forall fun op => op.fresh = ∅ := by
  simp only [List.Forall]; repeat' constructor
/-- No operation of this stretch allocates a buffer. -/
theorem main_part0_ops3_fresh : (main_part0_ops3 : List (HloOp τ sig (Elt F))).Forall fun op => op.fresh = ∅ := by
  simp only [List.Forall]; repeat' constructor
/-- No operation of this stretch allocates a buffer. -/
theorem main_part0_ops4_fresh : (main_part0_ops4 : List (HloOp τ sig (Elt F))).Forall fun op => op.fresh = ∅ := by
  simp only [List.Forall]; repeat' constructor
/-- No operation of this stretch allocates a buffer. -/
theorem main_part0_ops5_fresh : (main_part0_ops5 : List (HloOp τ sig (Elt F))).Forall fun op => op.fresh = ∅ := by
  simp only [List.Forall]; repeat' constructor
/-- No operation of this stretch allocates a buffer. -/
theorem main_part1_ops0_fresh : (main_part1_ops0 : List (HloOp τ sig (Elt F))).Forall fun op => op.fresh = ∅ := by
  simp only [List.Forall]; repeat' constructor
/-- No operation of this stretch allocates a buffer. -/
theorem main_part1_ops1_fresh : (main_part1_ops1 : List (HloOp τ sig (Elt F))).Forall fun op => op.fresh = ∅ := by
  simp only [List.Forall]; repeat' constructor
/-- No operation of this stretch allocates a buffer. -/
theorem main_part1_ops2_fresh : (main_part1_ops2 : List (HloOp τ sig (Elt F))).Forall fun op => op.fresh = ∅ := by
  simp only [List.Forall]; repeat' constructor
/-- No operation of this stretch allocates a buffer. -/
theorem main_part1_ops3_fresh : (main_part1_ops3 : List (HloOp τ sig (Elt F))).Forall fun op => op.fresh = ∅ := by
  simp only [List.Forall]; repeat' constructor
/-- No operation of this stretch allocates a buffer. -/
theorem main_part2_ops0_fresh : (main_part2_ops0 : List (HloOp τ sig (Elt F))).Forall fun op => op.fresh = ∅ := by
  simp only [List.Forall]; repeat' constructor
/-- No operation of this stretch allocates a buffer. -/
theorem main_part2_ops1_fresh : (main_part2_ops1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- Region 0 over the thread state: entered from every unscoped buffer at W5, left at W6. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (X6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W8, left at W9. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (X9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W9, left at W10. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (X10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W11, left at W12. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (X12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W12, left at W13. Its arrays are split
    out of the unscoped buffers and put back at the exit contents; the generator register goes into the region's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (X13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W13, left at W14. Its arrays are split
    out of the unscoped buffers and put back at the exit contents; the generator register goes into the region's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (X14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at W15, left at W16. Its arrays are split
    out of the unscoped buffers and put back at the exit contents; the generator register goes into the region's
    invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V15 m ρ) c).loose
  hwaits := Pipeline.hwaits_of_owed_zero _ _ _ _ L lv 6 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec6 c (V15 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V15 m ρ c) (X16 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at W18, left at W19. Its arrays are split
    out of the unscoped buffers and put back at the exit contents; the generator register goes into the region's
    invariant and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V18 m ρ) c).loose
  hwaits := Pipeline.hwaits_of_owed_zero _ _ _ _ L lv 7 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec7 c (V18 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V18 m ρ) c).Φ 0 from rfl]
    refine BIBase.Entails.trans ?_ (hin7 (V18 m ρ) c)
    unfold Pipeline.ΦA
    iintro ⟨Hp, -, Hr⟩
    isplitl [Hr]; · iexact Hr
    iexact Hp
  hout c := by
    rw [Pipeline.ownSems0_none, show (pdats m ρ 7 c).Φ (Fin.last _) = (dat7 (V18 m ρ) c).Φ (Fin.last cfg7.N) from rfl]
    refine BIBase.Entails.trans (hout7 (V18 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V18 m ρ c) (X19 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twenty segments in order: a host segment per stretch from its boundary's contents, a region per kernel. -/
abbrev segs : List (Pipeline.Seg (pcfgs (F := F)) adm (pdats m ρ) () defs₀ 𝒱₀ L lv) :=
  [
    .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part0_ops3 main_part0_ops3_sub main_part0_ops3_fresh (W3 m ρ)),
    .host (hseg main_part0_ops4 main_part0_ops4_sub main_part0_ops4_fresh (W4 m ρ)),
    .region (reg0 m ρ),
    .host (hseg main_part0_ops5 main_part0_ops5_sub main_part0_ops5_fresh (W6 m ρ)),
    .host (hseg main_part1_ops0 main_part1_ops0_sub main_part1_ops0_fresh (W7 m ρ)),
    .region (reg1 m ρ),
    .region (reg2 m ρ),
    .host (hseg main_part1_ops1 main_part1_ops1_sub main_part1_ops1_fresh (W10 m ρ)),
    .region (reg3 m ρ),
    .region (reg4 m ρ),
    .region (reg5 m ρ),
    .host (hseg main_part1_ops2 main_part1_ops2_sub main_part1_ops2_fresh (W14 m ρ)),
    .region (reg6 m ρ),
    .host (hseg main_part1_ops3 main_part1_ops3_sub main_part1_ops3_fresh (W16 m ρ)),
    .host (hseg main_part2_ops0 main_part2_ops0_sub main_part2_ops0_fresh (W17 m ρ)),
    .region (reg7 m ρ),
    .host (hseg main_part2_ops1 main_part2_ops1_sub main_part2_ops1_fresh (W19 m ρ)) ]

/-- @main is the run of the segments: the chain of its twenty items, then the segments' run against that chain. -/
theorem main_run (c : Dev nD) : main (F := F) c = Pipeline.Seg.run (segs m ρ) := (main_chain_windows c).trans (by chain_rfl)

set_option backward.isDefEq.respectTransparency.types false in
/-- THE RUN: from any memory with zero counters, every weakly fair execution of @main on the cores terminates, nothing
    faulting, and every final state holds, on every core, every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun _ h => h)

end Cert.Kernel.Hand

end
-- ==== Proof.K.Steps.lean ====
/-
  What each of @main's twenty items may change. A stretch of host operations changes only the buffers its operations
  write: each operation writes one reference, and the stretch's references are listed in order. A region changes only
  its output window's array: an input window's array ends at the contents the region was entered from, and a buffer
  that is no array of the region is left as entered. Stated per item: a reference outside the item's list holds after
  the item what it held before it.
-/
import proofs.«160566_j58506044506613_1_alg».proof.Proof.K.Fold

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- An operation that writes the one reference y, y in the list W, writes inside W. -/
theorem writes_sub_of {op : HloOp τ sig (Elt F)} (y : Ref sig .tc) {W : List (Ref sig .tc)}
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

/-- Item 0, a stretch of 17 host operations: the references they write, in order. -/
abbrev L0 : List (Ref sig .tc) :=
  [main_v0, main_v1, main_v2, main_v3, main_v4, main_v5, main_v6, main_cst, main_v7, main_cst_0, main_v8, main_v9, main_v10, main_cst_1, main_v11, main_v12, main_cst_2]
theorem main_part0_ops0_writes : (main_part0_ops0 : List (HloOp τ sig (Elt F))).Forall fun op => op.writes ⊆ (L0.map (Proc.devRef (τ := τ) .tc)).toFinset :=
  ⟨writes_sub_of main_v0 rfl (by decide),
   writes_sub_of main_v1 rfl (by decide),
   writes_sub_of main_v2 rfl (by decide),
   writes_sub_of main_v3 rfl (by decide),
   writes_sub_of main_v4 rfl (by decide),
   writes_sub_of main_v5 rfl (by decide),
   writes_sub_of main_v6 rfl (by decide),
   writes_sub_of main_cst rfl (by decide),
   writes_sub_of main_v7 rfl (by decide),
   writes_sub_of main_cst_0 rfl (by decide),
   writes_sub_of main_v8 rfl (by decide),
   writes_sub_of main_v9 rfl (by decide),
   writes_sub_of main_v10 rfl (by decide),
   writes_sub_of main_cst_1 rfl (by decide),
   writes_sub_of main_v11 rfl (by decide),
   writes_sub_of main_v12 rfl (by decide),
   writes_sub_of main_cst_2 rfl (by decide)⟩
/-- Item 0 changes no buffer outside its list. -/
theorem keep0 (c : Dev nD) (r : Ref sig .tc) (h : r ∉ L0) :
    W1 m ρ c (Proc.devRef .tc r) = W0 m ρ c (Proc.devRef .tc r) :=
  StableHlo.after_of_writes_sub main_part0_ops0 _ main_part0_ops0_writes h

/-- Item 1, a stretch of 3 host operations: the references they write, in order. -/
abbrev L1 : List (Ref sig .tc) :=
  [main_call0_v0, main_call0_v1, main_v13]
theorem main_part0_ops1_writes : (main_part0_ops1 : List (HloOp τ sig (Elt F))).Forall fun op => op.writes ⊆ (L1.map (Proc.devRef (τ := τ) .tc)).toFinset :=
  ⟨writes_sub_of main_call0_v0 rfl (by decide),
   writes_sub_of main_call0_v1 rfl (by decide),
   writes_sub_of main_v13 rfl (by decide)⟩
/-- Item 1 changes no buffer outside its list. -/
theorem keep1 (c : Dev nD) (r : Ref sig .tc) (h : r ∉ L1) :
    W2 m ρ c (Proc.devRef .tc r) = W1 m ρ c (Proc.devRef .tc r) :=
  StableHlo.after_of_writes_sub main_part0_ops1 _ main_part0_ops1_writes h

/-- Item 2, a stretch of 5 host operations: the references they write, in order. -/
abbrev L2 : List (Ref sig .tc) :=
  [main_cst_3, main_v14, main_v15, main_v16, main_cst_4]
theorem main_part0_ops2_writes : (main_part0_ops2 : List (HloOp τ sig (Elt F))).Forall fun op => op.writes ⊆ (L2.map (Proc.devRef (τ := τ) .tc)).toFinset :=
  ⟨writes_sub_of main_cst_3 rfl (by decide),
   writes_sub_of main_v14 rfl (by decide),
   writes_sub_of main_v15 rfl (by decide),
   writes_sub_of main_v16 rfl (by decide),
   writes_sub_of main_cst_4 rfl (by decide)⟩
/-- Item 2 changes no buffer outside its list. -/
theorem keep2 (c : Dev nD) (r : Ref sig .tc) (h : r ∉ L2) :
    W3 m ρ c (Proc.devRef .tc r) = W2 m ρ c (Proc.devRef .tc r) :=
  StableHlo.after_of_writes_sub main_part0_ops2 _ main_part0_ops2_writes h

/-- Item 3, a stretch of 3 host operations: the references they write, in order. -/
abbrev L3 : List (Ref sig .tc) :=
  [main_call1_v0, main_call1_v1, main_v17]
theorem main_part0_ops3_writes : (main_part0_ops3 : List (HloOp τ sig (Elt F))).Forall fun op => op.writes ⊆ (L3.map (Proc.devRef (τ := τ) .tc)).toFinset :=
  ⟨writes_sub_of main_call1_v0 rfl (by decide),
   writes_sub_of main_call1_v1 rfl (by decide),
   writes_sub_of main_v17 rfl (by decide)⟩
/-- Item 3 changes no buffer outside its list. -/
theorem keep3 (c : Dev nD) (r : Ref sig .tc) (h : r ∉ L3) :
    W4 m ρ c (Proc.devRef .tc r) = W3 m ρ c (Proc.devRef .tc r) :=
  StableHlo.after_of_writes_sub main_part0_ops3 _ main_part0_ops3_writes h

/-- Item 4, a stretch of 20 host operations: the references they write, in order. -/
abbrev L4 : List (Ref sig .tc) :=
  [main_c, main_v18, main_v19, main_c_5, main_v20, main_v21, main_v22, main_v23, main_v24, main_c_6, main_v25, main_v26, main_c_7, main_v27, main_v28, main_v29, main_v30, main_v31, main_v32, main_v33]
theorem main_part0_ops4_writes : (main_part0_ops4 : List (HloOp τ sig (Elt F))).Forall fun op => op.writes ⊆ (L4.map (Proc.devRef (τ := τ) .tc)).toFinset :=
  ⟨writes_sub_of main_c rfl (by decide),
   writes_sub_of main_v18 rfl (by decide),
   writes_sub_of main_v19 rfl (by decide),
   writes_sub_of main_c_5 rfl (by decide),
   writes_sub_of main_v20 rfl (by decide),
   writes_sub_of main_v21 rfl (by decide),
   writes_sub_of main_v22 rfl (by decide),
   writes_sub_of main_v23 rfl (by decide),
   writes_sub_of main_v24 rfl (by decide),
   writes_sub_of main_c_6 rfl (by decide),
   writes_sub_of main_v25 rfl (by decide),
   writes_sub_of main_v26 rfl (by decide),
   writes_sub_of main_c_7 rfl (by decide),
   writes_sub_of main_v27 rfl (by decide),
   writes_sub_of main_v28 rfl (by decide),
   writes_sub_of main_v29 rfl (by decide),
   writes_sub_of main_v30 rfl (by decide),
   writes_sub_of main_v31 rfl (by decide),
   writes_sub_of main_v32 rfl (by decide),
   writes_sub_of main_v33 rfl (by decide)⟩
/-- Item 4 changes no buffer outside its list. -/
theorem keep4 (c : Dev nD) (r : Ref sig .tc) (h : r ∉ L4) :
    W5 m ρ c (Proc.devRef .tc r) = W4 m ρ c (Proc.devRef .tc r) :=
  StableHlo.after_of_writes_sub main_part0_ops4 _ main_part0_ops4_writes h

/-- Item 5, region 0: the array of its output window. -/
abbrev L5 : List (Ref sig .tc) := [main_v34]
/-- Item 5 changes no buffer but its output window's array: an input window's array ends as entered, a buffer that is
    no array of the region is left as entered. -/
theorem keep5 (c : Dev nD) (r : Ref sig .tc) (h : r ∉ L5) :
    W6 m ρ c (Proc.devRef .tc r) = W5 m ρ c (Proc.devRef .tc r) := by
  by_cases h0 : r = main_arg1
  · subst h0; exact (W6_arr m ρ c 0).trans (((dat0 (V5 m ρ) c).arrAt_in 0 rfl _).trans (A_eq0 (V5 m ρ) c 0))
  by_cases h1 : r = main_arg4
  · subst h1; exact (W6_arr m ρ c 1).trans (((dat0 (V5 m ρ) c).arrAt_in 1 rfl _).trans (A_eq0 (V5 m ρ) c 1))
  refine W6_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 6, a stretch of 15 host operations: the references they write, in order. -/
abbrev L6 : List (Ref sig .tc) :=
  [main_c_8, main_v35, main_v36, main_c_9, main_v37, main_v38, main_v39, main_v40, main_v41, main_v42, main_v43, main_cst_10, main_v44, main_v45, main_v46]
theorem main_part0_ops5_writes : (main_part0_ops5 : List (HloOp τ sig (Elt F))).Forall fun op => op.writes ⊆ (L6.map (Proc.devRef (τ := τ) .tc)).toFinset :=
  ⟨writes_sub_of main_c_8 rfl (by decide),
   writes_sub_of main_v35 rfl (by decide),
   writes_sub_of main_v36 rfl (by decide),
   writes_sub_of main_c_9 rfl (by decide),
   writes_sub_of main_v37 rfl (by decide),
   writes_sub_of main_v38 rfl (by decide),
   writes_sub_of main_v39 rfl (by decide),
   writes_sub_of main_v40 rfl (by decide),
   writes_sub_of main_v41 rfl (by decide),
   writes_sub_of main_v42 rfl (by decide),
   writes_sub_of main_v43 rfl (by decide),
   writes_sub_of main_cst_10 rfl (by decide),
   writes_sub_of main_v44 rfl (by decide),
   writes_sub_of main_v45 rfl (by decide),
   writes_sub_of main_v46 rfl (by decide)⟩
/-- Item 6 changes no buffer outside its list. -/
theorem keep6 (c : Dev nD) (r : Ref sig .tc) (h : r ∉ L6) :
    W7 m ρ c (Proc.devRef .tc r) = W6 m ρ c (Proc.devRef .tc r) :=
  StableHlo.after_of_writes_sub main_part0_ops5 _ main_part0_ops5_writes h

/-- Item 7, a stretch of 1 host operation: the references they write, in order. -/
abbrev L7 : List (Ref sig .tc) :=
  [main_v47]
theorem main_part1_ops0_writes : (main_part1_ops0 : List (HloOp τ sig (Elt F))).Forall fun op => op.writes ⊆ (L7.map (Proc.devRef (τ := τ) .tc)).toFinset :=
  writes_sub_of main_v47 rfl (by decide)
/-- Item 7 changes no buffer outside its list. -/
theorem keep7 (c : Dev nD) (r : Ref sig .tc) (h : r ∉ L7) :
    W8 m ρ c (Proc.devRef .tc r) = W7 m ρ c (Proc.devRef .tc r) :=
  StableHlo.after_of_writes_sub main_part1_ops0 _ main_part1_ops0_writes h

/-- Item 8, region 1: the array of its output window. -/
abbrev L8 : List (Ref sig .tc) := [main_v48]
/-- Item 8 changes no buffer but its output window's array: an input window's array ends as entered, a buffer that is
    no array of the region is left as entered. -/
theorem keep8 (c : Dev nD) (r : Ref sig .tc) (h : r ∉ L8) :
    W9 m ρ c (Proc.devRef .tc r) = W8 m ρ c (Proc.devRef .tc r) := by
  by_cases h0 : r = main_v46
  · subst h0; exact (W9_arr m ρ c 0).trans (((dat1 (V8 m ρ) c).arrAt_in 0 rfl _).trans (A_eq1 (V8 m ρ) c 0))
  by_cases h1 : r = main_v47
  · subst h1; exact (W9_arr m ρ c 1).trans (((dat1 (V8 m ρ) c).arrAt_in 1 rfl _).trans (A_eq1 (V8 m ρ) c 1))
  refine W9_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 9, region 2: the array of its output window. -/
abbrev L9 : List (Ref sig .tc) := [main_v49]
/-- Item 9 changes no buffer but its output window's array: an input window's array ends as entered, a buffer that is
    no array of the region is left as entered. -/
theorem keep9 (c : Dev nD) (r : Ref sig .tc) (h : r ∉ L9) :
    W10 m ρ c (Proc.devRef .tc r) = W9 m ρ c (Proc.devRef .tc r) := by
  by_cases h0 : r = main_v48
  · subst h0; exact (W10_arr m ρ c 0).trans (((dat2 (V9 m ρ) c).arrAt_in 0 rfl _).trans (A_eq2 (V9 m ρ) c 0))
  by_cases h1 : r = main_arg6
  · subst h1; exact (W10_arr m ρ c 1).trans (((dat2 (V9 m ρ) c).arrAt_in 1 rfl _).trans (A_eq2 (V9 m ρ) c 1))
  refine W10_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 10, a stretch of 16 host operations: the references they write, in order. -/
abbrev L10 : List (Ref sig .tc) :=
  [main_c_11, main_v50, main_v51, main_c_12, main_v52, main_v53, main_v54, main_v55, main_v56, main_v57, main_v58, main_cst_13, main_v59, main_v60, main_v61, main_v62]
theorem main_part1_ops1_writes : (main_part1_ops1 : List (HloOp τ sig (Elt F))).Forall fun op => op.writes ⊆ (L10.map (Proc.devRef (τ := τ) .tc)).toFinset :=
  ⟨writes_sub_of main_c_11 rfl (by decide),
   writes_sub_of main_v50 rfl (by decide),
   writes_sub_of main_v51 rfl (by decide),
   writes_sub_of main_c_12 rfl (by decide),
   writes_sub_of main_v52 rfl (by decide),
   writes_sub_of main_v53 rfl (by decide),
   writes_sub_of main_v54 rfl (by decide),
   writes_sub_of main_v55 rfl (by decide),
   writes_sub_of main_v56 rfl (by decide),
   writes_sub_of main_v57 rfl (by decide),
   writes_sub_of main_v58 rfl (by decide),
   writes_sub_of main_cst_13 rfl (by decide),
   writes_sub_of main_v59 rfl (by decide),
   writes_sub_of main_v60 rfl (by decide),
   writes_sub_of main_v61 rfl (by decide),
   writes_sub_of main_v62 rfl (by decide)⟩
/-- Item 10 changes no buffer outside its list. -/
theorem keep10 (c : Dev nD) (r : Ref sig .tc) (h : r ∉ L10) :
    W11 m ρ c (Proc.devRef .tc r) = W10 m ρ c (Proc.devRef .tc r) :=
  StableHlo.after_of_writes_sub main_part1_ops1 _ main_part1_ops1_writes h

/-- Item 11, region 3: the array of its output window. -/
abbrev L11 : List (Ref sig .tc) := [main_v63]
/-- Item 11 changes no buffer but its output window's array: an input window's array ends as entered, a buffer that is
    no array of the region is left as entered. -/
theorem keep11 (c : Dev nD) (r : Ref sig .tc) (h : r ∉ L11) :
    W12 m ρ c (Proc.devRef .tc r) = W11 m ρ c (Proc.devRef .tc r) := by
  by_cases h0 : r = main_v61
  · subst h0; exact (W12_arr m ρ c 0).trans (((dat3 (V11 m ρ) c).arrAt_in 0 rfl _).trans (A_eq3 (V11 m ρ) c 0))
  by_cases h1 : r = main_v62
  · subst h1; exact (W12_arr m ρ c 1).trans (((dat3 (V11 m ρ) c).arrAt_in 1 rfl _).trans (A_eq3 (V11 m ρ) c 1))
  refine W12_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 12, region 4: the array of its output window. -/
abbrev L12 : List (Ref sig .tc) := [main_v64]
/-- Item 12 changes no buffer but its output window's array: an input window's array ends as entered, a buffer that is
    no array of the region is left as entered. -/
theorem keep12 (c : Dev nD) (r : Ref sig .tc) (h : r ∉ L12) :
    W13 m ρ c (Proc.devRef .tc r) = W12 m ρ c (Proc.devRef .tc r) := by
  by_cases h0 : r = main_v63
  · subst h0; exact (W13_arr m ρ c 0).trans (((dat4 (V12 m ρ) c).arrAt_in 0 rfl _).trans (A_eq4 (V12 m ρ) c 0))
  refine W13_of_ne m ρ c r fun w => ?_
  match w with
  | ⟨0, _⟩ => exact fun e => h0 e.symm
  | ⟨1, _⟩ => exact fun e => h (List.mem_singleton.mpr e.symm)

/-- Item 13, region 5: the array of its output window. -/
abbrev L13 : List (Ref sig .tc) := [main_v65]
/-- Item 13 changes no buffer but its output window's array: an input window's array ends as entered, a buffer that is
    no array of the region is left as entered. -/
theorem keep13 (c : Dev nD) (r : Ref sig .tc) (h : r ∉ L13) :
    W14 m ρ c (Proc.devRef .tc r) = W13 m ρ c (Proc.devRef .tc r) := by
  by_cases h0 : r = main_v64
  · subst h0; exact (W14_arr m ρ c 0).trans (((dat5 (V13 m ρ) c).arrAt_in 0 rfl _).trans (A_eq5 (V13 m ρ) c 0))
  by_cases h1 : r = main_arg8
  · subst h1; exact (W14_arr m ρ c 1).trans (((dat5 (V13 m ρ) c).arrAt_in 1 rfl _).trans (A_eq5 (V13 m ρ) c 1))
  refine W14_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 14, a stretch of 1 host operation: the references they write, in order. -/
abbrev L14 : List (Ref sig .tc) :=
  [main_v66]
theorem main_part1_ops2_writes : (main_part1_ops2 : List (HloOp τ sig (Elt F))).Forall fun op => op.writes ⊆ (L14.map (Proc.devRef (τ := τ) .tc)).toFinset :=
  writes_sub_of main_v66 rfl (by decide)
/-- Item 14 changes no buffer outside its list. -/
theorem keep14 (c : Dev nD) (r : Ref sig .tc) (h : r ∉ L14) :
    W15 m ρ c (Proc.devRef .tc r) = W14 m ρ c (Proc.devRef .tc r) :=
  StableHlo.after_of_writes_sub main_part1_ops2 _ main_part1_ops2_writes h

/-- Item 15, region 6: the array of its output window. -/
abbrev L15 : List (Ref sig .tc) := [main_v67]
/-- Item 15 changes no buffer but its output window's array: an input window's array ends as entered, a buffer that is
    no array of the region is left as entered. -/
theorem keep15 (c : Dev nD) (r : Ref sig .tc) (h : r ∉ L15) :
    W16 m ρ c (Proc.devRef .tc r) = W15 m ρ c (Proc.devRef .tc r) := by
  by_cases h0 : r = main_v65
  · subst h0; exact (W16_arr m ρ c 0).trans (((dat6 (V15 m ρ) c).arrAt_in 0 rfl _).trans (A_eq6 (V15 m ρ) c 0))
  by_cases h1 : r = main_v66
  · subst h1; exact (W16_arr m ρ c 1).trans (((dat6 (V15 m ρ) c).arrAt_in 1 rfl _).trans (A_eq6 (V15 m ρ) c 1))
  refine W16_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 16, a stretch of 36 host operations: the references they write, in order. -/
abbrev L16 : List (Ref sig .tc) :=
  [main_v68, main_v69, main_v70, main_v71, main_v72, main_v73, main_v74, main_v75, main_v76, main_v77, main_v78, main_v79, main_cst_14, main_v80, main_cst_15, main_v81, main_c_16, main_v82, main_v83, main_c_17, main_v84, main_v85, main_v86, main_v87, main_v88, main_c_18, main_v89, main_v90, main_c_19, main_v91, main_v92, main_v93, main_v94, main_v95, main_c_20, main_v96]
theorem main_part1_ops3_writes : (main_part1_ops3 : List (HloOp τ sig (Elt F))).Forall fun op => op.writes ⊆ (L16.map (Proc.devRef (τ := τ) .tc)).toFinset :=
  ⟨writes_sub_of main_v68 rfl (by decide),
   writes_sub_of main_v69 rfl (by decide),
   writes_sub_of main_v70 rfl (by decide),
   writes_sub_of main_v71 rfl (by decide),
   writes_sub_of main_v72 rfl (by decide),
   writes_sub_of main_v73 rfl (by decide),
   writes_sub_of main_v74 rfl (by decide),
   writes_sub_of main_v75 rfl (by decide),
   writes_sub_of main_v76 rfl (by decide),
   writes_sub_of main_v77 rfl (by decide),
   writes_sub_of main_v78 rfl (by decide),
   writes_sub_of main_v79 rfl (by decide),
   writes_sub_of main_cst_14 rfl (by decide),
   writes_sub_of main_v80 rfl (by decide),
   writes_sub_of main_cst_15 rfl (by decide),
   writes_sub_of main_v81 rfl (by decide),
   writes_sub_of main_c_16 rfl (by decide),
   writes_sub_of main_v82 rfl (by decide),
   writes_sub_of main_v83 rfl (by decide),
   writes_sub_of main_c_17 rfl (by decide),
   writes_sub_of main_v84 rfl (by decide),
   writes_sub_of main_v85 rfl (by decide),
   writes_sub_of main_v86 rfl (by decide),
   writes_sub_of main_v87 rfl (by decide),
   writes_sub_of main_v88 rfl (by decide),
   writes_sub_of main_c_18 rfl (by decide),
   writes_sub_of main_v89 rfl (by decide),
   writes_sub_of main_v90 rfl (by decide),
   writes_sub_of main_c_19 rfl (by decide),
   writes_sub_of main_v91 rfl (by decide),
   writes_sub_of main_v92 rfl (by decide),
   writes_sub_of main_v93 rfl (by decide),
   writes_sub_of main_v94 rfl (by decide),
   writes_sub_of main_v95 rfl (by decide),
   writes_sub_of main_c_20 rfl (by decide),
   writes_sub_of main_v96 rfl (by decide)⟩
/-- Item 16 changes no buffer outside its list. -/
theorem keep16 (c : Dev nD) (r : Ref sig .tc) (h : r ∉ L16) :
    W17 m ρ c (Proc.devRef .tc r) = W16 m ρ c (Proc.devRef .tc r) :=
  StableHlo.after_of_writes_sub main_part1_ops3 _ main_part1_ops3_writes h

/-- Item 17, a stretch of 37 host operations: the references they write, in order. -/
abbrev L17 : List (Ref sig .tc) :=
  [main_v97, main_c_21, main_v98, main_v99, main_v100, main_v101, main_v102, main_c_22, main_v103, main_v104, main_c_23, main_v105, main_v106, main_v107, main_v108, main_v109, main_c_24, main_v110, main_v111, main_c_25, main_v112, main_v113, main_v114, main_v115, main_v116, main_c_26, main_v117, main_v118, main_c_27, main_v119, main_v120, main_v121, main_v122, main_v123, main_v124, main_v125, main_v126]
theorem main_part2_ops0_writes : (main_part2_ops0 : List (HloOp τ sig (Elt F))).Forall fun op => op.writes ⊆ (L17.map (Proc.devRef (τ := τ) .tc)).toFinset :=
  ⟨writes_sub_of main_v97 rfl (by decide),
   writes_sub_of main_c_21 rfl (by decide),
   writes_sub_of main_v98 rfl (by decide),
   writes_sub_of main_v99 rfl (by decide),
   writes_sub_of main_v100 rfl (by decide),
   writes_sub_of main_v101 rfl (by decide),
   writes_sub_of main_v102 rfl (by decide),
   writes_sub_of main_c_22 rfl (by decide),
   writes_sub_of main_v103 rfl (by decide),
   writes_sub_of main_v104 rfl (by decide),
   writes_sub_of main_c_23 rfl (by decide),
   writes_sub_of main_v105 rfl (by decide),
   writes_sub_of main_v106 rfl (by decide),
   writes_sub_of main_v107 rfl (by decide),
   writes_sub_of main_v108 rfl (by decide),
   writes_sub_of main_v109 rfl (by decide),
   writes_sub_of main_c_24 rfl (by decide),
   writes_sub_of main_v110 rfl (by decide),
   writes_sub_of main_v111 rfl (by decide),
   writes_sub_of main_c_25 rfl (by decide),
   writes_sub_of main_v112 rfl (by decide),
   writes_sub_of main_v113 rfl (by decide),
   writes_sub_of main_v114 rfl (by decide),
   writes_sub_of main_v115 rfl (by decide),
   writes_sub_of main_v116 rfl (by decide),
   writes_sub_of main_c_26 rfl (by decide),
   writes_sub_of main_v117 rfl (by decide),
   writes_sub_of main_v118 rfl (by decide),
   writes_sub_of main_c_27 rfl (by decide),
   writes_sub_of main_v119 rfl (by decide),
   writes_sub_of main_v120 rfl (by decide),
   writes_sub_of main_v121 rfl (by decide),
   writes_sub_of main_v122 rfl (by decide),
   writes_sub_of main_v123 rfl (by decide),
   writes_sub_of main_v124 rfl (by decide),
   writes_sub_of main_v125 rfl (by decide),
   writes_sub_of main_v126 rfl (by decide)⟩
/-- Item 17 changes no buffer outside its list. -/
theorem keep17 (c : Dev nD) (r : Ref sig .tc) (h : r ∉ L17) :
    W18 m ρ c (Proc.devRef .tc r) = W17 m ρ c (Proc.devRef .tc r) :=
  StableHlo.after_of_writes_sub main_part2_ops0 _ main_part2_ops0_writes h

/-- Item 18, region 7: the array of its output window. -/
abbrev L18 : List (Ref sig .tc) := [main_v127]
/-- Item 18 changes no buffer but its output window's array: an input window's array ends as entered, a buffer that is
    no array of the region is left as entered. -/
theorem keep18 (c : Dev nD) (r : Ref sig .tc) (h : r ∉ L18) :
    W19 m ρ c (Proc.devRef .tc r) = W18 m ρ c (Proc.devRef .tc r) := by
  by_cases h0 : r = main_v88
  · subst h0; exact (W19_arr m ρ c 0).trans (((dat7 (V18 m ρ) c).arrAt_in 0 rfl _).trans (A_eq7 (V18 m ρ) c 0))
  by_cases h1 : r = main_v95
  · subst h1; exact (W19_arr m ρ c 1).trans (((dat7 (V18 m ρ) c).arrAt_in 1 rfl _).trans (A_eq7 (V18 m ρ) c 1))
  by_cases h2 : r = main_v102
  · subst h2; exact (W19_arr m ρ c 2).trans (((dat7 (V18 m ρ) c).arrAt_in 2 rfl _).trans (A_eq7 (V18 m ρ) c 2))
  by_cases h3 : r = main_v109
  · subst h3; exact (W19_arr m ρ c 3).trans (((dat7 (V18 m ρ) c).arrAt_in 3 rfl _).trans (A_eq7 (V18 m ρ) c 3))
  by_cases h4 : r = main_v116
  · subst h4; exact (W19_arr m ρ c 4).trans (((dat7 (V18 m ρ) c).arrAt_in 4 rfl _).trans (A_eq7 (V18 m ρ) c 4))
  by_cases h5 : r = main_v123
  · subst h5; exact (W19_arr m ρ c 5).trans (((dat7 (V18 m ρ) c).arrAt_in 5 rfl _).trans (A_eq7 (V18 m ρ) c 5))
  by_cases h6 : r = main_v124
  · subst h6; exact (W19_arr m ρ c 6).trans (((dat7 (V18 m ρ) c).arrAt_in 6 rfl _).trans (A_eq7 (V18 m ρ) c 6))
  by_cases h7 : r = main_v125
  · subst h7; exact (W19_arr m ρ c 7).trans (((dat7 (V18 m ρ) c).arrAt_in 7 rfl _).trans (A_eq7 (V18 m ρ) c 7))
  by_cases h8 : r = main_v126
  · subst h8; exact (W19_arr m ρ c 8).trans (((dat7 (V18 m ρ) c).arrAt_in 8 rfl _).trans (A_eq7 (V18 m ρ) c 8))
  refine W19_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => h6 e.symm
  | ⟨7, _⟩ => exact fun e => h7 e.symm
  | ⟨8, _⟩ => exact fun e => h8 e.symm
  | ⟨9, _⟩ => exact fun e => h (List.mem_singleton.mpr e.symm)

/-- Item 19, a stretch of 9 host operations: the references they write, in order. -/
abbrev L19 : List (Ref sig .tc) :=
  [main_v128, main_v129, main_v130, main_v131, main_v132, main_cst_28, main_v133, main_v134, main_v135]
theorem main_part2_ops1_writes : (main_part2_ops1 : List (HloOp τ sig (Elt F))).Forall fun op => op.writes ⊆ (L19.map (Proc.devRef (τ := τ) .tc)).toFinset :=
  ⟨writes_sub_of main_v128 rfl (by decide),
   writes_sub_of main_v129 rfl (by decide),
   writes_sub_of main_v130 rfl (by decide),
   writes_sub_of main_v131 rfl (by decide),
   writes_sub_of main_v132 rfl (by decide),
   writes_sub_of main_cst_28 rfl (by decide),
   writes_sub_of main_v133 rfl (by decide),
   writes_sub_of main_v134 rfl (by decide),
   writes_sub_of main_v135 rfl (by decide)⟩
/-- Item 19 changes no buffer outside its list. -/
theorem keep19 (c : Dev nD) (r : Ref sig .tc) (h : r ∉ L19) :
    W20 m ρ c (Proc.devRef .tc r) = W19 m ρ c (Proc.devRef .tc r) :=
  StableHlo.after_of_writes_sub main_part2_ops1 _ main_part2_ops1_writes h

end Cert.Kernel.Hand

end
-- ==== Proof.K.Args.lean ====
/-
  The arguments end as launched. No item of @main lists an argument among the buffers it may change: no stretch of
  host operations writes one, and no region has one as its output window's array. Walking the twenty items back from
  the last boundary, each argument's buffer there holds what the launch memory held. With the run, this is the frame
  claim.
-/
import proofs.«160566_j58506044506613_1_alg».proof.Proof.K.Run
import proofs.«160566_j58506044506613_1_alg».proof.Proof.K.Steps

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## No item changes an argument -/

/-- This argument's buffer at the last boundary holds what the launch memory held. -/
theorem W20_main_arg0 (c : Dev nD) : W20 m ρ c (Proc.devRef .tc main_arg0) = m ((c : Thread nD τ).loc main_arg0) :=
  (keep19 m ρ c main_arg0 (by decide)).trans <|
  (keep18 m ρ c main_arg0 (by decide)).trans <|
  (keep17 m ρ c main_arg0 (by decide)).trans <|
  (keep16 m ρ c main_arg0 (by decide)).trans <|
  (keep15 m ρ c main_arg0 (by decide)).trans <|
  (keep14 m ρ c main_arg0 (by decide)).trans <|
  (keep13 m ρ c main_arg0 (by decide)).trans <|
  (keep12 m ρ c main_arg0 (by decide)).trans <|
  (keep11 m ρ c main_arg0 (by decide)).trans <|
  (keep10 m ρ c main_arg0 (by decide)).trans <|
  (keep9 m ρ c main_arg0 (by decide)).trans <|
  (keep8 m ρ c main_arg0 (by decide)).trans <|
  (keep7 m ρ c main_arg0 (by decide)).trans <|
  (keep6 m ρ c main_arg0 (by decide)).trans <|
  (keep5 m ρ c main_arg0 (by decide)).trans <|
  (keep4 m ρ c main_arg0 (by decide)).trans <|
  (keep3 m ρ c main_arg0 (by decide)).trans <|
  (keep2 m ρ c main_arg0 (by decide)).trans <|
  (keep1 m ρ c main_arg0 (by decide)).trans <|
  (keep0 m ρ c main_arg0 (by decide)).trans <|
  rfl
/-- This argument's buffer at the last boundary holds what the launch memory held. -/
theorem W20_main_arg1 (c : Dev nD) : W20 m ρ c (Proc.devRef .tc main_arg1) = m ((c : Thread nD τ).loc main_arg1) :=
  (keep19 m ρ c main_arg1 (by decide)).trans <|
  (keep18 m ρ c main_arg1 (by decide)).trans <|
  (keep17 m ρ c main_arg1 (by decide)).trans <|
  (keep16 m ρ c main_arg1 (by decide)).trans <|
  (keep15 m ρ c main_arg1 (by decide)).trans <|
  (keep14 m ρ c main_arg1 (by decide)).trans <|
  (keep13 m ρ c main_arg1 (by decide)).trans <|
  (keep12 m ρ c main_arg1 (by decide)).trans <|
  (keep11 m ρ c main_arg1 (by decide)).trans <|
  (keep10 m ρ c main_arg1 (by decide)).trans <|
  (keep9 m ρ c main_arg1 (by decide)).trans <|
  (keep8 m ρ c main_arg1 (by decide)).trans <|
  (keep7 m ρ c main_arg1 (by decide)).trans <|
  (keep6 m ρ c main_arg1 (by decide)).trans <|
  (keep5 m ρ c main_arg1 (by decide)).trans <|
  (keep4 m ρ c main_arg1 (by decide)).trans <|
  (keep3 m ρ c main_arg1 (by decide)).trans <|
  (keep2 m ρ c main_arg1 (by decide)).trans <|
  (keep1 m ρ c main_arg1 (by decide)).trans <|
  (keep0 m ρ c main_arg1 (by decide)).trans <|
  rfl
/-- This argument's buffer at the last boundary holds what the launch memory held. -/
theorem W20_main_arg2 (c : Dev nD) : W20 m ρ c (Proc.devRef .tc main_arg2) = m ((c : Thread nD τ).loc main_arg2) :=
  (keep19 m ρ c main_arg2 (by decide)).trans <|
  (keep18 m ρ c main_arg2 (by decide)).trans <|
  (keep17 m ρ c main_arg2 (by decide)).trans <|
  (keep16 m ρ c main_arg2 (by decide)).trans <|
  (keep15 m ρ c main_arg2 (by decide)).trans <|
  (keep14 m ρ c main_arg2 (by decide)).trans <|
  (keep13 m ρ c main_arg2 (by decide)).trans <|
  (keep12 m ρ c main_arg2 (by decide)).trans <|
  (keep11 m ρ c main_arg2 (by decide)).trans <|
  (keep10 m ρ c main_arg2 (by decide)).trans <|
  (keep9 m ρ c main_arg2 (by decide)).trans <|
  (keep8 m ρ c main_arg2 (by decide)).trans <|
  (keep7 m ρ c main_arg2 (by decide)).trans <|
  (keep6 m ρ c main_arg2 (by decide)).trans <|
  (keep5 m ρ c main_arg2 (by decide)).trans <|
  (keep4 m ρ c main_arg2 (by decide)).trans <|
  (keep3 m ρ c main_arg2 (by decide)).trans <|
  (keep2 m ρ c main_arg2 (by decide)).trans <|
  (keep1 m ρ c main_arg2 (by decide)).trans <|
  (keep0 m ρ c main_arg2 (by decide)).trans <|
  rfl
/-- This argument's buffer at the last boundary holds what the launch memory held. -/
theorem W20_main_arg3 (c : Dev nD) : W20 m ρ c (Proc.devRef .tc main_arg3) = m ((c : Thread nD τ).loc main_arg3) :=
  (keep19 m ρ c main_arg3 (by decide)).trans <|
  (keep18 m ρ c main_arg3 (by decide)).trans <|
  (keep17 m ρ c main_arg3 (by decide)).trans <|
  (keep16 m ρ c main_arg3 (by decide)).trans <|
  (keep15 m ρ c main_arg3 (by decide)).trans <|
  (keep14 m ρ c main_arg3 (by decide)).trans <|
  (keep13 m ρ c main_arg3 (by decide)).trans <|
  (keep12 m ρ c main_arg3 (by decide)).trans <|
  (keep11 m ρ c main_arg3 (by decide)).trans <|
  (keep10 m ρ c main_arg3 (by decide)).trans <|
  (keep9 m ρ c main_arg3 (by decide)).trans <|
  (keep8 m ρ c main_arg3 (by decide)).trans <|
  (keep7 m ρ c main_arg3 (by decide)).trans <|
  (keep6 m ρ c main_arg3 (by decide)).trans <|
  (keep5 m ρ c main_arg3 (by decide)).trans <|
  (keep4 m ρ c main_arg3 (by decide)).trans <|
  (keep3 m ρ c main_arg3 (by decide)).trans <|
  (keep2 m ρ c main_arg3 (by decide)).trans <|
  (keep1 m ρ c main_arg3 (by decide)).trans <|
  (keep0 m ρ c main_arg3 (by decide)).trans <|
  rfl
/-- This argument's buffer at the last boundary holds what the launch memory held. -/
theorem W20_main_arg4 (c : Dev nD) : W20 m ρ c (Proc.devRef .tc main_arg4) = m ((c : Thread nD τ).loc main_arg4) :=
  (keep19 m ρ c main_arg4 (by decide)).trans <|
  (keep18 m ρ c main_arg4 (by decide)).trans <|
  (keep17 m ρ c main_arg4 (by decide)).trans <|
  (keep16 m ρ c main_arg4 (by decide)).trans <|
  (keep15 m ρ c main_arg4 (by decide)).trans <|
  (keep14 m ρ c main_arg4 (by decide)).trans <|
  (keep13 m ρ c main_arg4 (by decide)).trans <|
  (keep12 m ρ c main_arg4 (by decide)).trans <|
  (keep11 m ρ c main_arg4 (by decide)).trans <|
  (keep10 m ρ c main_arg4 (by decide)).trans <|
  (keep9 m ρ c main_arg4 (by decide)).trans <|
  (keep8 m ρ c main_arg4 (by decide)).trans <|
  (keep7 m ρ c main_arg4 (by decide)).trans <|
  (keep6 m ρ c main_arg4 (by decide)).trans <|
  (keep5 m ρ c main_arg4 (by decide)).trans <|
  (keep4 m ρ c main_arg4 (by decide)).trans <|
  (keep3 m ρ c main_arg4 (by decide)).trans <|
  (keep2 m ρ c main_arg4 (by decide)).trans <|
  (keep1 m ρ c main_arg4 (by decide)).trans <|
  (keep0 m ρ c main_arg4 (by decide)).trans <|
  rfl
/-- This argument's buffer at the last boundary holds what the launch memory held. -/
theorem W20_main_arg5 (c : Dev nD) : W20 m ρ c (Proc.devRef .tc main_arg5) = m ((c : Thread nD τ).loc main_arg5) :=
  (keep19 m ρ c main_arg5 (by decide)).trans <|
  (keep18 m ρ c main_arg5 (by decide)).trans <|
  (keep17 m ρ c main_arg5 (by decide)).trans <|
  (keep16 m ρ c main_arg5 (by decide)).trans <|
  (keep15 m ρ c main_arg5 (by decide)).trans <|
  (keep14 m ρ c main_arg5 (by decide)).trans <|
  (keep13 m ρ c main_arg5 (by decide)).trans <|
  (keep12 m ρ c main_arg5 (by decide)).trans <|
  (keep11 m ρ c main_arg5 (by decide)).trans <|
  (keep10 m ρ c main_arg5 (by decide)).trans <|
  (keep9 m ρ c main_arg5 (by decide)).trans <|
  (keep8 m ρ c main_arg5 (by decide)).trans <|
  (keep7 m ρ c main_arg5 (by decide)).trans <|
  (keep6 m ρ c main_arg5 (by decide)).trans <|
  (keep5 m ρ c main_arg5 (by decide)).trans <|
  (keep4 m ρ c main_arg5 (by decide)).trans <|
  (keep3 m ρ c main_arg5 (by decide)).trans <|
  (keep2 m ρ c main_arg5 (by decide)).trans <|
  (keep1 m ρ c main_arg5 (by decide)).trans <|
  (keep0 m ρ c main_arg5 (by decide)).trans <|
  rfl
/-- This argument's buffer at the last boundary holds what the launch memory held. -/
theorem W20_main_arg6 (c : Dev nD) : W20 m ρ c (Proc.devRef .tc main_arg6) = m ((c : Thread nD τ).loc main_arg6) :=
  (keep19 m ρ c main_arg6 (by decide)).trans <|
  (keep18 m ρ c main_arg6 (by decide)).trans <|
  (keep17 m ρ c main_arg6 (by decide)).trans <|
  (keep16 m ρ c main_arg6 (by decide)).trans <|
  (keep15 m ρ c main_arg6 (by decide)).trans <|
  (keep14 m ρ c main_arg6 (by decide)).trans <|
  (keep13 m ρ c main_arg6 (by decide)).trans <|
  (keep12 m ρ c main_arg6 (by decide)).trans <|
  (keep11 m ρ c main_arg6 (by decide)).trans <|
  (keep10 m ρ c main_arg6 (by decide)).trans <|
  (keep9 m ρ c main_arg6 (by decide)).trans <|
  (keep8 m ρ c main_arg6 (by decide)).trans <|
  (keep7 m ρ c main_arg6 (by decide)).trans <|
  (keep6 m ρ c main_arg6 (by decide)).trans <|
  (keep5 m ρ c main_arg6 (by decide)).trans <|
  (keep4 m ρ c main_arg6 (by decide)).trans <|
  (keep3 m ρ c main_arg6 (by decide)).trans <|
  (keep2 m ρ c main_arg6 (by decide)).trans <|
  (keep1 m ρ c main_arg6 (by decide)).trans <|
  (keep0 m ρ c main_arg6 (by decide)).trans <|
  rfl
/-- This argument's buffer at the last boundary holds what the launch memory held. -/
theorem W20_main_arg7 (c : Dev nD) : W20 m ρ c (Proc.devRef .tc main_arg7) = m ((c : Thread nD τ).loc main_arg7) :=
  (keep19 m ρ c main_arg7 (by decide)).trans <|
  (keep18 m ρ c main_arg7 (by decide)).trans <|
  (keep17 m ρ c main_arg7 (by decide)).trans <|
  (keep16 m ρ c main_arg7 (by decide)).trans <|
  (keep15 m ρ c main_arg7 (by decide)).trans <|
  (keep14 m ρ c main_arg7 (by decide)).trans <|
  (keep13 m ρ c main_arg7 (by decide)).trans <|
  (keep12 m ρ c main_arg7 (by decide)).trans <|
  (keep11 m ρ c main_arg7 (by decide)).trans <|
  (keep10 m ρ c main_arg7 (by decide)).trans <|
  (keep9 m ρ c main_arg7 (by decide)).trans <|
  (keep8 m ρ c main_arg7 (by decide)).trans <|
  (keep7 m ρ c main_arg7 (by decide)).trans <|
  (keep6 m ρ c main_arg7 (by decide)).trans <|
  (keep5 m ρ c main_arg7 (by decide)).trans <|
  (keep4 m ρ c main_arg7 (by decide)).trans <|
  (keep3 m ρ c main_arg7 (by decide)).trans <|
  (keep2 m ρ c main_arg7 (by decide)).trans <|
  (keep1 m ρ c main_arg7 (by decide)).trans <|
  (keep0 m ρ c main_arg7 (by decide)).trans <|
  rfl
/-- This argument's buffer at the last boundary holds what the launch memory held. -/
theorem W20_main_arg8 (c : Dev nD) : W20 m ρ c (Proc.devRef .tc main_arg8) = m ((c : Thread nD τ).loc main_arg8) :=
  (keep19 m ρ c main_arg8 (by decide)).trans <|
  (keep18 m ρ c main_arg8 (by decide)).trans <|
  (keep17 m ρ c main_arg8 (by decide)).trans <|
  (keep16 m ρ c main_arg8 (by decide)).trans <|
  (keep15 m ρ c main_arg8 (by decide)).trans <|
  (keep14 m ρ c main_arg8 (by decide)).trans <|
  (keep13 m ρ c main_arg8 (by decide)).trans <|
  (keep12 m ρ c main_arg8 (by decide)).trans <|
  (keep11 m ρ c main_arg8 (by decide)).trans <|
  (keep10 m ρ c main_arg8 (by decide)).trans <|
  (keep9 m ρ c main_arg8 (by decide)).trans <|
  (keep8 m ρ c main_arg8 (by decide)).trans <|
  (keep7 m ρ c main_arg8 (by decide)).trans <|
  (keep6 m ρ c main_arg8 (by decide)).trans <|
  (keep5 m ρ c main_arg8 (by decide)).trans <|
  (keep4 m ρ c main_arg8 (by decide)).trans <|
  (keep3 m ρ c main_arg8 (by decide)).trans <|
  (keep2 m ρ c main_arg8 (by decide)).trans <|
  (keep1 m ρ c main_arg8 (by decide)).trans <|
  (keep0 m ρ c main_arg8 (by decide)).trans <|
  rfl
/-- This argument's buffer at the last boundary holds what the launch memory held. -/
theorem W20_main_arg9 (c : Dev nD) : W20 m ρ c (Proc.devRef .tc main_arg9) = m ((c : Thread nD τ).loc main_arg9) :=
  (keep19 m ρ c main_arg9 (by decide)).trans <|
  (keep18 m ρ c main_arg9 (by decide)).trans <|
  (keep17 m ρ c main_arg9 (by decide)).trans <|
  (keep16 m ρ c main_arg9 (by decide)).trans <|
  (keep15 m ρ c main_arg9 (by decide)).trans <|
  (keep14 m ρ c main_arg9 (by decide)).trans <|
  (keep13 m ρ c main_arg9 (by decide)).trans <|
  (keep12 m ρ c main_arg9 (by decide)).trans <|
  (keep11 m ρ c main_arg9 (by decide)).trans <|
  (keep10 m ρ c main_arg9 (by decide)).trans <|
  (keep9 m ρ c main_arg9 (by decide)).trans <|
  (keep8 m ρ c main_arg9 (by decide)).trans <|
  (keep7 m ρ c main_arg9 (by decide)).trans <|
  (keep6 m ρ c main_arg9 (by decide)).trans <|
  (keep5 m ρ c main_arg9 (by decide)).trans <|
  (keep4 m ρ c main_arg9 (by decide)).trans <|
  (keep3 m ρ c main_arg9 (by decide)).trans <|
  (keep2 m ρ c main_arg9 (by decide)).trans <|
  (keep1 m ρ c main_arg9 (by decide)).trans <|
  (keep0 m ρ c main_arg9 (by decide)).trans <|
  rfl

/-! ## The frame claim -/

/-- From any memory with zero counters, every weakly fair execution of @main on the cores terminates, nothing
    faulting, and every final state has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c)⟩) (run_main m ρ)

end Cert.Kernel.Hand

end
-- ==== Proof.KI.Reg0.lean ====
/-
  Region 0 (the first layer's product of the node features with its weights, 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.KernelIdeal.Launch
import proofs.«160566_j58506044506613_1_alg».proof.Proof.Gen.KernelIdeal.Skeleton
import proofs.«160566_j58506044506613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each staging buffer. -/
abbrev rA0 : Rect S5000x256 := Rect.unit (s := S5000x256) ![0, 0] S5000x256.size inb_S5000x256_S5000x256_0_0
abbrev rB0 : Rect S256x256 := Rect.unit (s := S256x256) ![0, 0] S256x256.size inb_S256x256_S256x256_0_0
abbrev rO0 : Rect S5000x256 := Rect.unit (s := S5000x256) ![0, 0] S5000x256.size inb_S5000x256_S5000x256_0_0

/-- The output's staging buffer after the body, from the two input blocks: its one store. -/
def out0 (x0 : Vec F S5000x256 .f32) (x1 : Vec F S256x256 .f32) : Vec F S5000x256 .f32 :=
  View.canon [⟨rO0, k0_pay1 (View.ld x0 rA0) (View.ld x1 rB0)⟩]

/-- The one store covers the buffer. -/
theorem cover0 (p0 : Vec F S5000x256 .f32) (y : S5000x256.Idx) :
    ∃ pc ∈ ([⟨rO0, p0⟩] : List (View.Piece (Elt F) S5000x256 .f32)), y ∈ pc.1.set :=
  View.cover_of_tiled [⟨rO0, p0⟩] S5000x256.size (by rfl) y

set_option maxHeartbeats 1000000 in
/-- The body on whole staging memrefs, the inputs' at contents x0, x1 and the output's at anything, runs to the
    continuation holding the inputs' as they were and the output's at out0 of them. -/
theorem sound_kernel0 (c : Dev nD) (E : Set ℕ) (i : grid0.Coords) (arg1 : Memref sig .tc .vmem S5000x256 .f32) (harg1 : arg1.IsWhole)
    (arg2 : Memref sig .tc .vmem S256x256 .f32) (harg2 : arg2.IsWhole) (arg3 : Memref sig .tc .vmem S5000x256 .f32) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of pipeline 0 on core c: the arrays as the region finds them; after the body at point t each
    input's buffer at its block and the output's at out0 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 (the first layer's bias row added to 5000 rows at a time, then the maximum with zero) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.KernelIdeal.Launch
import proofs.«160566_j58506044506613_1_alg».proof.Proof.Gen.KernelIdeal.Skeleton
import proofs.«160566_j58506044506613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each staging buffer. -/
abbrev rA1 : Rect S5000x256 := Rect.unit (s := S5000x256) ![0, 0] S5000x256.size inb_S5000x256_S5000x256_0_0
abbrev rB1 : Rect S1x256 := Rect.unit (s := S1x256) ![0, 0] S1x256.size inb_S1x256_S1x256_0_0
abbrev rO1 : Rect S5000x256 := Rect.unit (s := S5000x256) ![0, 0] S5000x256.size inb_S5000x256_S5000x256_0_0

/-- The output's staging buffer after the body, from the two input blocks: its one store. -/
def out1 (x0 : Vec F S5000x256 .f32) (x1 : Vec F S1x256 .f32) : Vec F S5000x256 .f32 :=
  View.canon [⟨rO1, k1_pay1 (View.ld x0 rA1) (View.ld x1 rB1)⟩]

/-- The one store covers the buffer. -/
theorem cover1 (p0 : Vec F S5000x256 .f32) (y : S5000x256.Idx) :
    ∃ pc ∈ ([⟨rO1, p0⟩] : List (View.Piece (Elt F) S5000x256 .f32)), y ∈ pc.1.set :=
  View.cover_of_tiled [⟨rO1, p0⟩] S5000x256.size (by rfl) y

set_option maxHeartbeats 1000000 in
/-- The body on whole staging memrefs, the inputs' at contents x0, x1 and the output's at anything, runs to the
    continuation holding the inputs' as they were and the output's at out1 of them. -/
theorem sound_kernel1 (c : Dev nD) (E : Set ℕ) (i : grid1.Coords) (arg1 : Memref sig .tc .vmem S5000x256 .f32) (harg1 : arg1.IsWhole)
    (arg2 : Memref sig .tc .vmem S1x256 .f32) (harg2 : arg2.IsWhole) (arg3 : Memref sig .tc .vmem S5000x256 .f32) (harg3 : arg3.IsWhole)
    (x0 : Vec F S5000x256 .f32) (x1 : Vec F S1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of pipeline 1 on core c: the arrays as the region finds them; after the body at point t each
    input's buffer at its block and the output's at out1 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 (the second layer's product of the hidden rows with its weights, 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.KernelIdeal.Launch
import proofs.«160566_j58506044506613_1_alg».proof.Proof.Gen.KernelIdeal.Skeleton
import proofs.«160566_j58506044506613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each staging buffer. -/
abbrev rA2 : Rect S5000x256 := Rect.unit (s := S5000x256) ![0, 0] S5000x256.size inb_S5000x256_S5000x256_0_0
abbrev rB2 : Rect S256x256 := Rect.unit (s := S256x256) ![0, 0] S256x256.size inb_S256x256_S256x256_0_0
abbrev rO2 : Rect S5000x256 := Rect.unit (s := S5000x256) ![0, 0] S5000x256.size inb_S5000x256_S5000x256_0_0

/-- The output's staging buffer after the body, from the two input blocks: its one store. -/
def out2 (x0 : Vec F S5000x256 .f32) (x1 : Vec F S256x256 .f32) : Vec F S5000x256 .f32 :=
  View.canon [⟨rO2, k2_pay1 (View.ld x0 rA2) (View.ld x1 rB2)⟩]

/-- The one store covers the buffer. -/
theorem cover2 (p0 : Vec F S5000x256 .f32) (y : S5000x256.Idx) :
    ∃ pc ∈ ([⟨rO2, p0⟩] : List (View.Piece (Elt F) S5000x256 .f32)), y ∈ pc.1.set :=
  View.cover_of_tiled [⟨rO2, p0⟩] S5000x256.size (by rfl) y

set_option maxHeartbeats 1000000 in
/-- The body on whole staging memrefs, the inputs' at contents x0, x1 and the output's at anything, runs to the
    continuation holding the inputs' as they were and the output's at out2 of them. -/
theorem sound_kernel2 (c : Dev nD) (E : Set ℕ) (i : grid2.Coords) (arg1 : Memref sig .tc .vmem S5000x256 .f32) (harg1 : arg1.IsWhole)
    (arg2 : Memref sig .tc .vmem S256x256 .f32) (harg2 : arg2.IsWhole) (arg3 : Memref sig .tc .vmem S5000x256 .f32) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of pipeline 2 on core c: the arrays as the region finds them; after the body at point t each
    input's buffer at its block and the output's at out2 of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 (the second layer's bias row added to 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.KernelIdeal.Launch
import proofs.«160566_j58506044506613_1_alg».proof.Proof.Gen.KernelIdeal.Skeleton
import proofs.«160566_j58506044506613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole rectangle of each staging buffer. -/
abbrev rA3 : Rect S5000x256 := Rect.unit (s := S5000x256) ![0, 0] S5000x256.size inb_S5000x256_S5000x256_0_0
abbrev rB3 : Rect S1x256 := Rect.unit (s := S1x256) ![0, 0] S1x256.size inb_S1x256_S1x256_0_0
abbrev rO3 : Rect S5000x256 := Rect.unit (s := S5000x256) ![0, 0] S5000x256.size inb_S5000x256_S5000x256_0_0

/-- The output's staging buffer after the body, from the two input blocks: its one store. -/
def out3 (x0 : Vec F S5000x256 .f32) (x1 : Vec F S1x256 .f32) : Vec F S5000x256 .f32 :=
  View.canon [⟨rO3, k3_pay1 (View.ld x0 rA3) (View.ld x1 rB3)⟩]

/-- The one store covers the buffer. -/
theorem cover3 (p0 : Vec F S5000x256 .f32) (y : S5000x256.Idx) :
    ∃ pc ∈ ([⟨rO3, p0⟩] : List (View.Piece (Elt F) S5000x256 .f32)), y ∈ pc.1.set :=
  View.cover_of_tiled [⟨rO3, p0⟩] S5000x256.size (by rfl) y

set_option maxHeartbeats 1000000 in
/-- The body on whole staging memrefs, the inputs' at contents x0, x1 and the output's at anything, runs to the
    continuation holding the inputs' as they were and the output's at out3 of them. -/
theorem sound_kernel3 (c : Dev nD) (E : Set ℕ) (i : grid3.Coords) (arg1 : Memref sig .tc .vmem S5000x256 .f32) (harg1 : arg1.IsWhole)
    (arg2 : Memref sig .tc .vmem S1x256 .f32) (harg2 : arg2.IsWhole) (arg3 : Memref sig .tc .vmem S5000x256 .f32) (harg3 : arg3.IsWhole)
    (x0 : Vec F S5000x256 .f32) (x1 : Vec F S1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The proof data of pipeline 3 on core c: the arrays as the region finds them; after the body at point t each
    input's buffer at its block and the output's at out3 of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 (each row divided by the larger of its Euclidean norm and a tiny constant, twice over, 5000 rows at a
  time) at the contents V the region is entered from: a block of the input is staged, the body reads it whole and
  overwrites the output's staging buffer whole with the payload of the block, and the block is written back. Stated
  here: what each window's staging buffer holds after the body at a grid point, the body's triple, and the body
  obligation at every point.
-/
import proofs.«160566_j58506044506613_1_alg».proof.Proof.Gen.KernelIdeal.Launch
import proofs.«160566_j58506044506613_1_alg».proof.Proof.Gen.KernelIdeal.Skeleton
import proofs.«160566_j58506044506613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The whole rectangle of a staging buffer. -/
abbrev rA4 : Rect S5000x256 := Rect.unit (s := S5000x256) ![0, 0] S5000x256.size inb_S5000x256_S5000x256_0_0

/-- The output's staging buffer after the body, from the input block: its one store. -/
def out4 (x0 : Vec F S5000x256 .f32) : Vec F S5000x256 .f32 :=
  View.canon [⟨rA4, k4_pay1 (View.ld x0 rA4)⟩]

/-- The one store covers the buffer. -/
theorem cover4 (p0 : Vec F S5000x256 .f32) (y : S5000x256.Idx) :
    ∃ pc ∈ ([⟨rA4, p0⟩] : List (View.Piece (Elt F) S5000x256 .f32)), y ∈ pc.1.set :=
  View.cover_of_tiled [⟨rA4, p0⟩] S5000x256.size (by rfl) y

set_option maxHeartbeats 1000000 in
/-- The body on whole staging memrefs, the input's at contents x0 and the output's at anything, runs to the
    continuation holding the input's as it was and the output's at out4 of it. -/
theorem sound_kernel4 (c : Dev nD) (E : Set ℕ) (i : grid4.Coords) (arg1 : Memref sig .tc .vmem S5000x256 .f32) (harg1 : arg1.IsWhole)
    (arg2 : Memref sig .tc .vmem S5000x256 .f32) (harg2 : arg2.IsWhole)
    (x0 : Vec F S5000x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4 x0)) -∗ K ⟨⟩))
      ⊢ wp frame (wpE (defs₀ (F := F)) Variants.none c none) E (cc4__l2norm_kernel i arg1 harg1 arg2 harg2) K := by
  simp only [cc4__l2norm_kernel_eq_skeleton]; unfold cc4__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4 _)

/-- The proof data of pipeline 4 on core c: the arrays as the region finds them; after the body at point t the
    input's buffer at its block and the output's at out4 of it; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4 (iblk4 V c 0 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4 (iblk4 V c 0 t) := by dsimp only [dat4]

theorem before4_0 (c : Dev nD) (t : Fin cfg4.N) (d) : (dat4 V c).before 0 t d = iblk4 V c 0 t :=
  before4_0_of V (dat4 V c) (A_eq4 V c 0) (after4_0 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  Region 5 (the read-out's product of the normalised rows with its weights, 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.KernelIdeal.Launch
import proofs.«160566_j58506044506613_1_alg».proof.Proof.Gen.KernelIdeal.Skeleton
import proofs.«160566_j58506044506613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (unfetched, the
    block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole rectangle of each staging buffer. -/
abbrev rA5 : Rect S5000x256 := Rect.unit (s := S5000x256) ![0, 0] S5000x256.size inb_S5000x256_S5000x256_0_0
abbrev rB5 : Rect S256x64 := Rect.unit (s := S256x64) ![0, 0] S256x64.size inb_S256x64_S256x64_0_0
abbrev rO5 : Rect S5000x64 := Rect.unit (s := S5000x64) ![0, 0] S5000x64.size inb_S5000x64_S5000x64_0_0

/-- The output's staging buffer after the body, from the two input blocks: its one store. -/
def out5 (x0 : Vec F S5000x256 .f32) (x1 : Vec F S256x64 .f32) : Vec F S5000x64 .f32 :=
  View.canon [⟨rO5, k5_pay1 (View.ld x0 rA5) (View.ld x1 rB5)⟩]

/-- The one store covers the buffer. -/
theorem cover5 (p0 : Vec F S5000x64 .f32) (y : S5000x64.Idx) :
    ∃ pc ∈ ([⟨rO5, p0⟩] : List (View.Piece (Elt F) S5000x64 .f32)), y ∈ pc.1.set :=
  View.cover_of_tiled [⟨rO5, p0⟩] S5000x64.size (by rfl) y

set_option maxHeartbeats 1000000 in
/-- The body on whole staging memrefs, the inputs' at contents x0, x1 and the output's at anything, runs to the
    continuation holding the inputs' as they were and the output's at out5 of them. -/
theorem sound_kernel5 (c : Dev nD) (E : Set ℕ) (i : grid5.Coords) (arg1 : Memref sig .tc .vmem S5000x256 .f32) (harg1 : arg1.IsWhole)
    (arg2 : Memref sig .tc .vmem S256x64 .f32) (harg2 : arg2.IsWhole) (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The proof data of pipeline 5 on core c: the arrays as the region finds them; after the body at point t each
    input's buffer at its block and the output's at out5 of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Region 6 (the read-out's bias row added to 5000 rows at a time) at the contents V the region is entered from: a block of each input is staged, the body
  reads both blocks whole and overwrites the output's staging buffer whole with the payload of the two blocks, and
  the block is written back. Stated here: what each window's staging buffer holds after the body at a grid point
  (the inputs their blocks, the output the payload of the two blocks), the body's triple, and the body obligation
  at every point.
-/
import proofs.«160566_j58506044506613_1_alg».proof.Proof.Gen.KernelIdeal.Launch
import proofs.«160566_j58506044506613_1_alg».proof.Proof.Gen.KernelIdeal.Skeleton
import proofs.«160566_j58506044506613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (unfetched, the
    block index has not moved). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole rectangle of each staging buffer. -/
abbrev rA6 : Rect S5000x64 := Rect.unit (s := S5000x64) ![0, 0] S5000x64.size inb_S5000x64_S5000x64_0_0
abbrev rB6 : Rect S1x64 := Rect.unit (s := S1x64) ![0, 0] S1x64.size inb_S1x64_S1x64_0_0
abbrev rO6 : Rect S5000x64 := Rect.unit (s := S5000x64) ![0, 0] S5000x64.size inb_S5000x64_S5000x64_0_0

/-- The output's staging buffer after the body, from the two input blocks: its one store. -/
def out6 (x0 : Vec F S5000x64 .f32) (x1 : Vec F S1x64 .f32) : Vec F S5000x64 .f32 :=
  View.canon [⟨rO6, k6_pay1 (View.ld x0 rA6) (View.ld x1 rB6)⟩]

/-- The one store covers the buffer. -/
theorem cover6 (p0 : Vec F S5000x64 .f32) (y : S5000x64.Idx) :
    ∃ pc ∈ ([⟨rO6, p0⟩] : List (View.Piece (Elt F) S5000x64 .f32)), y ∈ pc.1.set :=
  View.cover_of_tiled [⟨rO6, p0⟩] S5000x64.size (by rfl) y

set_option maxHeartbeats 1000000 in
/-- The body on whole staging memrefs, the inputs' at contents x0, x1 and the output's at anything, runs to the
    continuation holding the inputs' as they were and the output's at out6 of them. -/
theorem sound_kernel6 (c : Dev nD) (E : Set ℕ) (i : grid6.Coords) (arg1 : Memref sig .tc .vmem S5000x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6 x0 x1)) -∗ K ⟨⟩))
      ⊢ wp frame (wpE (defs₀ (F := F)) Variants.none c none) E (cc6__bias_act_kernel i arg1 harg1 arg2 harg2 arg3 harg3) K := by
  simp only [cc6__bias_act_kernel_eq_skeleton]; unfold cc6__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-- The proof data of pipeline 6 on core c: the arrays as the region finds them; after the body at point t each
    input's buffer at its block and the output's at out6 of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/-
  Region 7 (the edge reconstruction loss, 2000 edges at a time over 400 grid points) at the contents V the region is
  entered from: a block of each of the nine inputs is staged; the body resets its two one-element accumulators at the
  first point, adds the point's weighted squared errors of the negative and of the positive edges into them at every
  point, and at the last point only copies the two sums into the two elements of the output's staging buffer, which is
  written back there and nowhere else. Stated here: the two running sums after each point, what each window's staging
  buffer holds after the body at a grid point, the invariant that carries the two sums from point to point, the body's
  triple in its three control cases, and the body obligation at every point.
-/
import proofs.«160566_j58506044506613_1_alg».proof.Proof.Gen.KernelIdeal.Launch
import proofs.«160566_j58506044506613_1_alg».proof.Proof.Gen.KernelIdeal.Skeleton
import proofs.«160566_j58506044506613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- One point's step of the two running sums: the first takes the weighted squared scores of the point's negative
    edges, the second the weighted squared errors of its positive edges. -/
def step7 (c : Dev nD) (t : Fin cfg7.N) (s : Vec F S1x1 .f32 × Vec F S1x1 .f32) : Vec F S1x1 .f32 × Vec F S1x1 .f32 :=
  (k7_pay1 (k7_pay5 (iblk7 V c 2 t) (iblk7 V c 3 t)) (k7_pay7 (iblk7 V c 8 t)) s.1,
   k7_pay2 (k7_pay6 (iblk7 V c 0 t) (iblk7 V c 1 t) (iblk7 V c 4 t) (iblk7 V c 5 t)) (iblk7 V c 6 t) (iblk7 V c 7 t) s.2)

/-- The two running sums after the body at point n: from zero at the first point, one step per point. -/
def accs7 (c : Dev nD) : (n : ℕ) → n < cfg7.N → Vec F S1x1 .f32 × Vec F S1x1 .f32
  | 0, hn => step7 V c ⟨0, hn⟩ (k7_pay3, k7_pay4)
  | n + 1, hn => step7 V c ⟨n + 1, hn⟩ (accs7 c n (Nat.lt_of_succ_lt hn))

/-- The two one-element rectangles of the output's staging buffer. -/
abbrev r00 : Rect S1x2 := Rect.unit (s := S1x2) ![0, 0] S1x1.size inb_S1x2_S1x1_0_0
abbrev r01 : Rect S1x2 := Rect.unit (s := S1x2) ![0, 1] S1x1.size inb_S1x2_S1x1_0_1

/-- The output's staging buffer after the last point's two stores, last first: the first sum at element 0, the
    second at element 1. -/
def out7 (a0 a1 : Vec F S1x1 .f32) : Vec F S1x2 .f32 := View.canon [⟨r01, a1⟩, ⟨r00, a0⟩]

/-- The two accumulators as memrefs: whole scoped buffers of the kernel's own, passed beside the windows. -/
abbrev scM7_0 : Memref sig .tc .vmem S1x1 .f32 := Memref.whole cc7_scratch0
abbrev scM7_1 : Memref sig .tc .vmem S1x1 .f32 := Memref.whole cc7_scratch1

/-- The invariant before position n: before the first point every scoped buffer that is no staging buffer at anything;
    afterwards the two accumulators at the sums the point before left, the other scoped buffers at anything; the
    generator register at some state throughout. -/
def PhiS7 (c : Dev nD) : (n : ℕ) → n ≤ cfg7.N → sProp 𝕄
  | 0, _ => Pipeline.ΦA spec7 c
  | n + 1, hn => iprop(iprop(iprop(owns (c : Thread nD τ) scM7_0 fullShare (accs7 V c n hn).1 ∗ owns (c : Thread nD τ) scM7_1 fullShare (accs7 V c n hn).2)
      ∗ Pipeline.scopedRestBut (Ix := Unit) (Name := ℕ) (U := UR sig nD τ) (Lvl := ℕ) (Val := Elt F) spec7 c [cc7_scratch0, cc7_scratch1]) ∗ (∃ r, prngReg c r))

/-- The proof data of pipeline 7 on core c: the arrays as the region finds them; after the body at point t each
    input's buffer at its block and the output's at the two sums so far laid out as the last point stores them (what it
    holds at the last point, the only one that stores into it and writes it back); the invariant carrying the two sums;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7 (accs7 V c t.val t.isLt).1 (accs7 V c t.val t.isLt).2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) :
    (dat7 V c).after 9 t = out7 (accs7 V c t.val t.isLt).1 (accs7 V c t.val t.isLt).2 := by dsimp only [dat7]

/-- An input window's current staging buffer holds its block at every point, fetched there or not (unfetched, the
    block index has not moved). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-! ## The body's two conditions and where the output window is idle -/

/-- The condition under which the body resets the two accumulators, from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)

/-- The condition under which the body copies the two sums into the output's staging buffer. -/
abbrev cond7_1 (i : grid7.Coords) : Prop := k7_cond2 i = 1#1
/-- It holds at the last point only. -/
theorem hcond7_1 : ∀ t : Fin cfg7.N, cond7_1 (grid7.coords t) ↔ t.val = 399 :=
  (by decide +kernel : ∀ t : Fin grid7.N, cond7_1 (grid7.coords t) ↔ t.val = 399)

/-- The input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem liveAt7_5 : ∀ t : Fin cfg7.N, cfg7.idle 5 (grid7.coords t) = false := by decide +kernel
theorem liveAt7_6 : ∀ t : Fin cfg7.N, cfg7.idle 6 (grid7.coords t) = false := by decide +kernel
theorem liveAt7_7 : ∀ t : Fin cfg7.N, cfg7.idle 7 (grid7.coords t) = false := by decide +kernel
theorem liveAt7_8 : ∀ t : Fin cfg7.N, cfg7.idle 8 (grid7.coords t) = false := by decide +kernel
/-- Off the last point the output window is idle, and not written back; -/
theorem idleAt7_9 : ∀ t : Fin cfg7.N, ¬cond7_1 (grid7.coords t) → cfg7.idle 9 (grid7.coords t) = true := by decide +kernel
theorem noFlush7_9 : ∀ t : Fin cfg7.N, ¬cond7_1 (grid7.coords t) → (cfg7.win 9).flush t = false := by decide +kernel
/-- at the last point it is live. -/
theorem liveAt7_9 : ∀ t : Fin cfg7.N, cond7_1 (grid7.coords t) → cfg7.idle 9 (grid7.coords t) = false := by decide +kernel

/-! ## The invariant's two forms -/

/-- What the launch hands the region, with the two accumulators as memrefs owned at some contents and the other scoped
    buffers unopened. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (accs7 V c n hn).1 ∗ owns (c : Thread nD τ) scM7_1 fullShare (accs7 V c n hn).2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (accs7 V c (n - 1) (by omega)).1 ∗ owns (c : Thread nD τ) scM7_1 fullShare (accs7 V c (n - 1) (by omega)).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

theorem PhiS7_castSucc (c : Dev nD) (t : Fin cfg7.N) :
    (dat7 V c).Φ t.castSucc = PhiS7 V c t.val (Nat.le_of_lt t.isLt) := by
  dsimp only [dat7]; simp only [Fin.coe_castSucc]

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the launch's back: the two sums' names are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 400 := N_7; omega)

/-! ## Reading and storing through whole buffers -/

theorem zeros7 : (![0, 0] : Fin 2 → ℕ) = fun _ => 0 := funext fun a => by fin_cases a <;> rfl

/-- A load of a whole buffer reads its contents. -/
theorem rd_whole7 {S : Shape} {e : EltTy} (v : View sig .tc .vmem S e) (f : v.ty.Contents (Elt F)) {off : Fin S.rank → ℕ} (h : off = fun _ => 0)
    (inb : ∀ a, off a + S.size a ≤ S.size a) :
    v.readAt (Elt F) (Rect.unit (s := S) off S.size inb).toLoadRect f = v.read (Elt F) f := by
  rw [View.readAt_eq_ld]; exact View.ld_unit_zero h inb _

/-- A store through the whole of a buffer, last, leaves its payload: read back whole, -/
theorem read_writes_whole7 {S : Shape} {e : EltTy} (v : View sig .tc .vmem S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit (s := S) off S.size inb, w⟩ :: L)) = w := by
  rw [View.read_writes_eq_canon v f _ (fun y => ⟨_, List.mem_cons_self, View.mem_set_unit_zero h inb y⟩)]
  exact View.canon_cons_unit_zero h inb w L
/-- and loaded back whole. -/
theorem readCov_whole7 {S : Shape} {e : EltTy} (v : View sig .tc .vmem S e) {off : Fin S.rank → ℕ} (h : off = fun _ => 0)
    (inb : ∀ a, off a + S.size a ≤ S.size a) (w : S.Idx → Elt F e) (L : List (View.Piece (Elt F) S e)) :
    v.readCov (⟨Rect.unit (s := S) off S.size inb, w⟩ :: L) (Rect.unit (s := S) off S.size inb).toLoadRect = w := by
  rw [View.readCov_eq_canon_ld v _ _ (fun y => ⟨_, List.mem_cons_self, View.mem_set_unit_zero h inb y⟩),
    View.canon_cons_unit_zero h inb w L]
  exact View.ld_unit_zero h inb w

theorem rd7_S2000x256 (v : View sig .tc .vmem S2000x256 .f32) (f : v.ty.Contents (Elt F)) :
    v.readAt (Elt F) (Rect.unit (s := S2000x256) ![0, 0] S2000x256.size inb_S2000x256_S2000x256_0_0).toLoadRect f = v.read (Elt F) f :=
  rd_whole7 v f zeros7 _
theorem rd7_S2000x1 (v : View sig .tc .vmem S2000x1 .f32) (f : v.ty.Contents (Elt F)) :
    v.readAt (Elt F) (Rect.unit (s := S2000x1) ![0, 0] S2000x1.size inb_S2000x1_S2000x1_0_0).toLoadRect f = v.read (Elt F) f :=
  rd_whole7 v f zeros7 _
theorem rd7_S1x1 (v : View sig .tc .vmem S1x1 .f32) (f : v.ty.Contents (Elt F)) :
    v.readAt (Elt F) (Rect.unit (s := S1x1) ![0, 0] S1x1.size inb_S1x1_S1x1_0_0).toLoadRect f = v.read (Elt F) f :=
  rd_whole7 v f zeros7 _
theorem read_writes7_S1x1 (v : View sig .tc .vmem S1x1 .f32) (f : v.ty.Contents (Elt F)) (w : Vec F S1x1 .f32)
    (L : List (View.Piece (Elt F) S1x1 .f32)) :
    v.read (Elt F) (v.writes (Elt F) f (⟨Rect.unit (s := S1x1) ![0, 0] S1x1.size inb_S1x1_S1x1_0_0, w⟩ :: L)) = w :=
  read_writes_whole7 v f zeros7 _ w L
theorem readCov7_S1x1 (v : View sig .tc .vmem S1x1 .f32) (w : Vec F S1x1 .f32) (L : List (View.Piece (Elt F) S1x1 .f32)) :
    v.readCov (⟨Rect.unit (s := S1x1) ![0, 0] S1x1.size inb_S1x1_S1x1_0_0, w⟩ :: L) (Rect.unit (s := S1x1) ![0, 0] S1x1.size inb_S1x1_S1x1_0_0).toLoadRect = w :=
  readCov_whole7 v zeros7 _ w L

theorem rd7_S2000x256' (v : View sig .tc .vmem S2000x256 .f32) (f : v.ty.Contents (Elt F)) :
    v.readAt (Elt F) (Rect.unit (s := S2000x256) ![0, 0] ![2000, 256] inb_S2000x256_S2000x256_0_0).toLoadRect f = v.read (Elt F) f :=
  rd_whole7 v f zeros7 _
theorem rd7_S2000x1' (v : View sig .tc .vmem S2000x1 .f32) (f : v.ty.Contents (Elt F)) :
    v.readAt (Elt F) (Rect.unit (s := S2000x1) ![0, 0] ![2000, 1] inb_S2000x1_S2000x1_0_0).toLoadRect f = v.read (Elt F) f :=
  rd_whole7 v f zeros7 _
theorem rd7_S1x1' (v : View sig .tc .vmem S1x1 .f32) (f : v.ty.Contents (Elt F)) :
    v.readAt (Elt F) (Rect.unit (s := S1x1) ![0, 0] ![1, 1] inb_S1x1_S1x1_0_0).toLoadRect f = v.read (Elt F) f :=
  rd_whole7 v f zeros7 _

/-- The last point's two stores cover the output's staging buffer. -/
theorem cover7 (a0 a1 : Vec F S1x1 .f32) (y : S1x2.Idx) :
    ∃ pc ∈ ([⟨r01, a1⟩, ⟨r00, a0⟩] : List (View.Piece (Elt F) S1x2 .f32)), y ∈ pc.1.set :=
  View.cover_of_tiled [⟨r01, a1⟩, ⟨r00, a0⟩] S1x1.size (by rfl) y

/-! ## The running sums, point by point -/

theorem accs7_zero_fst (c : Dev nD) (t : Fin cfg7.N) (h0 : t.val = 0) :
    (accs7 V c t.val t.isLt).1 = k7_pay1 (k7_pay5 (iblk7 V c 2 t) (iblk7 V c 3 t)) (k7_pay7 (iblk7 V c 8 t)) k7_pay3 := by
  obtain ⟨n, hn⟩ := t
  cases n with
  | zero => rfl
  | succ n => exact absurd h0 (Nat.succ_ne_zero n)
theorem accs7_zero_snd (c : Dev nD) (t : Fin cfg7.N) (h0 : t.val = 0) :
    (accs7 V c t.val t.isLt).2 = k7_pay2 (k7_pay6 (iblk7 V c 0 t) (iblk7 V c 1 t) (iblk7 V c 4 t) (iblk7 V c 5 t)) (iblk7 V c 6 t) (iblk7 V c 7 t) k7_pay4 := by
  obtain ⟨n, hn⟩ := t
  cases n with
  | zero => rfl
  | succ n => exact absurd h0 (Nat.succ_ne_zero n)
theorem accs7_pos_fst (c : Dev nD) (t : Fin cfg7.N) (h0 : t.val ≠ 0) :
    (accs7 V c t.val t.isLt).1 = k7_pay1 (k7_pay5 (iblk7 V c 2 t) (iblk7 V c 3 t)) (k7_pay7 (iblk7 V c 8 t))
      (accs7 V c (t.val - 1) (Nat.lt_of_le_of_lt (Nat.sub_le _ _) t.isLt)).1 := by
  obtain ⟨n, hn⟩ := t
  cases n with
  | zero => exact absurd rfl h0
  | succ n => rfl
theorem accs7_pos_snd (c : Dev nD) (t : Fin cfg7.N) (h0 : t.val ≠ 0) :
    (accs7 V c t.val t.isLt).2 = k7_pay2 (k7_pay6 (iblk7 V c 0 t) (iblk7 V c 1 t) (iblk7 V c 4 t) (iblk7 V c 5 t)) (iblk7 V c 6 t) (iblk7 V c 7 t)
      (accs7 V c (t.val - 1) (Nat.lt_of_le_of_lt (Nat.sub_le _ _) t.isLt)).2 := by
  obtain ⟨n, hn⟩ := t
  cases n with
  | zero => exact absurd rfl h0
  | succ n => rfl

/-! ## The body's triple, in its three control cases -/

set_option maxHeartbeats 4000000 in
/-- At the first point: the body on whole memrefs, the inputs' at contents x0 … x8, the output's at contents it
    hands back untouched, the two accumulators at anything, runs to the continuation holding the inputs' as they were
    and the accumulators at one step from zero. -/
theorem sound_kernel7_first (c : Dev nD) (E : Set ℕ) (i : grid7.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S2000x256 .f32) (harg6 : arg6.IsWhole) (arg7 : Memref sig .tc .vmem S2000x1 .f32) (harg7 : arg7.IsWhole) (arg8 : Memref sig .tc .vmem S2000x1 .f32) (harg8 : arg8.IsWhole) (arg9 : Memref sig .tc .vmem S2000x1 .f32) (harg9 : arg9.IsWhole) (arg10 : Memref sig .tc .vmem S1x2 .f32) (harg10 : arg10.IsWhole) (arg11 : Memref sig .tc .vmem S1x1 .f32) (harg11 : arg11.IsWhole) (arg12 : Memref sig .tc .vmem S1x1 .f32) (harg12 : arg12.IsWhole)
    (hc0 : cond7_0 i) (hc1 : ¬cond7_1 i) (x0 x1 x2 x3 x4 x5 : Vec F S2000x256 .f32) (x6 x7 x8 : Vec F S2000x1 .f32) (xi : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi
            ∗ owns (c : Thread nD τ) arg11 fullShare (k7_pay1 (k7_pay5 x2 x3) (k7_pay7 x8) k7_pay3)
            ∗ owns (c : Thread nD τ) arg12 fullShare (k7_pay2 (k7_pay6 x0 x1 x4 x5) x6 x7 k7_pay4)) -∗ K ⟨⟩))
      ⊢ wp frame (wpE (defs₀ (F := F)) Variants.none c none) E (cc7__loss_kernel i arg1 harg1 arg2 harg2 arg3 harg3 arg4 harg4 arg5 harg5 arg6 harg6 arg7 harg7 arg8 harg8 arg9 harg9 arg10 harg10 arg11 harg11 arg12 harg12) K := by
  simp only [cc7__loss_kernel_eq_skeleton]; unfold cc7__loss_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    dsimp only
    rw [read_writes7_S1x1, readCov7_S1x1]
    simp only [rd7_S2000x256, rd7_S2000x1, rd7_S1x1, rd7_S2000x256', rd7_S2000x1', rd7_S1x1']
  · iexists _; isplitr
    swap; · iexact H11
    ipureintro
    sl_unfold_run_names
    dsimp only
    rw [read_writes7_S1x1, readCov7_S1x1]
    simp only [rd7_S2000x256, rd7_S2000x1, rd7_S1x1, rd7_S2000x256', rd7_S2000x1', rd7_S1x1']

set_option maxHeartbeats 4000000 in
/-- At a point neither first nor last: the same with the two accumulators at contents s0, s1, left at one step
    from them. -/
theorem sound_kernel7_mid (c : Dev nD) (E : Set ℕ) (i : grid7.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S2000x256 .f32) (harg6 : arg6.IsWhole) (arg7 : Memref sig .tc .vmem S2000x1 .f32) (harg7 : arg7.IsWhole) (arg8 : Memref sig .tc .vmem S2000x1 .f32) (harg8 : arg8.IsWhole) (arg9 : Memref sig .tc .vmem S2000x1 .f32) (harg9 : arg9.IsWhole) (arg10 : Memref sig .tc .vmem S1x2 .f32) (harg10 : arg10.IsWhole) (arg11 : Memref sig .tc .vmem S1x1 .f32) (harg11 : arg11.IsWhole) (arg12 : Memref sig .tc .vmem S1x1 .f32) (harg12 : arg12.IsWhole)
    (hc0 : ¬cond7_0 i) (hc1 : ¬cond7_1 i) (x0 x1 x2 x3 x4 x5 : Vec F S2000x256 .f32) (x6 x7 x8 : Vec F S2000x1 .f32) (xi : Vec F S1x2 .f32) (s0 s1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi
            ∗ owns (c : Thread nD τ) arg11 fullShare (k7_pay1 (k7_pay5 x2 x3) (k7_pay7 x8) s0)
            ∗ owns (c : Thread nD τ) arg12 fullShare (k7_pay2 (k7_pay6 x0 x1 x4 x5) x6 x7 s1)) -∗ K ⟨⟩))
      ⊢ wp frame (wpE (defs₀ (F := F)) Variants.none c none) E (cc7__loss_kernel i arg1 harg1 arg2 harg2 arg3 harg3 arg4 harg4 arg5 harg5 arg6 harg6 arg7 harg7 arg8 harg8 arg9 harg9 arg10 harg10 arg11 harg11 arg12 harg12) K := by
  simp only [cc7__loss_kernel_eq_skeleton]; unfold cc7__loss_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0; subst hf1; subst hf2; subst hf3; subst hf4; subst hf5; subst hf6; subst hf7; subst hf8; subst hf9; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    dsimp only
    rw [read_writes7_S1x1]
    simp only [rd7_S2000x256, rd7_S2000x1, rd7_S1x1, rd7_S2000x256', rd7_S2000x1', rd7_S1x1']
  · iexists _; isplitr
    swap; · iexact H11
    ipureintro
    sl_unfold_run_names
    dsimp only
    rw [read_writes7_S1x1]
    simp only [rd7_S2000x256, rd7_S2000x1, rd7_S1x1, rd7_S2000x256', rd7_S2000x1', rd7_S1x1']

set_option maxHeartbeats 4000000 in
/-- At the last point: the same with the output's at anything, left holding the two new sums. -/
theorem sound_kernel7_last (c : Dev nD) (E : Set ℕ) (i : grid7.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S2000x256 .f32) (harg6 : arg6.IsWhole) (arg7 : Memref sig .tc .vmem S2000x1 .f32) (harg7 : arg7.IsWhole) (arg8 : Memref sig .tc .vmem S2000x1 .f32) (harg8 : arg8.IsWhole) (arg9 : Memref sig .tc .vmem S2000x1 .f32) (harg9 : arg9.IsWhole) (arg10 : Memref sig .tc .vmem S1x2 .f32) (harg10 : arg10.IsWhole) (arg11 : Memref sig .tc .vmem S1x1 .f32) (harg11 : arg11.IsWhole) (arg12 : Memref sig .tc .vmem S1x1 .f32) (harg12 : arg12.IsWhole)
    (hc0 : ¬cond7_0 i) (hc1 : cond7_1 i) (x0 x1 x2 x3 x4 x5 : Vec F S2000x256 .f32) (x6 x7 x8 : Vec F S2000x1 .f32) (s0 s1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out7 (k7_pay1 (k7_pay5 x2 x3) (k7_pay7 x8) s0) (k7_pay2 (k7_pay6 x0 x1 x4 x5) x6 x7 s1))
            ∗ owns (c : Thread nD τ) arg11 fullShare (k7_pay1 (k7_pay5 x2 x3) (k7_pay7 x8) s0)
            ∗ owns (c : Thread nD τ) arg12 fullShare (k7_pay2 (k7_pay6 x0 x1 x4 x5) x6 x7 s1)) -∗ K ⟨⟩))
      ⊢ wp frame (wpE (defs₀ (F := F)) Variants.none c none) E (cc7__loss_kernel i arg1 harg1 arg2 harg2 arg3 harg3 arg4 harg4 arg5 harg5 arg6 harg6 arg7 harg7 arg8 harg8 arg9 harg9 arg10 harg10 arg11 harg11 arg12 harg12) K := by
  simp only [cc7__loss_kernel_eq_skeleton]; unfold cc7__loss_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf0; subst hf1; subst hf2; subst hf3; subst hf4; subst hf5; subst hf6; subst hf7; subst hf8; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    dsimp only
    rw [View.read_writes_eq_canon _ _ _ (cover7 _ _)]
    unfold out7
    rw [readCov7_S1x1, readCov7_S1x1]
    simp only [rd7_S2000x256, rd7_S2000x1, rd7_S1x1, rd7_S2000x256', rd7_S2000x1', rd7_S1x1']
  isplitl [H10]
  · iexists _; isplitr
    swap; · iexact H10
    ipureintro
    sl_unfold_run_names
    dsimp only
    rw [read_writes7_S1x1]
    simp only [rd7_S2000x256, rd7_S2000x1, rd7_S1x1, rd7_S2000x256', rd7_S2000x1', rd7_S1x1']
  · iexists _; isplitr
    swap; · iexact H11
    ipureintro
    sl_unfold_run_names
    dsimp only
    rw [read_writes7_S1x1]
    simp only [rd7_S2000x256, rd7_S2000x1, rd7_S1x1, rd7_S2000x256', rd7_S2000x1', rd7_S1x1']

/-! ## The body obligation, at a generic point -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t
    ∗ (dat7 V c).leavesExact 8 t
    ∗ (dat7 V c).leavesExact 9 t)

set_option maxHeartbeats 4800000 in
/-- The body at any point: the inputs' memrefs hold their blocks; the point is the first, the last or neither, which
    decides the body's two conditions; the invariant hands the body the two accumulators at what the point before left
    (at anything at the first point) and takes them back at this point's sums; off the last point the output's buffer
    is handed back as found, at the last it holds the two sums; the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  rw [show (dat7 V c).leavesExact 4 t = owns (c : Thread nD τ) (st7_4 t) fullShare ((dat7 V c).after 4 t) from by
    unfold Dat.leavesExact; rw [liveAt7_4 t], after7_4]
  rw [show (dat7 V c).leavesExact 5 t = owns (c : Thread nD τ) (st7_5 t) fullShare ((dat7 V c).after 5 t) from by
    unfold Dat.leavesExact; rw [liveAt7_5 t], after7_5]
  rw [show (dat7 V c).leavesExact 6 t = owns (c : Thread nD τ) (st7_6 t) fullShare ((dat7 V c).after 6 t) from by
    unfold Dat.leavesExact; rw [liveAt7_6 t], after7_6]
  rw [show (dat7 V c).leavesExact 7 t = owns (c : Thread nD τ) (st7_7 t) fullShare ((dat7 V c).after 7 t) from by
    unfold Dat.leavesExact; rw [liveAt7_7 t], after7_7]
  rw [show (dat7 V c).leavesExact 8 t = owns (c : Thread nD τ) (st7_8 t) fullShare ((dat7 V c).after 8 t) from by
    unfold Dat.leavesExact; rw [liveAt7_8 t], after7_8]
  have hN : t.val < 400 := lt_of_lt_of_eq t.isLt (show cfg7.N = 400 from N_7)
  by_cases h0 : t.val = 0
  · have h1 : ¬t.val = 399 := by omega
    have hc0 : cond7_0 (grid7.coords t) := (hcond7_0 t).mpr h0
    have hc1 : ¬cond7_1 (grid7.coords t) := fun h => h1 ((hcond7_1 t).mp h)
    rw [Dat.leavesExact_idle (dat7 V c) 9 t (idleAt7_9 t hc1) (noFlush7_9 t hc1)]
    rw [accs7_zero_fst V c t h0, accs7_zero_snd V c t h0]
    rw [PhiS7_castSucc V c t, PhiS7_zero V c _ _ h0, PhiA7_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel7_first c Set.univ _ _ _ _ _ _ _ _ _ _ _ _ _ _ _ _ _ _ _ _ _ _ _ _ _ hc0 hc1 (iblk7 V c 0 t) (iblk7 V c 1 t) (iblk7 V c 2 t) (iblk7 V c 3 t) (iblk7 V c 4 t) (iblk7 V c 5 t) (iblk7 V c 6 t) (iblk7 V c 7 t) (iblk7 V c 8 t) ((dat7 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h1 : t.val = 399
    · have hc0 : ¬cond7_0 (grid7.coords t) := fun h => h0 ((hcond7_0 t).mp h)
      have hc1 : cond7_1 (grid7.coords t) := (hcond7_1 t).mpr h1
      rw [show (dat7 V c).leavesExact 9 t = owns (c : Thread nD τ) (st7_9 t) fullShare ((dat7 V c).after 9 t) from by
        unfold Dat.leavesExact; rw [liveAt7_9 t hc1], after7_9]
      rw [accs7_pos_fst V c t h0, accs7_pos_snd V c t h0]
      rw [PhiS7_castSucc V c t, PhiS7_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel7_last c Set.univ _ _ _ _ _ _ _ _ _ _ _ _ _ _ _ _ _ _ _ _ _ _ _ _ _ hc0 hc1 (iblk7 V c 0 t) (iblk7 V c 1 t) (iblk7 V c 2 t) (iblk7 V c 3 t) (iblk7 V c 4 t) (iblk7 V c 5 t) (iblk7 V c 6 t) (iblk7 V c 7 t) (iblk7 V c 8 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc0 : ¬cond7_0 (grid7.coords t) := fun h => h0 ((hcond7_0 t).mp h)
      have hc1 : ¬cond7_1 (grid7.coords t) := fun h => h1 ((hcond7_1 t).mp h)
      rw [Dat.leavesExact_idle (dat7 V c) 9 t (idleAt7_9 t hc1) (noFlush7_9 t hc1)]
      rw [accs7_pos_fst V c t h0, accs7_pos_snd V c t h0]
      rw [PhiS7_castSucc V c t, PhiS7_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel7_mid c Set.univ _ _ _ _ _ _ _ _ _ _ _ _ _ _ _ _ _ _ _ _ _ _ _ _ _ hc0 hc1 (iblk7 V c 0 t) (iblk7 V c 1 t) (iblk7 V c 2 t) (iblk7 V c 3 t) (iblk7 V c 4 t) (iblk7 V c 5 t) (iblk7 V c 6 t) (iblk7 V c 7 t) (iblk7 V c 8 t) ((dat7 V c).before 9 t d9) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Fold.lean ====
/-
  The buffer contents at every boundary of @main's items, as a fold from the launch memory: a stretch of host
  operations applies its operations to the contents before it; a region leaves its windows' arrays at what its
  write-backs leave (the inputs as entered, the output at the blocks written back) and every other buffer as
  entered. Region K is entered from the contents named V<j> below; its proof data are taken at them.
-/
import proofs.«160566_j58506044506613_1_alg».proof.Proof.KI.Reg0
import proofs.«160566_j58506044506613_1_alg».proof.Proof.KI.Reg1
import proofs.«160566_j58506044506613_1_alg».proof.Proof.KI.Reg2
import proofs.«160566_j58506044506613_1_alg».proof.Proof.KI.Reg3
import proofs.«160566_j58506044506613_1_alg».proof.Proof.KI.Reg4
import proofs.«160566_j58506044506613_1_alg».proof.Proof.KI.Reg5
import proofs.«160566_j58506044506613_1_alg».proof.Proof.KI.Reg6
import proofs.«160566_j58506044506613_1_alg».proof.Proof.KI.Reg7

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch main_part0_ops0. -/
abbrev W1 : Dev nD → Valuation τ sig (Elt F) := fun c => StableHlo.after main_part0_ops0 (W0 m ρ c)
/-- After the host stretch main_part0_ops1. -/
abbrev W2 : Dev nD → Valuation τ sig (Elt F) := fun c => StableHlo.after main_part0_ops1 (W1 m ρ c)
/-- After the host stretch main_part0_ops2. -/
abbrev W3 : Dev nD → Valuation τ sig (Elt F) := fun c => StableHlo.after main_part0_ops2 (W2 m ρ c)
/-- After the host stretch main_part0_ops3. -/
abbrev W4 : Dev nD → Valuation τ sig (Elt F) := fun c => StableHlo.after main_part0_ops3 (W3 m ρ c)
/-- After the host stretch main_part0_ops4. -/
abbrev W5 : Dev nD → Valuation τ sig (Elt F) := fun c => StableHlo.after main_part0_ops4 (W4 m ρ c)
/-- Region 0's entry contents, read at the core's references. -/
abbrev V5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- Region 0's exit contents, read at the core's references. -/
abbrev X6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = X6 m ρ c (Pipeline.arrRef spec0 w) :=
  (W6_arr m ρ c w).symm
theorem hrest0 (c : Dev nD) : ∀ b, b ∉ Finset.univ.image (Pipeline.arrRef spec0) → X6 m ρ c b = V5 m ρ c b :=
  fun b hb => W6_of_ne m ρ c b fun w e => hb (Finset.mem_image.mpr ⟨w, Finset.mem_univ _, e⟩)
/-- After the host stretch main_part0_ops5. -/
abbrev W7 : Dev nD → Valuation τ sig (Elt F) := fun c => StableHlo.after main_part0_ops5 (W6 m ρ c)
/-- After the host stretch main_part1_ops0. -/
abbrev W8 : Dev nD → Valuation τ sig (Elt F) := fun c => StableHlo.after main_part1_ops0 (W7 m ρ c)
/-- Region 1's entry contents, read at the core's references. -/
abbrev V8 : (c : Dev nD) → (b : Ref sig .tc) → Buf (Elt F) ((c : Thread nD τ).loc b) := fun c b => W8 m ρ c b
/-- At region 1's exit: its arrays at what the pipeline leaves, every other buffer as entered. -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- Region 1's exit contents, read at the core's references. -/
abbrev X9 : (c : Dev nD) → (b : Ref sig .tc) → Buf (Elt F) ((c : Thread nD τ).loc b) := fun c b => W9 m ρ c b
theorem hF1 (c : Dev nD) (w : Fin cfg1.W) : (dat1 (V8 m ρ) c).arrAt w cfg1.N = X9 m ρ c (Pipeline.arrRef spec1 w) :=
  (W9_arr m ρ c w).symm
theorem hrest1 (c : Dev nD) : ∀ b, b ∉ Finset.univ.image (Pipeline.arrRef spec1) → X9 m ρ c b = V8 m ρ c b :=
  fun b hb => W9_of_ne m ρ c b fun w e => hb (Finset.mem_image.mpr ⟨w, Finset.mem_univ _, e⟩)
/-- Region 2's entry contents, read at the core's references. -/
abbrev V9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- Region 2's exit contents, read at the core's references. -/
abbrev X10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = X10 m ρ c (Pipeline.arrRef spec2 w) :=
  (W10_arr m ρ c w).symm
theorem hrest2 (c : Dev nD) : ∀ b, b ∉ Finset.univ.image (Pipeline.arrRef spec2) → X10 m ρ c b = V9 m ρ c b :=
  fun b hb => W10_of_ne m ρ c b fun w e => hb (Finset.mem_image.mpr ⟨w, Finset.mem_univ _, e⟩)
/-- After the host stretch main_part1_ops1. -/
abbrev W11 : Dev nD → Valuation τ sig (Elt F) := fun c => StableHlo.after main_part1_ops1 (W10 m ρ c)
/-- Region 3's entry contents, read at the core's references. -/
abbrev V11 : (c : Dev nD) → (b : Ref sig .tc) → Buf (Elt F) ((c : Thread nD τ).loc b) := fun c b => W11 m ρ c b
/-- At region 3's exit: its arrays at what the pipeline leaves, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- Region 3's exit contents, read at the core's references. -/
abbrev X12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = X12 m ρ c (Pipeline.arrRef spec3 w) :=
  (W12_arr m ρ c w).symm
theorem hrest3 (c : Dev nD) : ∀ b, b ∉ Finset.univ.image (Pipeline.arrRef spec3) → X12 m ρ c b = V11 m ρ c b :=
  fun b hb => W12_of_ne m ρ c b fun w e => hb (Finset.mem_image.mpr ⟨w, Finset.mem_univ _, e⟩)
/-- Region 4's entry contents, read at the core's references. -/
abbrev V12 : (c : Dev nD) → (b : Ref sig .tc) → Buf (Elt F) ((c : Thread nD τ).loc b) := fun c b => W12 m ρ c b
/-- At region 4's exit: its arrays at what the pipeline leaves, every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
/-- Region 4's exit contents, read at the core's references. -/
abbrev X13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = X13 m ρ c (Pipeline.arrRef spec4 w) :=
  (W13_arr m ρ c w).symm
theorem hrest4 (c : Dev nD) : ∀ b, b ∉ Finset.univ.image (Pipeline.arrRef spec4) → X13 m ρ c b = V12 m ρ c b :=
  fun b hb => W13_of_ne m ρ c b fun w e => hb (Finset.mem_image.mpr ⟨w, Finset.mem_univ _, e⟩)
/-- Region 5's entry contents, read at the core's references. -/
abbrev V13 : (c : Dev nD) → (b : Ref sig .tc) → Buf (Elt F) ((c : Thread nD τ).loc b) := fun c b => W13 m ρ c b
/-- At region 5's exit: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- Region 5's exit contents, read at the core's references. -/
abbrev X14 : (c : Dev nD) → (b : Ref sig .tc) → Buf (Elt F) ((c : Thread nD τ).loc b) := fun c b => W14 m ρ c b
theorem hF5 (c : Dev nD) (w : Fin cfg5.W) : (dat5 (V13 m ρ) c).arrAt w cfg5.N = X14 m ρ c (Pipeline.arrRef spec5 w) :=
  (W14_arr m ρ c w).symm
theorem hrest5 (c : Dev nD) : ∀ b, b ∉ Finset.univ.image (Pipeline.arrRef spec5) → X14 m ρ c b = V13 m ρ c b :=
  fun b hb => W14_of_ne m ρ c b fun w e => hb (Finset.mem_image.mpr ⟨w, Finset.mem_univ _, e⟩)
/-- After the host stretch main_part1_ops2. -/
abbrev W15 : Dev nD → Valuation τ sig (Elt F) := fun c => StableHlo.after main_part1_ops2 (W14 m ρ c)
/-- Region 6's entry contents, read at the core's references. -/
abbrev V15 : (c : Dev nD) → (b : Ref sig .tc) → Buf (Elt F) ((c : Thread nD τ).loc b) := fun c b => W15 m ρ c b
/-- At region 6's exit: its arrays at what the pipeline leaves, every other buffer as entered. -/
def W16 (c : Dev nD) : Valuation τ sig (Elt F) :=
  Pipeline.withArrays spec6 c (W15 m ρ c) fun w => (dat6 (V15 m ρ) c).arrAt w cfg6.N
theorem W16_arr (c : Dev nD) (w : Fin cfg6.W) :
    W16 m ρ c (Proc.devRef .tc (Pipeline.arrRef spec6 w)) = (dat6 (V15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
/-- Region 6's exit contents, read at the core's references. -/
abbrev X16 : (c : Dev nD) → (b : Ref sig .tc) → Buf (Elt F) ((c : Thread nD τ).loc b) := fun c b => W16 m ρ c b
theorem hF6 (c : Dev nD) (w : Fin cfg6.W) : (dat6 (V15 m ρ) c).arrAt w cfg6.N = X16 m ρ c (Pipeline.arrRef spec6 w) :=
  (W16_arr m ρ c w).symm
theorem hrest6 (c : Dev nD) : ∀ b, b ∉ Finset.univ.image (Pipeline.arrRef spec6) → X16 m ρ c b = V15 m ρ c b :=
  fun b hb => W16_of_ne m ρ c b fun w e => hb (Finset.mem_image.mpr ⟨w, Finset.mem_univ _, e⟩)
/-- After the host stretch main_part1_ops3. -/
abbrev W17 : Dev nD → Valuation τ sig (Elt F) := fun c => StableHlo.after main_part1_ops3 (W16 m ρ c)
/-- After the host stretch main_part2_ops0. -/
abbrev W18 : Dev nD → Valuation τ sig (Elt F) := fun c => StableHlo.after main_part2_ops0 (W17 m ρ c)
/-- Region 7's entry contents, read at the core's references. -/
abbrev V18 : (c : Dev nD) → (b : Ref sig .tc) → Buf (Elt F) ((c : Thread nD τ).loc b) := fun c b => W18 m ρ c b
/-- At region 7's exit: its arrays at what the pipeline leaves, every other buffer as entered. -/
def W19 (c : Dev nD) : Valuation τ sig (Elt F) :=
  Pipeline.withArrays spec7 c (W18 m ρ c) fun w => (dat7 (V18 m ρ) c).arrAt w cfg7.N
theorem W19_arr (c : Dev nD) (w : Fin cfg7.W) :
    W19 m ρ c (Proc.devRef .tc (Pipeline.arrRef spec7 w)) = (dat7 (V18 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb
/-- Region 7's exit contents, read at the core's references. -/
abbrev X19 : (c : Dev nD) → (b : Ref sig .tc) → Buf (Elt F) ((c : Thread nD τ).loc b) := fun c b => W19 m ρ c b
theorem hF7 (c : Dev nD) (w : Fin cfg7.W) : (dat7 (V18 m ρ) c).arrAt w cfg7.N = X19 m ρ c (Pipeline.arrRef spec7 w) :=
  (W19_arr m ρ c w).symm
theorem hrest7 (c : Dev nD) : ∀ b, b ∉ Finset.univ.image (Pipeline.arrRef spec7) → X19 m ρ c b = V18 m ρ c b :=
  fun b hb => W19_of_ne m ρ c b fun w e => hb (Finset.mem_image.mpr ⟨w, Finset.mem_univ _, e⟩)
/-- After the host stretch main_part2_ops1. -/
abbrev W20 : Dev nD → Valuation τ sig (Elt F) := fun c => StableHlo.after main_part2_ops1 (W19 m ρ c)

end Cert.KernelIdeal.Hand

end
-- ==== Proof.KI.Run.lean ====
/-
  The run of @main from the launch to the return, cut into its twenty items: twelve stretches of host operations and
  eight kernel regions. Each stretch is a segment over the thread state "every unscoped buffer at the contents of the
  boundary before it, the generator register at some state, nothing owed", and runs to the same state at the contents
  after its operations. Each region is a segment over the same state: its windows' arrays are split out of the
  unscoped buffers at entry and put back at the exit contents, the generator register passes through the region's
  invariant, nothing is owed. Regions 0 to 6 keep the invariant "the scoped buffers that are no staging buffer at
  anything, the generator register at some state" at every point; region 7's invariant carries its two running sums
  and is entered from and left at that same invariant. The run then says: @main terminates from any memory with zero
  counters, and every final state holds, on every core, every unscoped buffer at the last boundary's contents.
-/
import proofs.«160566_j58506044506613_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V8 m ρ) c
  | ⟨2, _⟩ => fun c => dat2 (V9 m ρ) c
  | ⟨3, _⟩ => fun c => dat3 (V11 m ρ) c
  | ⟨4, _⟩ => fun c => dat4 (V12 m ρ) c
  | ⟨5, _⟩ => fun c => dat5 (V13 m ρ) c
  | ⟨6, _⟩ => fun c => dat6 (V15 m ρ) c
  | ⟨7, _⟩ => fun c => dat7 (V18 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A stretch of host operations as a segment over the unscoped references from the contents W, R riding along: it
    runs to those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem main_part0_ops0_fresh : (main_part0_ops0 : List (HloOp τ sig (Elt F))).Forall fun op => op.fresh = ∅ := by
  simp only [List.Forall]; repeat' constructor
/-- No operation of this stretch allocates a buffer. -/
theorem main_part0_ops1_fresh : (main_part0_ops1 : List (HloOp τ sig (Elt F))).Forall fun op => op.fresh = ∅ := by
  simp only [List.Forall]; repeat' constructor
/-- No operation of this stretch allocates a buffer. -/
theorem main_part0_ops2_fresh : (main_part0_ops2 : List (HloOp τ sig (Elt F))).Forall fun op => op.fresh = ∅ := by
  simp only [List.Forall]; repeat' constructor
/-- No operation of this stretch allocates a buffer. -/
theorem main_part0_ops3_fresh : (main_part0_ops3 : List (HloOp τ sig (Elt F))).Forall fun op => op.fresh = ∅ := by
  simp only [List.Forall]; repeat' constructor
/-- No operation of this stretch allocates a buffer. -/
theorem main_part0_ops4_fresh : (main_part0_ops4 : List (HloOp τ sig (Elt F))).Forall fun op => op.fresh = ∅ := by
  simp only [List.Forall]; repeat' constructor
/-- No operation of this stretch allocates a buffer. -/
theorem main_part0_ops5_fresh : (main_part0_ops5 : List (HloOp τ sig (Elt F))).Forall fun op => op.fresh = ∅ := by
  simp only [List.Forall]; repeat' constructor
/-- No operation of this stretch allocates a buffer. -/
theorem main_part1_ops0_fresh : (main_part1_ops0 : List (HloOp τ sig (Elt F))).Forall fun op => op.fresh = ∅ := by
  simp only [List.Forall]; repeat' constructor
/-- No operation of this stretch allocates a buffer. -/
theorem main_part1_ops1_fresh : (main_part1_ops1 : List (HloOp τ sig (Elt F))).Forall fun op => op.fresh = ∅ := by
  simp only [List.Forall]; repeat' constructor
/-- No operation of this stretch allocates a buffer. -/
theorem main_part1_ops2_fresh : (main_part1_ops2 : List (HloOp τ sig (Elt F))).Forall fun op => op.fresh = ∅ := by
  simp only [List.Forall]; repeat' constructor
/-- No operation of this stretch allocates a buffer. -/
theorem main_part1_ops3_fresh : (main_part1_ops3 : List (HloOp τ sig (Elt F))).Forall fun op => op.fresh = ∅ := by
  simp only [List.Forall]; repeat' constructor
/-- No operation of this stretch allocates a buffer. -/
theorem main_part2_ops0_fresh : (main_part2_ops0 : List (HloOp τ sig (Elt F))).Forall fun op => op.fresh = ∅ := by
  simp only [List.Forall]; repeat' constructor
/-- No operation of this stretch allocates a buffer. -/
theorem main_part2_ops1_fresh : (main_part2_ops1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- Region 0 over the thread state: entered from every unscoped buffer at W5, left at W6. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (X6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W8, left at W9. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (X9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W9, left at W10. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (X10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W11, left at W12. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (X12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W12, left at W13. Its arrays are split
    out of the unscoped buffers and put back at the exit contents; the generator register goes into the region's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (X13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W13, left at W14. Its arrays are split
    out of the unscoped buffers and put back at the exit contents; the generator register goes into the region's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (X14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at W15, left at W16. Its arrays are split
    out of the unscoped buffers and put back at the exit contents; the generator register goes into the region's
    invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V15 m ρ) c).loose
  hwaits := Pipeline.hwaits_of_owed_zero _ _ _ _ L lv 6 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec6 c (V15 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V15 m ρ c) (X16 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at W18, left at W19. Its arrays are split
    out of the unscoped buffers and put back at the exit contents; the generator register goes into the region's
    invariant and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V18 m ρ) c).loose
  hwaits := Pipeline.hwaits_of_owed_zero _ _ _ _ L lv 7 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec7 c (V18 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V18 m ρ) c).Φ 0 from rfl]
    refine BIBase.Entails.trans ?_ (hin7 (V18 m ρ) c)
    unfold Pipeline.ΦA
    iintro ⟨Hp, -, Hr⟩
    isplitl [Hr]; · iexact Hr
    iexact Hp
  hout c := by
    rw [Pipeline.ownSems0_none, show (pdats m ρ 7 c).Φ (Fin.last _) = (dat7 (V18 m ρ) c).Φ (Fin.last cfg7.N) from rfl]
    refine BIBase.Entails.trans (hout7 (V18 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V18 m ρ c) (X19 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twenty segments in order: a host segment per stretch from its boundary's contents, a region per kernel. -/
abbrev segs : List (Pipeline.Seg (pcfgs (F := F)) adm (pdats m ρ) () defs₀ 𝒱₀ L lv) :=
  [
    .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part0_ops3 main_part0_ops3_sub main_part0_ops3_fresh (W3 m ρ)),
    .host (hseg main_part0_ops4 main_part0_ops4_sub main_part0_ops4_fresh (W4 m ρ)),
    .region (reg0 m ρ),
    .host (hseg main_part0_ops5 main_part0_ops5_sub main_part0_ops5_fresh (W6 m ρ)),
    .host (hseg main_part1_ops0 main_part1_ops0_sub main_part1_ops0_fresh (W7 m ρ)),
    .region (reg1 m ρ),
    .region (reg2 m ρ),
    .host (hseg main_part1_ops1 main_part1_ops1_sub main_part1_ops1_fresh (W10 m ρ)),
    .region (reg3 m ρ),
    .region (reg4 m ρ),
    .region (reg5 m ρ),
    .host (hseg main_part1_ops2 main_part1_ops2_sub main_part1_ops2_fresh (W14 m ρ)),
    .region (reg6 m ρ),
    .host (hseg main_part1_ops3 main_part1_ops3_sub main_part1_ops3_fresh (W16 m ρ)),
    .host (hseg main_part2_ops0 main_part2_ops0_sub main_part2_ops0_fresh (W17 m ρ)),
    .region (reg7 m ρ),
    .host (hseg main_part2_ops1 main_part2_ops1_sub main_part2_ops1_fresh (W19 m ρ)) ]

/-- @main is the run of the segments: the chain of its twenty items, then the segments' run against that chain. -/
theorem main_run (c : Dev nD) : main (F := F) c = Pipeline.Seg.run (segs m ρ) := (main_chain_windows c).trans (by chain_rfl)

set_option backward.isDefEq.respectTransparency.types false in
/-- THE RUN: from any memory with zero counters, every weakly fair execution of @main on the cores terminates, nothing
    faulting, and every final state holds, on every core, every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun _ h => h)

end Cert.KernelIdeal.Hand

end
-- ==== Proof.KI.Steps.lean ====
/-
  What each of @main's twenty items may change. A stretch of host operations changes only the buffers its operations
  write: each operation writes one reference, and the stretch's references are listed in order. A region changes only
  its output window's array: an input window's array ends at the contents the region was entered from, and a buffer
  that is no array of the region is left as entered. Stated per item: a reference outside the item's list holds after
  the item what it held before it.
-/
import proofs.«160566_j58506044506613_1_alg».proof.Proof.KI.Fold

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- An operation that writes the one reference y, y in the list W, writes inside W. -/
theorem writes_sub_of {op : HloOp τ sig (Elt F)} (y : Ref sig .tc) {W : List (Ref sig .tc)}
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

/-- Item 0, a stretch of 17 host operations: the references they write, in order. -/
abbrev L0 : List (Ref sig .tc) :=
  [main_v0, main_v1, main_v2, main_v3, main_v4, main_v5, main_v6, main_cst, main_v7, main_cst_0, main_v8, main_v9, main_v10, main_cst_1, main_v11, main_v12, main_cst_2]
theorem main_part0_ops0_writes : (main_part0_ops0 : List (HloOp τ sig (Elt F))).Forall fun op => op.writes ⊆ (L0.map (Proc.devRef (τ := τ) .tc)).toFinset :=
  ⟨writes_sub_of main_v0 rfl (by decide),
   writes_sub_of main_v1 rfl (by decide),
   writes_sub_of main_v2 rfl (by decide),
   writes_sub_of main_v3 rfl (by decide),
   writes_sub_of main_v4 rfl (by decide),
   writes_sub_of main_v5 rfl (by decide),
   writes_sub_of main_v6 rfl (by decide),
   writes_sub_of main_cst rfl (by decide),
   writes_sub_of main_v7 rfl (by decide),
   writes_sub_of main_cst_0 rfl (by decide),
   writes_sub_of main_v8 rfl (by decide),
   writes_sub_of main_v9 rfl (by decide),
   writes_sub_of main_v10 rfl (by decide),
   writes_sub_of main_cst_1 rfl (by decide),
   writes_sub_of main_v11 rfl (by decide),
   writes_sub_of main_v12 rfl (by decide),
   writes_sub_of main_cst_2 rfl (by decide)⟩
/-- Item 0 changes no buffer outside its list. -/
theorem keep0 (c : Dev nD) (r : Ref sig .tc) (h : r ∉ L0) :
    W1 m ρ c (Proc.devRef .tc r) = W0 m ρ c (Proc.devRef .tc r) :=
  StableHlo.after_of_writes_sub main_part0_ops0 _ main_part0_ops0_writes h

/-- Item 1, a stretch of 3 host operations: the references they write, in order. -/
abbrev L1 : List (Ref sig .tc) :=
  [main_call0_v0, main_call0_v1, main_v13]
theorem main_part0_ops1_writes : (main_part0_ops1 : List (HloOp τ sig (Elt F))).Forall fun op => op.writes ⊆ (L1.map (Proc.devRef (τ := τ) .tc)).toFinset :=
  ⟨writes_sub_of main_call0_v0 rfl (by decide),
   writes_sub_of main_call0_v1 rfl (by decide),
   writes_sub_of main_v13 rfl (by decide)⟩
/-- Item 1 changes no buffer outside its list. -/
theorem keep1 (c : Dev nD) (r : Ref sig .tc) (h : r ∉ L1) :
    W2 m ρ c (Proc.devRef .tc r) = W1 m ρ c (Proc.devRef .tc r) :=
  StableHlo.after_of_writes_sub main_part0_ops1 _ main_part0_ops1_writes h

/-- Item 2, a stretch of 5 host operations: the references they write, in order. -/
abbrev L2 : List (Ref sig .tc) :=
  [main_cst_3, main_v14, main_v15, main_v16, main_cst_4]
theorem main_part0_ops2_writes : (main_part0_ops2 : List (HloOp τ sig (Elt F))).Forall fun op => op.writes ⊆ (L2.map (Proc.devRef (τ := τ) .tc)).toFinset :=
  ⟨writes_sub_of main_cst_3 rfl (by decide),
   writes_sub_of main_v14 rfl (by decide),
   writes_sub_of main_v15 rfl (by decide),
   writes_sub_of main_v16 rfl (by decide),
   writes_sub_of main_cst_4 rfl (by decide)⟩
/-- Item 2 changes no buffer outside its list. -/
theorem keep2 (c : Dev nD) (r : Ref sig .tc) (h : r ∉ L2) :
    W3 m ρ c (Proc.devRef .tc r) = W2 m ρ c (Proc.devRef .tc r) :=
  StableHlo.after_of_writes_sub main_part0_ops2 _ main_part0_ops2_writes h

/-- Item 3, a stretch of 3 host operations: the references they write, in order. -/
abbrev L3 : List (Ref sig .tc) :=
  [main_call1_v0, main_call1_v1, main_v17]
theorem main_part0_ops3_writes : (main_part0_ops3 : List (HloOp τ sig (Elt F))).Forall fun op => op.writes ⊆ (L3.map (Proc.devRef (τ := τ) .tc)).toFinset :=
  ⟨writes_sub_of main_call1_v0 rfl (by decide),
   writes_sub_of main_call1_v1 rfl (by decide),
   writes_sub_of main_v17 rfl (by decide)⟩
/-- Item 3 changes no buffer outside its list. -/
theorem keep3 (c : Dev nD) (r : Ref sig .tc) (h : r ∉ L3) :
    W4 m ρ c (Proc.devRef .tc r) = W3 m ρ c (Proc.devRef .tc r) :=
  StableHlo.after_of_writes_sub main_part0_ops3 _ main_part0_ops3_writes h

/-- Item 4, a stretch of 20 host operations: the references they write, in order. -/
abbrev L4 : List (Ref sig .tc) :=
  [main_c, main_v18, main_v19, main_c_5, main_v20, main_v21, main_v22, main_v23, main_v24, main_c_6, main_v25, main_v26, main_c_7, main_v27, main_v28, main_v29, main_v30, main_v31, main_v32, main_v33]
theorem main_part0_ops4_writes : (main_part0_ops4 : List (HloOp τ sig (Elt F))).Forall fun op => op.writes ⊆ (L4.map (Proc.devRef (τ := τ) .tc)).toFinset :=
  ⟨writes_sub_of main_c rfl (by decide),
   writes_sub_of main_v18 rfl (by decide),
   writes_sub_of main_v19 rfl (by decide),
   writes_sub_of main_c_5 rfl (by decide),
   writes_sub_of main_v20 rfl (by decide),
   writes_sub_of main_v21 rfl (by decide),
   writes_sub_of main_v22 rfl (by decide),
   writes_sub_of main_v23 rfl (by decide),
   writes_sub_of main_v24 rfl (by decide),
   writes_sub_of main_c_6 rfl (by decide),
   writes_sub_of main_v25 rfl (by decide),
   writes_sub_of main_v26 rfl (by decide),
   writes_sub_of main_c_7 rfl (by decide),
   writes_sub_of main_v27 rfl (by decide),
   writes_sub_of main_v28 rfl (by decide),
   writes_sub_of main_v29 rfl (by decide),
   writes_sub_of main_v30 rfl (by decide),
   writes_sub_of main_v31 rfl (by decide),
   writes_sub_of main_v32 rfl (by decide),
   writes_sub_of main_v33 rfl (by decide)⟩
/-- Item 4 changes no buffer outside its list. -/
theorem keep4 (c : Dev nD) (r : Ref sig .tc) (h : r ∉ L4) :
    W5 m ρ c (Proc.devRef .tc r) = W4 m ρ c (Proc.devRef .tc r) :=
  StableHlo.after_of_writes_sub main_part0_ops4 _ main_part0_ops4_writes h

/-- Item 5, region 0: the array of its output window. -/
abbrev L5 : List (Ref sig .tc) := [main_v34]
/-- Item 5 changes no buffer but its output window's array: an input window's array ends as entered, a buffer that is
    no array of the region is left as entered. -/
theorem keep5 (c : Dev nD) (r : Ref sig .tc) (h : r ∉ L5) :
    W6 m ρ c (Proc.devRef .tc r) = W5 m ρ c (Proc.devRef .tc r) := by
  by_cases h0 : r = main_arg1
  · subst h0; exact (W6_arr m ρ c 0).trans (((dat0 (V5 m ρ) c).arrAt_in 0 rfl _).trans (A_eq0 (V5 m ρ) c 0))
  by_cases h1 : r = main_arg4
  · subst h1; exact (W6_arr m ρ c 1).trans (((dat0 (V5 m ρ) c).arrAt_in 1 rfl _).trans (A_eq0 (V5 m ρ) c 1))
  refine W6_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 6, a stretch of 15 host operations: the references they write, in order. -/
abbrev L6 : List (Ref sig .tc) :=
  [main_c_8, main_v35, main_v36, main_c_9, main_v37, main_v38, main_v39, main_v40, main_v41, main_v42, main_v43, main_cst_10, main_v44, main_v45, main_v46]
theorem main_part0_ops5_writes : (main_part0_ops5 : List (HloOp τ sig (Elt F))).Forall fun op => op.writes ⊆ (L6.map (Proc.devRef (τ := τ) .tc)).toFinset :=
  ⟨writes_sub_of main_c_8 rfl (by decide),
   writes_sub_of main_v35 rfl (by decide),
   writes_sub_of main_v36 rfl (by decide),
   writes_sub_of main_c_9 rfl (by decide),
   writes_sub_of main_v37 rfl (by decide),
   writes_sub_of main_v38 rfl (by decide),
   writes_sub_of main_v39 rfl (by decide),
   writes_sub_of main_v40 rfl (by decide),
   writes_sub_of main_v41 rfl (by decide),
   writes_sub_of main_v42 rfl (by decide),
   writes_sub_of main_v43 rfl (by decide),
   writes_sub_of main_cst_10 rfl (by decide),
   writes_sub_of main_v44 rfl (by decide),
   writes_sub_of main_v45 rfl (by decide),
   writes_sub_of main_v46 rfl (by decide)⟩
/-- Item 6 changes no buffer outside its list. -/
theorem keep6 (c : Dev nD) (r : Ref sig .tc) (h : r ∉ L6) :
    W7 m ρ c (Proc.devRef .tc r) = W6 m ρ c (Proc.devRef .tc r) :=
  StableHlo.after_of_writes_sub main_part0_ops5 _ main_part0_ops5_writes h

/-- Item 7, a stretch of 1 host operation: the references they write, in order. -/
abbrev L7 : List (Ref sig .tc) :=
  [main_v47]
theorem main_part1_ops0_writes : (main_part1_ops0 : List (HloOp τ sig (Elt F))).Forall fun op => op.writes ⊆ (L7.map (Proc.devRef (τ := τ) .tc)).toFinset :=
  writes_sub_of main_v47 rfl (by decide)
/-- Item 7 changes no buffer outside its list. -/
theorem keep7 (c : Dev nD) (r : Ref sig .tc) (h : r ∉ L7) :
    W8 m ρ c (Proc.devRef .tc r) = W7 m ρ c (Proc.devRef .tc r) :=
  StableHlo.after_of_writes_sub main_part1_ops0 _ main_part1_ops0_writes h

/-- Item 8, region 1: the array of its output window. -/
abbrev L8 : List (Ref sig .tc) := [main_v48]
/-- Item 8 changes no buffer but its output window's array: an input window's array ends as entered, a buffer that is
    no array of the region is left as entered. -/
theorem keep8 (c : Dev nD) (r : Ref sig .tc) (h : r ∉ L8) :
    W9 m ρ c (Proc.devRef .tc r) = W8 m ρ c (Proc.devRef .tc r) := by
  by_cases h0 : r = main_v46
  · subst h0; exact (W9_arr m ρ c 0).trans (((dat1 (V8 m ρ) c).arrAt_in 0 rfl _).trans (A_eq1 (V8 m ρ) c 0))
  by_cases h1 : r = main_v47
  · subst h1; exact (W9_arr m ρ c 1).trans (((dat1 (V8 m ρ) c).arrAt_in 1 rfl _).trans (A_eq1 (V8 m ρ) c 1))
  refine W9_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 9, region 2: the array of its output window. -/
abbrev L9 : List (Ref sig .tc) := [main_v49]
/-- Item 9 changes no buffer but its output window's array: an input window's array ends as entered, a buffer that is
    no array of the region is left as entered. -/
theorem keep9 (c : Dev nD) (r : Ref sig .tc) (h : r ∉ L9) :
    W10 m ρ c (Proc.devRef .tc r) = W9 m ρ c (Proc.devRef .tc r) := by
  by_cases h0 : r = main_v48
  · subst h0; exact (W10_arr m ρ c 0).trans (((dat2 (V9 m ρ) c).arrAt_in 0 rfl _).trans (A_eq2 (V9 m ρ) c 0))
  by_cases h1 : r = main_arg6
  · subst h1; exact (W10_arr m ρ c 1).trans (((dat2 (V9 m ρ) c).arrAt_in 1 rfl _).trans (A_eq2 (V9 m ρ) c 1))
  refine W10_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 10, a stretch of 16 host operations: the references they write, in order. -/
abbrev L10 : List (Ref sig .tc) :=
  [main_c_11, main_v50, main_v51, main_c_12, main_v52, main_v53, main_v54, main_v55, main_v56, main_v57, main_v58, main_cst_13, main_v59, main_v60, main_v61, main_v62]
theorem main_part1_ops1_writes : (main_part1_ops1 : List (HloOp τ sig (Elt F))).Forall fun op => op.writes ⊆ (L10.map (Proc.devRef (τ := τ) .tc)).toFinset :=
  ⟨writes_sub_of main_c_11 rfl (by decide),
   writes_sub_of main_v50 rfl (by decide),
   writes_sub_of main_v51 rfl (by decide),
   writes_sub_of main_c_12 rfl (by decide),
   writes_sub_of main_v52 rfl (by decide),
   writes_sub_of main_v53 rfl (by decide),
   writes_sub_of main_v54 rfl (by decide),
   writes_sub_of main_v55 rfl (by decide),
   writes_sub_of main_v56 rfl (by decide),
   writes_sub_of main_v57 rfl (by decide),
   writes_sub_of main_v58 rfl (by decide),
   writes_sub_of main_cst_13 rfl (by decide),
   writes_sub_of main_v59 rfl (by decide),
   writes_sub_of main_v60 rfl (by decide),
   writes_sub_of main_v61 rfl (by decide),
   writes_sub_of main_v62 rfl (by decide)⟩
/-- Item 10 changes no buffer outside its list. -/
theorem keep10 (c : Dev nD) (r : Ref sig .tc) (h : r ∉ L10) :
    W11 m ρ c (Proc.devRef .tc r) = W10 m ρ c (Proc.devRef .tc r) :=
  StableHlo.after_of_writes_sub main_part1_ops1 _ main_part1_ops1_writes h

/-- Item 11, region 3: the array of its output window. -/
abbrev L11 : List (Ref sig .tc) := [main_v63]
/-- Item 11 changes no buffer but its output window's array: an input window's array ends as entered, a buffer that is
    no array of the region is left as entered. -/
theorem keep11 (c : Dev nD) (r : Ref sig .tc) (h : r ∉ L11) :
    W12 m ρ c (Proc.devRef .tc r) = W11 m ρ c (Proc.devRef .tc r) := by
  by_cases h0 : r = main_v61
  · subst h0; exact (W12_arr m ρ c 0).trans (((dat3 (V11 m ρ) c).arrAt_in 0 rfl _).trans (A_eq3 (V11 m ρ) c 0))
  by_cases h1 : r = main_v62
  · subst h1; exact (W12_arr m ρ c 1).trans (((dat3 (V11 m ρ) c).arrAt_in 1 rfl _).trans (A_eq3 (V11 m ρ) c 1))
  refine W12_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 12, region 4: the array of its output window. -/
abbrev L12 : List (Ref sig .tc) := [main_v64]
/-- Item 12 changes no buffer but its output window's array: an input window's array ends as entered, a buffer that is
    no array of the region is left as entered. -/
theorem keep12 (c : Dev nD) (r : Ref sig .tc) (h : r ∉ L12) :
    W13 m ρ c (Proc.devRef .tc r) = W12 m ρ c (Proc.devRef .tc r) := by
  by_cases h0 : r = main_v63
  · subst h0; exact (W13_arr m ρ c 0).trans (((dat4 (V12 m ρ) c).arrAt_in 0 rfl _).trans (A_eq4 (V12 m ρ) c 0))
  refine W13_of_ne m ρ c r fun w => ?_
  match w with
  | ⟨0, _⟩ => exact fun e => h0 e.symm
  | ⟨1, _⟩ => exact fun e => h (List.mem_singleton.mpr e.symm)

/-- Item 13, region 5: the array of its output window. -/
abbrev L13 : List (Ref sig .tc) := [main_v65]
/-- Item 13 changes no buffer but its output window's array: an input window's array ends as entered, a buffer that is
    no array of the region is left as entered. -/
theorem keep13 (c : Dev nD) (r : Ref sig .tc) (h : r ∉ L13) :
    W14 m ρ c (Proc.devRef .tc r) = W13 m ρ c (Proc.devRef .tc r) := by
  by_cases h0 : r = main_v64
  · subst h0; exact (W14_arr m ρ c 0).trans (((dat5 (V13 m ρ) c).arrAt_in 0 rfl _).trans (A_eq5 (V13 m ρ) c 0))
  by_cases h1 : r = main_arg8
  · subst h1; exact (W14_arr m ρ c 1).trans (((dat5 (V13 m ρ) c).arrAt_in 1 rfl _).trans (A_eq5 (V13 m ρ) c 1))
  refine W14_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 14, a stretch of 1 host operation: the references they write, in order. -/
abbrev L14 : List (Ref sig .tc) :=
  [main_v66]
theorem main_part1_ops2_writes : (main_part1_ops2 : List (HloOp τ sig (Elt F))).Forall fun op => op.writes ⊆ (L14.map (Proc.devRef (τ := τ) .tc)).toFinset :=
  writes_sub_of main_v66 rfl (by decide)
/-- Item 14 changes no buffer outside its list. -/
theorem keep14 (c : Dev nD) (r : Ref sig .tc) (h : r ∉ L14) :
    W15 m ρ c (Proc.devRef .tc r) = W14 m ρ c (Proc.devRef .tc r) :=
  StableHlo.after_of_writes_sub main_part1_ops2 _ main_part1_ops2_writes h

/-- Item 15, region 6: the array of its output window. -/
abbrev L15 : List (Ref sig .tc) := [main_v67]
/-- Item 15 changes no buffer but its output window's array: an input window's array ends as entered, a buffer that is
    no array of the region is left as entered. -/
theorem keep15 (c : Dev nD) (r : Ref sig .tc) (h : r ∉ L15) :
    W16 m ρ c (Proc.devRef .tc r) = W15 m ρ c (Proc.devRef .tc r) := by
  by_cases h0 : r = main_v65
  · subst h0; exact (W16_arr m ρ c 0).trans (((dat6 (V15 m ρ) c).arrAt_in 0 rfl _).trans (A_eq6 (V15 m ρ) c 0))
  by_cases h1 : r = main_v66
  · subst h1; exact (W16_arr m ρ c 1).trans (((dat6 (V15 m ρ) c).arrAt_in 1 rfl _).trans (A_eq6 (V15 m ρ) c 1))
  refine W16_of_ne m ρ c r fun w => ?_
  match w with
  | ⟨0, _⟩ => exact fun e => h0 e.symm
  | ⟨1, _⟩ => exact fun e => h1 e.symm
  | ⟨2, _⟩ => exact fun e => h (List.mem_singleton.mpr e.symm)

/-- Item 16, a stretch of 36 host operations: the references they write, in order. -/
abbrev L16 : List (Ref sig .tc) :=
  [main_v68, main_v69, main_v70, main_v71, main_v72, main_v73, main_v74, main_v75, main_v76, main_v77, main_v78, main_v79, main_cst_14, main_v80, main_cst_15, main_v81, main_c_16, main_v82, main_v83, main_c_17, main_v84, main_v85, main_v86, main_v87, main_v88, main_c_18, main_v89, main_v90, main_c_19, main_v91, main_v92, main_v93, main_v94, main_v95, main_c_20, main_v96]
theorem main_part1_ops3_writes : (main_part1_ops3 : List (HloOp τ sig (Elt F))).Forall fun op => op.writes ⊆ (L16.map (Proc.devRef (τ := τ) .tc)).toFinset :=
  ⟨writes_sub_of main_v68 rfl (by decide),
   writes_sub_of main_v69 rfl (by decide),
   writes_sub_of main_v70 rfl (by decide),
   writes_sub_of main_v71 rfl (by decide),
   writes_sub_of main_v72 rfl (by decide),
   writes_sub_of main_v73 rfl (by decide),
   writes_sub_of main_v74 rfl (by decide),
   writes_sub_of main_v75 rfl (by decide),
   writes_sub_of main_v76 rfl (by decide),
   writes_sub_of main_v77 rfl (by decide),
   writes_sub_of main_v78 rfl (by decide),
   writes_sub_of main_v79 rfl (by decide),
   writes_sub_of main_cst_14 rfl (by decide),
   writes_sub_of main_v80 rfl (by decide),
   writes_sub_of main_cst_15 rfl (by decide),
   writes_sub_of main_v81 rfl (by decide),
   writes_sub_of main_c_16 rfl (by decide),
   writes_sub_of main_v82 rfl (by decide),
   writes_sub_of main_v83 rfl (by decide),
   writes_sub_of main_c_17 rfl (by decide),
   writes_sub_of main_v84 rfl (by decide),
   writes_sub_of main_v85 rfl (by decide),
   writes_sub_of main_v86 rfl (by decide),
   writes_sub_of main_v87 rfl (by decide),
   writes_sub_of main_v88 rfl (by decide),
   writes_sub_of main_c_18 rfl (by decide),
   writes_sub_of main_v89 rfl (by decide),
   writes_sub_of main_v90 rfl (by decide),
   writes_sub_of main_c_19 rfl (by decide),
   writes_sub_of main_v91 rfl (by decide),
   writes_sub_of main_v92 rfl (by decide),
   writes_sub_of main_v93 rfl (by decide),
   writes_sub_of main_v94 rfl (by decide),
   writes_sub_of main_v95 rfl (by decide),
   writes_sub_of main_c_20 rfl (by decide),
   writes_sub_of main_v96 rfl (by decide)⟩
/-- Item 16 changes no buffer outside its list. -/
theorem keep16 (c : Dev nD) (r : Ref sig .tc) (h : r ∉ L16) :
    W17 m ρ c (Proc.devRef .tc r) = W16 m ρ c (Proc.devRef .tc r) :=
  StableHlo.after_of_writes_sub main_part1_ops3 _ main_part1_ops3_writes h

/-- Item 17, a stretch of 37 host operations: the references they write, in order. -/
abbrev L17 : List (Ref sig .tc) :=
  [main_v97, main_c_21, main_v98, main_v99, main_v100, main_v101, main_v102, main_c_22, main_v103, main_v104, main_c_23, main_v105, main_v106, main_v107, main_v108, main_v109, main_c_24, main_v110, main_v111, main_c_25, main_v112, main_v113, main_v114, main_v115, main_v116, main_c_26, main_v117, main_v118, main_c_27, main_v119, main_v120, main_v121, main_v122, main_v123, main_v124, main_v125, main_v126]
theorem main_part2_ops0_writes : (main_part2_ops0 : List (HloOp τ sig (Elt F))).Forall fun op => op.writes ⊆ (L17.map (Proc.devRef (τ := τ) .tc)).toFinset :=
  ⟨writes_sub_of main_v97 rfl (by decide),
   writes_sub_of main_c_21 rfl (by decide),
   writes_sub_of main_v98 rfl (by decide),
   writes_sub_of main_v99 rfl (by decide),
   writes_sub_of main_v100 rfl (by decide),
   writes_sub_of main_v101 rfl (by decide),
   writes_sub_of main_v102 rfl (by decide),
   writes_sub_of main_c_22 rfl (by decide),
   writes_sub_of main_v103 rfl (by decide),
   writes_sub_of main_v104 rfl (by decide),
   writes_sub_of main_c_23 rfl (by decide),
   writes_sub_of main_v105 rfl (by decide),
   writes_sub_of main_v106 rfl (by decide),
   writes_sub_of main_v107 rfl (by decide),
   writes_sub_of main_v108 rfl (by decide),
   writes_sub_of main_v109 rfl (by decide),
   writes_sub_of main_c_24 rfl (by decide),
   writes_sub_of main_v110 rfl (by decide),
   writes_sub_of main_v111 rfl (by decide),
   writes_sub_of main_c_25 rfl (by decide),
   writes_sub_of main_v112 rfl (by decide),
   writes_sub_of main_v113 rfl (by decide),
   writes_sub_of main_v114 rfl (by decide),
   writes_sub_of main_v115 rfl (by decide),
   writes_sub_of main_v116 rfl (by decide),
   writes_sub_of main_c_26 rfl (by decide),
   writes_sub_of main_v117 rfl (by decide),
   writes_sub_of main_v118 rfl (by decide),
   writes_sub_of main_c_27 rfl (by decide),
   writes_sub_of main_v119 rfl (by decide),
   writes_sub_of main_v120 rfl (by decide),
   writes_sub_of main_v121 rfl (by decide),
   writes_sub_of main_v122 rfl (by decide),
   writes_sub_of main_v123 rfl (by decide),
   writes_sub_of main_v124 rfl (by decide),
   writes_sub_of main_v125 rfl (by decide),
   writes_sub_of main_v126 rfl (by decide)⟩
/-- Item 17 changes no buffer outside its list. -/
theorem keep17 (c : Dev nD) (r : Ref sig .tc) (h : r ∉ L17) :
    W18 m ρ c (Proc.devRef .tc r) = W17 m ρ c (Proc.devRef .tc r) :=
  StableHlo.after_of_writes_sub main_part2_ops0 _ main_part2_ops0_writes h

/-- Item 18, region 7: the array of its output window. -/
abbrev L18 : List (Ref sig .tc) := [main_v127]
/-- Item 18 changes no buffer but its output window's array: an input window's array ends as entered, a buffer that is
    no array of the region is left as entered. -/
theorem keep18 (c : Dev nD) (r : Ref sig .tc) (h : r ∉ L18) :
    W19 m ρ c (Proc.devRef .tc r) = W18 m ρ c (Proc.devRef .tc r) := by
  by_cases h0 : r = main_v88
  · subst h0; exact (W19_arr m ρ c 0).trans (((dat7 (V18 m ρ) c).arrAt_in 0 rfl _).trans (A_eq7 (V18 m ρ) c 0))
  by_cases h1 : r = main_v95
  · subst h1; exact (W19_arr m ρ c 1).trans (((dat7 (V18 m ρ) c).arrAt_in 1 rfl _).trans (A_eq7 (V18 m ρ) c 1))
  by_cases h2 : r = main_v102
  · subst h2; exact (W19_arr m ρ c 2).trans (((dat7 (V18 m ρ) c).arrAt_in 2 rfl _).trans (A_eq7 (V18 m ρ) c 2))
  by_cases h3 : r = main_v109
  · subst h3; exact (W19_arr m ρ c 3).trans (((dat7 (V18 m ρ) c).arrAt_in 3 rfl _).trans (A_eq7 (V18 m ρ) c 3))
  by_cases h4 : r = main_v116
  · subst h4; exact (W19_arr m ρ c 4).trans (((dat7 (V18 m ρ) c).arrAt_in 4 rfl _).trans (A_eq7 (V18 m ρ) c 4))
  by_cases h5 : r = main_v123
  · subst h5; exact (W19_arr m ρ c 5).trans (((dat7 (V18 m ρ) c).arrAt_in 5 rfl _).trans (A_eq7 (V18 m ρ) c 5))
  by_cases h6 : r = main_v124
  · subst h6; exact (W19_arr m ρ c 6).trans (((dat7 (V18 m ρ) c).arrAt_in 6 rfl _).trans (A_eq7 (V18 m ρ) c 6))
  by_cases h7 : r = main_v125
  · subst h7; exact (W19_arr m ρ c 7).trans (((dat7 (V18 m ρ) c).arrAt_in 7 rfl _).trans (A_eq7 (V18 m ρ) c 7))
  by_cases h8 : r = main_v126
  · subst h8; exact (W19_arr m ρ c 8).trans (((dat7 (V18 m ρ) c).arrAt_in 8 rfl _).trans (A_eq7 (V18 m ρ) c 8))
  refine W19_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => h6 e.symm
  | ⟨7, _⟩ => exact fun e => h7 e.symm
  | ⟨8, _⟩ => exact fun e => h8 e.symm
  | ⟨9, _⟩ => exact fun e => h (List.mem_singleton.mpr e.symm)

/-- Item 19, a stretch of 9 host operations: the references they write, in order. -/
abbrev L19 : List (Ref sig .tc) :=
  [main_v128, main_v129, main_v130, main_v131, main_v132, main_cst_28, main_v133, main_v134, main_v135]
theorem main_part2_ops1_writes : (main_part2_ops1 : List (HloOp τ sig (Elt F))).Forall fun op => op.writes ⊆ (L19.map (Proc.devRef (τ := τ) .tc)).toFinset :=
  ⟨writes_sub_of main_v128 rfl (by decide),
   writes_sub_of main_v129 rfl (by decide),
   writes_sub_of main_v130 rfl (by decide),
   writes_sub_of main_v131 rfl (by decide),
   writes_sub_of main_v132 rfl (by decide),
   writes_sub_of main_cst_28 rfl (by decide),
   writes_sub_of main_v133 rfl (by decide),
   writes_sub_of main_v134 rfl (by decide),
   writes_sub_of main_v135 rfl (by decide)⟩
/-- Item 19 changes no buffer outside its list. -/
theorem keep19 (c : Dev nD) (r : Ref sig .tc) (h : r ∉ L19) :
    W20 m ρ c (Proc.devRef .tc r) = W19 m ρ c (Proc.devRef .tc r) :=
  StableHlo.after_of_writes_sub main_part2_ops1 _ main_part2_ops1_writes h

end Cert.KernelIdeal.Hand

end
-- ==== Proof.KI.Args.lean ====
/-
  The arguments end as launched. No item of @main lists an argument among the buffers it may change: no stretch of
  host operations writes one, and no region has one as its output window's array. Walking the twenty items back from
  the last boundary, each argument's buffer there holds what the launch memory held. With the run, this is the frame
  claim.
-/
import proofs.«160566_j58506044506613_1_alg».proof.Proof.KI.Run
import proofs.«160566_j58506044506613_1_alg».proof.Proof.KI.Steps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## No item changes an argument -/

/-- This argument's buffer at the last boundary holds what the launch memory held. -/
theorem W20_main_arg0 (c : Dev nD) : W20 m ρ c (Proc.devRef .tc main_arg0) = m ((c : Thread nD τ).loc main_arg0) :=
  (keep19 m ρ c main_arg0 (by decide)).trans <|
  (keep18 m ρ c main_arg0 (by decide)).trans <|
  (keep17 m ρ c main_arg0 (by decide)).trans <|
  (keep16 m ρ c main_arg0 (by decide)).trans <|
  (keep15 m ρ c main_arg0 (by decide)).trans <|
  (keep14 m ρ c main_arg0 (by decide)).trans <|
  (keep13 m ρ c main_arg0 (by decide)).trans <|
  (keep12 m ρ c main_arg0 (by decide)).trans <|
  (keep11 m ρ c main_arg0 (by decide)).trans <|
  (keep10 m ρ c main_arg0 (by decide)).trans <|
  (keep9 m ρ c main_arg0 (by decide)).trans <|
  (keep8 m ρ c main_arg0 (by decide)).trans <|
  (keep7 m ρ c main_arg0 (by decide)).trans <|
  (keep6 m ρ c main_arg0 (by decide)).trans <|
  (keep5 m ρ c main_arg0 (by decide)).trans <|
  (keep4 m ρ c main_arg0 (by decide)).trans <|
  (keep3 m ρ c main_arg0 (by decide)).trans <|
  (keep2 m ρ c main_arg0 (by decide)).trans <|
  (keep1 m ρ c main_arg0 (by decide)).trans <|
  (keep0 m ρ c main_arg0 (by decide)).trans <|
  rfl
/-- This argument's buffer at the last boundary holds what the launch memory held. -/
theorem W20_main_arg1 (c : Dev nD) : W20 m ρ c (Proc.devRef .tc main_arg1) = m ((c : Thread nD τ).loc main_arg1) :=
  (keep19 m ρ c main_arg1 (by decide)).trans <|
  (keep18 m ρ c main_arg1 (by decide)).trans <|
  (keep17 m ρ c main_arg1 (by decide)).trans <|
  (keep16 m ρ c main_arg1 (by decide)).trans <|
  (keep15 m ρ c main_arg1 (by decide)).trans <|
  (keep14 m ρ c main_arg1 (by decide)).trans <|
  (keep13 m ρ c main_arg1 (by decide)).trans <|
  (keep12 m ρ c main_arg1 (by decide)).trans <|
  (keep11 m ρ c main_arg1 (by decide)).trans <|
  (keep10 m ρ c main_arg1 (by decide)).trans <|
  (keep9 m ρ c main_arg1 (by decide)).trans <|
  (keep8 m ρ c main_arg1 (by decide)).trans <|
  (keep7 m ρ c main_arg1 (by decide)).trans <|
  (keep6 m ρ c main_arg1 (by decide)).trans <|
  (keep5 m ρ c main_arg1 (by decide)).trans <|
  (keep4 m ρ c main_arg1 (by decide)).trans <|
  (keep3 m ρ c main_arg1 (by decide)).trans <|
  (keep2 m ρ c main_arg1 (by decide)).trans <|
  (keep1 m ρ c main_arg1 (by decide)).trans <|
  (keep0 m ρ c main_arg1 (by decide)).trans <|
  rfl
/-- This argument's buffer at the last boundary holds what the launch memory held. -/
theorem W20_main_arg2 (c : Dev nD) : W20 m ρ c (Proc.devRef .tc main_arg2) = m ((c : Thread nD τ).loc main_arg2) :=
  (keep19 m ρ c main_arg2 (by decide)).trans <|
  (keep18 m ρ c main_arg2 (by decide)).trans <|
  (keep17 m ρ c main_arg2 (by decide)).trans <|
  (keep16 m ρ c main_arg2 (by decide)).trans <|
  (keep15 m ρ c main_arg2 (by decide)).trans <|
  (keep14 m ρ c main_arg2 (by decide)).trans <|
  (keep13 m ρ c main_arg2 (by decide)).trans <|
  (keep12 m ρ c main_arg2 (by decide)).trans <|
  (keep11 m ρ c main_arg2 (by decide)).trans <|
  (keep10 m ρ c main_arg2 (by decide)).trans <|
  (keep9 m ρ c main_arg2 (by decide)).trans <|
  (keep8 m ρ c main_arg2 (by decide)).trans <|
  (keep7 m ρ c main_arg2 (by decide)).trans <|
  (keep6 m ρ c main_arg2 (by decide)).trans <|
  (keep5 m ρ c main_arg2 (by decide)).trans <|
  (keep4 m ρ c main_arg2 (by decide)).trans <|
  (keep3 m ρ c main_arg2 (by decide)).trans <|
  (keep2 m ρ c main_arg2 (by decide)).trans <|
  (keep1 m ρ c main_arg2 (by decide)).trans <|
  (keep0 m ρ c main_arg2 (by decide)).trans <|
  rfl
/-- This argument's buffer at the last boundary holds what the launch memory held. -/
theorem W20_main_arg3 (c : Dev nD) : W20 m ρ c (Proc.devRef .tc main_arg3) = m ((c : Thread nD τ).loc main_arg3) :=
  (keep19 m ρ c main_arg3 (by decide)).trans <|
  (keep18 m ρ c main_arg3 (by decide)).trans <|
  (keep17 m ρ c main_arg3 (by decide)).trans <|
  (keep16 m ρ c main_arg3 (by decide)).trans <|
  (keep15 m ρ c main_arg3 (by decide)).trans <|
  (keep14 m ρ c main_arg3 (by decide)).trans <|
  (keep13 m ρ c main_arg3 (by decide)).trans <|
  (keep12 m ρ c main_arg3 (by decide)).trans <|
  (keep11 m ρ c main_arg3 (by decide)).trans <|
  (keep10 m ρ c main_arg3 (by decide)).trans <|
  (keep9 m ρ c main_arg3 (by decide)).trans <|
  (keep8 m ρ c main_arg3 (by decide)).trans <|
  (keep7 m ρ c main_arg3 (by decide)).trans <|
  (keep6 m ρ c main_arg3 (by decide)).trans <|
  (keep5 m ρ c main_arg3 (by decide)).trans <|
  (keep4 m ρ c main_arg3 (by decide)).trans <|
  (keep3 m ρ c main_arg3 (by decide)).trans <|
  (keep2 m ρ c main_arg3 (by decide)).trans <|
  (keep1 m ρ c main_arg3 (by decide)).trans <|
  (keep0 m ρ c main_arg3 (by decide)).trans <|
  rfl
/-- This argument's buffer at the last boundary holds what the launch memory held. -/
theorem W20_main_arg4 (c : Dev nD) : W20 m ρ c (Proc.devRef .tc main_arg4) = m ((c : Thread nD τ).loc main_arg4) :=
  (keep19 m ρ c main_arg4 (by decide)).trans <|
  (keep18 m ρ c main_arg4 (by decide)).trans <|
  (keep17 m ρ c main_arg4 (by decide)).trans <|
  (keep16 m ρ c main_arg4 (by decide)).trans <|
  (keep15 m ρ c main_arg4 (by decide)).trans <|
  (keep14 m ρ c main_arg4 (by decide)).trans <|
  (keep13 m ρ c main_arg4 (by decide)).trans <|
  (keep12 m ρ c main_arg4 (by decide)).trans <|
  (keep11 m ρ c main_arg4 (by decide)).trans <|
  (keep10 m ρ c main_arg4 (by decide)).trans <|
  (keep9 m ρ c main_arg4 (by decide)).trans <|
  (keep8 m ρ c main_arg4 (by decide)).trans <|
  (keep7 m ρ c main_arg4 (by decide)).trans <|
  (keep6 m ρ c main_arg4 (by decide)).trans <|
  (keep5 m ρ c main_arg4 (by decide)).trans <|
  (keep4 m ρ c main_arg4 (by decide)).trans <|
  (keep3 m ρ c main_arg4 (by decide)).trans <|
  (keep2 m ρ c main_arg4 (by decide)).trans <|
  (keep1 m ρ c main_arg4 (by decide)).trans <|
  (keep0 m ρ c main_arg4 (by decide)).trans <|
  rfl
/-- This argument's buffer at the last boundary holds what the launch memory held. -/
theorem W20_main_arg5 (c : Dev nD) : W20 m ρ c (Proc.devRef .tc main_arg5) = m ((c : Thread nD τ).loc main_arg5) :=
  (keep19 m ρ c main_arg5 (by decide)).trans <|
  (keep18 m ρ c main_arg5 (by decide)).trans <|
  (keep17 m ρ c main_arg5 (by decide)).trans <|
  (keep16 m ρ c main_arg5 (by decide)).trans <|
  (keep15 m ρ c main_arg5 (by decide)).trans <|
  (keep14 m ρ c main_arg5 (by decide)).trans <|
  (keep13 m ρ c main_arg5 (by decide)).trans <|
  (keep12 m ρ c main_arg5 (by decide)).trans <|
  (keep11 m ρ c main_arg5 (by decide)).trans <|
  (keep10 m ρ c main_arg5 (by decide)).trans <|
  (keep9 m ρ c main_arg5 (by decide)).trans <|
  (keep8 m ρ c main_arg5 (by decide)).trans <|
  (keep7 m ρ c main_arg5 (by decide)).trans <|
  (keep6 m ρ c main_arg5 (by decide)).trans <|
  (keep5 m ρ c main_arg5 (by decide)).trans <|
  (keep4 m ρ c main_arg5 (by decide)).trans <|
  (keep3 m ρ c main_arg5 (by decide)).trans <|
  (keep2 m ρ c main_arg5 (by decide)).trans <|
  (keep1 m ρ c main_arg5 (by decide)).trans <|
  (keep0 m ρ c main_arg5 (by decide)).trans <|
  rfl
/-- This argument's buffer at the last boundary holds what the launch memory held. -/
theorem W20_main_arg6 (c : Dev nD) : W20 m ρ c (Proc.devRef .tc main_arg6) = m ((c : Thread nD τ).loc main_arg6) :=
  (keep19 m ρ c main_arg6 (by decide)).trans <|
  (keep18 m ρ c main_arg6 (by decide)).trans <|
  (keep17 m ρ c main_arg6 (by decide)).trans <|
  (keep16 m ρ c main_arg6 (by decide)).trans <|
  (keep15 m ρ c main_arg6 (by decide)).trans <|
  (keep14 m ρ c main_arg6 (by decide)).trans <|
  (keep13 m ρ c main_arg6 (by decide)).trans <|
  (keep12 m ρ c main_arg6 (by decide)).trans <|
  (keep11 m ρ c main_arg6 (by decide)).trans <|
  (keep10 m ρ c main_arg6 (by decide)).trans <|
  (keep9 m ρ c main_arg6 (by decide)).trans <|
  (keep8 m ρ c main_arg6 (by decide)).trans <|
  (keep7 m ρ c main_arg6 (by decide)).trans <|
  (keep6 m ρ c main_arg6 (by decide)).trans <|
  (keep5 m ρ c main_arg6 (by decide)).trans <|
  (keep4 m ρ c main_arg6 (by decide)).trans <|
  (keep3 m ρ c main_arg6 (by decide)).trans <|
  (keep2 m ρ c main_arg6 (by decide)).trans <|
  (keep1 m ρ c main_arg6 (by decide)).trans <|
  (keep0 m ρ c main_arg6 (by decide)).trans <|
  rfl
/-- This argument's buffer at the last boundary holds what the launch memory held. -/
theorem W20_main_arg7 (c : Dev nD) : W20 m ρ c (Proc.devRef .tc main_arg7) = m ((c : Thread nD τ).loc main_arg7) :=
  (keep19 m ρ c main_arg7 (by decide)).trans <|
  (keep18 m ρ c main_arg7 (by decide)).trans <|
  (keep17 m ρ c main_arg7 (by decide)).trans <|
  (keep16 m ρ c main_arg7 (by decide)).trans <|
  (keep15 m ρ c main_arg7 (by decide)).trans <|
  (keep14 m ρ c main_arg7 (by decide)).trans <|
  (keep13 m ρ c main_arg7 (by decide)).trans <|
  (keep12 m ρ c main_arg7 (by decide)).trans <|
  (keep11 m ρ c main_arg7 (by decide)).trans <|
  (keep10 m ρ c main_arg7 (by decide)).trans <|
  (keep9 m ρ c main_arg7 (by decide)).trans <|
  (keep8 m ρ c main_arg7 (by decide)).trans <|
  (keep7 m ρ c main_arg7 (by decide)).trans <|
  (keep6 m ρ c main_arg7 (by decide)).trans <|
  (keep5 m ρ c main_arg7 (by decide)).trans <|
  (keep4 m ρ c main_arg7 (by decide)).trans <|
  (keep3 m ρ c main_arg7 (by decide)).trans <|
  (keep2 m ρ c main_arg7 (by decide)).trans <|
  (keep1 m ρ c main_arg7 (by decide)).trans <|
  (keep0 m ρ c main_arg7 (by decide)).trans <|
  rfl
/-- This argument's buffer at the last boundary holds what the launch memory held. -/
theorem W20_main_arg8 (c : Dev nD) : W20 m ρ c (Proc.devRef .tc main_arg8) = m ((c : Thread nD τ).loc main_arg8) :=
  (keep19 m ρ c main_arg8 (by decide)).trans <|
  (keep18 m ρ c main_arg8 (by decide)).trans <|
  (keep17 m ρ c main_arg8 (by decide)).trans <|
  (keep16 m ρ c main_arg8 (by decide)).trans <|
  (keep15 m ρ c main_arg8 (by decide)).trans <|
  (keep14 m ρ c main_arg8 (by decide)).trans <|
  (keep13 m ρ c main_arg8 (by decide)).trans <|
  (keep12 m ρ c main_arg8 (by decide)).trans <|
  (keep11 m ρ c main_arg8 (by decide)).trans <|
  (keep10 m ρ c main_arg8 (by decide)).trans <|
  (keep9 m ρ c main_arg8 (by decide)).trans <|
  (keep8 m ρ c main_arg8 (by decide)).trans <|
  (keep7 m ρ c main_arg8 (by decide)).trans <|
  (keep6 m ρ c main_arg8 (by decide)).trans <|
  (keep5 m ρ c main_arg8 (by decide)).trans <|
  (keep4 m ρ c main_arg8 (by decide)).trans <|
  (keep3 m ρ c main_arg8 (by decide)).trans <|
  (keep2 m ρ c main_arg8 (by decide)).trans <|
  (keep1 m ρ c main_arg8 (by decide)).trans <|
  (keep0 m ρ c main_arg8 (by decide)).trans <|
  rfl
/-- This argument's buffer at the last boundary holds what the launch memory held. -/
theorem W20_main_arg9 (c : Dev nD) : W20 m ρ c (Proc.devRef .tc main_arg9) = m ((c : Thread nD τ).loc main_arg9) :=
  (keep19 m ρ c main_arg9 (by decide)).trans <|
  (keep18 m ρ c main_arg9 (by decide)).trans <|
  (keep17 m ρ c main_arg9 (by decide)).trans <|
  (keep16 m ρ c main_arg9 (by decide)).trans <|
  (keep15 m ρ c main_arg9 (by decide)).trans <|
  (keep14 m ρ c main_arg9 (by decide)).trans <|
  (keep13 m ρ c main_arg9 (by decide)).trans <|
  (keep12 m ρ c main_arg9 (by decide)).trans <|
  (keep11 m ρ c main_arg9 (by decide)).trans <|
  (keep10 m ρ c main_arg9 (by decide)).trans <|
  (keep9 m ρ c main_arg9 (by decide)).trans <|
  (keep8 m ρ c main_arg9 (by decide)).trans <|
  (keep7 m ρ c main_arg9 (by decide)).trans <|
  (keep6 m ρ c main_arg9 (by decide)).trans <|
  (keep5 m ρ c main_arg9 (by decide)).trans <|
  (keep4 m ρ c main_arg9 (by decide)).trans <|
  (keep3 m ρ c main_arg9 (by decide)).trans <|
  (keep2 m ρ c main_arg9 (by decide)).trans <|
  (keep1 m ρ c main_arg9 (by decide)).trans <|
  (keep0 m ρ c main_arg9 (by decide)).trans <|
  rfl

/-! ## The frame claim -/

/-- From any memory with zero counters, every weakly fair execution of @main on the cores terminates, nothing
    faulting, and every final state has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c)⟩) (run_main m ρ)

end Cert.KernelIdeal.Hand

end
-- ==== Proof.Val.RefChunks.lean ====
/-
  The reference's operations in consecutive groups. `ops` (the reference's 260 operations, the program's own text)
  is cut into nineteen consecutive stretches, each restated here word for word from `ops`; `ops_split` says the
  stretches, appended in order, are `ops`, and `after_append` that the fold over an appended list is the fold over
  its second part from the fold over its first. Each stretch is small enough to be read back on its own, at any
  buffer contents it is entered from.
-/
import proofs.«160566_j58506044506613_1_alg».proof.Proof.RefRun

noncomputable section

namespace Cert.Bridge.RefChunks

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The fold over an appended list: the second part's fold from the first part's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1–7 of the reference: the edge endpoints with the self loops appended: row and col. -/
abbrev g01 : List (HloOp τ sig (Elt F)) :=
  [ nullary main_v0 (iotaInDim S50000 32 0),
    unary main_arg0 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg0 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 8–8 of the reference: the first layer's product of the features with its weights. -/
abbrev g02 : List (HloOp τ sig (Elt F)) :=
  [ binary main_arg1 main_arg4 main_v7 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 9–29 of the reference: the degree by scatter-add of ones, and its inverse square root where positive. -/
abbrev g03 : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v3 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v11) (TRef.of (T := ⟨S50000, .f32⟩) main_call0_v1) (TRef.of (T := ⟨S50000, .f32⟩) main_v14) select,
    nullary main_cst_3 (constant S_ .f32 0x00000000#32),
    unary main_cst_3 main_v15 (broadcastInDim S50000 ![] bcast_S_S50000 : (⟨S_, .f32⟩ : BufTy).Contents (Elt F) → (⟨S50000, .f32⟩ : BufTy).Contents (Elt F)),
    binary main_v11 main_v15 main_v16 (cmpf .ogt : (⟨S50000, .f32⟩ : BufTy).Contents (Elt F) → (⟨S50000, .f32⟩ : BufTy).Contents (Elt F) → (⟨S50000, .i1⟩ : BufTy).Contents (Elt F)),
    unary main_v14 main_v17 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v16) (TRef.of (T := ⟨S50000, .f32⟩) main_v17) (TRef.of (T := ⟨S50000, .f32⟩) main_call1_v1) (TRef.of (T := ⟨S50000, .f32⟩) main_v18) select ]

/-- Operations 30–49 of the reference: the wrapped endpoints, the two gathers of the inverse square roots, and their product as a column: the edge weights. -/
abbrev g04 : List (HloOp τ sig (Elt F)) :=
  [ nullary main_c (constantI S_ 32 0#32),
    unary main_c main_v19 (broadcastInDim S850000 ![] bcast_S_S850000 : (⟨S_, .i32⟩ : BufTy).Contents (Elt F) → (⟨S850000, .i32⟩ : BufTy).Contents (Elt F)),
    binary main_v3 main_v19 main_v20 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v21 (broadcastInDim S850000 ![] bcast_S_S850000 : (⟨S_, .i32⟩ : BufTy).Contents (Elt F) → (⟨S850000, .i32⟩ : BufTy).Contents (Elt F)),
    binary main_v3 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v3 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_6 (constantI S_ 32 0#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v28 (broadcastInDim S850000 ![] bcast_S_S850000 : (⟨S_, .i32⟩ : BufTy).Contents (Elt F) → (⟨S850000, .i32⟩ : BufTy).Contents (Elt F)),
    binary main_v6 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v6 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v18 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v32 main_v33 (mulf : (⟨S850000, .f32⟩ : BufTy).Contents (Elt F) → (⟨S850000, .f32⟩ : BufTy).Contents (Elt F) → (⟨S850000, .f32⟩ : BufTy).Contents (Elt F)),
    unary main_v33 main_v34 (broadcastInDim S850000x1 ![0] bcast_S850000_S850000x1_0 : (⟨S850000, .f32⟩ : BufTy).Contents (Elt F) → (⟨S850000x1, .f32⟩ : BufTy).Contents (Elt F)) ]

/-- Operations 50–64 of the reference: the first aggregation: gather at col, weight, scatter-add over row. -/
abbrev g05 : List (HloOp τ sig (Elt F)) :=
  [ nullary main_c_8 (constantI S_ 32 0#32),
    unary main_c_8 main_v35 (broadcastInDim S850000 ![] bcast_S_S850000 : (⟨S_, .i32⟩ : BufTy).Contents (Elt F) → (⟨S850000, .i32⟩ : BufTy).Contents (Elt F)),
    binary main_v6 main_v35 main_v36 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v37 (broadcastInDim S850000 ![] bcast_S_S850000 : (⟨S_, .i32⟩ : BufTy).Contents (Elt F) → (⟨S850000, .i32⟩ : BufTy).Contents (Elt F)),
    binary main_v6 main_v37 main_v38 (addi : (⟨S850000, .i32⟩ : BufTy).Contents (Elt F) → (⟨S850000, .i32⟩ : BufTy).Contents (Elt F) → (⟨S850000, .i32⟩ : BufTy).Contents (Elt F)),
    ternary main_v36 main_v38 main_v6 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v39 main_v40 (broadcastInDim S850000x1 ![0] bcast_S850000_S850000x1_0 : (⟨S850000, .i32⟩ : BufTy).Contents (Elt F) → (⟨S850000x1, .i32⟩ : BufTy).Contents (Elt F)),
    binary main_v7 main_v40 main_v41 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v34 main_v42 (broadcastInDim S850000x256 ![0, 1] bcast_S850000x1_S850000x256_0_1 : (⟨S850000x1, .f32⟩ : BufTy).Contents (Elt F) → (⟨S850000x256, .f32⟩ : BufTy).Contents (Elt F)),
    binary main_v42 main_v41 main_v43 (mulf : (⟨S850000x256, .f32⟩ : BufTy).Contents (Elt F) → (⟨S850000x256, .f32⟩ : BufTy).Contents (Elt F) → (⟨S850000x256, .f32⟩ : BufTy).Contents (Elt F)),
    nullary main_cst_10 (constant S_ .f32 0x00000000#32),
    unary main_cst_10 main_v44 (broadcastInDim S50000x256 ![] bcast_S_S50000x256 : (⟨S_, .f32⟩ : BufTy).Contents (Elt F) → (⟨S50000x256, .f32⟩ : BufTy).Contents (Elt F)),
    unary main_v3 main_v45 (broadcastInDim S850000x1 ![0] bcast_S850000_S850000x1_0 : (⟨S850000, .i32⟩ : BufTy).Contents (Elt F) → (⟨S850000x1, .i32⟩ : BufTy).Contents (Elt F)),
    ternary main_v44 main_v45 main_v43 main_v46 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- Operations 65–70 of the reference: the first layer's bias and its positive part. -/
abbrev g06 : List (HloOp τ sig (Elt F)) :=
  [ unary main_arg5 main_v47 (broadcastInDim S1x256 ![1] bcast_S256_S1x256_1 : (⟨S256, .f32⟩ : BufTy).Contents (Elt F) → (⟨S1x256, .f32⟩ : BufTy).Contents (Elt F)),
    unary main_v47 main_v48 (broadcastInDim S50000x256 ![0, 1] bcast_S1x256_S50000x256_0_1 : (⟨S1x256, .f32⟩ : BufTy).Contents (Elt F) → (⟨S50000x256, .f32⟩ : BufTy).Contents (Elt F)),
    binary main_v46 main_v48 main_v49 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v49) (TRef.of (T := ⟨S50000x256, .f32⟩) main_call2_v0) (TRef.of (T := ⟨S50000x256, .f32⟩) main_v50) maximumf ]

/-- Operations 71–71 of the reference: the second layer's product with its weights. -/
abbrev g07 : List (HloOp τ sig (Elt F)) :=
  [ binary main_v50 main_arg6 main_v51 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 72–92 of the reference: the degree and its inverse square root, computed a second time. -/
abbrev g08 : List (HloOp τ sig (Elt F)) :=
  [ nullary main_cst_11 (constant S_ .f32 0x3F800000#32),
    unary main_cst_11 main_v52 (broadcastInDim S850000 ![] bcast_S_S850000 : (⟨S_, .f32⟩ : BufTy).Contents (Elt F) → (⟨S850000, .f32⟩ : BufTy).Contents (Elt F)),
    nullary main_cst_12 (constant S_ .f32 0x00000000#32),
    unary main_cst_12 main_v53 (broadcastInDim S50000 ![] bcast_S_S50000 : (⟨S_, .f32⟩ : BufTy).Contents (Elt F) → (⟨S50000, .f32⟩ : BufTy).Contents (Elt F)),
    unary main_v3 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_13 (constant S_ .f32 0x00000000#32),
    unary main_cst_13 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    nullary main_cst_14 (constant S_ .f32 0x3F800000#32),
    TRef.unary (TRef.of (T := ⟨S_, .f32⟩) main_cst_14) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v57) (TRef.of (T := ⟨S50000, .f32⟩) main_v55) (TRef.of (T := ⟨S50000, .f32⟩) main_call3_v1) (TRef.of (T := ⟨S50000, .f32⟩) main_v58) select,
    nullary main_cst_15 (constant S_ .f32 0x00000000#32),
    unary main_cst_15 main_v59 (broadcastInDim S50000 ![] bcast_S_S50000 : (⟨S_, .f32⟩ : BufTy).Contents (Elt F) → (⟨S50000, .f32⟩ : BufTy).Contents (Elt F)),
    binary main_v55 main_v59 main_v60 (cmpf .ogt : (⟨S50000, .f32⟩ : BufTy).Contents (Elt F) → (⟨S50000, .f32⟩ : BufTy).Contents (Elt F) → (⟨S50000, .i1⟩ : BufTy).Contents (Elt F)),
    unary main_v58 main_v61 (Host.rsqrt : (⟨S50000, .f32⟩ : BufTy).Contents (Elt F) → (⟨S50000, .f32⟩ : BufTy).Contents (Elt F)),
    nullary main_cst_16 (constant S_ .f32 0x00000000#32),
    TRef.unary (TRef.of (T := ⟨S_, .f32⟩) main_cst_16) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v60) (TRef.of (T := ⟨S50000, .f32⟩) main_v61) (TRef.of (T := ⟨S50000, .f32⟩) main_call4_v1) (TRef.of (T := ⟨S50000, .f32⟩) main_v62) select ]

/-- Operations 93–112 of the reference: the edge weights, computed a second time. -/
abbrev g09 : List (HloOp τ sig (Elt F)) :=
  [ nullary main_c_17 (constantI S_ 32 0#32),
    unary main_c_17 main_v63 (broadcastInDim S850000 ![] bcast_S_S850000 : (⟨S_, .i32⟩ : BufTy).Contents (Elt F) → (⟨S850000, .i32⟩ : BufTy).Contents (Elt F)),
    binary main_v3 main_v63 main_v64 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v65 (broadcastInDim S850000 ![] bcast_S_S850000 : (⟨S_, .i32⟩ : BufTy).Contents (Elt F) → (⟨S850000, .i32⟩ : BufTy).Contents (Elt F)),
    binary main_v3 main_v65 main_v66 (addi : (⟨S850000, .i32⟩ : BufTy).Contents (Elt F) → (⟨S850000, .i32⟩ : BufTy).Contents (Elt F) → (⟨S850000, .i32⟩ : BufTy).Contents (Elt F)),
    ternary main_v64 main_v66 main_v3 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v67 main_v68 (broadcastInDim S850000x1 ![0] bcast_S850000_S850000x1_0 : (⟨S850000, .i32⟩ : BufTy).Contents (Elt F) → (⟨S850000x1, .i32⟩ : BufTy).Contents (Elt F)),
    binary main_v62 main_v68 main_v69 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_19 (constantI S_ 32 0#32),
    unary main_c_19 main_v70 (broadcastInDim S850000 ![] bcast_S_S850000 : (⟨S_, .i32⟩ : BufTy).Contents (Elt F) → (⟨S850000, .i32⟩ : BufTy).Contents (Elt F)),
    binary main_v6 main_v70 main_v71 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v72 (broadcastInDim S850000 ![] bcast_S_S850000 : (⟨S_, .i32⟩ : BufTy).Contents (Elt F) → (⟨S850000, .i32⟩ : BufTy).Contents (Elt F)),
    binary main_v6 main_v72 main_v73 (addi : (⟨S850000, .i32⟩ : BufTy).Contents (Elt F) → (⟨S850000, .i32⟩ : BufTy).Contents (Elt F) → (⟨S850000, .i32⟩ : BufTy).Contents (Elt F)),
    ternary main_v71 main_v73 main_v6 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v74 main_v75 (broadcastInDim S850000x1 ![0] bcast_S850000_S850000x1_0 : (⟨S850000, .i32⟩ : BufTy).Contents (Elt F) → (⟨S850000x1, .i32⟩ : BufTy).Contents (Elt F)),
    binary main_v62 main_v75 main_v76 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v69 main_v76 main_v77 (mulf : (⟨S850000, .f32⟩ : BufTy).Contents (Elt F) → (⟨S850000, .f32⟩ : BufTy).Contents (Elt F) → (⟨S850000, .f32⟩ : BufTy).Contents (Elt F)),
    unary main_v77 main_v78 (broadcastInDim S850000x1 ![0] bcast_S850000_S850000x1_0 : (⟨S850000, .f32⟩ : BufTy).Contents (Elt F) → (⟨S850000x1, .f32⟩ : BufTy).Contents (Elt F)) ]

/-- Operations 113–127 of the reference: the second aggregation. -/
abbrev g10 : List (HloOp τ sig (Elt F)) :=
  [ nullary main_c_21 (constantI S_ 32 0#32),
    unary main_c_21 main_v79 (broadcastInDim S850000 ![] bcast_S_S850000 : (⟨S_, .i32⟩ : BufTy).Contents (Elt F) → (⟨S850000, .i32⟩ : BufTy).Contents (Elt F)),
    binary main_v6 main_v79 main_v80 (cmpi .slt : (⟨S850000, .i32⟩ : BufTy).Contents (Elt F) → (⟨S850000, .i32⟩ : BufTy).Contents (Elt F) → (⟨S850000, .i1⟩ : BufTy).Contents (Elt F)),
    nullary main_c_22 (constantI S_ 32 50000#32),
    unary main_c_22 main_v81 (broadcastInDim S850000 ![] bcast_S_S850000 : (⟨S_, .i32⟩ : BufTy).Contents (Elt F) → (⟨S850000, .i32⟩ : BufTy).Contents (Elt F)),
    binary main_v6 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v6 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v51 main_v84 main_v85 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v78 main_v86 (broadcastInDim S850000x256 ![0, 1] bcast_S850000x1_S850000x256_0_1 : (⟨S850000x1, .f32⟩ : BufTy).Contents (Elt F) → (⟨S850000x256, .f32⟩ : BufTy).Contents (Elt F)),
    binary main_v86 main_v85 main_v87 (mulf : (⟨S850000x256, .f32⟩ : BufTy).Contents (Elt F) → (⟨S850000x256, .f32⟩ : BufTy).Contents (Elt F) → (⟨S850000x256, .f32⟩ : BufTy).Contents (Elt F)),
    nullary main_cst_23 (constant S_ .f32 0x00000000#32),
    unary main_cst_23 main_v88 (broadcastInDim S50000x256 ![] bcast_S_S50000x256 : (⟨S_, .f32⟩ : BufTy).Contents (Elt F) → (⟨S50000x256, .f32⟩ : BufTy).Contents (Elt F)),
    unary main_v3 main_v89 (broadcastInDim S850000x1 ![0] bcast_S850000_S850000x1_0 : (⟨S850000, .i32⟩ : BufTy).Contents (Elt F) → (⟨S850000x1, .i32⟩ : BufTy).Contents (Elt F)),
    ternary main_v88 main_v89 main_v87 main_v90 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- Operations 128–130 of the reference: the second layer's bias. -/
abbrev g11 : List (HloOp τ sig (Elt F)) :=
  [ unary main_arg7 main_v91 (broadcastInDim S1x256 ![1] bcast_S256_S1x256_1 : (⟨S256, .f32⟩ : BufTy).Contents (Elt F) → (⟨S1x256, .f32⟩ : BufTy).Contents (Elt F)),
    unary main_v91 main_v92 (broadcastInDim S50000x256 ![0, 1] bcast_S1x256_S50000x256_0_1 : (⟨S1x256, .f32⟩ : BufTy).Contents (Elt F) → (⟨S50000x256, .f32⟩ : BufTy).Contents (Elt F)),
    binary main_v90 main_v92 main_v93 (addf : (⟨S50000x256, .f32⟩ : BufTy).Contents (Elt F) → (⟨S50000x256, .f32⟩ : BufTy).Contents (Elt F) → (⟨S50000x256, .f32⟩ : BufTy).Contents (Elt F)) ]

/-- Operations 131–140 of the reference: the first normalisation of the rows. -/
abbrev g12 : List (HloOp τ sig (Elt F)) :=
  [ binary main_v93 main_v93 main_v94 (mulf : (⟨S50000x256, .f32⟩ : BufTy).Contents (Elt F) → (⟨S50000x256, .f32⟩ : BufTy).Contents (Elt F) → (⟨S50000x256, .f32⟩ : BufTy).Contents (Elt F)),
    nullary main_cst_24 (constant S_ .f32 0x00000000#32),
    binary main_v94 main_cst_24 main_v95 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v95 main_v96 (broadcastInDim S50000x1 ![0] bcast_S50000_S50000x1_0 : (⟨S50000, .f32⟩ : BufTy).Contents (Elt F) → (⟨S50000x1, .f32⟩ : BufTy).Contents (Elt F)),
    unary main_v96 main_v97 (Host.sqrt : (⟨S50000x1, .f32⟩ : BufTy).Contents (Elt F) → (⟨S50000x1, .f32⟩ : BufTy).Contents (Elt F)),
    nullary main_cst_25 (constant S_ .f32 0x2B8CBCCC#32),
    unary main_cst_25 main_v98 (broadcastInDim S50000x1 ![] bcast_S_S50000x1 : (⟨S_, .f32⟩ : BufTy).Contents (Elt F) → (⟨S50000x1, .f32⟩ : BufTy).Contents (Elt F)),
    binary main_v97 main_v98 main_v99 (maximumf : (⟨S50000x1, .f32⟩ : BufTy).Contents (Elt F) → (⟨S50000x1, .f32⟩ : BufTy).Contents (Elt F) → (⟨S50000x1, .f32⟩ : BufTy).Contents (Elt F)),
    unary main_v99 main_v100 (broadcastInDim S50000x256 ![0, 1] bcast_S50000x1_S50000x256_0_1 : (⟨S50000x1, .f32⟩ : BufTy).Contents (Elt F) → (⟨S50000x256, .f32⟩ : BufTy).Contents (Elt F)),
    binary main_v93 main_v100 main_v101 (Host.divf : (⟨S50000x256, .f32⟩ : BufTy).Contents (Elt F) → (⟨S50000x256, .f32⟩ : BufTy).Contents (Elt F) → (⟨S50000x256, .f32⟩ : BufTy).Contents (Elt F)) ]

/-- Operations 141–150 of the reference: the second normalisation of the rows: the embeddings. -/
abbrev g13 : List (HloOp τ sig (Elt F)) :=
  [ binary main_v101 main_v101 main_v102 (mulf : (⟨S50000x256, .f32⟩ : BufTy).Contents (Elt F) → (⟨S50000x256, .f32⟩ : BufTy).Contents (Elt F) → (⟨S50000x256, .f32⟩ : BufTy).Contents (Elt F)),
    nullary main_cst_26 (constant S_ .f32 0x00000000#32),
    binary main_v102 main_cst_26 main_v103 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v103 main_v104 (broadcastInDim S50000x1 ![0] bcast_S50000_S50000x1_0 : (⟨S50000, .f32⟩ : BufTy).Contents (Elt F) → (⟨S50000x1, .f32⟩ : BufTy).Contents (Elt F)),
    unary main_v104 main_v105 (Host.sqrt : (⟨S50000x1, .f32⟩ : BufTy).Contents (Elt F) → (⟨S50000x1, .f32⟩ : BufTy).Contents (Elt F)),
    nullary main_cst_27 (constant S_ .f32 0x2B8CBCCC#32),
    unary main_cst_27 main_v106 (broadcastInDim S50000x1 ![] bcast_S_S50000x1 : (⟨S_, .f32⟩ : BufTy).Contents (Elt F) → (⟨S50000x1, .f32⟩ : BufTy).Contents (Elt F)),
    binary main_v105 main_v106 main_v107 (maximumf : (⟨S50000x1, .f32⟩ : BufTy).Contents (Elt F) → (⟨S50000x1, .f32⟩ : BufTy).Contents (Elt F) → (⟨S50000x1, .f32⟩ : BufTy).Contents (Elt F)),
    unary main_v107 main_v108 (broadcastInDim S50000x256 ![0, 1] bcast_S50000x1_S50000x256_0_1 : (⟨S50000x1, .f32⟩ : BufTy).Contents (Elt F) → (⟨S50000x256, .f32⟩ : BufTy).Contents (Elt F)),
    binary main_v101 main_v108 main_v109 (Host.divf : (⟨S50000x256, .f32⟩ : BufTy).Contents (Elt F) → (⟨S50000x256, .f32⟩ : BufTy).Contents (Elt F) → (⟨S50000x256, .f32⟩ : BufTy).Contents (Elt F)) ]

/-- Operations 151–154 of the reference: the read-out: product, bias. -/
abbrev g14 : List (HloOp τ sig (Elt F)) :=
  [ binary main_v109 main_arg8 main_v110 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg9 main_v111 (broadcastInDim S1x64 ![1] bcast_S64_S1x64_1 : (⟨S64, .f32⟩ : BufTy).Contents (Elt F) → (⟨S1x64, .f32⟩ : BufTy).Contents (Elt F)),
    unary main_v111 main_v112 (broadcastInDim S50000x64 ![0, 1] bcast_S1x64_S50000x64_0_1 : (⟨S1x64, .f32⟩ : BufTy).Contents (Elt F) → (⟨S50000x64, .f32⟩ : BufTy).Contents (Elt F)),
    binary main_v110 main_v112 main_v113 (addf : (⟨S50000x64, .f32⟩ : BufTy).Contents (Elt F) → (⟨S50000x64, .f32⟩ : BufTy).Contents (Elt F) → (⟨S50000x64, .f32⟩ : BufTy).Contents (Elt F)) ]

/-- Operations 155–166 of the reference: the endpoints of the positive and of the negative edges, and the two masks. -/
abbrev g15 : List (HloOp τ sig (Elt F)) :=
  [ unary main_arg0 main_v114 ((extractStridedSlice S1x800000 ![0, 0] · slices_S2x800000_S1x800000_0_0) : (⟨S2x800000, .i32⟩ : BufTy).Contents (Elt F) → (⟨S1x800000, .i32⟩ : BufTy).Contents (Elt F)),
    reshape main_v114 main_v115 rfl shapeCasts_S1x800000_S800000,
    unary main_arg0 main_v116 ((extractStridedSlice S1x800000 ![1, 0] · slices_S2x800000_S1x800000_1_0) : (⟨S2x800000, .i32⟩ : BufTy).Contents (Elt F) → (⟨S1x800000, .i32⟩ : BufTy).Contents (Elt F)),
    reshape main_v116 main_v117 rfl shapeCasts_S1x800000_S800000,
    unary main_arg3 main_v118 ((extractStridedSlice S1x800000 ![0, 0] · slices_S2x800000_S1x800000_0_0) : (⟨S2x800000, .i32⟩ : BufTy).Contents (Elt F) → (⟨S1x800000, .i32⟩ : BufTy).Contents (Elt F)),
    reshape main_v118 main_v119 rfl shapeCasts_S1x800000_S800000,
    unary main_arg3 main_v120 ((extractStridedSlice S1x800000 ![1, 0] · slices_S2x800000_S1x800000_1_0) : (⟨S2x800000, .i32⟩ : BufTy).Contents (Elt F) → (⟨S1x800000, .i32⟩ : BufTy).Contents (Elt F)),
    reshape main_v120 main_v121 rfl shapeCasts_S1x800000_S800000,
    binary main_v115 main_v117 main_v122 (cmpi .slt : (⟨S800000, .i32⟩ : BufTy).Contents (Elt F) → (⟨S800000, .i32⟩ : BufTy).Contents (Elt F) → (⟨S800000, .i1⟩ : BufTy).Contents (Elt F)),
    unary main_v122 main_v123 (uitofp .f32 : (⟨S800000, .i1⟩ : BufTy).Contents (Elt F) → (⟨S800000, .f32⟩ : BufTy).Contents (Elt F)),
    binary main_v119 main_v121 main_v124 (cmpi .slt : (⟨S800000, .i32⟩ : BufTy).Contents (Elt F) → (⟨S800000, .i32⟩ : BufTy).Contents (Elt F) → (⟨S800000, .i1⟩ : BufTy).Contents (Elt F)),
    unary main_v124 main_v125 (uitofp .f32 : (⟨S800000, .i1⟩ : BufTy).Contents (Elt F) → (⟨S800000, .f32⟩ : BufTy).Contents (Elt F)) ]

/-- Operations 167–190 of the reference: the negative edges: the embedding rows at both endpoints, their inner products, the positive part. -/
abbrev g16 : List (HloOp τ sig (Elt F)) :=
  [ nullary main_c_28 (constantI S_ 32 0#32),
    unary main_c_28 main_v126 (broadcastInDim S800000 ![] bcast_S_S800000 : (⟨S_, .i32⟩ : BufTy).Contents (Elt F) → (⟨S800000, .i32⟩ : BufTy).Contents (Elt F)),
    binary main_v119 main_v126 main_v127 (cmpi .slt : (⟨S800000, .i32⟩ : BufTy).Contents (Elt F) → (⟨S800000, .i32⟩ : BufTy).Contents (Elt F) → (⟨S800000, .i1⟩ : BufTy).Contents (Elt F)),
    nullary main_c_29 (constantI S_ 32 50000#32),
    unary main_c_29 main_v128 (broadcastInDim S800000 ![] bcast_S_S800000 : (⟨S_, .i32⟩ : BufTy).Contents (Elt F) → (⟨S800000, .i32⟩ : BufTy).Contents (Elt F)),
    binary main_v119 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v119 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v109 main_v131 main_v132 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_c_30 (constantI S_ 32 0#32),
    unary main_c_30 main_v133 (broadcastInDim S800000 ![] bcast_S_S800000 : (⟨S_, .i32⟩ : BufTy).Contents (Elt F) → (⟨S800000, .i32⟩ : BufTy).Contents (Elt F)),
    binary main_v121 main_v133 main_v134 (cmpi .slt : (⟨S800000, .i32⟩ : BufTy).Contents (Elt F) → (⟨S800000, .i32⟩ : BufTy).Contents (Elt F) → (⟨S800000, .i1⟩ : BufTy).Contents (Elt F)),
    nullary main_c_31 (constantI S_ 32 50000#32),
    unary main_c_31 main_v135 (broadcastInDim S800000 ![] bcast_S_S800000 : (⟨S_, .i32⟩ : BufTy).Contents (Elt F) → (⟨S800000, .i32⟩ : BufTy).Contents (Elt F)),
    binary main_v121 main_v135 main_v136 (addi : (⟨S800000, .i32⟩ : BufTy).Contents (Elt F) → (⟨S800000, .i32⟩ : BufTy).Contents (Elt F) → (⟨S800000, .i32⟩ : BufTy).Contents (Elt F)),
    ternary main_v134 main_v136 main_v121 main_v137 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v137 main_v138 (broadcastInDim S800000x1 ![0] bcast_S800000_S800000x1_0 : (⟨S800000, .i32⟩ : BufTy).Contents (Elt F) → (⟨S800000x1, .i32⟩ : BufTy).Contents (Elt F)),
    binary main_v109 main_v138 main_v139 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    binary main_v132 main_v139 main_v140 (mulf : (⟨S800000x256, .f32⟩ : BufTy).Contents (Elt F) → (⟨S800000x256, .f32⟩ : BufTy).Contents (Elt F) → (⟨S800000x256, .f32⟩ : BufTy).Contents (Elt F)),
    nullary main_cst_32 (constant S_ .f32 0x00000000#32),
    binary main_v140 main_cst_32 main_v141 ((fun x v => Host.reduceAdd x v reducesTo_S800000x256_S800000_d1 h_S_) : (⟨S800000x256, .f32⟩ : BufTy).Contents (Elt F) → (⟨S_, .f32⟩ : BufTy).Contents (Elt F) → (⟨S800000, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S800000, .f32⟩) main_call5_v0) (broadcastInDim S800000 ![] bcast_S_S800000),
    TRef.binary (TRef.of (T := ⟨S800000, .f32⟩) main_v141) (TRef.of (T := ⟨S800000, .f32⟩) main_call5_v0) (TRef.of (T := ⟨S800000, .f32⟩) main_v142) maximumf ]

/-- Operations 191–214 of the reference: the positive edges: the embedding rows at both endpoints, their inner products, the positive part. -/
abbrev g17 : List (HloOp τ sig (Elt F)) :=
  [ nullary main_c_33 (constantI S_ 32 0#32),
    unary main_c_33 main_v143 (broadcastInDim S800000 ![] bcast_S_S800000 : (⟨S_, .i32⟩ : BufTy).Contents (Elt F) → (⟨S800000, .i32⟩ : BufTy).Contents (Elt F)),
    binary main_v115 main_v143 main_v144 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v145 (broadcastInDim S800000 ![] bcast_S_S800000 : (⟨S_, .i32⟩ : BufTy).Contents (Elt F) → (⟨S800000, .i32⟩ : BufTy).Contents (Elt F)),
    binary main_v115 main_v145 main_v146 (addi : (⟨S800000, .i32⟩ : BufTy).Contents (Elt F) → (⟨S800000, .i32⟩ : BufTy).Contents (Elt F) → (⟨S800000, .i32⟩ : BufTy).Contents (Elt F)),
    ternary main_v144 main_v146 main_v115 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v147 main_v148 (broadcastInDim S800000x1 ![0] bcast_S800000_S800000x1_0 : (⟨S800000, .i32⟩ : BufTy).Contents (Elt F) → (⟨S800000x1, .i32⟩ : BufTy).Contents (Elt F)),
    binary main_v109 main_v148 main_v149 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_c_35 (constantI S_ 32 0#32),
    unary main_c_35 main_v150 (broadcastInDim S800000 ![] bcast_S_S800000 : (⟨S_, .i32⟩ : BufTy).Contents (Elt F) → (⟨S800000, .i32⟩ : BufTy).Contents (Elt F)),
    binary main_v117 main_v150 main_v151 (cmpi .slt : (⟨S800000, .i32⟩ : BufTy).Contents (Elt F) → (⟨S800000, .i32⟩ : BufTy).Contents (Elt F) → (⟨S800000, .i1⟩ : BufTy).Contents (Elt F)),
    nullary main_c_36 (constantI S_ 32 50000#32),
    unary main_c_36 main_v152 (broadcastInDim S800000 ![] bcast_S_S800000 : (⟨S_, .i32⟩ : BufTy).Contents (Elt F) → (⟨S800000, .i32⟩ : BufTy).Contents (Elt F)),
    binary main_v117 main_v152 main_v153 (addi : (⟨S800000, .i32⟩ : BufTy).Contents (Elt F) → (⟨S800000, .i32⟩ : BufTy).Contents (Elt F) → (⟨S800000, .i32⟩ : BufTy).Contents (Elt F)),
    ternary main_v151 main_v153 main_v117 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v154 main_v155 (broadcastInDim S800000x1 ![0] bcast_S800000_S800000x1_0 : (⟨S800000, .i32⟩ : BufTy).Contents (Elt F) → (⟨S800000x1, .i32⟩ : BufTy).Contents (Elt F)),
    binary main_v109 main_v155 main_v156 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    binary main_v149 main_v156 main_v157 (mulf : (⟨S800000x256, .f32⟩ : BufTy).Contents (Elt F) → (⟨S800000x256, .f32⟩ : BufTy).Contents (Elt F) → (⟨S800000x256, .f32⟩ : BufTy).Contents (Elt F)),
    nullary main_cst_37 (constant S_ .f32 0x00000000#32),
    binary main_v157 main_cst_37 main_v158 ((fun x v => Host.reduceAdd x v reducesTo_S800000x256_S800000_d1 h_S_) : (⟨S800000x256, .f32⟩ : BufTy).Contents (Elt F) → (⟨S_, .f32⟩ : BufTy).Contents (Elt F) → (⟨S800000, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S800000, .f32⟩) main_call6_v0) (broadcastInDim S800000 ![] bcast_S_S800000),
    TRef.binary (TRef.of (T := ⟨S800000, .f32⟩) main_v158) (TRef.of (T := ⟨S800000, .f32⟩) main_call6_v0) (TRef.of (T := ⟨S800000, .f32⟩) main_v159) maximumf ]

/-- Operations 215–235 of the reference: the positive edges: the feature rows at both endpoints and their inner products. -/
abbrev g18 : List (HloOp τ sig (Elt F)) :=
  [ nullary main_c_38 (constantI S_ 32 0#32),
    unary main_c_38 main_v160 (broadcastInDim S800000 ![] bcast_S_S800000 : (⟨S_, .i32⟩ : BufTy).Contents (Elt F) → (⟨S800000, .i32⟩ : BufTy).Contents (Elt F)),
    binary main_v115 main_v160 main_v161 (cmpi .slt : (⟨S800000, .i32⟩ : BufTy).Contents (Elt F) → (⟨S800000, .i32⟩ : BufTy).Contents (Elt F) → (⟨S800000, .i1⟩ : BufTy).Contents (Elt F)),
    nullary main_c_39 (constantI S_ 32 50000#32),
    unary main_c_39 main_v162 (broadcastInDim S800000 ![] bcast_S_S800000 : (⟨S_, .i32⟩ : BufTy).Contents (Elt F) → (⟨S800000, .i32⟩ : BufTy).Contents (Elt F)),
    binary main_v115 main_v162 main_v163 (addi : (⟨S800000, .i32⟩ : BufTy).Contents (Elt F) → (⟨S800000, .i32⟩ : BufTy).Contents (Elt F) → (⟨S800000, .i32⟩ : BufTy).Contents (Elt F)),
    ternary main_v161 main_v163 main_v115 main_v164 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v164 main_v165 (broadcastInDim S800000x1 ![0] bcast_S800000_S800000x1_0 : (⟨S800000, .i32⟩ : BufTy).Contents (Elt F) → (⟨S800000x1, .i32⟩ : BufTy).Contents (Elt F)),
    binary main_arg1 main_v165 main_v166 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_c_40 (constantI S_ 32 0#32),
    unary main_c_40 main_v167 (broadcastInDim S800000 ![] bcast_S_S800000 : (⟨S_, .i32⟩ : BufTy).Contents (Elt F) → (⟨S800000, .i32⟩ : BufTy).Contents (Elt F)),
    binary main_v117 main_v167 main_v168 (cmpi .slt : (⟨S800000, .i32⟩ : BufTy).Contents (Elt F) → (⟨S800000, .i32⟩ : BufTy).Contents (Elt F) → (⟨S800000, .i1⟩ : BufTy).Contents (Elt F)),
    nullary main_c_41 (constantI S_ 32 50000#32),
    unary main_c_41 main_v169 (broadcastInDim S800000 ![] bcast_S_S800000 : (⟨S_, .i32⟩ : BufTy).Contents (Elt F) → (⟨S800000, .i32⟩ : BufTy).Contents (Elt F)),
    binary main_v117 main_v169 main_v170 (addi : (⟨S800000, .i32⟩ : BufTy).Contents (Elt F) → (⟨S800000, .i32⟩ : BufTy).Contents (Elt F) → (⟨S800000, .i32⟩ : BufTy).Contents (Elt F)),
    ternary main_v168 main_v170 main_v117 main_v171 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v171 main_v172 (broadcastInDim S800000x1 ![0] bcast_S800000_S800000x1_0 : (⟨S800000, .i32⟩ : BufTy).Contents (Elt F) → (⟨S800000x1, .i32⟩ : BufTy).Contents (Elt F)),
    binary main_arg1 main_v172 main_v173 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    binary main_v166 main_v173 main_v174 (mulf : (⟨S800000x256, .f32⟩ : BufTy).Contents (Elt F) → (⟨S800000x256, .f32⟩ : BufTy).Contents (Elt F) → (⟨S800000x256, .f32⟩ : BufTy).Contents (Elt F)),
    nullary main_cst_42 (constant S_ .f32 0x00000000#32),
    binary main_v174 main_cst_42 main_v175 ((fun x v => Host.reduceAdd x v reducesTo_S800000x256_S800000_d1 h_S_) : (⟨S800000x256, .f32⟩ : BufTy).Contents (Elt F) → (⟨S_, .f32⟩ : BufTy).Contents (Elt F) → (⟨S800000, .f32⟩ : BufTy).Contents (Elt F)) ]

/-- Operations 236–260 of the reference: the loss: the positive edges' value, the two masked totals, the two mask counts, the quotient. -/
abbrev g19 : List (HloOp τ sig (Elt F)) :=
  [ nullary main_cst_43 (constant S_ .f32 0x3F000000#32),
    unary main_cst_43 main_v176 (broadcastInDim S800000 ![] bcast_S_S800000 : (⟨S_, .f32⟩ : BufTy).Contents (Elt F) → (⟨S800000, .f32⟩ : BufTy).Contents (Elt F)),
    binary main_v175 main_v176 main_v177 (mulf : (⟨S800000, .f32⟩ : BufTy).Contents (Elt F) → (⟨S800000, .f32⟩ : BufTy).Contents (Elt F) → (⟨S800000, .f32⟩ : BufTy).Contents (Elt F)),
    nullary main_cst_44 (constant S_ .f32 0x3F000000#32),
    unary main_cst_44 main_v178 (broadcastInDim S800000 ![] bcast_S_S800000 : (⟨S_, .f32⟩ : BufTy).Contents (Elt F) → (⟨S800000, .f32⟩ : BufTy).Contents (Elt F)),
    binary main_v159 main_v178 main_v179 (mulf : (⟨S800000, .f32⟩ : BufTy).Contents (Elt F) → (⟨S800000, .f32⟩ : BufTy).Contents (Elt F) → (⟨S800000, .f32⟩ : BufTy).Contents (Elt F)),
    binary main_v177 main_v179 main_v180 (addf : (⟨S800000, .f32⟩ : BufTy).Contents (Elt F) → (⟨S800000, .f32⟩ : BufTy).Contents (Elt F) → (⟨S800000, .f32⟩ : BufTy).Contents (Elt F)),
    nullary main_cst_45 (constant S_ .f32 0x00000000#32),
    binary main_v123 main_cst_45 main_v181 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    nullary main_cst_46 (constant S_ .f32 0x00000000#32),
    binary main_v125 main_cst_46 main_v182 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    binary main_v125 main_v142 main_v183 (mulf : (⟨S800000, .f32⟩ : BufTy).Contents (Elt F) → (⟨S800000, .f32⟩ : BufTy).Contents (Elt F) → (⟨S800000, .f32⟩ : BufTy).Contents (Elt F)),
    binary main_v183 main_v142 main_v184 (mulf : (⟨S800000, .f32⟩ : BufTy).Contents (Elt F) → (⟨S800000, .f32⟩ : BufTy).Contents (Elt F) → (⟨S800000, .f32⟩ : BufTy).Contents (Elt F)),
    nullary main_cst_47 (constant S_ .f32 0x00000000#32),
    binary main_v184 main_cst_47 main_v185 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    binary main_v180 main_arg2 main_v186 (subf : (⟨S800000, .f32⟩ : BufTy).Contents (Elt F) → (⟨S800000, .f32⟩ : BufTy).Contents (Elt F) → (⟨S800000, .f32⟩ : BufTy).Contents (Elt F)),
    binary main_v186 main_v186 main_v187 (mulf : (⟨S800000, .f32⟩ : BufTy).Contents (Elt F) → (⟨S800000, .f32⟩ : BufTy).Contents (Elt F) → (⟨S800000, .f32⟩ : BufTy).Contents (Elt F)),
    binary main_v123 main_v187 main_v188 (mulf : (⟨S800000, .f32⟩ : BufTy).Contents (Elt F) → (⟨S800000, .f32⟩ : BufTy).Contents (Elt F) → (⟨S800000, .f32⟩ : BufTy).Contents (Elt F)),
    nullary main_cst_48 (constant S_ .f32 0x00000000#32),
    binary main_v188 main_cst_48 main_v189 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    binary main_v185 main_v189 main_v190 (addf : (⟨S_, .f32⟩ : BufTy).Contents (Elt F) → (⟨S_, .f32⟩ : BufTy).Contents (Elt F) → (⟨S_, .f32⟩ : BufTy).Contents (Elt F)),
    nullary main_cst_49 (constant S_ .f32 0x47435000#32),
    binary main_v190 main_cst_49 main_v191 (mulf : (⟨S_, .f32⟩ : BufTy).Contents (Elt F) → (⟨S_, .f32⟩ : BufTy).Contents (Elt F) → (⟨S_, .f32⟩ : BufTy).Contents (Elt F)),
    binary main_v182 main_v181 main_v192 (addf : (⟨S_, .f32⟩ : BufTy).Contents (Elt F) → (⟨S_, .f32⟩ : BufTy).Contents (Elt F) → (⟨S_, .f32⟩ : BufTy).Contents (Elt F)),
    binary main_v191 main_v192 main_v193 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The stretches, in order, are the reference's operations. -/
theorem ops_split : (ops : List (HloOp τ sig (Elt F))) = g01 ++ g02 ++ g03 ++ g04 ++ g05 ++ g06 ++ g07 ++ g08 ++ g09 ++ g10 ++ g11 ++ g12 ++ g13 ++ g14 ++ g15 ++ g16 ++ g17 ++ g18 ++ g19 := by
  simp only [g01, g02, g03, g04, g05, g06, g07, g08, g09, g10, g11, g12, g13, g14, g15, g16, g17, g18, g19, List.cons_append, List.nil_append]

end Cert.Bridge.RefChunks

end
-- ==== Proof.Val.Spec.lean ====
/-
  The reference's computation as named functions of the argument arrays, operation by operation in the reference's
  own spelling: the edge endpoints with the self loops appended (row, col); the degree by scatter-add of ones, its
  inverse square root where positive (dinv); the per-edge weight dinv[row]·dinv[col] as a column (normcol); one
  aggregation step h ↦ scatter-add over row of normcol · h[col] (agg); the two layers, the two normalisations (rep),
  the read-out (yOut), and the loss terms. Both programs are shown to compute these.
-/
import proofs.«160566_j58506044506613_1_alg».proof.ReferenceIdeal
import proofs.«160566_j58506044506613_1_alg».proof.Proof.Gen.ReferenceIdeal

noncomputable section

namespace Cert.Spec

open Cert.ReferenceIdeal Cert.ReferenceIdeal.Gen Idealize.ShloMosaic

variable {F : FTy → Type} [FloatOps F]

abbrev I2E := (⟨S2x800000, .i32⟩ : BufTy).Contents (Elt F)
abbrev IE := (⟨S800000, .i32⟩ : BufTy).Contents (Elt F)
abbrev IEN := (⟨S850000, .i32⟩ : BufTy).Contents (Elt F)
abbrev FN := (⟨S50000, .f32⟩ : BufTy).Contents (Elt F)
abbrev FNH := (⟨S50000x256, .f32⟩ : BufTy).Contents (Elt F)
abbrev FNC := (⟨S50000x64, .f32⟩ : BufTy).Contents (Elt F)
abbrev FH := (⟨S256, .f32⟩ : BufTy).Contents (Elt F)
abbrev FC := (⟨S64, .f32⟩ : BufTy).Contents (Elt F)
abbrev FHH := (⟨S256x256, .f32⟩ : BufTy).Contents (Elt F)
abbrev FHC := (⟨S256x64, .f32⟩ : BufTy).Contents (Elt F)
abbrev FE := (⟨S800000, .f32⟩ : BufTy).Contents (Elt F)
abbrev FEH := (⟨S800000x256, .f32⟩ : BufTy).Contents (Elt F)

/-- Row k (0: sources, 1: targets) of an edge list, as a vector of 800000 words. -/
def ends0 (a : I2E (F := F)) : IE (F := F) := shapeCast _ (extractStridedSlice S1x800000 ![0, 0] a slices_S2x800000_S1x800000_0_0) shapeCasts_S1x800000_S800000
def ends1 (a : I2E (F := F)) : IE (F := F) := shapeCast _ (extractStridedSlice S1x800000 ![1, 0] a slices_S2x800000_S1x800000_1_0) shapeCasts_S1x800000_S800000
/-- The endpoints with the 50000 self loops appended. -/
def row (a : I2E (F := F)) : IEN (F := F) := concatenate S850000 0 [⟨S800000, ends0 a⟩, ⟨S50000, (iotaInDim S50000 32 0)⟩] concatenates_S800000_S50000_S850000_d0
def col (a : I2E (F := F)) : IEN (F := F) := concatenate S850000 0 [⟨S800000, ends1 a⟩, ⟨S50000, (iotaInDim S50000 32 0)⟩] concatenates_S800000_S50000_S850000_d0
/-- The degree of every node: ones scatter-added over row. -/
def deg (a : I2E (F := F)) : FN (F := F) :=
  Host.scatterAdd scatter_S50000_S850000x1_S850000_n_0_0_1 (broadcastInDim S50000 ![] bcast_S_S50000 (constant S_ .f32 0x00000000#32)) (broadcastInDim S850000x1 ![0] bcast_S850000_S850000x1_0 (row a)) (broadcastInDim S850000 ![] bcast_S_S850000 (constant S_ .f32 0x3F800000#32))
/-- Where the degree is positive. -/
def degPos (a : I2E (F := F)) := cmpf .ogt (deg a) (broadcastInDim S50000 ![] bcast_S_S50000 (constant S_ .f32 0x00000000#32))
/-- The degree, with one in place of a degree that is not positive. -/
def degSafe (a : I2E (F := F)) : FN (F := F) := select (degPos a) (deg a) (broadcastInDim S50000 ![] bcast_S_S50000 (id (constant S_ .f32 0x3F800000#32)))
/-- deg^(-1/2) where the degree is positive, zero elsewhere. -/
def dinv (a : I2E (F := F)) : FN (F := F) :=
  select (degPos a) (Host.rsqrt (degSafe a)) (broadcastInDim S50000 ![] bcast_S_S50000 (id (constant S_ .f32 0x00000000#32)))
/-- A node index made non-negative the way an indexing operation does (a negative word counts from the end). -/
def wrapN (i : IEN (F := F)) : IEN (F := F) :=
  select (cmpi .slt i (broadcastInDim S850000 ![] bcast_S_S850000 (constantI S_ 32 0#32))) (addi i (broadcastInDim S850000 ![] bcast_S_S850000 (constantI S_ 32 50000#32))) i
def wrapE (i : IE (F := F)) : IE (F := F) :=
  select (cmpi .slt i (broadcastInDim S800000 ![] bcast_S_S800000 (constantI S_ 32 0#32))) (addi i (broadcastInDim S800000 ![] bcast_S_S800000 (constantI S_ 32 50000#32))) i
/-- The weight of every edge, d[row]·d[col], as a column, from the per-node factors d and the endpoint lists. -/
def normcolOf (d : FN (F := F)) (r c : IEN (F := F)) :=
  broadcastInDim S850000x1 ![0] bcast_S850000_S850000x1_0
    (mulf (Host.gather gather_S50000_S850000x1_S850000_n_0_n_n_0_1_1 d (broadcastInDim S850000x1 ![0] bcast_S850000_S850000x1_0 (wrapN r)))
          (Host.gather gather_S50000_S850000x1_S850000_n_0_n_n_0_1_1 d (broadcastInDim S850000x1 ![0] bcast_S850000_S850000x1_0 (wrapN c))))
def normcol (a : I2E (F := F)) := normcolOf (dinv a) (row a) (col a)
/-- One aggregation from explicit endpoint lists r, c and edge weights w: every node sums, over the edges that point
    at it, the edge's weight times the source's row of h. -/
def aggOf (r c : IEN (F := F)) (w : (⟨S850000x1, .f32⟩ : BufTy).Contents (Elt F)) (h : FNH (F := F)) : FNH (F := F) :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 r)
    (mulf (broadcastInDim S850000x256 ![0, 1] bcast_S850000x1_S850000x256_0_1 w)
      (Host.gather gather_S50000x256_S850000x1_S850000x256_1_0_n_n_0_1_1256 h (broadcastInDim S850000x1 ![0] bcast_S850000_S850000x1_0 (wrapN c))))
def agg (a : I2E (F := F)) (h : FNH (F := F)) : FNH (F := F) := aggOf (row a) (col a) (normcol a) h
/-- A bias vector spread over the rows. -/
def biasH (b : FH (F := F)) : FNH (F := F) := broadcastInDim S50000x256 ![0, 1] bcast_S1x256_S50000x256_0_1 (broadcastInDim S1x256 ![1] bcast_S256_S1x256_1 b)
def biasC (b : FC (F := F)) : FNC (F := F) := broadcastInDim S50000x64 ![0, 1] bcast_S1x64_S50000x64_0_1 (broadcastInDim S1x64 ![1] bcast_S64_S1x64_1 b)
def mmH (x : FNH (F := F)) (w : FHH (F := F)) : FNH (F := F) := Host.dotGeneral dot_S50000x256_S256x256_S50000x256_1_0_0_1_n_n none x w
def mmC (x : FNH (F := F)) (w : FHC (F := F)) : FNC (F := F) := Host.dotGeneral dot_S50000x256_S256x64_S50000x64_1_0_0_1_n_n none x w
/-- The first layer's output. -/
def x1 (a : I2E (F := F)) (feat : FNH (F := F)) (w1 : FHH (F := F)) (b1 : FH (F := F)) : FNH (F := F) :=
  maximumf (addf (agg a (mmH feat w1)) (biasH b1)) (broadcastInDim S50000x256 ![] bcast_S_S50000x256 (constant S_ .f32 0x00000000#32))
/-- The second layer's output. -/
def x2 (a : I2E (F := F)) (x : FNH (F := F)) (w2 : FHH (F := F)) (b2 : FH (F := F)) : FNH (F := F) :=
  addf (agg a (mmH x w2)) (biasH b2)
/-- One normalisation: every row divided by the larger of its Euclidean norm and the tiny constant. -/
def l2 (x : FNH (F := F)) : FNH (F := F) :=
  Host.divf x (broadcastInDim S50000x256 ![0, 1] bcast_S50000x1_S50000x256_0_1 (maximumf (Host.sqrt (broadcastInDim S50000x1 ![0] bcast_S50000_S50000x1_0 (Host.reduceAdd (mulf x x) (constant S_ .f32 0x00000000#32) reducesTo_S50000x256_S50000_d1 h_S_))) (broadcastInDim S50000x1 ![] bcast_S_S50000x1 (constant S_ .f32 0x2B8CBCCC#32))))
/-- The embeddings: both layers, normalised twice. -/
def rep (a : I2E (F := F)) (feat : FNH (F := F)) (w1 : FHH (F := F)) (b1 : FH (F := F)) (w2 : FHH (F := F)) (b2 : FH (F := F)) : FNH (F := F) :=
  l2 (l2 (x2 a (x1 a feat w1 b1) w2 b2))
/-- The read-out. -/
def yOut (r : FNH (F := F)) (wy : FHC (F := F)) (by_ : FC (F := F)) : FNC (F := F) := addf (mmC r wy) (biasC by_)

/-- The rows of x at the (wrapped) node indices i: one row per edge. -/
def rowsAt (x : FNH (F := F)) (i : IE (F := F)) : FEH (F := F) :=
  Host.gather gather_S50000x256_S800000x1_S800000x256_1_0_n_n_0_1_1256 x (broadcastInDim S800000x1 ![0] bcast_S800000_S800000x1_0 (wrapE i))
/-- For every edge, the inner product of its rows of two per-edge arrays. -/
def rowDot (A B : FEH (F := F)) : FE (F := F) :=
  Host.reduceAdd (mulf A B) (constant S_ .f32 0x00000000#32) reducesTo_S800000x256_S800000_d1 h_S_
/-- For every edge, the inner product of the rows of x at its two endpoints. -/
def edgeDot (x : FNH (F := F)) (i j : IE (F := F)) : FE (F := F) := rowDot (rowsAt x i) (rowsAt x j)
/-- The mask of the edges whose first endpoint is the smaller. -/
def mask (i j : IE (F := F)) : FE (F := F) := uitofp .f32 (cmpi .slt i j)
def relu (v : FE (F := F)) : FE (F := F) := maximumf v (broadcastInDim S800000 ![] bcast_S_S800000 (constant S_ .f32 0x00000000#32))
def total (v : FE (F := F)) := Host.reduceAdd v (constant S_ .f32 0x00000000#32) reducesTo_S800000_S_d0 h_S_
def half : FE (F := F) := broadcastInDim S800000 ![] bcast_S_S800000 (constant S_ .f32 0x3F000000#32)
/-- The negative edges' term over per-edge arrays: the total of mask · w · w, w the positive part of the rows' inner product. -/
def negOf (nm : FE (F := F)) (A B : FEH (F := F)) := total (mulf (mulf nm (relu (rowDot A B))) (relu (rowDot A B)))
/-- The positive edges' value: half the feature rows' inner product plus half the positive part of the embedding rows'. -/
def posValOf (A B C D : FEH (F := F)) : FE (F := F) := addf (mulf (rowDot C D) half) (mulf (relu (rowDot A B)) half)
/-- The positive edges' term: the total of mask · (value − label)². -/
def posOf (pm lab : FE (F := F)) (A B C D : FEH (F := F)) := total (mulf pm (mulf (subf (posValOf A B C D) lab) (subf (posValOf A B C D) lab)))
def negLoss (r : FNH (F := F)) (n : I2E (F := F)) := negOf (mask (ends0 n) (ends1 n)) (rowsAt r (ends0 n)) (rowsAt r (ends1 n))
def posLoss (r feat : FNH (F := F)) (e : I2E (F := F)) (lab : FE (F := F)) :=
  posOf (mask (ends0 e) (ends1 e)) lab (rowsAt r (ends0 e)) (rowsAt r (ends1 e)) (rowsAt feat (ends0 e)) (rowsAt feat (ends1 e))
/-- The loss: the two terms, times the number of nodes, over the number of masked edges. -/
def loss (r feat : FNH (F := F)) (e n : I2E (F := F)) (lab : FE (F := F)) :=
  Host.divf (mulf (addf (negLoss r n) (posLoss r feat e lab)) (constant S_ .f32 0x47435000#32)) (addf (total (mask (ends0 n) (ends1 n))) (total (mask (ends0 e) (ends1 e))))

end Cert.Spec

end
-- ==== Proof.Val.RefPartA.lean ====
/-
  The reference's first stretches read back, at any buffer contents they are entered from: the edge endpoints with the
  self loops, the first product, the inverse square roots of the degrees, the edge weights, the first aggregation —
  each result buffer as the named function (Cert.Spec) of what the stretch reads, and every buffer a stretch does not
  write unchanged through it.
-/
import proofs.«160566_j58506044506613_1_alg».proof.Proof.Val.RefChunks
import proofs.«160566_j58506044506613_1_alg».proof.Proof.Val.Spec

noncomputable section

namespace Cert.Bridge.RefPartA

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

open Cert.Bridge.RefChunks

/-- The buffers that operations 1–7 write. -/
abbrev g01_W : List (Ref sig .tc) := [main_v0, main_v1, main_v2, main_v3, main_v4, main_v5, main_v6]
theorem g01_writes : (g01 : List (HloOp τ sig (Elt F))).Forall fun op => op.writes ⊆ (g01_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 1–7 do not write keeps its contents through them. -/
theorem g01_keep (V : Valuation τ sig (Elt F)) (r : Ref sig .tc) (h : r ∉ g01_W) :
    after g01 V (Proc.devRef .tc r) = V (Proc.devRef .tc r) :=
  after_of_writes_sub g01 V g01_writes h

theorem g01_v3 (V : Valuation τ sig (Elt F)) :
    after g01 V (Proc.devRef .tc main_v3) = Cert.Spec.row (V (Proc.devRef .tc main_arg0)) := by
  dsimp only [g01]
  after_results_simp
  rfl

theorem g01_v6 (V : Valuation τ sig (Elt F)) :
    after g01 V (Proc.devRef .tc main_v6) = Cert.Spec.col (V (Proc.devRef .tc main_arg0)) := by
  dsimp only [g01]
  after_results_simp
  rfl

/-- The buffers that operations 8–8 write. -/
abbrev g02_W : List (Ref sig .tc) := [main_v7]
theorem g02_writes : (g02 : List (HloOp τ sig (Elt F))).Forall fun op => op.writes ⊆ (g02_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that operations 8–8 do not write keeps its contents through them. -/
theorem g02_keep (V : Valuation τ sig (Elt F)) (r : Ref sig .tc) (h : r ∉ g02_W) :
    after g02 V (Proc.devRef .tc r) = V (Proc.devRef .tc r) :=
  after_of_writes_sub g02 V g02_writes h

theorem g02_v7 (V : Valuation τ sig (Elt F)) :
    after g02 V (Proc.devRef .tc main_v7) = Cert.Spec.mmH (V (Proc.devRef .tc main_arg1)) (V (Proc.devRef .tc main_arg4)) := by
  dsimp only [g02]
  after_results_simp
  rfl

/-- The buffers that operations 9–29 write. -/
abbrev g03_W : List (Ref sig .tc) := [main_cst, main_v8, main_cst_0, main_v9, main_v10, main_v11, main_cst_1, main_v12, main_v13, main_cst_2, main_call0_v0, main_call0_v1, main_v14, main_cst_3, main_v15, main_v16, main_v17, main_cst_4, main_call1_v0, main_call1_v1, main_v18]
theorem g03_writes : (g03 : List (HloOp τ sig (Elt F))).Forall fun op => op.writes ⊆ (g03_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 9–29 do not write keeps its contents through them. -/
theorem g03_keep (V : Valuation τ sig (Elt F)) (r : Ref sig .tc) (h : r ∉ g03_W) :
    after g03 V (Proc.devRef .tc r) = V (Proc.devRef .tc r) :=
  after_of_writes_sub g03 V g03_writes h

theorem g03_v18 (V : Valuation τ sig (Elt F)) (a : Cert.Spec.I2E (F := F)) (h_v3 : V (Proc.devRef .tc main_v3) = Cert.Spec.row a) :
    after g03 V (Proc.devRef .tc main_v18) = Cert.Spec.dinv a := by
  dsimp only [g03]
  after_results_simp
  simp only [h_v3]
  rfl

/-- The buffers that operations 30–49 write. -/
abbrev g04_W : List (Ref sig .tc) := [main_c, main_v19, main_v20, main_c_5, main_v21, main_v22, main_v23, main_v24, main_v25, main_c_6, main_v26, main_v27, main_c_7, main_v28, main_v29, main_v30, main_v31, main_v32, main_v33, main_v34]
theorem g04_writes : (g04 : List (HloOp τ sig (Elt F))).Forall fun op => op.writes ⊆ (g04_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 30–49 do not write keeps its contents through them. -/
theorem g04_keep (V : Valuation τ sig (Elt F)) (r : Ref sig .tc) (h : r ∉ g04_W) :
    after g04 V (Proc.devRef .tc r) = V (Proc.devRef .tc r) :=
  after_of_writes_sub g04 V g04_writes h

theorem g04_v34 (V : Valuation τ sig (Elt F)) (a : Cert.Spec.I2E (F := F)) (h_v3 : V (Proc.devRef .tc main_v3) = Cert.Spec.row a) (h_v6 : V (Proc.devRef .tc main_v6) = Cert.Spec.col a) (h_v18 : V (Proc.devRef .tc main_v18) = Cert.Spec.dinv a) :
    after g04 V (Proc.devRef .tc main_v34) = Cert.Spec.normcol a := by
  dsimp only [g04]
  after_results_simp
  simp only [h_v3, h_v6, h_v18]
  rfl

/-- The buffers that operations 50–64 write. -/
abbrev g05_W : List (Ref sig .tc) := [main_c_8, main_v35, main_v36, main_c_9, main_v37, main_v38, main_v39, main_v40, main_v41, main_v42, main_v43, main_cst_10, main_v44, main_v45, main_v46]
theorem g05_writes : (g05 : List (HloOp τ sig (Elt F))).Forall fun op => op.writes ⊆ (g05_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 50–64 do not write keeps its contents through them. -/
theorem g05_keep (V : Valuation τ sig (Elt F)) (r : Ref sig .tc) (h : r ∉ g05_W) :
    after g05 V (Proc.devRef .tc r) = V (Proc.devRef .tc r) :=
  after_of_writes_sub g05 V g05_writes h

theorem g05_v46 (V : Valuation τ sig (Elt F)) (a : Cert.Spec.I2E (F := F)) (h_v3 : V (Proc.devRef .tc main_v3) = Cert.Spec.row a) (h_v6 : V (Proc.devRef .tc main_v6) = Cert.Spec.col a) (h_v34 : V (Proc.devRef .tc main_v34) = Cert.Spec.normcol a) :
    after g05 V (Proc.devRef .tc main_v46) = Cert.Spec.agg a (V (Proc.devRef .tc main_v7)) := by
  dsimp only [g05]
  after_results_simp
  simp only [h_v3, h_v6, h_v34]
  rfl

end Cert.Bridge.RefPartA

end
-- ==== Proof.Val.RefPartB.lean ====
/-
  The reference's middle stretches read back, at any buffer contents they are entered from: the first layer's bias and
  positive part, the second product, the degrees' inverse square roots and the edge weights a second time, the second
  aggregation, the second bias — each result buffer as the named function (Cert.Spec) of what the stretch reads, and
  every buffer a stretch does not write unchanged through it.
-/
import proofs.«160566_j58506044506613_1_alg».proof.Proof.Val.RefChunks
import proofs.«160566_j58506044506613_1_alg».proof.Proof.Val.Spec

noncomputable section

namespace Cert.Bridge.RefPartB

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

open Cert.Bridge.RefChunks

/-- The buffers that operations 65–70 write. -/
abbrev g06_W : List (Ref sig .tc) := [main_v47, main_v48, main_v49, main_call2_cst, main_call2_v0, main_v50]
theorem g06_writes : (g06 : List (HloOp τ sig (Elt F))).Forall fun op => op.writes ⊆ (g06_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 65–70 do not write keeps its contents through them. -/
theorem g06_keep (V : Valuation τ sig (Elt F)) (r : Ref sig .tc) (h : r ∉ g06_W) :
    after g06 V (Proc.devRef .tc r) = V (Proc.devRef .tc r) :=
  after_of_writes_sub g06 V g06_writes h

theorem g06_v50 (V : Valuation τ sig (Elt F)) (a : Cert.Spec.I2E (F := F)) (feat : Cert.Spec.FNH (F := F)) (w1 : Cert.Spec.FHH (F := F)) (h_v46 : V (Proc.devRef .tc main_v46) = Cert.Spec.agg a (Cert.Spec.mmH feat w1)) :
    after g06 V (Proc.devRef .tc main_v50) = Cert.Spec.x1 a feat w1 (V (Proc.devRef .tc main_arg5)) := by
  dsimp only [g06]
  after_results_simp
  simp only [h_v46]
  rfl

/-- The buffers that operations 71–71 write. -/
abbrev g07_W : List (Ref sig .tc) := [main_v51]
theorem g07_writes : (g07 : List (HloOp τ sig (Elt F))).Forall fun op => op.writes ⊆ (g07_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that operations 71–71 do not write keeps its contents through them. -/
theorem g07_keep (V : Valuation τ sig (Elt F)) (r : Ref sig .tc) (h : r ∉ g07_W) :
    after g07 V (Proc.devRef .tc r) = V (Proc.devRef .tc r) :=
  after_of_writes_sub g07 V g07_writes h

theorem g07_v51 (V : Valuation τ sig (Elt F)) :
    after g07 V (Proc.devRef .tc main_v51) = Cert.Spec.mmH (V (Proc.devRef .tc main_v50)) (V (Proc.devRef .tc main_arg6)) := by
  dsimp only [g07]
  after_results_simp
  rfl

/-- The buffers that operations 72–92 write. -/
abbrev g08_W : List (Ref sig .tc) := [main_cst_11, main_v52, main_cst_12, main_v53, main_v54, main_v55, main_cst_13, main_v56, main_v57, main_cst_14, main_call3_v0, main_call3_v1, main_v58, main_cst_15, main_v59, main_v60, main_v61, main_cst_16, main_call4_v0, main_call4_v1, main_v62]
theorem g08_writes : (g08 : List (HloOp τ sig (Elt F))).Forall fun op => op.writes ⊆ (g08_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 72–92 do not write keeps its contents through them. -/
theorem g08_keep (V : Valuation τ sig (Elt F)) (r : Ref sig .tc) (h : r ∉ g08_W) :
    after g08 V (Proc.devRef .tc r) = V (Proc.devRef .tc r) :=
  after_of_writes_sub g08 V g08_writes h

theorem g08_v62 (V : Valuation τ sig (Elt F)) (a : Cert.Spec.I2E (F := F)) (h_v3 : V (Proc.devRef .tc main_v3) = Cert.Spec.row a) :
    after g08 V (Proc.devRef .tc main_v62) = Cert.Spec.dinv a := by
  dsimp only [g08]
  after_results_simp
  simp only [h_v3]
  rfl

/-- The buffers that operations 93–112 write. -/
abbrev g09_W : List (Ref sig .tc) := [main_c_17, main_v63, main_v64, main_c_18, main_v65, main_v66, main_v67, main_v68, main_v69, main_c_19, main_v70, main_v71, main_c_20, main_v72, main_v73, main_v74, main_v75, main_v76, main_v77, main_v78]
theorem g09_writes : (g09 : List (HloOp τ sig (Elt F))).Forall fun op => op.writes ⊆ (g09_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 93–112 do not write keeps its contents through them. -/
theorem g09_keep (V : Valuation τ sig (Elt F)) (r : Ref sig .tc) (h : r ∉ g09_W) :
    after g09 V (Proc.devRef .tc r) = V (Proc.devRef .tc r) :=
  after_of_writes_sub g09 V g09_writes h

theorem g09_v78 (V : Valuation τ sig (Elt F)) (a : Cert.Spec.I2E (F := F)) (h_v3 : V (Proc.devRef .tc main_v3) = Cert.Spec.row a) (h_v6 : V (Proc.devRef .tc main_v6) = Cert.Spec.col a) (h_v62 : V (Proc.devRef .tc main_v62) = Cert.Spec.dinv a) :
    after g09 V (Proc.devRef .tc main_v78) = Cert.Spec.normcol a := by
  dsimp only [g09]
  after_results_simp
  simp only [h_v3, h_v6, h_v62]
  rfl

/-- The buffers that operations 113–127 write. -/
abbrev g10_W : List (Ref sig .tc) := [main_c_21, main_v79, main_v80, main_c_22, main_v81, main_v82, main_v83, main_v84, main_v85, main_v86, main_v87, main_cst_23, main_v88, main_v89, main_v90]
theorem g10_writes : (g10 : List (HloOp τ sig (Elt F))).Forall fun op => op.writes ⊆ (g10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 113–127 do not write keeps its contents through them. -/
theorem g10_keep (V : Valuation τ sig (Elt F)) (r : Ref sig .tc) (h : r ∉ g10_W) :
    after g10 V (Proc.devRef .tc r) = V (Proc.devRef .tc r) :=
  after_of_writes_sub g10 V g10_writes h

theorem g10_v90 (V : Valuation τ sig (Elt F)) (a : Cert.Spec.I2E (F := F)) (h_v3 : V (Proc.devRef .tc main_v3) = Cert.Spec.row a) (h_v6 : V (Proc.devRef .tc main_v6) = Cert.Spec.col a) (h_v78 : V (Proc.devRef .tc main_v78) = Cert.Spec.normcol a) :
    after g10 V (Proc.devRef .tc main_v90) = Cert.Spec.agg a (V (Proc.devRef .tc main_v51)) := by
  dsimp only [g10]
  after_results_simp
  simp only [h_v3, h_v6, h_v78]
  rfl

/-- The buffers that operations 128–130 write. -/
abbrev g11_W : List (Ref sig .tc) := [main_v91, main_v92, main_v93]
theorem g11_writes : (g11 : List (HloOp τ sig (Elt F))).Forall fun op => op.writes ⊆ (g11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 128–130 do not write keeps its contents through them. -/
theorem g11_keep (V : Valuation τ sig (Elt F)) (r : Ref sig .tc) (h : r ∉ g11_W) :
    after g11 V (Proc.devRef .tc r) = V (Proc.devRef .tc r) :=
  after_of_writes_sub g11 V g11_writes h

theorem g11_v93 (V : Valuation τ sig (Elt F)) (a : Cert.Spec.I2E (F := F)) (x : Cert.Spec.FNH (F := F)) (w2 : Cert.Spec.FHH (F := F)) (h_v90 : V (Proc.devRef .tc main_v90) = Cert.Spec.agg a (Cert.Spec.mmH x w2)) :
    after g11 V (Proc.devRef .tc main_v93) = Cert.Spec.x2 a x w2 (V (Proc.devRef .tc main_arg7)) := by
  dsimp only [g11]
  after_results_simp
  simp only [h_v90]
  rfl

end Cert.Bridge.RefPartB

end
-- ==== Proof.Val.RefPartC.lean ====
/-
  The reference's two normalisations, its read-out, and the endpoints and masks of its two edge lists, read back at any
  buffer contents they are entered from: each result buffer as the named function (Cert.Spec) of what the stretch reads,
  and every buffer a stretch does not write unchanged through it.
-/
import proofs.«160566_j58506044506613_1_alg».proof.Proof.Val.RefChunks
import proofs.«160566_j58506044506613_1_alg».proof.Proof.Val.Spec

noncomputable section

namespace Cert.Bridge.RefPartC

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

open Cert.Bridge.RefChunks

/-- The buffers that operations 131–140 write. -/
abbrev g12_W : List (Ref sig .tc) := [main_v94, main_cst_24, main_v95, main_v96, main_v97, main_cst_25, main_v98, main_v99, main_v100, main_v101]
theorem g12_writes : (g12 : List (HloOp τ sig (Elt F))).Forall fun op => op.writes ⊆ (g12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 131–140 do not write keeps its contents through them. -/
theorem g12_keep (V : Valuation τ sig (Elt F)) (r : Ref sig .tc) (h : r ∉ g12_W) :
    after g12 V (Proc.devRef .tc r) = V (Proc.devRef .tc r) :=
  after_of_writes_sub g12 V g12_writes h

theorem g12_v101 (V : Valuation τ sig (Elt F)) :
    after g12 V (Proc.devRef .tc main_v101) = Cert.Spec.l2 (V (Proc.devRef .tc main_v93)) := by
  dsimp only [g12]
  after_results_simp
  rfl

/-- The buffers that operations 141–150 write. -/
abbrev g13_W : List (Ref sig .tc) := [main_v102, main_cst_26, main_v103, main_v104, main_v105, main_cst_27, main_v106, main_v107, main_v108, main_v109]
theorem g13_writes : (g13 : List (HloOp τ sig (Elt F))).Forall fun op => op.writes ⊆ (g13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 141–150 do not write keeps its contents through them. -/
theorem g13_keep (V : Valuation τ sig (Elt F)) (r : Ref sig .tc) (h : r ∉ g13_W) :
    after g13 V (Proc.devRef .tc r) = V (Proc.devRef .tc r) :=
  after_of_writes_sub g13 V g13_writes h

theorem g13_v109 (V : Valuation τ sig (Elt F)) :
    after g13 V (Proc.devRef .tc main_v109) = Cert.Spec.l2 (V (Proc.devRef .tc main_v101)) := by
  dsimp only [g13]
  after_results_simp
  rfl

/-- The buffers that operations 151–154 write. -/
abbrev g14_W : List (Ref sig .tc) := [main_v110, main_v111, main_v112, main_v113]
theorem g14_writes : (g14 : List (HloOp τ sig (Elt F))).Forall fun op => op.writes ⊆ (g14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 151–154 do not write keeps its contents through them. -/
theorem g14_keep (V : Valuation τ sig (Elt F)) (r : Ref sig .tc) (h : r ∉ g14_W) :
    after g14 V (Proc.devRef .tc r) = V (Proc.devRef .tc r) :=
  after_of_writes_sub g14 V g14_writes h

theorem g14_v113 (V : Valuation τ sig (Elt F)) :
    after g14 V (Proc.devRef .tc main_v113) = Cert.Spec.yOut (V (Proc.devRef .tc main_v109)) (V (Proc.devRef .tc main_arg8)) (V (Proc.devRef .tc main_arg9)) := by
  dsimp only [g14]
  after_results_simp
  rfl

/-- The buffers that operations 155–166 write. -/
abbrev g15_W : List (Ref sig .tc) := [main_v114, main_v115, main_v116, main_v117, main_v118, main_v119, main_v120, main_v121, main_v122, main_v123, main_v124, main_v125]
theorem g15_writes : (g15 : List (HloOp τ sig (Elt F))).Forall fun op => op.writes ⊆ (g15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 155–166 do not write keeps its contents through them. -/
theorem g15_keep (V : Valuation τ sig (Elt F)) (r : Ref sig .tc) (h : r ∉ g15_W) :
    after g15 V (Proc.devRef .tc r) = V (Proc.devRef .tc r) :=
  after_of_writes_sub g15 V g15_writes h

theorem g15_v115 (V : Valuation τ sig (Elt F)) :
    after g15 V (Proc.devRef .tc main_v115) = Cert.Spec.ends0 (V (Proc.devRef .tc main_arg0)) := by
  dsimp only [g15]
  after_results_simp
  rfl

theorem g15_v117 (V : Valuation τ sig (Elt F)) :
    after g15 V (Proc.devRef .tc main_v117) = Cert.Spec.ends1 (V (Proc.devRef .tc main_arg0)) := by
  dsimp only [g15]
  after_results_simp
  rfl

theorem g15_v119 (V : Valuation τ sig (Elt F)) :
    after g15 V (Proc.devRef .tc main_v119) = Cert.Spec.ends0 (V (Proc.devRef .tc main_arg3)) := by
  dsimp only [g15]
  after_results_simp
  rfl

theorem g15_v121 (V : Valuation τ sig (Elt F)) :
    after g15 V (Proc.devRef .tc main_v121) = Cert.Spec.ends1 (V (Proc.devRef .tc main_arg3)) := by
  dsimp only [g15]
  after_results_simp
  rfl

theorem g15_v123 (V : Valuation τ sig (Elt F)) :
    after g15 V (Proc.devRef .tc main_v123) = Cert.Spec.mask (Cert.Spec.ends0 (V (Proc.devRef .tc main_arg0))) (Cert.Spec.ends1 (V (Proc.devRef .tc main_arg0))) := by
  dsimp only [g15]
  after_results_simp
  rfl

theorem g15_v125 (V : Valuation τ sig (Elt F)) :
    after g15 V (Proc.devRef .tc main_v125) = Cert.Spec.mask (Cert.Spec.ends0 (V (Proc.devRef .tc main_arg3))) (Cert.Spec.ends1 (V (Proc.devRef .tc main_arg3))) := by
  dsimp only [g15]
  after_results_simp
  rfl

end Cert.Bridge.RefPartC

end
-- ==== Proof.Val.RefPartD.lean ====
/-
  The reference's loss read back, at any buffer contents its stretches are entered from: the inner products of the
  embedding rows at the negative and at the positive edges' endpoints, of the feature rows at the positive edges', and
  the loss from them — each result buffer as the named function (Cert.Spec) of what the stretch reads, and every buffer
  a stretch does not write unchanged through it.
-/
import proofs.«160566_j58506044506613_1_alg».proof.Proof.Val.RefChunks
import proofs.«160566_j58506044506613_1_alg».proof.Proof.Val.Spec

noncomputable section

namespace Cert.Bridge.RefPartD

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

open Cert.Bridge.RefChunks

/-- The buffers that operations 167–190 write. -/
abbrev g16_W : List (Ref sig .tc) := [main_c_28, main_v126, main_v127, main_c_29, main_v128, main_v129, main_v130, main_v131, main_v132, main_c_30, main_v133, main_v134, main_c_31, main_v135, main_v136, main_v137, main_v138, main_v139, main_v140, main_cst_32, main_v141, main_call5_cst, main_call5_v0, main_v142]
theorem g16_writes : (g16 : List (HloOp τ sig (Elt F))).Forall fun op => op.writes ⊆ (g16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 167–190 do not write keeps its contents through them. -/
theorem g16_keep (V : Valuation τ sig (Elt F)) (r : Ref sig .tc) (h : r ∉ g16_W) :
    after g16 V (Proc.devRef .tc r) = V (Proc.devRef .tc r) :=
  after_of_writes_sub g16 V g16_writes h

theorem g16_v142 (V : Valuation τ sig (Elt F)) :
    after g16 V (Proc.devRef .tc main_v142) = Cert.Spec.relu (Cert.Spec.edgeDot (V (Proc.devRef .tc main_v109)) (V (Proc.devRef .tc main_v119)) (V (Proc.devRef .tc main_v121))) := by
  dsimp only [g16]
  after_results_simp
  rfl

/-- The buffers that operations 191–214 write. -/
abbrev g17_W : List (Ref sig .tc) := [main_c_33, main_v143, main_v144, main_c_34, main_v145, main_v146, main_v147, main_v148, main_v149, main_c_35, main_v150, main_v151, main_c_36, main_v152, main_v153, main_v154, main_v155, main_v156, main_v157, main_cst_37, main_v158, main_call6_cst, main_call6_v0, main_v159]
theorem g17_writes : (g17 : List (HloOp τ sig (Elt F))).Forall fun op => op.writes ⊆ (g17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 191–214 do not write keeps its contents through them. -/
theorem g17_keep (V : Valuation τ sig (Elt F)) (r : Ref sig .tc) (h : r ∉ g17_W) :
    after g17 V (Proc.devRef .tc r) = V (Proc.devRef .tc r) :=
  after_of_writes_sub g17 V g17_writes h

theorem g17_v159 (V : Valuation τ sig (Elt F)) :
    after g17 V (Proc.devRef .tc main_v159) = Cert.Spec.relu (Cert.Spec.edgeDot (V (Proc.devRef .tc main_v109)) (V (Proc.devRef .tc main_v115)) (V (Proc.devRef .tc main_v117))) := by
  dsimp only [g17]
  after_results_simp
  rfl

/-- The buffers that operations 215–235 write. -/
abbrev g18_W : List (Ref sig .tc) := [main_c_38, main_v160, main_v161, main_c_39, main_v162, main_v163, main_v164, main_v165, main_v166, main_c_40, main_v167, main_v168, main_c_41, main_v169, main_v170, main_v171, main_v172, main_v173, main_v174, main_cst_42, main_v175]
theorem g18_writes : (g18 : List (HloOp τ sig (Elt F))).Forall fun op => op.writes ⊆ (g18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 215–235 do not write keeps its contents through them. -/
theorem g18_keep (V : Valuation τ sig (Elt F)) (r : Ref sig .tc) (h : r ∉ g18_W) :
    after g18 V (Proc.devRef .tc r) = V (Proc.devRef .tc r) :=
  after_of_writes_sub g18 V g18_writes h

theorem g18_v175 (V : Valuation τ sig (Elt F)) :
    after g18 V (Proc.devRef .tc main_v175) = Cert.Spec.edgeDot (V (Proc.devRef .tc main_arg1)) (V (Proc.devRef .tc main_v115)) (V (Proc.devRef .tc main_v117)) := by
  dsimp only [g18]
  after_results_simp
  rfl

/-- The buffers that operations 236–260 write. -/
abbrev g19_W : List (Ref sig .tc) := [main_cst_43, main_v176, main_v177, main_cst_44, main_v178, main_v179, main_v180, main_cst_45, main_v181, main_cst_46, main_v182, main_v183, main_v184, main_cst_47, main_v185, main_v186, main_v187, main_v188, main_cst_48, main_v189, main_v190, main_cst_49, main_v191, main_v192, main_v193]
theorem g19_writes : (g19 : List (HloOp τ sig (Elt F))).Forall fun op => op.writes ⊆ (g19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that operations 236–260 do not write keeps its contents through them. -/
theorem g19_keep (V : Valuation τ sig (Elt F)) (r : Ref sig .tc) (h : r ∉ g19_W) :
    after g19 V (Proc.devRef .tc r) = V (Proc.devRef .tc r) :=
  after_of_writes_sub g19 V g19_writes h

theorem g19_v193 (V : Valuation τ sig (Elt F)) (r feat : Cert.Spec.FNH (F := F)) (e n : Cert.Spec.I2E (F := F)) (h_v123 : V (Proc.devRef .tc main_v123) = Cert.Spec.mask (Cert.Spec.ends0 e) (Cert.Spec.ends1 e)) (h_v125 : V (Proc.devRef .tc main_v125) = Cert.Spec.mask (Cert.Spec.ends0 n) (Cert.Spec.ends1 n)) (h_v142 : V (Proc.devRef .tc main_v142) = Cert.Spec.relu (Cert.Spec.edgeDot r (Cert.Spec.ends0 n) (Cert.Spec.ends1 n))) (h_v159 : V (Proc.devRef .tc main_v159) = Cert.Spec.relu (Cert.Spec.edgeDot r (Cert.Spec.ends0 e) (Cert.Spec.ends1 e))) (h_v175 : V (Proc.devRef .tc main_v175) = Cert.Spec.edgeDot feat (Cert.Spec.ends0 e) (Cert.Spec.ends1 e)) :
    after g19 V (Proc.devRef .tc main_v193) = Cert.Spec.loss r feat e n (V (Proc.devRef .tc main_arg2)) := by
  dsimp only [g19]
  after_results_simp
  simp only [h_v123, h_v125, h_v142, h_v159, h_v175]
  rfl

end Cert.Bridge.RefPartD

end
-- ==== Proof.Val.RefWalk.lean ====
/-
  The reference's run walked stretch by stretch. From any buffer contents V0, st_n V0 is the contents after the first n
  stretches (Val/RefChunks.lean); after every stretch, each buffer that is read later — the ten arguments, and the
  intermediate results still to be used — holds a named function (Cert.Spec) of the arguments' contents in V0: the
  stretch's own read-back (Val/RefPartA … D) at the previous contents, rewritten with the previous stretch's facts; a
  buffer the stretch does not write keeps what it held. The last stage is the fold of all the reference's operations.
-/
import proofs.«160566_j58506044506613_1_alg».proof.Proof.Val.RefPartA
import proofs.«160566_j58506044506613_1_alg».proof.Proof.Val.RefPartB
import proofs.«160566_j58506044506613_1_alg».proof.Proof.Val.RefPartC
import proofs.«160566_j58506044506613_1_alg».proof.Proof.Val.RefPartD

noncomputable section

namespace Cert.Bridge.RefWalk

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

open Cert.Bridge.RefChunks Cert.Bridge.RefPartA Cert.Bridge.RefPartB Cert.Bridge.RefPartC Cert.Bridge.RefPartD

/-! The arguments' contents in V0. -/
abbrev A0 (V0 : Valuation τ sig (Elt F)) : Cert.Spec.I2E (F := F) := V0 (Proc.devRef .tc main_arg0)
abbrev A1 (V0 : Valuation τ sig (Elt F)) : Cert.Spec.FNH (F := F) := V0 (Proc.devRef .tc main_arg1)
abbrev A2 (V0 : Valuation τ sig (Elt F)) : Cert.Spec.FE (F := F) := V0 (Proc.devRef .tc main_arg2)
abbrev A3 (V0 : Valuation τ sig (Elt F)) : Cert.Spec.I2E (F := F) := V0 (Proc.devRef .tc main_arg3)
abbrev A4 (V0 : Valuation τ sig (Elt F)) : Cert.Spec.FHH (F := F) := V0 (Proc.devRef .tc main_arg4)
abbrev A5 (V0 : Valuation τ sig (Elt F)) : Cert.Spec.FH (F := F) := V0 (Proc.devRef .tc main_arg5)
abbrev A6 (V0 : Valuation τ sig (Elt F)) : Cert.Spec.FHH (F := F) := V0 (Proc.devRef .tc main_arg6)
abbrev A7 (V0 : Valuation τ sig (Elt F)) : Cert.Spec.FH (F := F) := V0 (Proc.devRef .tc main_arg7)
abbrev A8 (V0 : Valuation τ sig (Elt F)) : Cert.Spec.FHC (F := F) := V0 (Proc.devRef .tc main_arg8)
abbrev A9 (V0 : Valuation τ sig (Elt F)) : Cert.Spec.FC (F := F) := V0 (Proc.devRef .tc main_arg9)

/-- The contents before the first stretch. -/
def st00 (V0 : Valuation τ sig (Elt F)) : Valuation τ sig (Elt F) := V0
theorem st00_arg0 (V0 : Valuation τ sig (Elt F)) : st00 V0 (Proc.devRef .tc main_arg0) = A0 V0 := rfl
theorem st00_arg1 (V0 : Valuation τ sig (Elt F)) : st00 V0 (Proc.devRef .tc main_arg1) = A1 V0 := rfl
theorem st00_arg2 (V0 : Valuation τ sig (Elt F)) : st00 V0 (Proc.devRef .tc main_arg2) = A2 V0 := rfl
theorem st00_arg3 (V0 : Valuation τ sig (Elt F)) : st00 V0 (Proc.devRef .tc main_arg3) = A3 V0 := rfl
theorem st00_arg4 (V0 : Valuation τ sig (Elt F)) : st00 V0 (Proc.devRef .tc main_arg4) = A4 V0 := rfl
theorem st00_arg5 (V0 : Valuation τ sig (Elt F)) : st00 V0 (Proc.devRef .tc main_arg5) = A5 V0 := rfl
theorem st00_arg6 (V0 : Valuation τ sig (Elt F)) : st00 V0 (Proc.devRef .tc main_arg6) = A6 V0 := rfl
theorem st00_arg7 (V0 : Valuation τ sig (Elt F)) : st00 V0 (Proc.devRef .tc main_arg7) = A7 V0 := rfl
theorem st00_arg8 (V0 : Valuation τ sig (Elt F)) : st00 V0 (Proc.devRef .tc main_arg8) = A8 V0 := rfl
theorem st00_arg9 (V0 : Valuation τ sig (Elt F)) : st00 V0 (Proc.devRef .tc main_arg9) = A9 V0 := rfl

/-- The contents after the first 1 stretch. -/
def st01 (V0 : Valuation τ sig (Elt F)) : Valuation τ sig (Elt F) := after g01 (st00 V0)
theorem st01_arg0 (V0 : Valuation τ sig (Elt F)) : st01 V0 (Proc.devRef .tc main_arg0) = A0 V0 := by
  rewrite [st01, g01_keep _ main_arg0 (by decide)]; exact st00_arg0 V0
theorem st01_arg1 (V0 : Valuation τ sig (Elt F)) : st01 V0 (Proc.devRef .tc main_arg1) = A1 V0 := by
  rewrite [st01, g01_keep _ main_arg1 (by decide)]; exact st00_arg1 V0
theorem st01_arg2 (V0 : Valuation τ sig (Elt F)) : st01 V0 (Proc.devRef .tc main_arg2) = A2 V0 := by
  rewrite [st01, g01_keep _ main_arg2 (by decide)]; exact st00_arg2 V0
theorem st01_arg3 (V0 : Valuation τ sig (Elt F)) : st01 V0 (Proc.devRef .tc main_arg3) = A3 V0 := by
  rewrite [st01, g01_keep _ main_arg3 (by decide)]; exact st00_arg3 V0
theorem st01_arg4 (V0 : Valuation τ sig (Elt F)) : st01 V0 (Proc.devRef .tc main_arg4) = A4 V0 := by
  rewrite [st01, g01_keep _ main_arg4 (by decide)]; exact st00_arg4 V0
theorem st01_arg5 (V0 : Valuation τ sig (Elt F)) : st01 V0 (Proc.devRef .tc main_arg5) = A5 V0 := by
  rewrite [st01, g01_keep _ main_arg5 (by decide)]; exact st00_arg5 V0
theorem st01_arg6 (V0 : Valuation τ sig (Elt F)) : st01 V0 (Proc.devRef .tc main_arg6) = A6 V0 := by
  rewrite [st01, g01_keep _ main_arg6 (by decide)]; exact st00_arg6 V0
theorem st01_arg7 (V0 : Valuation τ sig (Elt F)) : st01 V0 (Proc.devRef .tc main_arg7) = A7 V0 := by
  rewrite [st01, g01_keep _ main_arg7 (by decide)]; exact st00_arg7 V0
theorem st01_arg8 (V0 : Valuation τ sig (Elt F)) : st01 V0 (Proc.devRef .tc main_arg8) = A8 V0 := by
  rewrite [st01, g01_keep _ main_arg8 (by decide)]; exact st00_arg8 V0
theorem st01_arg9 (V0 : Valuation τ sig (Elt F)) : st01 V0 (Proc.devRef .tc main_arg9) = A9 V0 := by
  rewrite [st01, g01_keep _ main_arg9 (by decide)]; exact st00_arg9 V0
theorem st01_v3 (V0 : Valuation τ sig (Elt F)) : st01 V0 (Proc.devRef .tc main_v3) = Cert.Spec.row (A0 V0) := by
  rewrite [st01, g01_v3 _, st00_arg0 V0]; rfl
theorem st01_v6 (V0 : Valuation τ sig (Elt F)) : st01 V0 (Proc.devRef .tc main_v6) = Cert.Spec.col (A0 V0) := by
  rewrite [st01, g01_v6 _, st00_arg0 V0]; rfl

/-- The contents after the first 2 stretches. -/
def st02 (V0 : Valuation τ sig (Elt F)) : Valuation τ sig (Elt F) := after g02 (st01 V0)
theorem st02_arg0 (V0 : Valuation τ sig (Elt F)) : st02 V0 (Proc.devRef .tc main_arg0) = A0 V0 := by
  rewrite [st02, g02_keep _ main_arg0 (by decide)]; exact st01_arg0 V0
theorem st02_arg1 (V0 : Valuation τ sig (Elt F)) : st02 V0 (Proc.devRef .tc main_arg1) = A1 V0 := by
  rewrite [st02, g02_keep _ main_arg1 (by decide)]; exact st01_arg1 V0
theorem st02_arg2 (V0 : Valuation τ sig (Elt F)) : st02 V0 (Proc.devRef .tc main_arg2) = A2 V0 := by
  rewrite [st02, g02_keep _ main_arg2 (by decide)]; exact st01_arg2 V0
theorem st02_arg3 (V0 : Valuation τ sig (Elt F)) : st02 V0 (Proc.devRef .tc main_arg3) = A3 V0 := by
  rewrite [st02, g02_keep _ main_arg3 (by decide)]; exact st01_arg3 V0
theorem st02_arg4 (V0 : Valuation τ sig (Elt F)) : st02 V0 (Proc.devRef .tc main_arg4) = A4 V0 := by
  rewrite [st02, g02_keep _ main_arg4 (by decide)]; exact st01_arg4 V0
theorem st02_arg5 (V0 : Valuation τ sig (Elt F)) : st02 V0 (Proc.devRef .tc main_arg5) = A5 V0 := by
  rewrite [st02, g02_keep _ main_arg5 (by decide)]; exact st01_arg5 V0
theorem st02_arg6 (V0 : Valuation τ sig (Elt F)) : st02 V0 (Proc.devRef .tc main_arg6) = A6 V0 := by
  rewrite [st02, g02_keep _ main_arg6 (by decide)]; exact st01_arg6 V0
theorem st02_arg7 (V0 : Valuation τ sig (Elt F)) : st02 V0 (Proc.devRef .tc main_arg7) = A7 V0 := by
  rewrite [st02, g02_keep _ main_arg7 (by decide)]; exact st01_arg7 V0
theorem st02_arg8 (V0 : Valuation τ sig (Elt F)) : st02 V0 (Proc.devRef .tc main_arg8) = A8 V0 := by
  rewrite [st02, g02_keep _ main_arg8 (by decide)]; exact st01_arg8 V0
theorem st02_arg9 (V0 : Valuation τ sig (Elt F)) : st02 V0 (Proc.devRef .tc main_arg9) = A9 V0 := by
  rewrite [st02, g02_keep _ main_arg9 (by decide)]; exact st01_arg9 V0
theorem st02_v3 (V0 : Valuation τ sig (Elt F)) : st02 V0 (Proc.devRef .tc main_v3) = Cert.Spec.row (A0 V0) := by
  rewrite [st02, g02_keep _ main_v3 (by decide)]; exact st01_v3 V0
theorem st02_v6 (V0 : Valuation τ sig (Elt F)) : st02 V0 (Proc.devRef .tc main_v6) = Cert.Spec.col (A0 V0) := by
  rewrite [st02, g02_keep _ main_v6 (by decide)]; exact st01_v6 V0
theorem st02_v7 (V0 : Valuation τ sig (Elt F)) : st02 V0 (Proc.devRef .tc main_v7) = Cert.Spec.mmH (A1 V0) (A4 V0) := by
  rewrite [st02, g02_v7 _, st01_arg1 V0, st01_arg4 V0]; rfl

/-- The contents after the first 3 stretches. -/
def st03 (V0 : Valuation τ sig (Elt F)) : Valuation τ sig (Elt F) := after g03 (st02 V0)
theorem st03_arg0 (V0 : Valuation τ sig (Elt F)) : st03 V0 (Proc.devRef .tc main_arg0) = A0 V0 := by
  rewrite [st03, g03_keep _ main_arg0 (by decide)]; exact st02_arg0 V0
theorem st03_arg1 (V0 : Valuation τ sig (Elt F)) : st03 V0 (Proc.devRef .tc main_arg1) = A1 V0 := by
  rewrite [st03, g03_keep _ main_arg1 (by decide)]; exact st02_arg1 V0
theorem st03_arg2 (V0 : Valuation τ sig (Elt F)) : st03 V0 (Proc.devRef .tc main_arg2) = A2 V0 := by
  rewrite [st03, g03_keep _ main_arg2 (by decide)]; exact st02_arg2 V0
theorem st03_arg3 (V0 : Valuation τ sig (Elt F)) : st03 V0 (Proc.devRef .tc main_arg3) = A3 V0 := by
  rewrite [st03, g03_keep _ main_arg3 (by decide)]; exact st02_arg3 V0
theorem st03_arg4 (V0 : Valuation τ sig (Elt F)) : st03 V0 (Proc.devRef .tc main_arg4) = A4 V0 := by
  rewrite [st03, g03_keep _ main_arg4 (by decide)]; exact st02_arg4 V0
theorem st03_arg5 (V0 : Valuation τ sig (Elt F)) : st03 V0 (Proc.devRef .tc main_arg5) = A5 V0 := by
  rewrite [st03, g03_keep _ main_arg5 (by decide)]; exact st02_arg5 V0
theorem st03_arg6 (V0 : Valuation τ sig (Elt F)) : st03 V0 (Proc.devRef .tc main_arg6) = A6 V0 := by
  rewrite [st03, g03_keep _ main_arg6 (by decide)]; exact st02_arg6 V0
theorem st03_arg7 (V0 : Valuation τ sig (Elt F)) : st03 V0 (Proc.devRef .tc main_arg7) = A7 V0 := by
  rewrite [st03, g03_keep _ main_arg7 (by decide)]; exact st02_arg7 V0
theorem st03_arg8 (V0 : Valuation τ sig (Elt F)) : st03 V0 (Proc.devRef .tc main_arg8) = A8 V0 := by
  rewrite [st03, g03_keep _ main_arg8 (by decide)]; exact st02_arg8 V0
theorem st03_arg9 (V0 : Valuation τ sig (Elt F)) : st03 V0 (Proc.devRef .tc main_arg9) = A9 V0 := by
  rewrite [st03, g03_keep _ main_arg9 (by decide)]; exact st02_arg9 V0
theorem st03_v3 (V0 : Valuation τ sig (Elt F)) : st03 V0 (Proc.devRef .tc main_v3) = Cert.Spec.row (A0 V0) := by
  rewrite [st03, g03_keep _ main_v3 (by decide)]; exact st02_v3 V0
theorem st03_v6 (V0 : Valuation τ sig (Elt F)) : st03 V0 (Proc.devRef .tc main_v6) = Cert.Spec.col (A0 V0) := by
  rewrite [st03, g03_keep _ main_v6 (by decide)]; exact st02_v6 V0
theorem st03_v7 (V0 : Valuation τ sig (Elt F)) : st03 V0 (Proc.devRef .tc main_v7) = Cert.Spec.mmH (A1 V0) (A4 V0) := by
  rewrite [st03, g03_keep _ main_v7 (by decide)]; exact st02_v7 V0
theorem st03_v18 (V0 : Valuation τ sig (Elt F)) : st03 V0 (Proc.devRef .tc main_v18) = Cert.Spec.dinv (A0 V0) := by
  rewrite [st03, g03_v18 _ (A0 V0) (st02_v3 V0)]; rfl

/-- The contents after the first 4 stretches. -/
def st04 (V0 : Valuation τ sig (Elt F)) : Valuation τ sig (Elt F) := after g04 (st03 V0)
theorem st04_arg0 (V0 : Valuation τ sig (Elt F)) : st04 V0 (Proc.devRef .tc main_arg0) = A0 V0 := by
  rewrite [st04, g04_keep _ main_arg0 (by decide)]; exact st03_arg0 V0
theorem st04_arg1 (V0 : Valuation τ sig (Elt F)) : st04 V0 (Proc.devRef .tc main_arg1) = A1 V0 := by
  rewrite [st04, g04_keep _ main_arg1 (by decide)]; exact st03_arg1 V0
theorem st04_arg2 (V0 : Valuation τ sig (Elt F)) : st04 V0 (Proc.devRef .tc main_arg2) = A2 V0 := by
  rewrite [st04, g04_keep _ main_arg2 (by decide)]; exact st03_arg2 V0
theorem st04_arg3 (V0 : Valuation τ sig (Elt F)) : st04 V0 (Proc.devRef .tc main_arg3) = A3 V0 := by
  rewrite [st04, g04_keep _ main_arg3 (by decide)]; exact st03_arg3 V0
theorem st04_arg4 (V0 : Valuation τ sig (Elt F)) : st04 V0 (Proc.devRef .tc main_arg4) = A4 V0 := by
  rewrite [st04, g04_keep _ main_arg4 (by decide)]; exact st03_arg4 V0
theorem st04_arg5 (V0 : Valuation τ sig (Elt F)) : st04 V0 (Proc.devRef .tc main_arg5) = A5 V0 := by
  rewrite [st04, g04_keep _ main_arg5 (by decide)]; exact st03_arg5 V0
theorem st04_arg6 (V0 : Valuation τ sig (Elt F)) : st04 V0 (Proc.devRef .tc main_arg6) = A6 V0 := by
  rewrite [st04, g04_keep _ main_arg6 (by decide)]; exact st03_arg6 V0
theorem st04_arg7 (V0 : Valuation τ sig (Elt F)) : st04 V0 (Proc.devRef .tc main_arg7) = A7 V0 := by
  rewrite [st04, g04_keep _ main_arg7 (by decide)]; exact st03_arg7 V0
theorem st04_arg8 (V0 : Valuation τ sig (Elt F)) : st04 V0 (Proc.devRef .tc main_arg8) = A8 V0 := by
  rewrite [st04, g04_keep _ main_arg8 (by decide)]; exact st03_arg8 V0
theorem st04_arg9 (V0 : Valuation τ sig (Elt F)) : st04 V0 (Proc.devRef .tc main_arg9) = A9 V0 := by
  rewrite [st04, g04_keep _ main_arg9 (by decide)]; exact st03_arg9 V0
theorem st04_v3 (V0 : Valuation τ sig (Elt F)) : st04 V0 (Proc.devRef .tc main_v3) = Cert.Spec.row (A0 V0) := by
  rewrite [st04, g04_keep _ main_v3 (by decide)]; exact st03_v3 V0
theorem st04_v6 (V0 : Valuation τ sig (Elt F)) : st04 V0 (Proc.devRef .tc main_v6) = Cert.Spec.col (A0 V0) := by
  rewrite [st04, g04_keep _ main_v6 (by decide)]; exact st03_v6 V0
theorem st04_v7 (V0 : Valuation τ sig (Elt F)) : st04 V0 (Proc.devRef .tc main_v7) = Cert.Spec.mmH (A1 V0) (A4 V0) := by
  rewrite [st04, g04_keep _ main_v7 (by decide)]; exact st03_v7 V0
theorem st04_v34 (V0 : Valuation τ sig (Elt F)) : st04 V0 (Proc.devRef .tc main_v34) = Cert.Spec.normcol (A0 V0) := by
  rewrite [st04, g04_v34 _ (A0 V0) (st03_v3 V0) (st03_v6 V0) (st03_v18 V0)]; rfl

/-- The contents after the first 5 stretches. -/
def st05 (V0 : Valuation τ sig (Elt F)) : Valuation τ sig (Elt F) := after g05 (st04 V0)
theorem st05_arg0 (V0 : Valuation τ sig (Elt F)) : st05 V0 (Proc.devRef .tc main_arg0) = A0 V0 := by
  rewrite [st05, g05_keep _ main_arg0 (by decide)]; exact st04_arg0 V0
theorem st05_arg1 (V0 : Valuation τ sig (Elt F)) : st05 V0 (Proc.devRef .tc main_arg1) = A1 V0 := by
  rewrite [st05, g05_keep _ main_arg1 (by decide)]; exact st04_arg1 V0
theorem st05_arg2 (V0 : Valuation τ sig (Elt F)) : st05 V0 (Proc.devRef .tc main_arg2) = A2 V0 := by
  rewrite [st05, g05_keep _ main_arg2 (by decide)]; exact st04_arg2 V0
theorem st05_arg3 (V0 : Valuation τ sig (Elt F)) : st05 V0 (Proc.devRef .tc main_arg3) = A3 V0 := by
  rewrite [st05, g05_keep _ main_arg3 (by decide)]; exact st04_arg3 V0
theorem st05_arg4 (V0 : Valuation τ sig (Elt F)) : st05 V0 (Proc.devRef .tc main_arg4) = A4 V0 := by
  rewrite [st05, g05_keep _ main_arg4 (by decide)]; exact st04_arg4 V0
theorem st05_arg5 (V0 : Valuation τ sig (Elt F)) : st05 V0 (Proc.devRef .tc main_arg5) = A5 V0 := by
  rewrite [st05, g05_keep _ main_arg5 (by decide)]; exact st04_arg5 V0
theorem st05_arg6 (V0 : Valuation τ sig (Elt F)) : st05 V0 (Proc.devRef .tc main_arg6) = A6 V0 := by
  rewrite [st05, g05_keep _ main_arg6 (by decide)]; exact st04_arg6 V0
theorem st05_arg7 (V0 : Valuation τ sig (Elt F)) : st05 V0 (Proc.devRef .tc main_arg7) = A7 V0 := by
  rewrite [st05, g05_keep _ main_arg7 (by decide)]; exact st04_arg7 V0
theorem st05_arg8 (V0 : Valuation τ sig (Elt F)) : st05 V0 (Proc.devRef .tc main_arg8) = A8 V0 := by
  rewrite [st05, g05_keep _ main_arg8 (by decide)]; exact st04_arg8 V0
theorem st05_arg9 (V0 : Valuation τ sig (Elt F)) : st05 V0 (Proc.devRef .tc main_arg9) = A9 V0 := by
  rewrite [st05, g05_keep _ main_arg9 (by decide)]; exact st04_arg9 V0
theorem st05_v3 (V0 : Valuation τ sig (Elt F)) : st05 V0 (Proc.devRef .tc main_v3) = Cert.Spec.row (A0 V0) := by
  rewrite [st05, g05_keep _ main_v3 (by decide)]; exact st04_v3 V0
theorem st05_v6 (V0 : Valuation τ sig (Elt F)) : st05 V0 (Proc.devRef .tc main_v6) = Cert.Spec.col (A0 V0) := by
  rewrite [st05, g05_keep _ main_v6 (by decide)]; exact st04_v6 V0
theorem st05_v46 (V0 : Valuation τ sig (Elt F)) : st05 V0 (Proc.devRef .tc main_v46) = Cert.Spec.agg (A0 V0) (Cert.Spec.mmH (A1 V0) (A4 V0)) := by
  rewrite [st05, g05_v46 _ (A0 V0) (st04_v3 V0) (st04_v6 V0) (st04_v34 V0), st04_v7 V0]; rfl

/-- The contents after the first 6 stretches. -/
def st06 (V0 : Valuation τ sig (Elt F)) : Valuation τ sig (Elt F) := after g06 (st05 V0)
theorem st06_arg0 (V0 : Valuation τ sig (Elt F)) : st06 V0 (Proc.devRef .tc main_arg0) = A0 V0 := by
  rewrite [st06, g06_keep _ main_arg0 (by decide)]; exact st05_arg0 V0
theorem st06_arg1 (V0 : Valuation τ sig (Elt F)) : st06 V0 (Proc.devRef .tc main_arg1) = A1 V0 := by
  rewrite [st06, g06_keep _ main_arg1 (by decide)]; exact st05_arg1 V0
theorem st06_arg2 (V0 : Valuation τ sig (Elt F)) : st06 V0 (Proc.devRef .tc main_arg2) = A2 V0 := by
  rewrite [st06, g06_keep _ main_arg2 (by decide)]; exact st05_arg2 V0
theorem st06_arg3 (V0 : Valuation τ sig (Elt F)) : st06 V0 (Proc.devRef .tc main_arg3) = A3 V0 := by
  rewrite [st06, g06_keep _ main_arg3 (by decide)]; exact st05_arg3 V0
theorem st06_arg4 (V0 : Valuation τ sig (Elt F)) : st06 V0 (Proc.devRef .tc main_arg4) = A4 V0 := by
  rewrite [st06, g06_keep _ main_arg4 (by decide)]; exact st05_arg4 V0
theorem st06_arg5 (V0 : Valuation τ sig (Elt F)) : st06 V0 (Proc.devRef .tc main_arg5) = A5 V0 := by
  rewrite [st06, g06_keep _ main_arg5 (by decide)]; exact st05_arg5 V0
theorem st06_arg6 (V0 : Valuation τ sig (Elt F)) : st06 V0 (Proc.devRef .tc main_arg6) = A6 V0 := by
  rewrite [st06, g06_keep _ main_arg6 (by decide)]; exact st05_arg6 V0
theorem st06_arg7 (V0 : Valuation τ sig (Elt F)) : st06 V0 (Proc.devRef .tc main_arg7) = A7 V0 := by
  rewrite [st06, g06_keep _ main_arg7 (by decide)]; exact st05_arg7 V0
theorem st06_arg8 (V0 : Valuation τ sig (Elt F)) : st06 V0 (Proc.devRef .tc main_arg8) = A8 V0 := by
  rewrite [st06, g06_keep _ main_arg8 (by decide)]; exact st05_arg8 V0
theorem st06_arg9 (V0 : Valuation τ sig (Elt F)) : st06 V0 (Proc.devRef .tc main_arg9) = A9 V0 := by
  rewrite [st06, g06_keep _ main_arg9 (by decide)]; exact st05_arg9 V0
theorem st06_v3 (V0 : Valuation τ sig (Elt F)) : st06 V0 (Proc.devRef .tc main_v3) = Cert.Spec.row (A0 V0) := by
  rewrite [st06, g06_keep _ main_v3 (by decide)]; exact st05_v3 V0
theorem st06_v6 (V0 : Valuation τ sig (Elt F)) : st06 V0 (Proc.devRef .tc main_v6) = Cert.Spec.col (A0 V0) := by
  rewrite [st06, g06_keep _ main_v6 (by decide)]; exact st05_v6 V0
theorem st06_v50 (V0 : Valuation τ sig (Elt F)) : st06 V0 (Proc.devRef .tc main_v50) = Cert.Spec.x1 (A0 V0) (A1 V0) (A4 V0) (A5 V0) := by
  rewrite [st06, g06_v50 _ (A0 V0) (A1 V0) (A4 V0) (st05_v46 V0), st05_arg5 V0]; rfl

/-- The contents after the first 7 stretches. -/
def st07 (V0 : Valuation τ sig (Elt F)) : Valuation τ sig (Elt F) := after g07 (st06 V0)
theorem st07_arg0 (V0 : Valuation τ sig (Elt F)) : st07 V0 (Proc.devRef .tc main_arg0) = A0 V0 := by
  rewrite [st07, g07_keep _ main_arg0 (by decide)]; exact st06_arg0 V0
theorem st07_arg1 (V0 : Valuation τ sig (Elt F)) : st07 V0 (Proc.devRef .tc main_arg1) = A1 V0 := by
  rewrite [st07, g07_keep _ main_arg1 (by decide)]; exact st06_arg1 V0
theorem st07_arg2 (V0 : Valuation τ sig (Elt F)) : st07 V0 (Proc.devRef .tc main_arg2) = A2 V0 := by
  rewrite [st07, g07_keep _ main_arg2 (by decide)]; exact st06_arg2 V0
theorem st07_arg3 (V0 : Valuation τ sig (Elt F)) : st07 V0 (Proc.devRef .tc main_arg3) = A3 V0 := by
  rewrite [st07, g07_keep _ main_arg3 (by decide)]; exact st06_arg3 V0
theorem st07_arg4 (V0 : Valuation τ sig (Elt F)) : st07 V0 (Proc.devRef .tc main_arg4) = A4 V0 := by
  rewrite [st07, g07_keep _ main_arg4 (by decide)]; exact st06_arg4 V0
theorem st07_arg5 (V0 : Valuation τ sig (Elt F)) : st07 V0 (Proc.devRef .tc main_arg5) = A5 V0 := by
  rewrite [st07, g07_keep _ main_arg5 (by decide)]; exact st06_arg5 V0
theorem st07_arg6 (V0 : Valuation τ sig (Elt F)) : st07 V0 (Proc.devRef .tc main_arg6) = A6 V0 := by
  rewrite [st07, g07_keep _ main_arg6 (by decide)]; exact st06_arg6 V0
theorem st07_arg7 (V0 : Valuation τ sig (Elt F)) : st07 V0 (Proc.devRef .tc main_arg7) = A7 V0 := by
  rewrite [st07, g07_keep _ main_arg7 (by decide)]; exact st06_arg7 V0
theorem st07_arg8 (V0 : Valuation τ sig (Elt F)) : st07 V0 (Proc.devRef .tc main_arg8) = A8 V0 := by
  rewrite [st07, g07_keep _ main_arg8 (by decide)]; exact st06_arg8 V0
theorem st07_arg9 (V0 : Valuation τ sig (Elt F)) : st07 V0 (Proc.devRef .tc main_arg9) = A9 V0 := by
  rewrite [st07, g07_keep _ main_arg9 (by decide)]; exact st06_arg9 V0
theorem st07_v3 (V0 : Valuation τ sig (Elt F)) : st07 V0 (Proc.devRef .tc main_v3) = Cert.Spec.row (A0 V0) := by
  rewrite [st07, g07_keep _ main_v3 (by decide)]; exact st06_v3 V0
theorem st07_v6 (V0 : Valuation τ sig (Elt F)) : st07 V0 (Proc.devRef .tc main_v6) = Cert.Spec.col (A0 V0) := by
  rewrite [st07, g07_keep _ main_v6 (by decide)]; exact st06_v6 V0
theorem st07_v51 (V0 : Valuation τ sig (Elt F)) : st07 V0 (Proc.devRef .tc main_v51) = Cert.Spec.mmH (Cert.Spec.x1 (A0 V0) (A1 V0) (A4 V0) (A5 V0)) (A6 V0) := by
  rewrite [st07, g07_v51 _, st06_v50 V0, st06_arg6 V0]; rfl

/-- The contents after the first 8 stretches. -/
def st08 (V0 : Valuation τ sig (Elt F)) : Valuation τ sig (Elt F) := after g08 (st07 V0)
theorem st08_arg0 (V0 : Valuation τ sig (Elt F)) : st08 V0 (Proc.devRef .tc main_arg0) = A0 V0 := by
  rewrite [st08, g08_keep _ main_arg0 (by decide)]; exact st07_arg0 V0
theorem st08_arg1 (V0 : Valuation τ sig (Elt F)) : st08 V0 (Proc.devRef .tc main_arg1) = A1 V0 := by
  rewrite [st08, g08_keep _ main_arg1 (by decide)]; exact st07_arg1 V0
theorem st08_arg2 (V0 : Valuation τ sig (Elt F)) : st08 V0 (Proc.devRef .tc main_arg2) = A2 V0 := by
  rewrite [st08, g08_keep _ main_arg2 (by decide)]; exact st07_arg2 V0
theorem st08_arg3 (V0 : Valuation τ sig (Elt F)) : st08 V0 (Proc.devRef .tc main_arg3) = A3 V0 := by
  rewrite [st08, g08_keep _ main_arg3 (by decide)]; exact st07_arg3 V0
theorem st08_arg4 (V0 : Valuation τ sig (Elt F)) : st08 V0 (Proc.devRef .tc main_arg4) = A4 V0 := by
  rewrite [st08, g08_keep _ main_arg4 (by decide)]; exact st07_arg4 V0
theorem st08_arg5 (V0 : Valuation τ sig (Elt F)) : st08 V0 (Proc.devRef .tc main_arg5) = A5 V0 := by
  rewrite [st08, g08_keep _ main_arg5 (by decide)]; exact st07_arg5 V0
theorem st08_arg6 (V0 : Valuation τ sig (Elt F)) : st08 V0 (Proc.devRef .tc main_arg6) = A6 V0 := by
  rewrite [st08, g08_keep _ main_arg6 (by decide)]; exact st07_arg6 V0
theorem st08_arg7 (V0 : Valuation τ sig (Elt F)) : st08 V0 (Proc.devRef .tc main_arg7) = A7 V0 := by
  rewrite [st08, g08_keep _ main_arg7 (by decide)]; exact st07_arg7 V0
theorem st08_arg8 (V0 : Valuation τ sig (Elt F)) : st08 V0 (Proc.devRef .tc main_arg8) = A8 V0 := by
  rewrite [st08, g08_keep _ main_arg8 (by decide)]; exact st07_arg8 V0
theorem st08_arg9 (V0 : Valuation τ sig (Elt F)) : st08 V0 (Proc.devRef .tc main_arg9) = A9 V0 := by
  rewrite [st08, g08_keep _ main_arg9 (by decide)]; exact st07_arg9 V0
theorem st08_v3 (V0 : Valuation τ sig (Elt F)) : st08 V0 (Proc.devRef .tc main_v3) = Cert.Spec.row (A0 V0) := by
  rewrite [st08, g08_keep _ main_v3 (by decide)]; exact st07_v3 V0
theorem st08_v6 (V0 : Valuation τ sig (Elt F)) : st08 V0 (Proc.devRef .tc main_v6) = Cert.Spec.col (A0 V0) := by
  rewrite [st08, g08_keep _ main_v6 (by decide)]; exact st07_v6 V0
theorem st08_v51 (V0 : Valuation τ sig (Elt F)) : st08 V0 (Proc.devRef .tc main_v51) = Cert.Spec.mmH (Cert.Spec.x1 (A0 V0) (A1 V0) (A4 V0) (A5 V0)) (A6 V0) := by
  rewrite [st08, g08_keep _ main_v51 (by decide)]; exact st07_v51 V0
theorem st08_v62 (V0 : Valuation τ sig (Elt F)) : st08 V0 (Proc.devRef .tc main_v62) = Cert.Spec.dinv (A0 V0) := by
  rewrite [st08, g08_v62 _ (A0 V0) (st07_v3 V0)]; rfl

/-- The contents after the first 9 stretches. -/
def st09 (V0 : Valuation τ sig (Elt F)) : Valuation τ sig (Elt F) := after g09 (st08 V0)
theorem st09_arg0 (V0 : Valuation τ sig (Elt F)) : st09 V0 (Proc.devRef .tc main_arg0) = A0 V0 := by
  rewrite [st09, g09_keep _ main_arg0 (by decide)]; exact st08_arg0 V0
theorem st09_arg1 (V0 : Valuation τ sig (Elt F)) : st09 V0 (Proc.devRef .tc main_arg1) = A1 V0 := by
  rewrite [st09, g09_keep _ main_arg1 (by decide)]; exact st08_arg1 V0
theorem st09_arg2 (V0 : Valuation τ sig (Elt F)) : st09 V0 (Proc.devRef .tc main_arg2) = A2 V0 := by
  rewrite [st09, g09_keep _ main_arg2 (by decide)]; exact st08_arg2 V0
theorem st09_arg3 (V0 : Valuation τ sig (Elt F)) : st09 V0 (Proc.devRef .tc main_arg3) = A3 V0 := by
  rewrite [st09, g09_keep _ main_arg3 (by decide)]; exact st08_arg3 V0
theorem st09_arg4 (V0 : Valuation τ sig (Elt F)) : st09 V0 (Proc.devRef .tc main_arg4) = A4 V0 := by
  rewrite [st09, g09_keep _ main_arg4 (by decide)]; exact st08_arg4 V0
theorem st09_arg5 (V0 : Valuation τ sig (Elt F)) : st09 V0 (Proc.devRef .tc main_arg5) = A5 V0 := by
  rewrite [st09, g09_keep _ main_arg5 (by decide)]; exact st08_arg5 V0
theorem st09_arg6 (V0 : Valuation τ sig (Elt F)) : st09 V0 (Proc.devRef .tc main_arg6) = A6 V0 := by
  rewrite [st09, g09_keep _ main_arg6 (by decide)]; exact st08_arg6 V0
theorem st09_arg7 (V0 : Valuation τ sig (Elt F)) : st09 V0 (Proc.devRef .tc main_arg7) = A7 V0 := by
  rewrite [st09, g09_keep _ main_arg7 (by decide)]; exact st08_arg7 V0
theorem st09_arg8 (V0 : Valuation τ sig (Elt F)) : st09 V0 (Proc.devRef .tc main_arg8) = A8 V0 := by
  rewrite [st09, g09_keep _ main_arg8 (by decide)]; exact st08_arg8 V0
theorem st09_arg9 (V0 : Valuation τ sig (Elt F)) : st09 V0 (Proc.devRef .tc main_arg9) = A9 V0 := by
  rewrite [st09, g09_keep _ main_arg9 (by decide)]; exact st08_arg9 V0
theorem st09_v3 (V0 : Valuation τ sig (Elt F)) : st09 V0 (Proc.devRef .tc main_v3) = Cert.Spec.row (A0 V0) := by
  rewrite [st09, g09_keep _ main_v3 (by decide)]; exact st08_v3 V0
theorem st09_v6 (V0 : Valuation τ sig (Elt F)) : st09 V0 (Proc.devRef .tc main_v6) = Cert.Spec.col (A0 V0) := by
  rewrite [st09, g09_keep _ main_v6 (by decide)]; exact st08_v6 V0
theorem st09_v51 (V0 : Valuation τ sig (Elt F)) : st09 V0 (Proc.devRef .tc main_v51) = Cert.Spec.mmH (Cert.Spec.x1 (A0 V0) (A1 V0) (A4 V0) (A5 V0)) (A6 V0) := by
  rewrite [st09, g09_keep _ main_v51 (by decide)]; exact st08_v51 V0
theorem st09_v78 (V0 : Valuation τ sig (Elt F)) : st09 V0 (Proc.devRef .tc main_v78) = Cert.Spec.normcol (A0 V0) := by
  rewrite [st09, g09_v78 _ (A0 V0) (st08_v3 V0) (st08_v6 V0) (st08_v62 V0)]; rfl

/-- The contents after the first 10 stretches. -/
def st10 (V0 : Valuation τ sig (Elt F)) : Valuation τ sig (Elt F) := after g10 (st09 V0)
theorem st10_arg0 (V0 : Valuation τ sig (Elt F)) : st10 V0 (Proc.devRef .tc main_arg0) = A0 V0 := by
  rewrite [st10, g10_keep _ main_arg0 (by decide)]; exact st09_arg0 V0
theorem st10_arg1 (V0 : Valuation τ sig (Elt F)) : st10 V0 (Proc.devRef .tc main_arg1) = A1 V0 := by
  rewrite [st10, g10_keep _ main_arg1 (by decide)]; exact st09_arg1 V0
theorem st10_arg2 (V0 : Valuation τ sig (Elt F)) : st10 V0 (Proc.devRef .tc main_arg2) = A2 V0 := by
  rewrite [st10, g10_keep _ main_arg2 (by decide)]; exact st09_arg2 V0
theorem st10_arg3 (V0 : Valuation τ sig (Elt F)) : st10 V0 (Proc.devRef .tc main_arg3) = A3 V0 := by
  rewrite [st10, g10_keep _ main_arg3 (by decide)]; exact st09_arg3 V0
theorem st10_arg4 (V0 : Valuation τ sig (Elt F)) : st10 V0 (Proc.devRef .tc main_arg4) = A4 V0 := by
  rewrite [st10, g10_keep _ main_arg4 (by decide)]; exact st09_arg4 V0
theorem st10_arg5 (V0 : Valuation τ sig (Elt F)) : st10 V0 (Proc.devRef .tc main_arg5) = A5 V0 := by
  rewrite [st10, g10_keep _ main_arg5 (by decide)]; exact st09_arg5 V0
theorem st10_arg6 (V0 : Valuation τ sig (Elt F)) : st10 V0 (Proc.devRef .tc main_arg6) = A6 V0 := by
  rewrite [st10, g10_keep _ main_arg6 (by decide)]; exact st09_arg6 V0
theorem st10_arg7 (V0 : Valuation τ sig (Elt F)) : st10 V0 (Proc.devRef .tc main_arg7) = A7 V0 := by
  rewrite [st10, g10_keep _ main_arg7 (by decide)]; exact st09_arg7 V0
theorem st10_arg8 (V0 : Valuation τ sig (Elt F)) : st10 V0 (Proc.devRef .tc main_arg8) = A8 V0 := by
  rewrite [st10, g10_keep _ main_arg8 (by decide)]; exact st09_arg8 V0
theorem st10_arg9 (V0 : Valuation τ sig (Elt F)) : st10 V0 (Proc.devRef .tc main_arg9) = A9 V0 := by
  rewrite [st10, g10_keep _ main_arg9 (by decide)]; exact st09_arg9 V0
theorem st10_v90 (V0 : Valuation τ sig (Elt F)) : st10 V0 (Proc.devRef .tc main_v90) = Cert.Spec.agg (A0 V0) (Cert.Spec.mmH (Cert.Spec.x1 (A0 V0) (A1 V0) (A4 V0) (A5 V0)) (A6 V0)) := by
  rewrite [st10, g10_v90 _ (A0 V0) (st09_v3 V0) (st09_v6 V0) (st09_v78 V0), st09_v51 V0]; rfl

/-- The contents after the first 11 stretches. -/
def st11 (V0 : Valuation τ sig (Elt F)) : Valuation τ sig (Elt F) := after g11 (st10 V0)
theorem st11_arg0 (V0 : Valuation τ sig (Elt F)) : st11 V0 (Proc.devRef .tc main_arg0) = A0 V0 := by
  rewrite [st11, g11_keep _ main_arg0 (by decide)]; exact st10_arg0 V0
theorem st11_arg1 (V0 : Valuation τ sig (Elt F)) : st11 V0 (Proc.devRef .tc main_arg1) = A1 V0 := by
  rewrite [st11, g11_keep _ main_arg1 (by decide)]; exact st10_arg1 V0
theorem st11_arg2 (V0 : Valuation τ sig (Elt F)) : st11 V0 (Proc.devRef .tc main_arg2) = A2 V0 := by
  rewrite [st11, g11_keep _ main_arg2 (by decide)]; exact st10_arg2 V0
theorem st11_arg3 (V0 : Valuation τ sig (Elt F)) : st11 V0 (Proc.devRef .tc main_arg3) = A3 V0 := by
  rewrite [st11, g11_keep _ main_arg3 (by decide)]; exact st10_arg3 V0
theorem st11_arg4 (V0 : Valuation τ sig (Elt F)) : st11 V0 (Proc.devRef .tc main_arg4) = A4 V0 := by
  rewrite [st11, g11_keep _ main_arg4 (by decide)]; exact st10_arg4 V0
theorem st11_arg5 (V0 : Valuation τ sig (Elt F)) : st11 V0 (Proc.devRef .tc main_arg5) = A5 V0 := by
  rewrite [st11, g11_keep _ main_arg5 (by decide)]; exact st10_arg5 V0
theorem st11_arg6 (V0 : Valuation τ sig (Elt F)) : st11 V0 (Proc.devRef .tc main_arg6) = A6 V0 := by
  rewrite [st11, g11_keep _ main_arg6 (by decide)]; exact st10_arg6 V0
theorem st11_arg7 (V0 : Valuation τ sig (Elt F)) : st11 V0 (Proc.devRef .tc main_arg7) = A7 V0 := by
  rewrite [st11, g11_keep _ main_arg7 (by decide)]; exact st10_arg7 V0
theorem st11_arg8 (V0 : Valuation τ sig (Elt F)) : st11 V0 (Proc.devRef .tc main_arg8) = A8 V0 := by
  rewrite [st11, g11_keep _ main_arg8 (by decide)]; exact st10_arg8 V0
theorem st11_arg9 (V0 : Valuation τ sig (Elt F)) : st11 V0 (Proc.devRef .tc main_arg9) = A9 V0 := by
  rewrite [st11, g11_keep _ main_arg9 (by decide)]; exact st10_arg9 V0
theorem st11_v93 (V0 : Valuation τ sig (Elt F)) : st11 V0 (Proc.devRef .tc main_v93) = Cert.Spec.x2 (A0 V0) (Cert.Spec.x1 (A0 V0) (A1 V0) (A4 V0) (A5 V0)) (A6 V0) (A7 V0) := by
  rewrite [st11, g11_v93 _ (A0 V0) (Cert.Spec.x1 (A0 V0) (A1 V0) (A4 V0) (A5 V0)) (A6 V0) (st10_v90 V0), st10_arg7 V0]; rfl

/-- The contents after the first 12 stretches. -/
def st12 (V0 : Valuation τ sig (Elt F)) : Valuation τ sig (Elt F) := after g12 (st11 V0)
theorem st12_arg0 (V0 : Valuation τ sig (Elt F)) : st12 V0 (Proc.devRef .tc main_arg0) = A0 V0 := by
  rewrite [st12, g12_keep _ main_arg0 (by decide)]; exact st11_arg0 V0
theorem st12_arg1 (V0 : Valuation τ sig (Elt F)) : st12 V0 (Proc.devRef .tc main_arg1) = A1 V0 := by
  rewrite [st12, g12_keep _ main_arg1 (by decide)]; exact st11_arg1 V0
theorem st12_arg2 (V0 : Valuation τ sig (Elt F)) : st12 V0 (Proc.devRef .tc main_arg2) = A2 V0 := by
  rewrite [st12, g12_keep _ main_arg2 (by decide)]; exact st11_arg2 V0
theorem st12_arg3 (V0 : Valuation τ sig (Elt F)) : st12 V0 (Proc.devRef .tc main_arg3) = A3 V0 := by
  rewrite [st12, g12_keep _ main_arg3 (by decide)]; exact st11_arg3 V0
theorem st12_arg4 (V0 : Valuation τ sig (Elt F)) : st12 V0 (Proc.devRef .tc main_arg4) = A4 V0 := by
  rewrite [st12, g12_keep _ main_arg4 (by decide)]; exact st11_arg4 V0
theorem st12_arg5 (V0 : Valuation τ sig (Elt F)) : st12 V0 (Proc.devRef .tc main_arg5) = A5 V0 := by
  rewrite [st12, g12_keep _ main_arg5 (by decide)]; exact st11_arg5 V0
theorem st12_arg6 (V0 : Valuation τ sig (Elt F)) : st12 V0 (Proc.devRef .tc main_arg6) = A6 V0 := by
  rewrite [st12, g12_keep _ main_arg6 (by decide)]; exact st11_arg6 V0
theorem st12_arg7 (V0 : Valuation τ sig (Elt F)) : st12 V0 (Proc.devRef .tc main_arg7) = A7 V0 := by
  rewrite [st12, g12_keep _ main_arg7 (by decide)]; exact st11_arg7 V0
theorem st12_arg8 (V0 : Valuation τ sig (Elt F)) : st12 V0 (Proc.devRef .tc main_arg8) = A8 V0 := by
  rewrite [st12, g12_keep _ main_arg8 (by decide)]; exact st11_arg8 V0
theorem st12_arg9 (V0 : Valuation τ sig (Elt F)) : st12 V0 (Proc.devRef .tc main_arg9) = A9 V0 := by
  rewrite [st12, g12_keep _ main_arg9 (by decide)]; exact st11_arg9 V0
theorem st12_v101 (V0 : Valuation τ sig (Elt F)) : st12 V0 (Proc.devRef .tc main_v101) = Cert.Spec.l2 (Cert.Spec.x2 (A0 V0) (Cert.Spec.x1 (A0 V0) (A1 V0) (A4 V0) (A5 V0)) (A6 V0) (A7 V0)) := by
  rewrite [st12, g12_v101 _, st11_v93 V0]; rfl

/-- The contents after the first 13 stretches. -/
def st13 (V0 : Valuation τ sig (Elt F)) : Valuation τ sig (Elt F) := after g13 (st12 V0)
theorem st13_arg0 (V0 : Valuation τ sig (Elt F)) : st13 V0 (Proc.devRef .tc main_arg0) = A0 V0 := by
  rewrite [st13, g13_keep _ main_arg0 (by decide)]; exact st12_arg0 V0
theorem st13_arg1 (V0 : Valuation τ sig (Elt F)) : st13 V0 (Proc.devRef .tc main_arg1) = A1 V0 := by
  rewrite [st13, g13_keep _ main_arg1 (by decide)]; exact st12_arg1 V0
theorem st13_arg2 (V0 : Valuation τ sig (Elt F)) : st13 V0 (Proc.devRef .tc main_arg2) = A2 V0 := by
  rewrite [st13, g13_keep _ main_arg2 (by decide)]; exact st12_arg2 V0
theorem st13_arg3 (V0 : Valuation τ sig (Elt F)) : st13 V0 (Proc.devRef .tc main_arg3) = A3 V0 := by
  rewrite [st13, g13_keep _ main_arg3 (by decide)]; exact st12_arg3 V0
theorem st13_arg4 (V0 : Valuation τ sig (Elt F)) : st13 V0 (Proc.devRef .tc main_arg4) = A4 V0 := by
  rewrite [st13, g13_keep _ main_arg4 (by decide)]; exact st12_arg4 V0
theorem st13_arg5 (V0 : Valuation τ sig (Elt F)) : st13 V0 (Proc.devRef .tc main_arg5) = A5 V0 := by
  rewrite [st13, g13_keep _ main_arg5 (by decide)]; exact st12_arg5 V0
theorem st13_arg6 (V0 : Valuation τ sig (Elt F)) : st13 V0 (Proc.devRef .tc main_arg6) = A6 V0 := by
  rewrite [st13, g13_keep _ main_arg6 (by decide)]; exact st12_arg6 V0
theorem st13_arg7 (V0 : Valuation τ sig (Elt F)) : st13 V0 (Proc.devRef .tc main_arg7) = A7 V0 := by
  rewrite [st13, g13_keep _ main_arg7 (by decide)]; exact st12_arg7 V0
theorem st13_arg8 (V0 : Valuation τ sig (Elt F)) : st13 V0 (Proc.devRef .tc main_arg8) = A8 V0 := by
  rewrite [st13, g13_keep _ main_arg8 (by decide)]; exact st12_arg8 V0
theorem st13_arg9 (V0 : Valuation τ sig (Elt F)) : st13 V0 (Proc.devRef .tc main_arg9) = A9 V0 := by
  rewrite [st13, g13_keep _ main_arg9 (by decide)]; exact st12_arg9 V0
theorem st13_v109 (V0 : Valuation τ sig (Elt F)) : st13 V0 (Proc.devRef .tc main_v109) = Cert.Spec.rep (A0 V0) (A1 V0) (A4 V0) (A5 V0) (A6 V0) (A7 V0) := by
  rewrite [st13, g13_v109 _, st12_v101 V0]; rfl

/-- The contents after the first 14 stretches. -/
def st14 (V0 : Valuation τ sig (Elt F)) : Valuation τ sig (Elt F) := after g14 (st13 V0)
theorem st14_arg0 (V0 : Valuation τ sig (Elt F)) : st14 V0 (Proc.devRef .tc main_arg0) = A0 V0 := by
  rewrite [st14, g14_keep _ main_arg0 (by decide)]; exact st13_arg0 V0
theorem st14_arg1 (V0 : Valuation τ sig (Elt F)) : st14 V0 (Proc.devRef .tc main_arg1) = A1 V0 := by
  rewrite [st14, g14_keep _ main_arg1 (by decide)]; exact st13_arg1 V0
theorem st14_arg2 (V0 : Valuation τ sig (Elt F)) : st14 V0 (Proc.devRef .tc main_arg2) = A2 V0 := by
  rewrite [st14, g14_keep _ main_arg2 (by decide)]; exact st13_arg2 V0
theorem st14_arg3 (V0 : Valuation τ sig (Elt F)) : st14 V0 (Proc.devRef .tc main_arg3) = A3 V0 := by
  rewrite [st14, g14_keep _ main_arg3 (by decide)]; exact st13_arg3 V0
theorem st14_arg4 (V0 : Valuation τ sig (Elt F)) : st14 V0 (Proc.devRef .tc main_arg4) = A4 V0 := by
  rewrite [st14, g14_keep _ main_arg4 (by decide)]; exact st13_arg4 V0
theorem st14_arg5 (V0 : Valuation τ sig (Elt F)) : st14 V0 (Proc.devRef .tc main_arg5) = A5 V0 := by
  rewrite [st14, g14_keep _ main_arg5 (by decide)]; exact st13_arg5 V0
theorem st14_arg6 (V0 : Valuation τ sig (Elt F)) : st14 V0 (Proc.devRef .tc main_arg6) = A6 V0 := by
  rewrite [st14, g14_keep _ main_arg6 (by decide)]; exact st13_arg6 V0
theorem st14_arg7 (V0 : Valuation τ sig (Elt F)) : st14 V0 (Proc.devRef .tc main_arg7) = A7 V0 := by
  rewrite [st14, g14_keep _ main_arg7 (by decide)]; exact st13_arg7 V0
theorem st14_arg8 (V0 : Valuation τ sig (Elt F)) : st14 V0 (Proc.devRef .tc main_arg8) = A8 V0 := by
  rewrite [st14, g14_keep _ main_arg8 (by decide)]; exact st13_arg8 V0
theorem st14_arg9 (V0 : Valuation τ sig (Elt F)) : st14 V0 (Proc.devRef .tc main_arg9) = A9 V0 := by
  rewrite [st14, g14_keep _ main_arg9 (by decide)]; exact st13_arg9 V0
theorem st14_v109 (V0 : Valuation τ sig (Elt F)) : st14 V0 (Proc.devRef .tc main_v109) = Cert.Spec.rep (A0 V0) (A1 V0) (A4 V0) (A5 V0) (A6 V0) (A7 V0) := by
  rewrite [st14, g14_keep _ main_v109 (by decide)]; exact st13_v109 V0
theorem st14_v113 (V0 : Valuation τ sig (Elt F)) : st14 V0 (Proc.devRef .tc main_v113) = Cert.Spec.yOut (Cert.Spec.rep (A0 V0) (A1 V0) (A4 V0) (A5 V0) (A6 V0) (A7 V0)) (A8 V0) (A9 V0) := by
  rewrite [st14, g14_v113 _, st13_v109 V0, st13_arg8 V0, st13_arg9 V0]; rfl

/-- The contents after the first 15 stretches. -/
def st15 (V0 : Valuation τ sig (Elt F)) : Valuation τ sig (Elt F) := after g15 (st14 V0)
theorem st15_arg0 (V0 : Valuation τ sig (Elt F)) : st15 V0 (Proc.devRef .tc main_arg0) = A0 V0 := by
  rewrite [st15, g15_keep _ main_arg0 (by decide)]; exact st14_arg0 V0
theorem st15_arg1 (V0 : Valuation τ sig (Elt F)) : st15 V0 (Proc.devRef .tc main_arg1) = A1 V0 := by
  rewrite [st15, g15_keep _ main_arg1 (by decide)]; exact st14_arg1 V0
theorem st15_arg2 (V0 : Valuation τ sig (Elt F)) : st15 V0 (Proc.devRef .tc main_arg2) = A2 V0 := by
  rewrite [st15, g15_keep _ main_arg2 (by decide)]; exact st14_arg2 V0
theorem st15_arg3 (V0 : Valuation τ sig (Elt F)) : st15 V0 (Proc.devRef .tc main_arg3) = A3 V0 := by
  rewrite [st15, g15_keep _ main_arg3 (by decide)]; exact st14_arg3 V0
theorem st15_arg4 (V0 : Valuation τ sig (Elt F)) : st15 V0 (Proc.devRef .tc main_arg4) = A4 V0 := by
  rewrite [st15, g15_keep _ main_arg4 (by decide)]; exact st14_arg4 V0
theorem st15_arg5 (V0 : Valuation τ sig (Elt F)) : st15 V0 (Proc.devRef .tc main_arg5) = A5 V0 := by
  rewrite [st15, g15_keep _ main_arg5 (by decide)]; exact st14_arg5 V0
theorem st15_arg6 (V0 : Valuation τ sig (Elt F)) : st15 V0 (Proc.devRef .tc main_arg6) = A6 V0 := by
  rewrite [st15, g15_keep _ main_arg6 (by decide)]; exact st14_arg6 V0
theorem st15_arg7 (V0 : Valuation τ sig (Elt F)) : st15 V0 (Proc.devRef .tc main_arg7) = A7 V0 := by
  rewrite [st15, g15_keep _ main_arg7 (by decide)]; exact st14_arg7 V0
theorem st15_arg8 (V0 : Valuation τ sig (Elt F)) : st15 V0 (Proc.devRef .tc main_arg8) = A8 V0 := by
  rewrite [st15, g15_keep _ main_arg8 (by decide)]; exact st14_arg8 V0
theorem st15_arg9 (V0 : Valuation τ sig (Elt F)) : st15 V0 (Proc.devRef .tc main_arg9) = A9 V0 := by
  rewrite [st15, g15_keep _ main_arg9 (by decide)]; exact st14_arg9 V0
theorem st15_v109 (V0 : Valuation τ sig (Elt F)) : st15 V0 (Proc.devRef .tc main_v109) = Cert.Spec.rep (A0 V0) (A1 V0) (A4 V0) (A5 V0) (A6 V0) (A7 V0) := by
  rewrite [st15, g15_keep _ main_v109 (by decide)]; exact st14_v109 V0
theorem st15_v113 (V0 : Valuation τ sig (Elt F)) : st15 V0 (Proc.devRef .tc main_v113) = Cert.Spec.yOut (Cert.Spec.rep (A0 V0) (A1 V0) (A4 V0) (A5 V0) (A6 V0) (A7 V0)) (A8 V0) (A9 V0) := by
  rewrite [st15, g15_keep _ main_v113 (by decide)]; exact st14_v113 V0
theorem st15_v115 (V0 : Valuation τ sig (Elt F)) : st15 V0 (Proc.devRef .tc main_v115) = Cert.Spec.ends0 (A0 V0) := by
  rewrite [st15, g15_v115 _, st14_arg0 V0]; rfl
theorem st15_v117 (V0 : Valuation τ sig (Elt F)) : st15 V0 (Proc.devRef .tc main_v117) = Cert.Spec.ends1 (A0 V0) := by
  rewrite [st15, g15_v117 _, st14_arg0 V0]; rfl
theorem st15_v119 (V0 : Valuation τ sig (Elt F)) : st15 V0 (Proc.devRef .tc main_v119) = Cert.Spec.ends0 (A3 V0) := by
  rewrite [st15, g15_v119 _, st14_arg3 V0]; rfl
theorem st15_v121 (V0 : Valuation τ sig (Elt F)) : st15 V0 (Proc.devRef .tc main_v121) = Cert.Spec.ends1 (A3 V0) := by
  rewrite [st15, g15_v121 _, st14_arg3 V0]; rfl
theorem st15_v123 (V0 : Valuation τ sig (Elt F)) : st15 V0 (Proc.devRef .tc main_v123) = Cert.Spec.mask (Cert.Spec.ends0 (A0 V0)) (Cert.Spec.ends1 (A0 V0)) := by
  rewrite [st15, g15_v123 _, st14_arg0 V0]; rfl
theorem st15_v125 (V0 : Valuation τ sig (Elt F)) : st15 V0 (Proc.devRef .tc main_v125) = Cert.Spec.mask (Cert.Spec.ends0 (A3 V0)) (Cert.Spec.ends1 (A3 V0)) := by
  rewrite [st15, g15_v125 _, st14_arg3 V0]; rfl

/-- The contents after the first 16 stretches. -/
def st16 (V0 : Valuation τ sig (Elt F)) : Valuation τ sig (Elt F) := after g16 (st15 V0)
theorem st16_arg0 (V0 : Valuation τ sig (Elt F)) : st16 V0 (Proc.devRef .tc main_arg0) = A0 V0 := by
  rewrite [st16, g16_keep _ main_arg0 (by decide)]; exact st15_arg0 V0
theorem st16_arg1 (V0 : Valuation τ sig (Elt F)) : st16 V0 (Proc.devRef .tc main_arg1) = A1 V0 := by
  rewrite [st16, g16_keep _ main_arg1 (by decide)]; exact st15_arg1 V0
theorem st16_arg2 (V0 : Valuation τ sig (Elt F)) : st16 V0 (Proc.devRef .tc main_arg2) = A2 V0 := by
  rewrite [st16, g16_keep _ main_arg2 (by decide)]; exact st15_arg2 V0
theorem st16_arg3 (V0 : Valuation τ sig (Elt F)) : st16 V0 (Proc.devRef .tc main_arg3) = A3 V0 := by
  rewrite [st16, g16_keep _ main_arg3 (by decide)]; exact st15_arg3 V0
theorem st16_arg4 (V0 : Valuation τ sig (Elt F)) : st16 V0 (Proc.devRef .tc main_arg4) = A4 V0 := by
  rewrite [st16, g16_keep _ main_arg4 (by decide)]; exact st15_arg4 V0
theorem st16_arg5 (V0 : Valuation τ sig (Elt F)) : st16 V0 (Proc.devRef .tc main_arg5) = A5 V0 := by
  rewrite [st16, g16_keep _ main_arg5 (by decide)]; exact st15_arg5 V0
theorem st16_arg6 (V0 : Valuation τ sig (Elt F)) : st16 V0 (Proc.devRef .tc main_arg6) = A6 V0 := by
  rewrite [st16, g16_keep _ main_arg6 (by decide)]; exact st15_arg6 V0
theorem st16_arg7 (V0 : Valuation τ sig (Elt F)) : st16 V0 (Proc.devRef .tc main_arg7) = A7 V0 := by
  rewrite [st16, g16_keep _ main_arg7 (by decide)]; exact st15_arg7 V0
theorem st16_arg8 (V0 : Valuation τ sig (Elt F)) : st16 V0 (Proc.devRef .tc main_arg8) = A8 V0 := by
  rewrite [st16, g16_keep _ main_arg8 (by decide)]; exact st15_arg8 V0
theorem st16_arg9 (V0 : Valuation τ sig (Elt F)) : st16 V0 (Proc.devRef .tc main_arg9) = A9 V0 := by
  rewrite [st16, g16_keep _ main_arg9 (by decide)]; exact st15_arg9 V0
theorem st16_v109 (V0 : Valuation τ sig (Elt F)) : st16 V0 (Proc.devRef .tc main_v109) = Cert.Spec.rep (A0 V0) (A1 V0) (A4 V0) (A5 V0) (A6 V0) (A7 V0) := by
  rewrite [st16, g16_keep _ main_v109 (by decide)]; exact st15_v109 V0
theorem st16_v113 (V0 : Valuation τ sig (Elt F)) : st16 V0 (Proc.devRef .tc main_v113) = Cert.Spec.yOut (Cert.Spec.rep (A0 V0) (A1 V0) (A4 V0) (A5 V0) (A6 V0) (A7 V0)) (A8 V0) (A9 V0) := by
  rewrite [st16, g16_keep _ main_v113 (by decide)]; exact st15_v113 V0
theorem st16_v115 (V0 : Valuation τ sig (Elt F)) : st16 V0 (Proc.devRef .tc main_v115) = Cert.Spec.ends0 (A0 V0) := by
  rewrite [st16, g16_keep _ main_v115 (by decide)]; exact st15_v115 V0
theorem st16_v117 (V0 : Valuation τ sig (Elt F)) : st16 V0 (Proc.devRef .tc main_v117) = Cert.Spec.ends1 (A0 V0) := by
  rewrite [st16, g16_keep _ main_v117 (by decide)]; exact st15_v117 V0
theorem st16_v123 (V0 : Valuation τ sig (Elt F)) : st16 V0 (Proc.devRef .tc main_v123) = Cert.Spec.mask (Cert.Spec.ends0 (A0 V0)) (Cert.Spec.ends1 (A0 V0)) := by
  rewrite [st16, g16_keep _ main_v123 (by decide)]; exact st15_v123 V0
theorem st16_v125 (V0 : Valuation τ sig (Elt F)) : st16 V0 (Proc.devRef .tc main_v125) = Cert.Spec.mask (Cert.Spec.ends0 (A3 V0)) (Cert.Spec.ends1 (A3 V0)) := by
  rewrite [st16, g16_keep _ main_v125 (by decide)]; exact st15_v125 V0
theorem st16_v142 (V0 : Valuation τ sig (Elt F)) : st16 V0 (Proc.devRef .tc main_v142) = Cert.Spec.relu (Cert.Spec.edgeDot (Cert.Spec.rep (A0 V0) (A1 V0) (A4 V0) (A5 V0) (A6 V0) (A7 V0)) (Cert.Spec.ends0 (A3 V0)) (Cert.Spec.ends1 (A3 V0))) := by
  rewrite [st16, g16_v142 _, st15_v109 V0, st15_v119 V0, st15_v121 V0]; rfl

/-- The contents after the first 17 stretches. -/
def st17 (V0 : Valuation τ sig (Elt F)) : Valuation τ sig (Elt F) := after g17 (st16 V0)
theorem st17_arg0 (V0 : Valuation τ sig (Elt F)) : st17 V0 (Proc.devRef .tc main_arg0) = A0 V0 := by
  rewrite [st17, g17_keep _ main_arg0 (by decide)]; exact st16_arg0 V0
theorem st17_arg1 (V0 : Valuation τ sig (Elt F)) : st17 V0 (Proc.devRef .tc main_arg1) = A1 V0 := by
  rewrite [st17, g17_keep _ main_arg1 (by decide)]; exact st16_arg1 V0
theorem st17_arg2 (V0 : Valuation τ sig (Elt F)) : st17 V0 (Proc.devRef .tc main_arg2) = A2 V0 := by
  rewrite [st17, g17_keep _ main_arg2 (by decide)]; exact st16_arg2 V0
theorem st17_arg3 (V0 : Valuation τ sig (Elt F)) : st17 V0 (Proc.devRef .tc main_arg3) = A3 V0 := by
  rewrite [st17, g17_keep _ main_arg3 (by decide)]; exact st16_arg3 V0
theorem st17_arg4 (V0 : Valuation τ sig (Elt F)) : st17 V0 (Proc.devRef .tc main_arg4) = A4 V0 := by
  rewrite [st17, g17_keep _ main_arg4 (by decide)]; exact st16_arg4 V0
theorem st17_arg5 (V0 : Valuation τ sig (Elt F)) : st17 V0 (Proc.devRef .tc main_arg5) = A5 V0 := by
  rewrite [st17, g17_keep _ main_arg5 (by decide)]; exact st16_arg5 V0
theorem st17_arg6 (V0 : Valuation τ sig (Elt F)) : st17 V0 (Proc.devRef .tc main_arg6) = A6 V0 := by
  rewrite [st17, g17_keep _ main_arg6 (by decide)]; exact st16_arg6 V0
theorem st17_arg7 (V0 : Valuation τ sig (Elt F)) : st17 V0 (Proc.devRef .tc main_arg7) = A7 V0 := by
  rewrite [st17, g17_keep _ main_arg7 (by decide)]; exact st16_arg7 V0
theorem st17_arg8 (V0 : Valuation τ sig (Elt F)) : st17 V0 (Proc.devRef .tc main_arg8) = A8 V0 := by
  rewrite [st17, g17_keep _ main_arg8 (by decide)]; exact st16_arg8 V0
theorem st17_arg9 (V0 : Valuation τ sig (Elt F)) : st17 V0 (Proc.devRef .tc main_arg9) = A9 V0 := by
  rewrite [st17, g17_keep _ main_arg9 (by decide)]; exact st16_arg9 V0
theorem st17_v109 (V0 : Valuation τ sig (Elt F)) : st17 V0 (Proc.devRef .tc main_v109) = Cert.Spec.rep (A0 V0) (A1 V0) (A4 V0) (A5 V0) (A6 V0) (A7 V0) := by
  rewrite [st17, g17_keep _ main_v109 (by decide)]; exact st16_v109 V0
theorem st17_v113 (V0 : Valuation τ sig (Elt F)) : st17 V0 (Proc.devRef .tc main_v113) = Cert.Spec.yOut (Cert.Spec.rep (A0 V0) (A1 V0) (A4 V0) (A5 V0) (A6 V0) (A7 V0)) (A8 V0) (A9 V0) := by
  rewrite [st17, g17_keep _ main_v113 (by decide)]; exact st16_v113 V0
theorem st17_v115 (V0 : Valuation τ sig (Elt F)) : st17 V0 (Proc.devRef .tc main_v115) = Cert.Spec.ends0 (A0 V0) := by
  rewrite [st17, g17_keep _ main_v115 (by decide)]; exact st16_v115 V0
theorem st17_v117 (V0 : Valuation τ sig (Elt F)) : st17 V0 (Proc.devRef .tc main_v117) = Cert.Spec.ends1 (A0 V0) := by
  rewrite [st17, g17_keep _ main_v117 (by decide)]; exact st16_v117 V0
theorem st17_v123 (V0 : Valuation τ sig (Elt F)) : st17 V0 (Proc.devRef .tc main_v123) = Cert.Spec.mask (Cert.Spec.ends0 (A0 V0)) (Cert.Spec.ends1 (A0 V0)) := by
  rewrite [st17, g17_keep _ main_v123 (by decide)]; exact st16_v123 V0
theorem st17_v125 (V0 : Valuation τ sig (Elt F)) : st17 V0 (Proc.devRef .tc main_v125) = Cert.Spec.mask (Cert.Spec.ends0 (A3 V0)) (Cert.Spec.ends1 (A3 V0)) := by
  rewrite [st17, g17_keep _ main_v125 (by decide)]; exact st16_v125 V0
theorem st17_v142 (V0 : Valuation τ sig (Elt F)) : st17 V0 (Proc.devRef .tc main_v142) = Cert.Spec.relu (Cert.Spec.edgeDot (Cert.Spec.rep (A0 V0) (A1 V0) (A4 V0) (A5 V0) (A6 V0) (A7 V0)) (Cert.Spec.ends0 (A3 V0)) (Cert.Spec.ends1 (A3 V0))) := by
  rewrite [st17, g17_keep _ main_v142 (by decide)]; exact st16_v142 V0
theorem st17_v159 (V0 : Valuation τ sig (Elt F)) : st17 V0 (Proc.devRef .tc main_v159) = Cert.Spec.relu (Cert.Spec.edgeDot (Cert.Spec.rep (A0 V0) (A1 V0) (A4 V0) (A5 V0) (A6 V0) (A7 V0)) (Cert.Spec.ends0 (A0 V0)) (Cert.Spec.ends1 (A0 V0))) := by
  rewrite [st17, g17_v159 _, st16_v109 V0, st16_v115 V0, st16_v117 V0]; rfl

/-- The contents after the first 18 stretches. -/
def st18 (V0 : Valuation τ sig (Elt F)) : Valuation τ sig (Elt F) := after g18 (st17 V0)
theorem st18_arg0 (V0 : Valuation τ sig (Elt F)) : st18 V0 (Proc.devRef .tc main_arg0) = A0 V0 := by
  rewrite [st18, g18_keep _ main_arg0 (by decide)]; exact st17_arg0 V0
theorem st18_arg1 (V0 : Valuation τ sig (Elt F)) : st18 V0 (Proc.devRef .tc main_arg1) = A1 V0 := by
  rewrite [st18, g18_keep _ main_arg1 (by decide)]; exact st17_arg1 V0
theorem st18_arg2 (V0 : Valuation τ sig (Elt F)) : st18 V0 (Proc.devRef .tc main_arg2) = A2 V0 := by
  rewrite [st18, g18_keep _ main_arg2 (by decide)]; exact st17_arg2 V0
theorem st18_arg3 (V0 : Valuation τ sig (Elt F)) : st18 V0 (Proc.devRef .tc main_arg3) = A3 V0 := by
  rewrite [st18, g18_keep _ main_arg3 (by decide)]; exact st17_arg3 V0
theorem st18_arg4 (V0 : Valuation τ sig (Elt F)) : st18 V0 (Proc.devRef .tc main_arg4) = A4 V0 := by
  rewrite [st18, g18_keep _ main_arg4 (by decide)]; exact st17_arg4 V0
theorem st18_arg5 (V0 : Valuation τ sig (Elt F)) : st18 V0 (Proc.devRef .tc main_arg5) = A5 V0 := by
  rewrite [st18, g18_keep _ main_arg5 (by decide)]; exact st17_arg5 V0
theorem st18_arg6 (V0 : Valuation τ sig (Elt F)) : st18 V0 (Proc.devRef .tc main_arg6) = A6 V0 := by
  rewrite [st18, g18_keep _ main_arg6 (by decide)]; exact st17_arg6 V0
theorem st18_arg7 (V0 : Valuation τ sig (Elt F)) : st18 V0 (Proc.devRef .tc main_arg7) = A7 V0 := by
  rewrite [st18, g18_keep _ main_arg7 (by decide)]; exact st17_arg7 V0
theorem st18_arg8 (V0 : Valuation τ sig (Elt F)) : st18 V0 (Proc.devRef .tc main_arg8) = A8 V0 := by
  rewrite [st18, g18_keep _ main_arg8 (by decide)]; exact st17_arg8 V0
theorem st18_arg9 (V0 : Valuation τ sig (Elt F)) : st18 V0 (Proc.devRef .tc main_arg9) = A9 V0 := by
  rewrite [st18, g18_keep _ main_arg9 (by decide)]; exact st17_arg9 V0
theorem st18_v109 (V0 : Valuation τ sig (Elt F)) : st18 V0 (Proc.devRef .tc main_v109) = Cert.Spec.rep (A0 V0) (A1 V0) (A4 V0) (A5 V0) (A6 V0) (A7 V0) := by
  rewrite [st18, g18_keep _ main_v109 (by decide)]; exact st17_v109 V0
theorem st18_v113 (V0 : Valuation τ sig (Elt F)) : st18 V0 (Proc.devRef .tc main_v113) = Cert.Spec.yOut (Cert.Spec.rep (A0 V0) (A1 V0) (A4 V0) (A5 V0) (A6 V0) (A7 V0)) (A8 V0) (A9 V0) := by
  rewrite [st18, g18_keep _ main_v113 (by decide)]; exact st17_v113 V0
theorem st18_v123 (V0 : Valuation τ sig (Elt F)) : st18 V0 (Proc.devRef .tc main_v123) = Cert.Spec.mask (Cert.Spec.ends0 (A0 V0)) (Cert.Spec.ends1 (A0 V0)) := by
  rewrite [st18, g18_keep _ main_v123 (by decide)]; exact st17_v123 V0
theorem st18_v125 (V0 : Valuation τ sig (Elt F)) : st18 V0 (Proc.devRef .tc main_v125) = Cert.Spec.mask (Cert.Spec.ends0 (A3 V0)) (Cert.Spec.ends1 (A3 V0)) := by
  rewrite [st18, g18_keep _ main_v125 (by decide)]; exact st17_v125 V0
theorem st18_v142 (V0 : Valuation τ sig (Elt F)) : st18 V0 (Proc.devRef .tc main_v142) = Cert.Spec.relu (Cert.Spec.edgeDot (Cert.Spec.rep (A0 V0) (A1 V0) (A4 V0) (A5 V0) (A6 V0) (A7 V0)) (Cert.Spec.ends0 (A3 V0)) (Cert.Spec.ends1 (A3 V0))) := by
  rewrite [st18, g18_keep _ main_v142 (by decide)]; exact st17_v142 V0
theorem st18_v159 (V0 : Valuation τ sig (Elt F)) : st18 V0 (Proc.devRef .tc main_v159) = Cert.Spec.relu (Cert.Spec.edgeDot (Cert.Spec.rep (A0 V0) (A1 V0) (A4 V0) (A5 V0) (A6 V0) (A7 V0)) (Cert.Spec.ends0 (A0 V0)) (Cert.Spec.ends1 (A0 V0))) := by
  rewrite [st18, g18_keep _ main_v159 (by decide)]; exact st17_v159 V0
theorem st18_v175 (V0 : Valuation τ sig (Elt F)) : st18 V0 (Proc.devRef .tc main_v175) = Cert.Spec.edgeDot (A1 V0) (Cert.Spec.ends0 (A0 V0)) (Cert.Spec.ends1 (A0 V0)) := by
  rewrite [st18, g18_v175 _, st17_arg1 V0, st17_v115 V0, st17_v117 V0]; rfl

/-- The contents after the first 19 stretches. -/
def st19 (V0 : Valuation τ sig (Elt F)) : Valuation τ sig (Elt F) := after g19 (st18 V0)
theorem st19_arg0 (V0 : Valuation τ sig (Elt F)) : st19 V0 (Proc.devRef .tc main_arg0) = A0 V0 := by
  rewrite [st19, g19_keep _ main_arg0 (by decide)]; exact st18_arg0 V0
theorem st19_arg1 (V0 : Valuation τ sig (Elt F)) : st19 V0 (Proc.devRef .tc main_arg1) = A1 V0 := by
  rewrite [st19, g19_keep _ main_arg1 (by decide)]; exact st18_arg1 V0
theorem st19_arg2 (V0 : Valuation τ sig (Elt F)) : st19 V0 (Proc.devRef .tc main_arg2) = A2 V0 := by
  rewrite [st19, g19_keep _ main_arg2 (by decide)]; exact st18_arg2 V0
theorem st19_arg3 (V0 : Valuation τ sig (Elt F)) : st19 V0 (Proc.devRef .tc main_arg3) = A3 V0 := by
  rewrite [st19, g19_keep _ main_arg3 (by decide)]; exact st18_arg3 V0
theorem st19_arg4 (V0 : Valuation τ sig (Elt F)) : st19 V0 (Proc.devRef .tc main_arg4) = A4 V0 := by
  rewrite [st19, g19_keep _ main_arg4 (by decide)]; exact st18_arg4 V0
theorem st19_arg5 (V0 : Valuation τ sig (Elt F)) : st19 V0 (Proc.devRef .tc main_arg5) = A5 V0 := by
  rewrite [st19, g19_keep _ main_arg5 (by decide)]; exact st18_arg5 V0
theorem st19_arg6 (V0 : Valuation τ sig (Elt F)) : st19 V0 (Proc.devRef .tc main_arg6) = A6 V0 := by
  rewrite [st19, g19_keep _ main_arg6 (by decide)]; exact st18_arg6 V0
theorem st19_arg7 (V0 : Valuation τ sig (Elt F)) : st19 V0 (Proc.devRef .tc main_arg7) = A7 V0 := by
  rewrite [st19, g19_keep _ main_arg7 (by decide)]; exact st18_arg7 V0
theorem st19_arg8 (V0 : Valuation τ sig (Elt F)) : st19 V0 (Proc.devRef .tc main_arg8) = A8 V0 := by
  rewrite [st19, g19_keep _ main_arg8 (by decide)]; exact st18_arg8 V0
theorem st19_arg9 (V0 : Valuation τ sig (Elt F)) : st19 V0 (Proc.devRef .tc main_arg9) = A9 V0 := by
  rewrite [st19, g19_keep _ main_arg9 (by decide)]; exact st18_arg9 V0
theorem st19_v109 (V0 : Valuation τ sig (Elt F)) : st19 V0 (Proc.devRef .tc main_v109) = Cert.Spec.rep (A0 V0) (A1 V0) (A4 V0) (A5 V0) (A6 V0) (A7 V0) := by
  rewrite [st19, g19_keep _ main_v109 (by decide)]; exact st18_v109 V0
theorem st19_v113 (V0 : Valuation τ sig (Elt F)) : st19 V0 (Proc.devRef .tc main_v113) = Cert.Spec.yOut (Cert.Spec.rep (A0 V0) (A1 V0) (A4 V0) (A5 V0) (A6 V0) (A7 V0)) (A8 V0) (A9 V0) := by
  rewrite [st19, g19_keep _ main_v113 (by decide)]; exact st18_v113 V0
theorem st19_v193 (V0 : Valuation τ sig (Elt F)) : st19 V0 (Proc.devRef .tc main_v193) = Cert.Spec.loss (Cert.Spec.rep (A0 V0) (A1 V0) (A4 V0) (A5 V0) (A6 V0) (A7 V0)) (A1 V0) (A0 V0) (A3 V0) (A2 V0) := by
  rewrite [st19, g19_v193 _ (Cert.Spec.rep (A0 V0) (A1 V0) (A4 V0) (A5 V0) (A6 V0) (A7 V0)) (A1 V0) (A0 V0) (A3 V0) (st18_v123 V0) (st18_v125 V0) (st18_v142 V0) (st18_v159 V0) (st18_v175 V0), st18_arg2 V0]; rfl

set_option maxRecDepth 8192 in
/-- The fold of all the reference's operations is the last stage. -/
theorem after_ops (V0 : Valuation τ sig (Elt F)) : after (ops (F := F)) V0 = st19 V0 := by
  rewrite [ops_split]
  simp only [after_append]
  rfl

end Cert.Bridge.RefWalk

end
-- ==== Proof.Val.RefValue.lean ====
/-
  The reference's run read back. After the reference's 260 operations from a device's launch contents, its first result
  buffer holds the embeddings rep, its third the read-out of them, its second the loss — each the named function
  (Cert.Spec) of the ten arguments' launch contents — and the ten argument buffers hold what they held (ref_rep, ref_y,
  ref_loss, ref_arg0 … ref_arg9: the last stage of the walk of Val/RefWalk.lean at the launch contents). With the
  library's run of a line of operations (every weakly fair execution terminates, every buffer at the fold of the
  operations over its launch contents) this gives the reference's frame claim, and its run in the form the comparison
  with the kernel uses (ref_run).
-/
import proofs.«160566_j58506044506613_1_alg».proof.Proof.Val.RefWalk
import proofs.«160566_j58506044506613_1_alg».proof.Defs
import proofs.«160566_j58506044506613_1_alg».proof.Proof.Gen.Pre_finite_inputs

noncomputable section

namespace Cert.Bridge

open Cert.ReferenceIdeal Cert.ReferenceIdeal.Gen Cert.ReferenceIdeal.ValueP Idealize.ShloMosaic Idealize.ShloMosaic.TcCoe Idealize.SL.Sem Idealize.ShloMosaic.StableHlo
open Cert.Bridge.RefWalk

/-- The first result: the embeddings. -/
theorem ref_rep (m : (ℓ : Loc nD τ sig) → Buf (Elt Ideal) ℓ) (d : Dev nD) :
    after (ops (F := Ideal)) (launchContents m d) (Proc.devRef .tc main_v109) = Cert.Spec.rep (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7)) := by
  rewrite [after_ops]; exact st19_v109 (launchContents m d)

/-- The third result: the read-out of the embeddings. -/
theorem ref_y (m : (ℓ : Loc nD τ sig) → Buf (Elt Ideal) ℓ) (d : Dev nD) :
    after (ops (F := Ideal)) (launchContents m d) (Proc.devRef .tc main_v113) = Cert.Spec.yOut (Cert.Spec.rep (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7))) (m ((d.tc : Thread nD τ).loc main_arg8)) (m ((d.tc : Thread nD τ).loc main_arg9)) := by
  rewrite [after_ops]; exact st19_v113 (launchContents m d)

/-- The second result: the loss. -/
theorem ref_loss (m : (ℓ : Loc nD τ sig) → Buf (Elt Ideal) ℓ) (d : Dev nD) :
    after (ops (F := Ideal)) (launchContents m d) (Proc.devRef .tc main_v193) = Cert.Spec.loss (Cert.Spec.rep (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7))) (m ((d.tc : Thread nD τ).loc main_arg1)) (m ((d.tc : Thread nD τ).loc main_arg0)) (m ((d.tc : Thread nD τ).loc main_arg3)) (m ((d.tc : Thread nD τ).loc main_arg2)) := by
  rewrite [after_ops]; exact st19_v193 (launchContents m d)

theorem ref_arg0 (m : (ℓ : Loc nD τ sig) → Buf (Elt Ideal) ℓ) (d : Dev nD) :
    after (ops (F := Ideal)) (launchContents m d) (Proc.devRef .tc main_arg0) = m ((d.tc : Thread nD τ).loc main_arg0) := by
  rewrite [after_ops]; exact st19_arg0 (launchContents m d)

theorem ref_arg1 (m : (ℓ : Loc nD τ sig) → Buf (Elt Ideal) ℓ) (d : Dev nD) :
    after (ops (F := Ideal)) (launchContents m d) (Proc.devRef .tc main_arg1) = m ((d.tc : Thread nD τ).loc main_arg1) := by
  rewrite [after_ops]; exact st19_arg1 (launchContents m d)

theorem ref_arg2 (m : (ℓ : Loc nD τ sig) → Buf (Elt Ideal) ℓ) (d : Dev nD) :
    after (ops (F := Ideal)) (launchContents m d) (Proc.devRef .tc main_arg2) = m ((d.tc : Thread nD τ).loc main_arg2) := by
  rewrite [after_ops]; exact st19_arg2 (launchContents m d)

theorem ref_arg3 (m : (ℓ : Loc nD τ sig) → Buf (Elt Ideal) ℓ) (d : Dev nD) :
    after (ops (F := Ideal)) (launchContents m d) (Proc.devRef .tc main_arg3) = m ((d.tc : Thread nD τ).loc main_arg3) := by
  rewrite [after_ops]; exact st19_arg3 (launchContents m d)

theorem ref_arg4 (m : (ℓ : Loc nD τ sig) → Buf (Elt Ideal) ℓ) (d : Dev nD) :
    after (ops (F := Ideal)) (launchContents m d) (Proc.devRef .tc main_arg4) = m ((d.tc : Thread nD τ).loc main_arg4) := by
  rewrite [after_ops]; exact st19_arg4 (launchContents m d)

theorem ref_arg5 (m : (ℓ : Loc nD τ sig) → Buf (Elt Ideal) ℓ) (d : Dev nD) :
    after (ops (F := Ideal)) (launchContents m d) (Proc.devRef .tc main_arg5) = m ((d.tc : Thread nD τ).loc main_arg5) := by
  rewrite [after_ops]; exact st19_arg5 (launchContents m d)

theorem ref_arg6 (m : (ℓ : Loc nD τ sig) → Buf (Elt Ideal) ℓ) (d : Dev nD) :
    after (ops (F := Ideal)) (launchContents m d) (Proc.devRef .tc main_arg6) = m ((d.tc : Thread nD τ).loc main_arg6) := by
  rewrite [after_ops]; exact st19_arg6 (launchContents m d)

theorem ref_arg7 (m : (ℓ : Loc nD τ sig) → Buf (Elt Ideal) ℓ) (d : Dev nD) :
    after (ops (F := Ideal)) (launchContents m d) (Proc.devRef .tc main_arg7) = m ((d.tc : Thread nD τ).loc main_arg7) := by
  rewrite [after_ops]; exact st19_arg7 (launchContents m d)

theorem ref_arg8 (m : (ℓ : Loc nD τ sig) → Buf (Elt Ideal) ℓ) (d : Dev nD) :
    after (ops (F := Ideal)) (launchContents m d) (Proc.devRef .tc main_arg8) = m ((d.tc : Thread nD τ).loc main_arg8) := by
  rewrite [after_ops]; exact st19_arg8 (launchContents m d)

theorem ref_arg9 (m : (ℓ : Loc nD τ sig) → Buf (Elt Ideal) ℓ) (d : Dev nD) :
    after (ops (F := Ideal)) (launchContents m d) (Proc.devRef .tc main_arg9) = m ((d.tc : Thread nD τ).loc main_arg9) := by
  rewrite [after_ops]; exact st19_arg9 (launchContents m d)

/-- The reference runs, and its argument arrays end unchanged. -/
theorem frame_ri : Cert.frame_ReferenceIdeal (hReferenceIdeal := Cert.ReferenceIdeal.Gen.facts) (hPre_finite_inputs := Cert.Pre_finite_inputs.Gen.facts) :=
  fun m g _ => (θ_run defs _ _).mono
    (fun _ h c => ⟨(h c main_arg0).trans (ref_arg0 m c),
      (h c main_arg1).trans (ref_arg1 m c),
      (h c main_arg2).trans (ref_arg2 m c),
      (h c main_arg3).trans (ref_arg3 m c),
      (h c main_arg4).trans (ref_arg4 m c),
      (h c main_arg5).trans (ref_arg5 m c),
      (h c main_arg6).trans (ref_arg6 m c),
      (h c main_arg7).trans (ref_arg7 m c),
      (h c main_arg8).trans (ref_arg8 m c),
      (h c main_arg9).trans (ref_arg9 m c)⟩)
    (run_raw (F := Ideal) m g)

/-- The reference's run: every weakly fair execution terminates, nothing faulting, with the three results at the named
    functions of the arguments' launch contents and the arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ d : Dev nD,
      r.2.mem ((d.tc : Thread nD τ).loc main_v109) = Cert.Spec.rep (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7))
      ∧ r.2.mem ((d.tc : Thread nD τ).loc main_v193) = Cert.Spec.loss (Cert.Spec.rep (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7))) (m ((d.tc : Thread nD τ).loc main_arg1)) (m ((d.tc : Thread nD τ).loc main_arg0)) (m ((d.tc : Thread nD τ).loc main_arg3)) (m ((d.tc : Thread nD τ).loc main_arg2))
      ∧ r.2.mem ((d.tc : Thread nD τ).loc main_v113) = Cert.Spec.yOut (Cert.Spec.rep (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7))) (m ((d.tc : Thread nD τ).loc main_arg8)) (m ((d.tc : Thread nD τ).loc main_arg9))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)) :=
  (θ_run defs _ _).mono
    (fun _ h d => ⟨(h d main_v109).trans (ref_rep m d), (h d main_v193).trans (ref_loss m d), (h d main_v113).trans (ref_y m d),
      (h d main_arg0).trans (ref_arg0 m d),
      (h d main_arg1).trans (ref_arg1 m d),
      (h d main_arg2).trans (ref_arg2 m d),
      (h d main_arg3).trans (ref_arg3 m d),
      (h d main_arg4).trans (ref_arg4 m d),
      (h d main_arg5).trans (ref_arg5 m d),
      (h d main_arg6).trans (ref_arg6 m d),
      (h d main_arg7).trans (ref_arg7 m d),
      (h d main_arg8).trans (ref_arg8 m d),
      (h d main_arg9).trans (ref_arg9 m d)⟩)
    (run_raw (F := Ideal) m ρ)

end Cert.Bridge

end
-- ==== Proof.Val.KStretch.lean ====
/-
  The kernel program's host stretches, one at a time, at an arbitrary valuation V of the buffers: what each stretch
  leaves in the buffers later items read, as the named operations of the reference (Val/Spec.lean) applied to what V
  holds in the buffers the stretch reads. Each is read off the stretch's operations, in order.
-/
import proofs.«160566_j58506044506613_1_alg».proof.Proof.Gen.KernelIdeal.Launch
import proofs.«160566_j58506044506613_1_alg».proof.Proof.Val.Spec
import Idealize.ShloMosaic.Lib.StableHlo.Run

set_option maxRecDepth 16384

noncomputable section

namespace Cert.Bridge.KS

open Cert.KernelIdeal Cert.KernelIdeal.Gen Idealize.ShloMosaic Idealize.ShloMosaic.TcCoe Idealize.ShloMosaic.StableHlo Idealize.SL.Sem

variable {F : FTy → Type} [FloatOps F] (V : Valuation τ sig (Elt F))

/-! ## The endpoints, the degree and its inverse square root, the edge weights (items 0–4) -/

theorem i0_v3 : after (main_part0_ops0 (F := F)) V (Proc.devRef .tc main_v3) = Cert.Spec.row (V (Proc.devRef .tc main_arg0)) := by
  dsimp only [main_part0_ops0]; after_results_simp <;> rfl
theorem i0_v6 : after (main_part0_ops0 (F := F)) V (Proc.devRef .tc main_v6) = Cert.Spec.col (V (Proc.devRef .tc main_arg0)) := by
  dsimp only [main_part0_ops0]; after_results_simp <;> rfl
theorem i0_v10 : after (main_part0_ops0 (F := F)) V (Proc.devRef .tc main_v10) = Cert.Spec.deg (V (Proc.devRef .tc main_arg0)) := by
  dsimp only [main_part0_ops0]; after_results_simp <;> rfl
theorem i0_v12 : after (main_part0_ops0 (F := F)) V (Proc.devRef .tc main_v12) = Cert.Spec.degPos (V (Proc.devRef .tc main_arg0)) := by
  dsimp only [main_part0_ops0]; after_results_simp <;> rfl
theorem i0_cst2 : after (main_part0_ops0 (F := F)) V (Proc.devRef .tc main_cst_2) = constant S_ .f32 0x3F800000#32 := by
  dsimp only [main_part0_ops0]; after_results_simp <;> rfl

theorem i1_v13 : after (main_part0_ops1 (F := F)) V (Proc.devRef .tc main_v13)
    = select (V (Proc.devRef .tc main_v12)) (V (Proc.devRef .tc main_v10)) (broadcastInDim S50000 ![] bcast_S_S50000 (id (V (Proc.devRef .tc main_cst_2)))) := by
  dsimp only [main_part0_ops1]; after_results_simp <;> rfl

theorem i2_v15 : after (main_part0_ops2 (F := F)) V (Proc.devRef .tc main_v15)
    = cmpf .ogt (V (Proc.devRef .tc main_v10)) (broadcastInDim S50000 ![] bcast_S_S50000 (constant S_ .f32 0x00000000#32)) := by
  dsimp only [main_part0_ops2]; after_results_simp <;> rfl
theorem i2_v16 : after (main_part0_ops2 (F := F)) V (Proc.devRef .tc main_v16) = Host.rsqrt (V (Proc.devRef .tc main_v13)) := by
  dsimp only [main_part0_ops2]; after_results_simp <;> rfl
theorem i2_cst4 : after (main_part0_ops2 (F := F)) V (Proc.devRef .tc main_cst_4) = constant S_ .f32 0x00000000#32 := by
  dsimp only [main_part0_ops2]; after_results_simp <;> rfl

theorem i3_v17 : after (main_part0_ops3 (F := F)) V (Proc.devRef .tc main_v17)
    = select (V (Proc.devRef .tc main_v15)) (V (Proc.devRef .tc main_v16)) (broadcastInDim S50000 ![] bcast_S_S50000 (id (V (Proc.devRef .tc main_cst_4)))) := by
  dsimp only [main_part0_ops3]; after_results_simp <;> rfl

theorem i4_v33 : after (main_part0_ops4 (F := F)) V (Proc.devRef .tc main_v33)
    = Cert.Spec.normcolOf (V (Proc.devRef .tc main_v17)) (V (Proc.devRef .tc main_v3)) (V (Proc.devRef .tc main_v6)) := by
  dsimp only [main_part0_ops4]; after_results_simp <;> rfl

/-! ## The aggregations and the bias rows (items 6, 7, 10, 14) -/

theorem i6_v46 : after (main_part0_ops5 (F := F)) V (Proc.devRef .tc main_v46)
    = Cert.Spec.aggOf (V (Proc.devRef .tc main_v3)) (V (Proc.devRef .tc main_v6)) (V (Proc.devRef .tc main_v33)) (V (Proc.devRef .tc main_v34)) := by
  dsimp only [main_part0_ops5]; after_results_simp <;> rfl
theorem i7_v47 : after (main_part1_ops0 (F := F)) V (Proc.devRef .tc main_v47) = shapeCast S1x256 (V (Proc.devRef .tc main_arg5)) shapeCasts_S256_S1x256 := by
  dsimp only [main_part1_ops0]; after_results_simp <;> rfl
theorem i10_v61 : after (main_part1_ops1 (F := F)) V (Proc.devRef .tc main_v61)
    = Cert.Spec.aggOf (V (Proc.devRef .tc main_v3)) (V (Proc.devRef .tc main_v6)) (V (Proc.devRef .tc main_v33)) (V (Proc.devRef .tc main_v49)) := by
  dsimp only [main_part1_ops1]; after_results_simp <;> rfl
theorem i10_v62 : after (main_part1_ops1 (F := F)) V (Proc.devRef .tc main_v62) = shapeCast S1x256 (V (Proc.devRef .tc main_arg7)) shapeCasts_S256_S1x256 := by
  dsimp only [main_part1_ops1]; after_results_simp <;> rfl
theorem i14_v66 : after (main_part1_ops2 (F := F)) V (Proc.devRef .tc main_v66) = shapeCast S1x64 (V (Proc.devRef .tc main_arg9)) shapeCasts_S64_S1x64 := by
  dsimp only [main_part1_ops2]; after_results_simp <;> rfl

/-! ## The loss kernel's operands (items 16, 17) -/

theorem i16_v69 : after (main_part1_ops3 (F := F)) V (Proc.devRef .tc main_v69) = Cert.Spec.ends0 (V (Proc.devRef .tc main_arg0)) := by
  dsimp only [main_part1_ops3]; after_results_simp <;> rfl
theorem i16_v71 : after (main_part1_ops3 (F := F)) V (Proc.devRef .tc main_v71) = Cert.Spec.ends1 (V (Proc.devRef .tc main_arg0)) := by
  dsimp only [main_part1_ops3]; after_results_simp <;> rfl
theorem i16_v73 : after (main_part1_ops3 (F := F)) V (Proc.devRef .tc main_v73) = Cert.Spec.ends0 (V (Proc.devRef .tc main_arg3)) := by
  dsimp only [main_part1_ops3]; after_results_simp <;> rfl
theorem i16_v75 : after (main_part1_ops3 (F := F)) V (Proc.devRef .tc main_v75) = Cert.Spec.ends1 (V (Proc.devRef .tc main_arg3)) := by
  dsimp only [main_part1_ops3]; after_results_simp <;> rfl
theorem i16_v77 : after (main_part1_ops3 (F := F)) V (Proc.devRef .tc main_v77)
    = Cert.Spec.mask (Cert.Spec.ends0 (V (Proc.devRef .tc main_arg0))) (Cert.Spec.ends1 (V (Proc.devRef .tc main_arg0))) := by
  dsimp only [main_part1_ops3]; after_results_simp <;> rfl
theorem i16_v79 : after (main_part1_ops3 (F := F)) V (Proc.devRef .tc main_v79)
    = Cert.Spec.mask (Cert.Spec.ends0 (V (Proc.devRef .tc main_arg3))) (Cert.Spec.ends1 (V (Proc.devRef .tc main_arg3))) := by
  dsimp only [main_part1_ops3]; after_results_simp <;> rfl
theorem i16_v80 : after (main_part1_ops3 (F := F)) V (Proc.devRef .tc main_v80)
    = Cert.Spec.total (Cert.Spec.mask (Cert.Spec.ends0 (V (Proc.devRef .tc main_arg0))) (Cert.Spec.ends1 (V (Proc.devRef .tc main_arg0)))) := by
  dsimp only [main_part1_ops3]; after_results_simp <;> rfl
theorem i16_v81 : after (main_part1_ops3 (F := F)) V (Proc.devRef .tc main_v81)
    = Cert.Spec.total (Cert.Spec.mask (Cert.Spec.ends0 (V (Proc.devRef .tc main_arg3))) (Cert.Spec.ends1 (V (Proc.devRef .tc main_arg3)))) := by
  dsimp only [main_part1_ops3]; after_results_simp <;> rfl
theorem i16_v88 : after (main_part1_ops3 (F := F)) V (Proc.devRef .tc main_v88)
    = Cert.Spec.rowsAt (V (Proc.devRef .tc main_v64)) (Cert.Spec.ends0 (V (Proc.devRef .tc main_arg0))) := by
  dsimp only [main_part1_ops3]; after_results_simp <;> rfl
theorem i16_v95 : after (main_part1_ops3 (F := F)) V (Proc.devRef .tc main_v95)
    = Cert.Spec.rowsAt (V (Proc.devRef .tc main_v64)) (Cert.Spec.ends1 (V (Proc.devRef .tc main_arg0))) := by
  dsimp only [main_part1_ops3]; after_results_simp <;> rfl
theorem i16_v96 : after (main_part1_ops3 (F := F)) V (Proc.devRef .tc main_v96) = broadcastInDim S800000 ![] bcast_S_S800000 (constantI S_ 32 0#32) := by
  dsimp only [main_part1_ops3]; after_results_simp <;> rfl

/-- The wrapped index list as the second piece spells it for main_v73: the comparison's zero vector comes from the first piece. -/
theorem i17_v102 (h96 : V (Proc.devRef .tc main_v96) = broadcastInDim S800000 ![] bcast_S_S800000 (constantI S_ 32 0#32)) :
    after (main_part2_ops0 (F := F)) V (Proc.devRef .tc main_v102) = Cert.Spec.rowsAt (V (Proc.devRef .tc main_v64)) (V (Proc.devRef .tc main_v73)) := by
  dsimp only [main_part2_ops0]; after_results_simp; rw [h96]; rfl
theorem i17_v109 : after (main_part2_ops0 (F := F)) V (Proc.devRef .tc main_v109) = Cert.Spec.rowsAt (V (Proc.devRef .tc main_v64)) (V (Proc.devRef .tc main_v75)) := by
  dsimp only [main_part2_ops0]; after_results_simp <;> rfl
theorem i17_v116 : after (main_part2_ops0 (F := F)) V (Proc.devRef .tc main_v116) = Cert.Spec.rowsAt (V (Proc.devRef .tc main_arg1)) (V (Proc.devRef .tc main_v69)) := by
  dsimp only [main_part2_ops0]; after_results_simp <;> rfl
theorem i17_v123 : after (main_part2_ops0 (F := F)) V (Proc.devRef .tc main_v123) = Cert.Spec.rowsAt (V (Proc.devRef .tc main_arg1)) (V (Proc.devRef .tc main_v71)) := by
  dsimp only [main_part2_ops0]; after_results_simp <;> rfl
theorem i17_v124 : after (main_part2_ops0 (F := F)) V (Proc.devRef .tc main_v124) = shapeCast S800000x1 (V (Proc.devRef .tc main_arg2)) shapeCasts_S800000_S800000x1 := by
  dsimp only [main_part2_ops0]; after_results_simp <;> rfl
theorem i17_v125 : after (main_part2_ops0 (F := F)) V (Proc.devRef .tc main_v125) = shapeCast S800000x1 (V (Proc.devRef .tc main_v77)) shapeCasts_S800000_S800000x1 := by
  dsimp only [main_part2_ops0]; after_results_simp <;> rfl
theorem i17_v126 : after (main_part2_ops0 (F := F)) V (Proc.devRef .tc main_v126) = shapeCast S800000x1 (V (Proc.devRef .tc main_v79)) shapeCasts_S800000_S800000x1 := by
  dsimp only [main_part2_ops0]; after_results_simp <;> rfl

/-! ## The tail (item 19): the two sums added, times the number of nodes, over the number of masked edges -/

theorem i19_v135 : after (main_part2_ops1 (F := F)) V (Proc.devRef .tc main_v135)
    = Host.divf (mulf (addf (shapeCast S_ (extractStridedSlice S1x1 ![0, 0] (V (Proc.devRef .tc main_v127)) slices_S1x2_S1x1_0_0) shapeCasts_S1x1_S_)
                            (shapeCast S_ (extractStridedSlice S1x1 ![0, 1] (V (Proc.devRef .tc main_v127)) slices_S1x2_S1x1_0_1) shapeCasts_S1x1_S_))
                      (constant S_ .f32 0x47435000#32))
        (addf (V (Proc.devRef .tc main_v81)) (V (Proc.devRef .tc main_v80))) := by
  dsimp only [main_part2_ops1]; after_results_simp <;> rfl

end Cert.Bridge.KS

end
-- ==== Proof.Val.MM0.lean ====
/-
  The value of region 0 on the extended reals. The grid has 10 points; point t stages rows 5000t … 5000t+4999 of the
  node features and the whole first-layer weight matrix, the body leaves in the output block, at entry (r, e), the sum
  over k of lhs(r, k) · w(k, e) (the narrowing of the operands to bf16 is the identity on the extended reals and the
  accumulator is the zero splat), and the block is written back to the same rows of the result. So entry (i, e) of the
  result array is the sum over k of x(i, k) · w(k, e): the whole product, which is the host's dot_general of the two
  arrays. Stated here: the whole product as one function of the two arrays (prod0), the payload at an entry, what each
  point writes back as a block of prod0, the cover of the result's rows by the points' blocks, the array after the
  region, and prod0 as the host's operation.
-/
import proofs.«160566_j58506044506613_1_alg».proof.Proof.KI.Reg0
import proofs.«160566_j58506044506613_1_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

namespace MM0

/-- The product of a [50000,256] array with a [256,256] one, entry by entry. -/
def prod0 (x : S50000x256.Idx → EReal) (w : S256x256.Idx → EReal) : S50000x256.Idx → EReal :=
  fun i => ∑ k : Fin 256, x (ix2 (i 0) k) * w (ix2 k (i 1))

abbrev DK0 : DotDims S5000x256 S256x256 S5000x256 := dot_S5000x256_S256x256_S5000x256_1_0_0_1_n_n

theorem DK0_lhs0 (j : S5000x256.Idx) (k : DK0.contr.Idx) : (DK0.lhsIdx j k 0 : ℕ) = j 0 := by
  simp [DotDims.lhsIdx, DK0, dot_S5000x256_S256x256_S5000x256_1_0_0_1_n_n]; rfl
theorem DK0_rhs1 (j : S5000x256.Idx) (k : DK0.contr.Idx) : (DK0.rhsIdx j k 1 : ℕ) = j 1 := by
  simp [DotDims.rhsIdx, DK0, dot_S5000x256_S256x256_S5000x256_1_0_0_1_n_n]; rfl

/-- The body's payload at an entry: the row of the left block against the column of the right one (the narrowing
    to bf16 is the identity on the extended reals, the accumulator is the zero splat). -/
theorem mm0_pay_apply (x0 : FVec Ideal S5000x256 .f32) (x1 : FVec Ideal S256x256 .f32) (r : Fin 5000) (e : Fin 256) :
    k0_pay1 (F := Ideal) x0 x1 (ix2 r e) = ∑ k : Fin 256, x0 (ix2 r k) * x1 (ix2 k e) := by
  unfold k0_pay1
  show FloatOps.matmul DK0 none x0 x1 (constant S5000x256 .f32 0x00000000#32) (ix2 r e) = _
  rw [Ideal.matmul_constant_zero_apply, ← Equiv.sum_comp (contrEquiv1 DK0 256 rfl rfl).symm]
  refine Finset.sum_congr rfl fun k _ => ?_
  congr 2
  · funext a; apply Fin.ext
    match a with
    | ⟨0, _⟩ => exact DK0_lhs0 _ _
    | ⟨1, _⟩ => exact (DK0.lhsIdx_val_of_single rfl _ _).trans (contrEquiv1_symm_val DK0 256 rfl rfl k)
  · funext a; apply Fin.ext
    match a with
    | ⟨0, _⟩ => exact (DK0.rhsIdx_val_of_single rfl _ _).trans (contrEquiv1_symm_val DK0 256 rfl rfl k)
    | ⟨1, _⟩ => exact DK0_rhs1 _ _

/-- A block entry of the payload is an entry of the whole product, when the left block's row is the array's row and
    the right block's column the weight's column. -/
theorem mm0_pay_eq_prod (x : S50000x256.Idx → EReal) (w : S256x256.Idx → EReal) (x0 : FVec Ideal S5000x256 .f32) (x1 : FVec Ideal S256x256 .f32)
    (j : S5000x256.Idx) (i : S50000x256.Idx)
    (h0 : ∀ k : Fin 256, x0 (ix2 (j 0) k) = x (ix2 (i 0) k))
    (h1 : ∀ k : Fin 256, x1 (ix2 k (j 1)) = w (ix2 k (i 1))) :
    k0_pay1 (F := Ideal) x0 x1 j = prod0 x w i := by
  refine (congrArg (k0_pay1 (F := Ideal) x0 x1) (eq_ix2 j)).trans ((mm0_pay_apply x0 x1 (j 0) (j 1)).trans ?_)
  exact Finset.sum_congr rfl fun k _ => by rw [h0 k, h1 k]

theorem mm_hz : (![0, 0] : Fin 2 → Nat) = fun _ => 0 := funext fun a => by fin_cases a <;> rfl

/-- The printed index maps over the grid: the left operand's and the result's blocks are the point's row block, the
    weight's block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the two arrays as the region finds them: its rows
    are rows 5000t … 5000t+4999 of the left array, its columns the weight's. -/
theorem flushed0_eq (c : Dev nD) (t : Fin cfg0.N) :
    (dat0 (F := Ideal) V c).flushed 2 t = ((cfg0.win 2).blk t).view.read (Elt Ideal) (prod0 (V c main_arg1) (V c main_arg4)) := by
  show (cfg0.win 2).cut (grid0.coords t) ((dat0 V c).after 2 t) = _
  rw [after0_2]
  unfold out0
  rw [View.canon_unit_zero mm_hz]
  simp only [View.ld_unit_zero (S := S5000x256) mm_hz, View.ld_unit_zero (S := S256x256) mm_hz]
  obtain ⟨e0, e1, e2, e3, e4, e5⟩ := idx_facts0 t
  funext j
  show k0_pay1 (F := Ideal) (iblk0 V c 0 t) (iblk0 V c 1 t) j = prod0 (V c main_arg1) (V c main_arg4) (((cfg0.win 2).blk t).view.emb j)
  refine mm0_pay_eq_prod (V c main_arg1) (V c main_arg4) (iblk0 V c 0 t) (iblk0 V c 1 t) j (((cfg0.win 2).blk t).view.emb j) (fun k => ?_) (fun k => ?_)
  · show V c main_arg1 (((cfg0.win 0).blk t).view.emb (ix2 (j 0) k)) = V c main_arg1 (ix2 ((((cfg0.win 2).blk t).view.emb j) 0) k)
    refine congrArg (V c main_arg1) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg4 (((cfg0.win 1).blk t).view.emb (ix2 k (j 1))) = V c main_arg4 (ix2 k ((((cfg0.win 2).blk t).view.emb j) 1))
    refine congrArg (V c main_arg4) ?_
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An index of the result array is in point t's block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v34).slice (win0_2.rect t)).set ↔ _
  rw [View.set_slice_whole, Rect.mem_set_unit]
  exact Iff.rfl

/-- Row r of the result is in the block of point r / 5000. -/
theorem rows_cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 5000 := ⟨⟨(i 0).val / 5000, by rw [show cfg0.N = 10 from N_0]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The result array after the region: the whole product. -/
theorem final0 (c : Dev nD) : (dat0 (F := Ideal) V c).arrAt 2 cfg0.N = prod0 (V c main_arg1) (V c main_arg4) :=
  (dat0 (F := Ideal) V c).arrAt_eq_of_cover 2 (prod0 (V c main_arg1) (V c main_arg4)) (fun t _ => flushed0_eq V c t) rows_cover0

abbrev DR0 : DotDims Cert.ReferenceIdeal.S50000x256 Cert.ReferenceIdeal.S256x256 Cert.ReferenceIdeal.S50000x256 :=
  Cert.ReferenceIdeal.dot_S50000x256_S256x256_S50000x256_1_0_0_1_n_n

theorem DR0_lhs0 (j : Cert.ReferenceIdeal.S50000x256.Idx) (k : DR0.contr.Idx) : (DR0.lhsIdx j k 0 : ℕ) = j 0 := by
  simp [DotDims.lhsIdx, DR0, Cert.ReferenceIdeal.dot_S50000x256_S256x256_S50000x256_1_0_0_1_n_n]; rfl
theorem DR0_rhs1 (j : Cert.ReferenceIdeal.S50000x256.Idx) (k : DR0.contr.Idx) : (DR0.rhsIdx j k 1 : ℕ) = j 1 := by
  simp [DotDims.rhsIdx, DR0, Cert.ReferenceIdeal.dot_S50000x256_S256x256_S50000x256_1_0_0_1_n_n]; rfl

/-- The whole product is the host's product of the two arrays. -/
theorem prod0_eq_dotGeneral (x : FVec Ideal Cert.ReferenceIdeal.S50000x256 .f32) (w : FVec Ideal Cert.ReferenceIdeal.S256x256 .f32) :
    prod0 x w = Host.dotGeneral (F := Ideal) DR0 none x w := by
  funext i
  show _ = FloatOps.dotGeneral DR0 none .single x w i
  rw [Ideal.dotGeneral_apply, ← Equiv.sum_comp (contrEquiv1 DR0 256 rfl rfl).symm]
  refine Finset.sum_congr rfl fun k _ => ?_
  show x (ix2 (i 0) k) * w (ix2 k (i 1)) = _
  congr 2
  · funext a; apply Fin.ext
    match a with
    | ⟨0, _⟩ => exact (DR0_lhs0 _ _).symm
    | ⟨1, _⟩ => exact ((DR0.lhsIdx_val_of_single rfl _ _).trans (contrEquiv1_symm_val DR0 256 rfl rfl k)).symm
  · funext a; apply Fin.ext
    match a with
    | ⟨0, _⟩ => exact ((DR0.rhsIdx_val_of_single rfl _ _).trans (contrEquiv1_symm_val DR0 256 rfl rfl k)).symm
    | ⟨1, _⟩ => exact (DR0_rhs1 _ _).symm

end MM0

open MM0

/-- Region 0 leaves in its result array the host's product of the node features with the first layer's weights. -/
theorem region0 (V : (c : Dev nD) → (b : Ref sig .tc) → Buf (Elt Ideal) ((c : Thread nD τ).loc b)) (c : Dev nD) : (dat0 (F := Ideal) V c).arrAt 2 cfg0.N
    = Host.dotGeneral (F := Ideal) (φ₁ := .f32) (φ₂ := .f32) Cert.ReferenceIdeal.dot_S50000x256_S256x256_S50000x256_1_0_0_1_n_n none (V c main_arg1) (V c main_arg4) :=
  (final0 V c).trans (prod0_eq_dotGeneral (V c main_arg1) (V c main_arg4))

end Cert.Bridge

end
-- ==== Proof.Val.MM2.lean ====
/-
  The value of region 2 on the extended reals: the second layer's product, 5000 rows of the hidden array at a time
  against the whole second-layer weight matrix. The body is region 0's with an identity reshape of the left block
  before the narrowing, so its payload is region 0's; the blocks, the cover and the whole product are as there.
-/
import proofs.«160566_j58506044506613_1_alg».proof.Proof.KI.Reg2
import proofs.«160566_j58506044506613_1_alg».proof.Proof.Gen.ReferenceIdeal
import proofs.«160566_j58506044506613_1_alg».proof.Proof.Val.MM0
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

namespace MM2

open Cert.Bridge.MM0

variable (V : (c : Dev nD) → (b : Ref sig .tc) → Buf (Elt Ideal) ((c : Thread nD τ).loc b))

/-- The body's payload is region 0's: the reshape to the same shape is the identity. -/
theorem mm2_pay_eq (x0 : FVec Ideal S5000x256 .f32) (x1 : FVec Ideal S256x256 .f32) :
    k2_pay1 (F := Ideal) x0 x1 = k0_pay1 (F := Ideal) x0 x1 := by
  unfold k2_pay1 k0_pay1
  simp only [shapeCast_self]

/-- The printed index maps over the grid: the left operand's and the result's blocks are the point's row block, the
    weight's block is the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two arrays as the region finds them: its rows
    are rows 5000t … 5000t+4999 of the left array, its columns the weight's. -/
theorem flushed2_eq (c : Dev nD) (t : Fin cfg2.N) :
    (dat2 (F := Ideal) V c).flushed 2 t = ((cfg2.win 2).blk t).view.read (Elt Ideal) (prod0 (V c main_v48) (V c main_arg6)) := by
  show (cfg2.win 2).cut (grid2.coords t) ((dat2 V c).after 2 t) = _
  rw [after2_2]
  unfold out2
  rw [View.canon_unit_zero mm_hz]
  simp only [View.ld_unit_zero (S := S5000x256) mm_hz, View.ld_unit_zero (S := S256x256) mm_hz]
  rw [mm2_pay_eq]
  obtain ⟨e0, e1, e2, e3, e4, e5⟩ := idx_facts2 t
  funext j
  show k0_pay1 (F := Ideal) (iblk2 V c 0 t) (iblk2 V c 1 t) j = prod0 (V c main_v48) (V c main_arg6) (((cfg2.win 2).blk t).view.emb j)
  refine mm0_pay_eq_prod (V c main_v48) (V c main_arg6) (iblk2 V c 0 t) (iblk2 V c 1 t) j (((cfg2.win 2).blk t).view.emb j) (fun k => ?_) (fun k => ?_)
  · show V c main_v48 (((cfg2.win 0).blk t).view.emb (ix2 (j 0) k)) = V c main_v48 (ix2 ((((cfg2.win 2).blk t).view.emb j) 0) k)
    refine congrArg (V c main_v48) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * k.val = k.val; omega
  · show V c main_arg6 (((cfg2.win 1).blk t).view.emb (ix2 k (j 1))) = V c main_arg6 (ix2 k ((((cfg2.win 2).blk t).view.emb j) 1))
    refine congrArg (V c main_arg6) ?_
    funext a; apply Fin.ext
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega

/-- An index of the result array is in point t's block iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v49).slice (win2_2.rect t)).set ↔ _
  rw [View.set_slice_whole, Rect.mem_set_unit]
  exact Iff.rfl

/-- Row r of the result is in the block of point r / 5000. -/
theorem rows_cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 5000 := ⟨⟨(i 0).val / 5000, by rw [show cfg2.N = 10 from N_2]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- The result array after the region: the whole product. -/
theorem final2 (c : Dev nD) : (dat2 (F := Ideal) V c).arrAt 2 cfg2.N = prod0 (V c main_v48) (V c main_arg6) :=
  (dat2 (F := Ideal) V c).arrAt_eq_of_cover 2 (prod0 (V c main_v48) (V c main_arg6)) (fun t _ => flushed2_eq V c t) rows_cover2

end MM2

open MM2 MM0

/-- Region 2 leaves in its result array the host's product of the hidden rows with the second layer's weights. -/
theorem region2 (V : (c : Dev nD) → (b : Ref sig .tc) → Buf (Elt Ideal) ((c : Thread nD τ).loc b)) (c : Dev nD) : (dat2 (F := Ideal) V c).arrAt 2 cfg2.N
    = Host.dotGeneral (F := Ideal) (φ₁ := .f32) (φ₂ := .f32) Cert.ReferenceIdeal.dot_S50000x256_S256x256_S50000x256_1_0_0_1_n_n none (V c main_v48) (V c main_arg6) :=
  (final2 V c).trans (prod0_eq_dotGeneral (V c main_v48) (V c main_arg6))

end Cert.Bridge

end
-- ==== Proof.Val.MM5.lean ====
/-
  The value of region 5 on the extended reals: the read-out product. The grid has 10 points; point t stages rows
  5000t … 5000t+4999 of the normalised rows and the whole [256,64] read-out weight matrix, the body (an identity reshape
  of the left block, the narrowing of both operands to bf16 — the identity on the extended reals —, the matmul into
  the zero splat) leaves in the output block, at entry (r, e), the sum over k of lhs(r, k) · w(k, e), and the block is
  written back to the same rows of the [50000,64] result. So entry (i, e) of the result is the sum over k of
  x(i, k) · w(k, e), which is the host's dot_general of the two arrays. Stated here: the whole product (prod5), the
  payload at an entry, what each point writes back as a block of prod5, the cover of the result's rows by the points'
  blocks, the array after the region, and prod5 as the host's operation.
-/
import proofs.«160566_j58506044506613_1_alg».proof.Proof.KI.Reg5
import proofs.«160566_j58506044506613_1_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

namespace MM5

/-- The product of a [50000,256] array with a [256,64] one, entry by entry. -/
def prod5 (x : S50000x256.Idx → EReal) (w : S256x64.Idx → EReal) : S50000x64.Idx → EReal :=
  fun i => ∑ k : Fin 256, x (ix2 (i 0) k) * w (ix2 k (i 1))

abbrev DK5 : DotDims S5000x256 S256x64 S5000x64 := dot_S5000x256_S256x64_S5000x64_1_0_0_1_n_n

theorem DK5_lhs0 (j : S5000x64.Idx) (k : DK5.contr.Idx) : (DK5.lhsIdx j k 0 : ℕ) = j 0 := by
  simp [DotDims.lhsIdx, DK5, dot_S5000x256_S256x64_S5000x64_1_0_0_1_n_n]; rfl
theorem DK5_rhs1 (j : S5000x64.Idx) (k : DK5.contr.Idx) : (DK5.rhsIdx j k 1 : ℕ) = j 1 := by
  simp [DotDims.rhsIdx, DK5, dot_S5000x256_S256x64_S5000x64_1_0_0_1_n_n]; rfl

/-- The body's payload at an entry: the row of the left block against the column of the right one (the reshape to
    the same shape and the narrowing to bf16 are the identity on the extended reals, the accumulator is the zero splat). -/
theorem mm5_pay_apply (x0 : FVec Ideal S5000x256 .f32) (x1 : FVec Ideal S256x64 .f32) (r : Fin 5000) (e : Fin 64) :
    k5_pay1 (F := Ideal) x0 x1 (ix2 r e) = ∑ k : Fin 256, x0 (ix2 r k) * x1 (ix2 k e) := by
  unfold k5_pay1
  simp only [shapeCast_self]
  show FloatOps.matmul DK5 none x0 x1 (constant S5000x64 .f32 0x00000000#32) (ix2 r e) = _
  rw [Ideal.matmul_constant_zero_apply, ← Equiv.sum_comp (contrEquiv1 DK5 256 rfl rfl).symm]
  refine Finset.sum_congr rfl fun k _ => ?_
  congr 2
  · funext a; apply Fin.ext
    match a with
    | ⟨0, _⟩ => exact DK5_lhs0 _ _
    | ⟨1, _⟩ => exact (DK5.lhsIdx_val_of_single rfl _ _).trans (contrEquiv1_symm_val DK5 256 rfl rfl k)
  · funext a; apply Fin.ext
    match a with
    | ⟨0, _⟩ => exact (DK5.rhsIdx_val_of_single rfl _ _).trans (contrEquiv1_symm_val DK5 256 rfl rfl k)
    | ⟨1, _⟩ => exact DK5_rhs1 _ _

/-- A block entry of the payload is an entry of the whole product, when the left block's row is the array's row and
    the right block's column the weight's column. -/
theorem mm5_pay_eq_prod (x : S50000x256.Idx → EReal) (w : S256x64.Idx → EReal) (x0 : FVec Ideal S5000x256 .f32) (x1 : FVec Ideal S256x64 .f32)
    (j : S5000x64.Idx) (i : S50000x64.Idx)
    (h0 : ∀ k : Fin 256, x0 (ix2 (j 0) k) = x (ix2 (i 0) k))
    (h1 : ∀ k : Fin 256, x1 (ix2 k (j 1)) = w (ix2 k (i 1))) :
    k5_pay1 (F := Ideal) x0 x1 j = prod5 x w i := by
  refine (congrArg (k5_pay1 (F := Ideal) x0 x1) (eq_ix2 j)).trans ((mm5_pay_apply x0 x1 (j 0) (j 1)).trans ?_)
  exact Finset.sum_congr rfl fun k _ => by rw [h0 k, h1 k]

theorem mm5_hz : (![0, 0] : Fin 2 → Nat) = fun _ => 0 := funext fun a => by fin_cases a <;> rfl

/-- The printed index maps over the grid: the left operand's and the result's blocks are the point's row block, the
    weight's block is the whole matrix. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What point t writes back is block t of the whole product of the two arrays as the region finds them: its rows
    are rows 5000t … 5000t+4999 of the left array, its columns the weight's. -/
theorem flushed5_eq (c : Dev nD) (t : Fin cfg5.N) :
    (dat5 (F := Ideal) V c).flushed 2 t = ((cfg5.win 2).blk t).view.read (Elt Ideal) (prod5 (V c main_v64) (V c main_arg8)) := by
  show (cfg5.win 2).cut (grid5.coords t) ((dat5 V c).after 2 t) = _
  rw [after5_2]
  unfold out5
  rw [View.canon_unit_zero mm5_hz]
  simp only [View.ld_unit_zero (S := S5000x256) mm5_hz, View.ld_unit_zero (S := S256x64) mm5_hz]
  obtain ⟨e0, e1, e2, e3, e4, e5⟩ := idx_facts5 t
  funext j
  show k5_pay1 (F := Ideal) (iblk5 V c 0 t) (iblk5 V c 1 t) j = prod5 (V c main_v64) (V c main_arg8) (((cfg5.win 2).blk t).view.emb j)
  refine mm5_pay_eq_prod (V c main_v64) (V c main_arg8) (iblk5 V c 0 t) (iblk5 V c 1 t) j (((cfg5.win 2).blk t).view.emb j) (fun k => ?_) (fun k => ?_)
  · show V c main_v64 (((cfg5.win 0).blk t).view.emb (ix2 (j 0) k)) = V c main_v64 (ix2 ((((cfg5.win 2).blk t).view.emb j) 0) k)
    refine congrArg (V c main_v64) ?_
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 256 + 1 * k.val = k.val; omega
  · show V c main_arg8 (((cfg5.win 1).blk t).view.emb (ix2 k (j 1))) = V c main_arg8 (ix2 k ((((cfg5.win 2).blk t).view.emb j) 1))
    refine congrArg (V c main_arg8) ?_
    funext a; apply Fin.ext
    match a with
    | ⟨0, _⟩ => show win5_1.index t (0 : Fin 2) * 256 + 1 * k.val = k.val; omega
    | ⟨1, _⟩ => show win5_1.index t (1 : Fin 2) * 64 + 1 * (j 1).val = win5_2.index t (1 : Fin 2) * 64 + 1 * (j 1).val; omega

/-- An index of the result array is in point t's block iff each coordinate is in the block's range on its axis. -/
theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v65).slice (win5_2.rect t)).set ↔ _
  rw [View.set_slice_whole, Rect.mem_set_unit]
  exact Iff.rfl

/-- Row r of the result is in the block of point r / 5000. -/
theorem rows_cover5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ : ∃ t : Fin cfg5.N, t.val = (i 0).val / 5000 := ⟨⟨(i 0).val / 5000, by rw [show cfg5.N = 10 from N_5]; omega⟩, rfl⟩
  obtain ⟨e0, e1, e2, e3, e4, e5⟩ := idx_facts5 t
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The result array after the region: the whole product. -/
theorem final5 (c : Dev nD) : (dat5 (F := Ideal) V c).arrAt 2 cfg5.N = prod5 (V c main_v64) (V c main_arg8) :=
  (dat5 (F := Ideal) V c).arrAt_eq_of_cover 2 (prod5 (V c main_v64) (V c main_arg8)) (fun t _ => flushed5_eq V c t) rows_cover5

abbrev DR5 : DotDims Cert.ReferenceIdeal.S50000x256 Cert.ReferenceIdeal.S256x64 Cert.ReferenceIdeal.S50000x64 :=
  Cert.ReferenceIdeal.dot_S50000x256_S256x64_S50000x64_1_0_0_1_n_n

theorem DR5_lhs0 (j : Cert.ReferenceIdeal.S50000x64.Idx) (k : DR5.contr.Idx) : (DR5.lhsIdx j k 0 : ℕ) = j 0 := by
  simp [DotDims.lhsIdx, DR5, Cert.ReferenceIdeal.dot_S50000x256_S256x64_S50000x64_1_0_0_1_n_n]; rfl
theorem DR5_rhs1 (j : Cert.ReferenceIdeal.S50000x64.Idx) (k : DR5.contr.Idx) : (DR5.rhsIdx j k 1 : ℕ) = j 1 := by
  simp [DotDims.rhsIdx, DR5, Cert.ReferenceIdeal.dot_S50000x256_S256x64_S50000x64_1_0_0_1_n_n]; rfl

/-- The whole product is the host's product of the two arrays. -/
theorem prod5_eq_dotGeneral (x : FVec Ideal Cert.ReferenceIdeal.S50000x256 .f32) (w : FVec Ideal Cert.ReferenceIdeal.S256x64 .f32) :
    prod5 x w = Host.dotGeneral (F := Ideal) DR5 none x w := by
  funext i
  show _ = FloatOps.dotGeneral DR5 none .single x w i
  rw [Ideal.dotGeneral_apply, ← Equiv.sum_comp (contrEquiv1 DR5 256 rfl rfl).symm]
  refine Finset.sum_congr rfl fun k _ => ?_
  show x (ix2 (i 0) k) * w (ix2 k (i 1)) = _
  congr 2
  · funext a; apply Fin.ext
    match a with
    | ⟨0, _⟩ => exact (DR5_lhs0 _ _).symm
    | ⟨1, _⟩ => exact ((DR5.lhsIdx_val_of_single rfl _ _).trans (contrEquiv1_symm_val DR5 256 rfl rfl k)).symm
  · funext a; apply Fin.ext
    match a with
    | ⟨0, _⟩ => exact ((DR5.rhsIdx_val_of_single rfl _ _).trans (contrEquiv1_symm_val DR5 256 rfl rfl k)).symm
    | ⟨1, _⟩ => exact (DR5_rhs1 _ _).symm

end MM5

open MM5

/-- Region 5 leaves in its result array the host's product of the normalised rows with the read-out weights. -/
theorem region5 (V : (c : Dev nD) → (b : Ref sig .tc) → Buf (Elt Ideal) ((c : Thread nD τ).loc b)) (c : Dev nD) : (dat5 (F := Ideal) V c).arrAt 2 cfg5.N
    = Host.dotGeneral (F := Ideal) (φ₁ := .f32) (φ₂ := .f32) Cert.ReferenceIdeal.dot_S50000x256_S256x64_S50000x64_1_0_0_1_n_n none (V c main_v64) (V c main_arg8) :=
  (final5 V c).trans (prod5_eq_dotGeneral (V c main_v64) (V c main_arg8))

end Cert.Bridge

end
-- ==== Proof.Val.Layout.lean ====
/-
  Layout operations read at an index, for the shapes this certificate meets: a vector spread to one row and the row over
  many rows; a vector spread to one column and the column over many columns; a scalar spread over any shape; a vector
  recast as a column.
-/
import Idealize.ShloMosaic.Lib.ValueIdx
import Idealize.ShloMosaic.Lib.ValueLayout
import Idealize.ShloMosaic.Lib.Pipeline.Value

noncomputable section

namespace Cert.Bridge.Layout

open Idealize.ShloMosaic Idealize.ShloMosaic.ValueIdx

variable {α : Type}

/-- A vector [n] spread to one row [1, n] reads, at (u, q), the vector at q. -/
theorem bcast_n_1n_apply {n : ℕ} (x : (⟨1, ![n]⟩ : Shape).Idx → α)
    (h : (⟨1, ![n]⟩ : Shape).BroadcastsInDim ⟨2, ![1, n]⟩ ![1]) (u : Fin 1) (q : Fin n) :
    broadcastInDim ⟨2, ![1, n]⟩ ![1] h x (ix2 u q) = x (ix1 q) := by
  refine broadcastInDim_apply _ h x (ix2 u q) (ix1 q) fun ax => ?_
  match ax with
  | ⟨0, _⟩ =>
    show q.val = if n = 1 then 0 else q.val
    split
    · have := q.isLt; omega
    · rfl

/-- One row [1, n] spread over a rows reads, at (p, q), the row at q. -/
theorem bcast_1n_an_apply {a n : ℕ} (x : (⟨2, ![1, n]⟩ : Shape).Idx → α)
    (h : (⟨2, ![1, n]⟩ : Shape).BroadcastsInDim ⟨2, ![a, n]⟩ ![0, 1]) (p : Fin a) (q : Fin n) :
    broadcastInDim ⟨2, ![a, n]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if n = 1 then 0 else q.val
    split
    · have := q.isLt; omega
    · rfl

/-- A vector [a] spread to one column [a, 1] reads, at (p, u), the vector at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- One column [a, 1] spread over b columns reads, at (p, q), the column at p. -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar spread over any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- A vector [a] recast as a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column [a, 1] of a vector value spread over b columns reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Bridge.Layout

end
-- ==== Proof.Val.Bias1.lean ====
/-
  Region 1 (the first layer's bias added row by row and the result clipped below at zero, 5000 rows at a time) at the
  ideal reals: the array the region leaves is, at every index, the larger of zero and the input plus the bias row's entry
  at that column, which is the reference's maximum with the zero array of its sum of the array with the bias broadcast
  first to one row and then over all rows.
-/
import proofs.«160566_j58506044506613_1_alg».proof.Proof.KI.Reg1
import proofs.«160566_j58506044506613_1_alg».proof.ReferenceIdeal
import Idealize.ShloMosaic.Lib.ValueIdx
import Idealize.ShloMosaic.Lib.ValueLayout
import Idealize.ShloMosaic.Lib.Pipeline.Value
import Idealize.ShloMosaic.PureOps.Ideal.Laws
import proofs.«160566_j58506044506613_1_alg».proof.Proof.Gen.ReferenceIdeal
import proofs.«160566_j58506044506613_1_alg».proof.Proof.Val.Layout

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Bridge.Layout

variable (V : (c : Dev nD) → (b : Ref sig .tc) → Buf (Elt Ideal) ((c : Thread nD τ).loc b))

namespace Bias1

theorem hz1 : (![0, 0] : Fin 2 → Nat) = fun _ => 0 := funext fun a => by fin_cases a <;> rfl

/-- The array region 1 leaves, index by index: the larger of zero and the input at that index plus the bias row at its
    column. -/
def G1 (X : S50000x256.Idx → Ideal .f32) (B : S1x256.Idx → Ideal .f32) : S50000x256.Idx → Ideal .f32 :=
  fun i => max (X i + B (ix2 (0 : Fin 1) (i 1 : Fin 256))) (Ideal.ofBits .f32 0x00000000#32)

/-- The body's payload at row p, column q of the block: the larger of zero and the block's entry plus the staged row's
    entry at q. -/
theorem pay1_apply (x0 : Vec Ideal S5000x256 .f32) (x1 : Vec Ideal S1x256 .f32) (p : Fin 5000) (q : Fin 256) :
    k1_pay1 x0 x1 (ix2 p q) = max (x0 (ix2 p q) + x1 (ix2 (0 : Fin 1) q)) (Ideal.ofBits .f32 0x00000000#32) := by
  unfold k1_pay1
  rw [maximumf_apply, addf_apply, shapeCast_self, shapeCast_self, broadcastTo_1b_ab_apply, broadcast_apply]
  rfl

/-- The printed index maps over the grid: the input's and the output's blocks are block t of the rows, the bias's the
    one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of G1 of the arrays the region is entered from. -/
theorem flushed1_eq (c : Dev nD) (t : Fin cfg1.N) :
    (dat1 V c).flushed 2 t = ((cfg1.win 2).blk t).view.read (Elt Ideal) (G1 (V c main_v46) (V c main_v47)) := by
  show (cfg1.win 2).cut (grid1.coords t) ((dat1 V c).after 2 t) = _
  rw [after1_2]
  unfold out1
  rw [View.canon_unit_zero hz1]
  simp only [View.ld_unit_zero (S := S5000x256) hz1, View.ld_unit_zero (S := S1x256) hz1]
  obtain ⟨e0, e1, e2, e3, e4, e5⟩ := idx_facts1 t
  funext j
  obtain ⟨p, q, rfl⟩ : ∃ (p : Fin 5000) (q : Fin 256), j = ix2 p q := ⟨j 0, j 1, eq_ix2 j⟩
  show k1_pay1 (iblk1 V c 0 t) (iblk1 V c 1 t) (ix2 p q) = G1 (V c main_v46) (V c main_v47) (((cfg1.win 2).blk t).view.emb (ix2 p q))
  rw [pay1_apply]
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 256 + 1 * q.val = win1_2.index t (1 : Fin 2) * 256 + 1 * q.val; omega
  have h1 : ((cfg1.win 1).blk t).view.emb (ix2 (0 : Fin 1) q) = ix2 (0 : Fin 1) ((((cfg1.win 2).blk t).view.emb (ix2 p q)) 1 : Fin 256) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  refine congrArg₂ max (congrArg₂ (· + ·) ?_ ?_) rfl
  · exact congrArg (V c main_v46) h0
  · exact congrArg (V c main_v47) h1

/-- An index of the array is in point t's block iff each coordinate is in the block's range on its axis. -/
theorem mem_blk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v48).slice (win1_2.rect t)).set ↔ _
  rw [View.set_slice_whole, Rect.mem_set_unit]
  exact Iff.rfl

/-- Row r is in the block of point r / 5000. -/
theorem cover1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : grid1.N = 10 := N_1
  let t : Fin cfg1.N := ⟨(i 0).val / 5000, by show _ < grid1.N; omega⟩
  obtain ⟨e0, e1, e2, e3, e4, e5⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The array after the region: G1 of the arrays it is entered from. -/
theorem final1 (c : Dev nD) : (dat1 V c).arrAt 2 cfg1.N = G1 (V c main_v46) (V c main_v47) :=
  (dat1 V c).arrAt_eq_of_cover 2 (G1 (V c main_v46) (V c main_v47)) (fun t _ => flushed1_eq V c t) cover1

end Bias1

open Bias1 in
/-- Region 1 leaves the larger of the zero array and the input array plus the bias spread first to one row and then over
    all the rows: the reference's maximum of its sum, index by index. -/
theorem region1 (c : Dev nD) (b : Vec Ideal Cert.KernelIdeal.S256 .f32)
    (hb : V c Cert.KernelIdeal.main_v47 = shapeCast Cert.KernelIdeal.S1x256 b Cert.KernelIdeal.Gen.shapeCasts_S256_S1x256) :
    (Cert.KernelIdeal.Hand.dat1 (F := Ideal) V c).arrAt 2 Cert.KernelIdeal.cfg1.N
      = maximumf (F := Ideal) (s := Cert.ReferenceIdeal.S50000x256) (φ := .f32)
          (addf (F := Ideal) (s := Cert.ReferenceIdeal.S50000x256) (φ := .f32) (V c Cert.KernelIdeal.main_v46)
            (broadcastInDim Cert.ReferenceIdeal.S50000x256 ![0, 1] Cert.ReferenceIdeal.Gen.bcast_S1x256_S50000x256_0_1
              (broadcastInDim Cert.ReferenceIdeal.S1x256 ![1] Cert.ReferenceIdeal.Gen.bcast_S256_S1x256_1 b)))
          (broadcastInDim Cert.ReferenceIdeal.S50000x256 ![] Cert.ReferenceIdeal.Gen.bcast_S_S50000x256
            (constant (F := Ideal) Cert.ReferenceIdeal.S_ .f32 0x00000000#32)) := by
  refine (final1 V c).trans (funext fun i => ?_)
  obtain ⟨p, q, rfl⟩ : ∃ (p : Fin 50000) (q : Fin 256), i = ix2 p q := ⟨i 0, i 1, eq_ix2 i⟩
  rw [maximumf_apply, addf_apply, bcast_1n_an_apply, bcast_n_1n_apply, bcast_scalar_apply, constant_apply]
  unfold G1
  rw [hb, shapeCast_a_1a_apply]

end Cert.Bridge

end
-- ==== Proof.Val.Bias3.lean ====
/-
  Region 3 (the second layer's bias added row by row, 5000 rows at a time) at the ideal reals: the array the region
  leaves is the input array plus the bias row at every row, which is the reference's sum of the array with the bias
  broadcast first to one row and then over all rows.
-/
import proofs.«160566_j58506044506613_1_alg».proof.Proof.KI.Reg3
import proofs.«160566_j58506044506613_1_alg».proof.ReferenceIdeal
import Idealize.ShloMosaic.Lib.ValueIdx
import Idealize.ShloMosaic.Lib.ValueLayout
import Idealize.ShloMosaic.Lib.Pipeline.Value
import Idealize.ShloMosaic.PureOps.Ideal.Laws
import proofs.«160566_j58506044506613_1_alg».proof.Proof.Gen.ReferenceIdeal
import proofs.«160566_j58506044506613_1_alg».proof.Proof.Val.Layout

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Bridge.Layout

variable (V : (c : Dev nD) → (b : Ref sig .tc) → Buf (Elt Ideal) ((c : Thread nD τ).loc b))

namespace Bias3

theorem hz3 : (![0, 0] : Fin 2 → Nat) = fun _ => 0 := funext fun a => by fin_cases a <;> rfl

/-- The array region 3 leaves, index by index: the input at that index plus the bias row at its column. -/
def G3 (X : S50000x256.Idx → Ideal .f32) (B : S1x256.Idx → Ideal .f32) : S50000x256.Idx → Ideal .f32 :=
  fun i => X i + B (ix2 (0 : Fin 1) (i 1 : Fin 256))

/-- The body's payload at row p, column q of the block: the block's entry plus the staged row's entry at q. -/
theorem pay3_apply (x0 : Vec Ideal S5000x256 .f32) (x1 : Vec Ideal S1x256 .f32) (p : Fin 5000) (q : Fin 256) :
    k3_pay1 x0 x1 (ix2 p q) = x0 (ix2 p q) + x1 (ix2 (0 : Fin 1) q) := by
  unfold k3_pay1
  rw [addf_apply, shapeCast_self, shapeCast_self, broadcastTo_1b_ab_apply]

/-- The printed index maps over the grid: the input's and the output's blocks are block t of the rows, the bias's the
    one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of G3 of the arrays the region is entered from. -/
theorem flushed3_eq (c : Dev nD) (t : Fin cfg3.N) :
    (dat3 V c).flushed 2 t = ((cfg3.win 2).blk t).view.read (Elt Ideal) (G3 (V c main_v61) (V c main_v62)) := by
  show (cfg3.win 2).cut (grid3.coords t) ((dat3 V c).after 2 t) = _
  rw [after3_2]
  unfold out3
  rw [View.canon_unit_zero hz3]
  simp only [View.ld_unit_zero (S := S5000x256) hz3, View.ld_unit_zero (S := S1x256) hz3]
  obtain ⟨e0, e1, e2, e3, e4, e5⟩ := idx_facts3 t
  funext j
  obtain ⟨p, q, rfl⟩ : ∃ (p : Fin 5000) (q : Fin 256), j = ix2 p q := ⟨j 0, j 1, eq_ix2 j⟩
  show k3_pay1 (iblk3 V c 0 t) (iblk3 V c 1 t) (ix2 p q) = G3 (V c main_v61) (V c main_v62) (((cfg3.win 2).blk t).view.emb (ix2 p q))
  rw [pay3_apply]
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 256 + 1 * q.val = win3_2.index t (1 : Fin 2) * 256 + 1 * q.val; omega
  have h1 : ((cfg3.win 1).blk t).view.emb (ix2 (0 : Fin 1) q) = ix2 (0 : Fin 1) ((((cfg3.win 2).blk t).view.emb (ix2 p q)) 1 : Fin 256) := by
    funext a; apply Fin.ext
    match a with
    | ⟨0, _⟩ => show win3_1.index t (0 : Fin 2) * 1 + 1 * 0 = 0; omega
    | ⟨1, _⟩ => show win3_1.index t (1 : Fin 2) * 256 + 1 * q.val = win3_2.index t (1 : Fin 2) * 256 + 1 * q.val; omega
  refine congrArg₂ (· + ·) ?_ ?_
  · exact congrArg (V c main_v61) h0
  · exact congrArg (V c main_v62) h1

/-- An index of the array is in point t's block iff each coordinate is in the block's range on its axis. -/
theorem mem_blk3 (t : Fin cfg3.N) (i : S50000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v63).slice (win3_2.rect t)).set ↔ _
  rw [View.set_slice_whole, Rect.mem_set_unit]
  exact Iff.rfl

/-- Row r is in the block of point r / 5000. -/
theorem cover3 (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  have hN : grid3.N = 10 := N_3
  let t : Fin cfg3.N := ⟨(i 0).val / 5000, by show _ < grid3.N; omega⟩
  obtain ⟨e0, e1, e2, e3, e4, e5⟩ := idx_facts3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- The array after the region: G3 of the arrays it is entered from. -/
theorem final3 (c : Dev nD) : (dat3 V c).arrAt 2 cfg3.N = G3 (V c main_v61) (V c main_v62) :=
  (dat3 V c).arrAt_eq_of_cover 2 (G3 (V c main_v61) (V c main_v62)) (fun t _ => flushed3_eq V c t) cover3

end Bias3

open Bias3 in
/-- Region 3 leaves the input array plus the bias spread first to one row and then over all the rows: the reference's
    sum, index by index. -/
theorem region3 (c : Dev nD) (b : Vec Ideal Cert.KernelIdeal.S256 .f32)
    (hb : V c Cert.KernelIdeal.main_v62 = shapeCast Cert.KernelIdeal.S1x256 b Cert.KernelIdeal.Gen.shapeCasts_S256_S1x256) :
    (Cert.KernelIdeal.Hand.dat3 (F := Ideal) V c).arrAt 2 Cert.KernelIdeal.cfg3.N
      = addf (F := Ideal) (s := Cert.ReferenceIdeal.S50000x256) (φ := .f32) (V c Cert.KernelIdeal.main_v61)
          (broadcastInDim Cert.ReferenceIdeal.S50000x256 ![0, 1] Cert.ReferenceIdeal.Gen.bcast_S1x256_S50000x256_0_1
            (broadcastInDim Cert.ReferenceIdeal.S1x256 ![1] Cert.ReferenceIdeal.Gen.bcast_S256_S1x256_1 b)) := by
  refine (final3 V c).trans (funext fun i => ?_)
  obtain ⟨p, q, rfl⟩ : ∃ (p : Fin 50000) (q : Fin 256), i = ix2 p q := ⟨i 0, i 1, eq_ix2 i⟩
  rw [addf_apply, bcast_1n_an_apply, bcast_n_1n_apply]
  unfold G3
  rw [hb, shapeCast_a_1a_apply]

end Cert.Bridge

end
-- ==== Proof.Val.Bias6.lean ====
/-
  Region 6 (the read-out's bias added row by row, 5000 rows at a time) at the ideal reals: the array the region
  leaves is the input array plus the bias row at every row, which is the reference's sum of the array with the bias
  broadcast first to one row and then over all rows.
-/
import proofs.«160566_j58506044506613_1_alg».proof.Proof.KI.Reg6
import proofs.«160566_j58506044506613_1_alg».proof.ReferenceIdeal
import Idealize.ShloMosaic.Lib.ValueIdx
import Idealize.ShloMosaic.Lib.ValueLayout
import Idealize.ShloMosaic.Lib.Pipeline.Value
import Idealize.ShloMosaic.PureOps.Ideal.Laws
import proofs.«160566_j58506044506613_1_alg».proof.Proof.Gen.ReferenceIdeal
import proofs.«160566_j58506044506613_1_alg».proof.Proof.Val.Layout

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Bridge.Layout

variable (V : (c : Dev nD) → (b : Ref sig .tc) → Buf (Elt Ideal) ((c : Thread nD τ).loc b))

namespace Bias6

theorem hz6 : (![0, 0] : Fin 2 → Nat) = fun _ => 0 := funext fun a => by fin_cases a <;> rfl

/-- The array region 6 leaves, index by index: the input at that index plus the bias row at its column. -/
def G6 (X : S50000x64.Idx → Ideal .f32) (B : S1x64.Idx → Ideal .f32) : S50000x64.Idx → Ideal .f32 :=
  fun i => X i + B (ix2 (0 : Fin 1) (i 1 : Fin 64))

/-- The body's payload at row p, column q of the block: the block's entry plus the staged row's entry at q. -/
theorem pay6_apply (x0 : Vec Ideal S5000x64 .f32) (x1 : Vec Ideal S1x64 .f32) (p : Fin 5000) (q : Fin 64) :
    k6_pay1 x0 x1 (ix2 p q) = x0 (ix2 p q) + x1 (ix2 (0 : Fin 1) q) := by
  unfold k6_pay1
  rw [addf_apply, shapeCast_self, shapeCast_self, broadcastTo_1b_ab_apply]

/-- The printed index maps over the grid: the input's and the output's blocks are block t of the rows, the bias's the
    one block. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of G6 of the arrays the region is entered from. -/
theorem flushed6_eq (c : Dev nD) (t : Fin cfg6.N) :
    (dat6 V c).flushed 2 t = ((cfg6.win 2).blk t).view.read (Elt Ideal) (G6 (V c main_v65) (V c main_v66)) := by
  show (cfg6.win 2).cut (grid6.coords t) ((dat6 V c).after 2 t) = _
  rw [after6_2]
  unfold out6
  rw [View.canon_unit_zero hz6]
  simp only [View.ld_unit_zero (S := S5000x64) hz6, View.ld_unit_zero (S := S1x64) hz6]
  obtain ⟨e0, e1, e2, e3, e4, e5⟩ := idx_facts6 t
  funext j
  obtain ⟨p, q, rfl⟩ : ∃ (p : Fin 5000) (q : Fin 64), j = ix2 p q := ⟨j 0, j 1, eq_ix2 j⟩
  show k6_pay1 (iblk6 V c 0 t) (iblk6 V c 1 t) (ix2 p q) = G6 (V c main_v65) (V c main_v66) (((cfg6.win 2).blk t).view.emb (ix2 p q))
  rw [pay6_apply]
  have h0 : ((cfg6.win 0).blk t).view.emb (ix2 p q) = ((cfg6.win 2).blk t).view.emb (ix2 p q) := by
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 64 + 1 * q.val = win6_2.index t (1 : Fin 2) * 64 + 1 * q.val; omega
  have h1 : ((cfg6.win 1).blk t).view.emb (ix2 (0 : Fin 1) q) = ix2 (0 : Fin 1) ((((cfg6.win 2).blk t).view.emb (ix2 p q)) 1 : Fin 64) := by
    funext a; apply Fin.ext
    match a with
    | ⟨0, _⟩ => show win6_1.index t (0 : Fin 2) * 1 + 1 * 0 = 0; omega
    | ⟨1, _⟩ => show win6_1.index t (1 : Fin 2) * 64 + 1 * q.val = win6_2.index t (1 : Fin 2) * 64 + 1 * q.val; omega
  refine congrArg₂ (· + ·) ?_ ?_
  · exact congrArg (V c main_v65) h0
  · exact congrArg (V c main_v66) h1

/-- An index of the array is in point t's block iff each coordinate is in the block's range on its axis. -/
theorem mem_blk6 (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v67).slice (win6_2.rect t)).set ↔ _
  rw [View.set_slice_whole, Rect.mem_set_unit]
  exact Iff.rfl

/-- Row r is in the block of point r / 5000. -/
theorem cover6 (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  have hN : grid6.N = 10 := N_6
  let t : Fin cfg6.N := ⟨(i 0).val / 5000, by show _ < grid6.N; omega⟩
  obtain ⟨e0, e1, e2, e3, e4, e5⟩ := idx_facts6 t
  have ht : t.val = (i 0).val / 5000 := rfl
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The array after the region: G6 of the arrays it is entered from. -/
theorem final6 (c : Dev nD) : (dat6 V c).arrAt 2 cfg6.N = G6 (V c main_v65) (V c main_v66) :=
  (dat6 V c).arrAt_eq_of_cover 2 (G6 (V c main_v65) (V c main_v66)) (fun t _ => flushed6_eq V c t) cover6

end Bias6

open Bias6 in
/-- Region 6 leaves the input array plus the bias spread first to one row and then over all the rows: the reference's
    sum, index by index. -/
theorem region6 (c : Dev nD) (b : Vec Ideal Cert.KernelIdeal.S64 .f32)
    (hb : V c Cert.KernelIdeal.main_v66 = shapeCast Cert.KernelIdeal.S1x64 b Cert.KernelIdeal.Gen.shapeCasts_S64_S1x64) :
    (Cert.KernelIdeal.Hand.dat6 (F := Ideal) V c).arrAt 2 Cert.KernelIdeal.cfg6.N
      = addf (F := Ideal) (s := Cert.ReferenceIdeal.S50000x64) (φ := .f32) (V c Cert.KernelIdeal.main_v65)
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b)) := by
  refine (final6 V c).trans (funext fun i => ?_)
  obtain ⟨p, q, rfl⟩ : ∃ (p : Fin 50000) (q : Fin 64), i = ix2 p q := ⟨i 0, i 1, eq_ix2 i⟩
  rw [addf_apply, bcast_1n_an_apply, bcast_n_1n_apply]
  unfold G6
  rw [hb, shapeCast_a_1a_apply]

end Cert.Bridge

end
-- ==== Proof.Val.Norm4.lean ====
/-
  The value of region 4 on the extended reals: the normalisation applied twice, 5000 rows at a time. One normalisation
  divides every entry of a row by the larger of the row's Euclidean norm (the square root of the sum of the row's
  squares) and a tiny positive constant; it is a function of the row alone. The body normalises its block twice, so
  every entry of the block it writes back is the twice-normalised row at that column, and the blocks written back are
  the blocks of the whole array normalised twice, which is the reference's normalisation applied twice. Stated here:
  one row's normalisation as a function of the row (rowNorm); the body's one step and the reference's one step read at an
  entry as rowNorm of the entry's row; what each point writes back; the cover of the rows by the points' blocks; the
  array after the region.
-/
import proofs.«160566_j58506044506613_1_alg».proof.Proof.KI.Reg4
import proofs.«160566_j58506044506613_1_alg».proof.Proof.Gen.ReferenceIdeal
import proofs.«160566_j58506044506613_1_alg».proof.Proof.Val.Spec
import proofs.«160566_j58506044506613_1_alg».proof.Proof.Val.Layout
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand
open Cert.Bridge.Layout

namespace Norm4

/-- One row normalised: every entry over the larger of the row's Euclidean norm and the tiny constant. -/
def rowNorm (f : Fin 256 → EReal) (e : Fin 256) : EReal :=
  Ideal.div (f e) (max (Ideal.sqrt (∑ k : Fin 256, f k * f k)) (Ideal.ofBits .f32 0x2B8CBCCC#32))

/-- The sum along the lanes of a [5000,256] block at row r: the sum over the 256 lanes of the row's entries. -/
theorem laneSum_apply (src : FVec Ideal S5000x256 .f32) (h : S5000x256.Reduces [1] S5000) (hφ : FKind.Formats .f32)
    (hacc : (0x00000000#32 : BitVec 32) = 0x00000000#32) (r : Fin 5000) :
    multiReduction .add [1] S5000 src 0x00000000#32 h hφ hacc (ix1 r) = ∑ k : Fin 256, src (ix2 r k) := by
  refine (Ideal.multiReduction_add_single src 0x00000000#32 h hφ hacc (ix1 r)).trans ?_
  show ∑ k : Fin 256, src (h.lift (ix1 r) k) = _
  refine Finset.sum_congr rfl fun k _ => congrArg src ?_
  funext c
  apply Fin.ext
  match c with
  | ⟨0, _⟩ => rfl
  | ⟨1, _⟩ => rfl

/-- The body's one normalisation of a block. -/
def blockNorm (v : FVec Ideal S5000x256 .f32) : FVec Ideal S5000x256 .f32 :=
  divf v (broadcastTo S5000x256 (maximumf (sqrt (shapeCast S5000x1 (multiReduction .add [1] S5000 (mulf v v) 0x00000000#32 reduces_S5000x256_S5000 (.inl rfl) rfl) shapeCasts_S5000_S5000x1)) (broadcast S5000x1 (Scalar.ofBits (F := Ideal) .f32 0x2B8CBCCC#32))) broadcasts_S5000x1_S5000x256)

/-- The body's payload is the block normalised twice (the reshape to the same shape is the identity). -/
theorem pay_eq (x0 : FVec Ideal S5000x256 .f32) : k4_pay1 (F := Ideal) x0 = blockNorm (blockNorm x0) := by
  unfold k4_pay1 blockNorm
  simp only [shapeCast_self]

/-- The body's one normalisation at an entry: the row's normalisation at the column. -/
theorem blockNorm_apply (v : FVec Ideal S5000x256 .f32) (r : Fin 5000) (e : Fin 256) :
    blockNorm v (ix2 r e) = rowNorm (fun k => v (ix2 r k)) e := by
  unfold blockNorm rowNorm
  rw [divf_apply, broadcastTo_a1_ab_apply, maximumf_apply, broadcast_apply]
  show Ideal.div _ (max (Ideal.sqrt (shapeCast S5000x1 _ _ (ix2 r (0 : Fin 1)))) _) = _
  rw [shapeCast_a_a1_apply, laneSum_apply]
  rfl

/-- The body's payload at an entry: the row normalised twice, at the column. -/
theorem pay_apply (x0 : FVec Ideal S5000x256 .f32) (r : Fin 5000) (e : Fin 256) :
    k4_pay1 (F := Ideal) x0 (ix2 r e) = rowNorm (fun k => rowNorm (fun k' => x0 (ix2 r k')) k) e := by
  rw [pay_eq, blockNorm_apply]
  exact congrArg (fun f => rowNorm f e) (funext fun k => blockNorm_apply x0 r k)

theorem redR : Cert.ReferenceIdeal.S50000x256.Reduces [1] Cert.ReferenceIdeal.S50000 := by decide

/-- The reference's one normalisation at an entry: the row's normalisation at the column. -/
theorem l2_apply (X : Cert.ReferenceIdeal.S50000x256.Idx → EReal) (i : Fin 50000) (e : Fin 256) :
    Cert.Spec.l2 (F := Ideal) X (ix2 i e) = rowNorm (fun k => X (ix2 i k)) e := by
  unfold Cert.Spec.l2 rowNorm Host.divf
  rw [Ideal.hostDivf_def, bcast_a1_ab_apply, maximumf_apply]
  unfold Host.sqrt
  rw [Ideal.hostUnary_sqrt_def, bcast_a_a1_apply, bcast_scalar_apply, constant_apply]
  unfold Host.reduceAdd
  rw [Ideal.hostReduceAdd_def, Ideal.hostReduceAdd_single _ redR, constant_apply, Ideal.ofBits_zero_f32, zero_add]
  refine congrArg (fun s => Ideal.div (X (ix2 i e)) (max (Ideal.sqrt s) (Ideal.ofBits .f32 0x2B8CBCCC#32))) ?_
  show ∑ k : Fin 256, X (redR.lift (ix1 i) k) * X (redR.lift (ix1 i) k) = ∑ k : Fin 256, X (ix2 i k) * X (ix2 i k)
  refine Finset.sum_congr rfl fun k _ => ?_
  have hl : redR.lift (ix1 i) k = ix2 i k := funext fun c => Fin.ext (by match c with | ⟨0, _⟩ => rfl | ⟨1, _⟩ => rfl)
  rw [hl]

/-- The reference's normalisation applied twice, at an entry: the row normalised twice, at the column. -/
theorem l2l2_apply (X : Cert.ReferenceIdeal.S50000x256.Idx → EReal) (i : Fin 50000) (e : Fin 256) :
    Cert.Spec.l2 (F := Ideal) (Cert.Spec.l2 (F := Ideal) X) (ix2 i e) = rowNorm (fun k => rowNorm (fun k' => X (ix2 i k')) k) e := by
  rw [l2_apply]
  exact congrArg (fun f => rowNorm f e) (funext fun k => l2_apply X i k)

/-- A block entry of the payload is the entry of the whole array normalised twice, when the block's row is the array's
    row and the column is the same. -/
theorem pay_eq_l2l2 (X : Cert.ReferenceIdeal.S50000x256.Idx → EReal) (x0 : FVec Ideal S5000x256 .f32)
    (j : S5000x256.Idx) (i : S50000x256.Idx)
    (h0 : ∀ k : Fin 256, x0 (ix2 (j 0) k) = X (ix2 (i 0) k)) (h1 : (j 1).val = (i 1).val) :
    k4_pay1 (F := Ideal) x0 j = Cert.Spec.l2 (F := Ideal) (Cert.Spec.l2 (F := Ideal) X) i := by
  have e1 : (j 1 : Fin 256) = (i 1 : Fin 256) := Fin.ext h1
  have hf : (fun k' : Fin 256 => x0 (ix2 (j 0) k')) = (fun k' : Fin 256 => X (ix2 (i 0) k')) := funext h0
  refine (congrArg (k4_pay1 (F := Ideal) x0) (eq_ix2 j)).trans ((pay_apply x0 (j 0) (j 1)).trans ?_)
  refine Eq.trans ?_ ((congrArg (Cert.Spec.l2 (F := Ideal) (Cert.Spec.l2 (F := Ideal) X)) (eq_ix2 i)).trans (l2l2_apply X (i 0) (i 1))).symm
  rw [hf]
  exact congrArg (rowNorm fun k => rowNorm (fun k' => X (ix2 (i 0) k')) k) e1

theorem hz : (![0, 0] : Fin 2 → Nat) = fun _ => 0 := funext fun a => by fin_cases a <;> rfl

/-- The printed index maps over the grid: the input's and the output's blocks are the point's row block. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

variable (V : (c : Dev nD) → (b : Ref sig .tc) → Buf (Elt Ideal) ((c : Thread nD τ).loc b))

/-- What point t writes back is block t of the whole array normalised twice: its rows are rows 5000t … 5000t+4999 of
    the array as the region finds it. -/
theorem flushed_eq (c : Dev nD) (t : Fin cfg4.N) :
    (dat4 (F := Ideal) V c).flushed 1 t = ((cfg4.win 1).blk t).view.read (Elt Ideal) (Cert.Spec.l2 (F := Ideal) (Cert.Spec.l2 (F := Ideal) (V c main_v63))) := by
  show (cfg4.win 1).cut (grid4.coords t) ((dat4 V c).after 1 t) = _
  rw [after4_1]
  unfold out4
  rw [View.canon_unit_zero hz]
  simp only [View.ld_unit_zero (S := S5000x256) hz]
  obtain ⟨e0, e1, e2, e3⟩ := idx_facts t
  funext j
  show k4_pay1 (F := Ideal) (iblk4 V c 0 t) j = Cert.Spec.l2 (F := Ideal) (Cert.Spec.l2 (F := Ideal) (V c main_v63)) (((cfg4.win 1).blk t).view.emb j)
  refine pay_eq_l2l2 (V c main_v63) (iblk4 V c 0 t) j (((cfg4.win 1).blk t).view.emb j) (fun k => ?_) ?_
  · show V c main_v63 (((cfg4.win 0).blk t).view.emb (ix2 (j 0) k)) = V c main_v63 (ix2 ((((cfg4.win 1).blk t).view.emb j) 0) k)
    refine congrArg (V c main_v63) ?_
    funext a; apply Fin.ext
    match a with
    | ⟨0, _⟩ => show win4_0.index t (0 : Fin 2) * 5000 + 1 * (j 0).val = win4_1.index t (0 : Fin 2) * 5000 + 1 * (j 0).val; omega
    | ⟨1, _⟩ => show win4_0.index t (1 : Fin 2) * 256 + 1 * k.val = k.val; omega
  · show (j 1).val = win4_1.index t (1 : Fin 2) * 256 + 1 * (j 1).val
    omega

/-- An index of the result array is in point t's block iff each coordinate is in the block's range on its axis. -/
theorem mem_blk (t : Fin cfg4.N) (i : S50000x256.Idx) :
    i ∈ ((cfg4.win 1).blk t).view.set ↔ ∀ a : Fin 2, win4_1.index t a * S5000x256.size a ≤ (i a).val ∧ (i a).val < win4_1.index t a * S5000x256.size a + S5000x256.size a := by
  show i ∈ ((View.whole main_v64).slice (win4_1.rect t)).set ↔ _
  rw [View.set_slice_whole, Rect.mem_set_unit]
  exact Iff.rfl

/-- Row r of the result is in the block of point r / 5000. -/
theorem rows_cover (i : S50000x256.Idx) : ∃ t : Fin cfg4.N, (cfg4.win 1).flush t = true ∧ i ∈ ((cfg4.win 1).blk t).view.set := by
  have hi0 : (i 0).val < 50000 := (i 0).isLt
  have hi1 : (i 1).val < 256 := (i 1).isLt
  obtain ⟨t, ht⟩ : ∃ t : Fin cfg4.N, t.val = (i 0).val / 5000 := ⟨⟨(i 0).val / 5000, by rw [show cfg4.N = 10 from N_4]; omega⟩, rfl⟩
  obtain ⟨e0, e1, e2, e3⟩ := idx_facts t
  refine ⟨t, flush4_1 t, ?_⟩
  rw [mem_blk]
  intro a
  match a with
  | ⟨0, _⟩ => show win4_1.index t (0 : Fin 2) * 5000 ≤ (i 0).val ∧ (i 0).val < win4_1.index t (0 : Fin 2) * 5000 + 5000; omega
  | ⟨1, _⟩ => show win4_1.index t (1 : Fin 2) * 256 ≤ (i 1).val ∧ (i 1).val < win4_1.index t (1 : Fin 2) * 256 + 256; omega

end Norm4

open Norm4

/-- Region 4 leaves in its result array the reference's normalisation applied twice to the array it is entered with. -/
theorem region4 (V : (c : Dev nD) → (b : Ref sig .tc) → Buf (Elt Ideal) ((c : Thread nD τ).loc b)) (c : Dev nD) :
    (Cert.KernelIdeal.Hand.dat4 (F := Ideal) V c).arrAt 1 Cert.KernelIdeal.cfg4.N = Cert.Spec.l2 (Cert.Spec.l2 (V c Cert.KernelIdeal.main_v63)) :=
  (dat4 (F := Ideal) V c).arrAt_eq_of_cover 1 (Cert.Spec.l2 (F := Ideal) (Cert.Spec.l2 (F := Ideal) (V c main_v63))) (fun t _ => flushed_eq V c t) rows_cover

end Cert.Bridge

end
-- ==== Proof.Val.BlockSum.lean ====
/-
  Sums over consecutive blocks. A sum of N·B terms taken block by block (N consecutive blocks of B terms) is the sum
  of all the terms; a quantity that starts at zero plus the first block's total and takes one block's total more at
  every step is the sum of the blocks so far. Both in any commutative additive monoid: no subtraction, no finiteness.
-/
import Mathlib.Algebra.BigOperators.Fin
import Mathlib.Algebra.BigOperators.Intervals

namespace Cert.Bridge.BlockSum

open Finset

/-- The sum over N consecutive blocks of B terms each is the sum over all N·B terms. -/
theorem sum_range_blocks {M : Type*} [AddCommMonoid M] (f : ℕ → M) (B : ℕ) :
    ∀ N : ℕ, ∑ t ∈ range N, ∑ r ∈ range B, f (B * t + r) = ∑ i ∈ range (N * B), f i
  | 0 => by simp
  | N + 1 => by
    rw [sum_range_succ, sum_range_blocks f B N, Nat.succ_mul, sum_range_add, Nat.mul_comm B N]

/-- The same with the blocks and the places inside a block as finite index types. -/
theorem sum_fin_blocks {M : Type*} [AddCommMonoid M] (f : ℕ → M) (N B : ℕ) :
    ∑ t : Fin N, ∑ r : Fin B, f (B * t.val + r.val) = ∑ i : Fin (N * B), f i.val := by
  rw [← Finset.sum_range (fun i => f i), ← sum_range_blocks f B N, Finset.sum_range]
  exact Finset.sum_congr rfl fun t _ => (Finset.sum_range (fun r => f (B * t.val + r))).symm

/-- A running total that is zero plus the first term after the first step and one term more after every later step is,
    after step n, the sum of the terms up to n. -/
theorem run_eq_sum {M : Type*} [AddCommMonoid M] (a h : ℕ → M) (h0 : a 0 = 0 + h 0) (hs : ∀ n, a (n + 1) = a n + h (n + 1)) :
    ∀ n, a n = ∑ t ∈ range (n + 1), h t
  | 0 => by rw [h0, zero_add, sum_range_one]
  | n + 1 => by rw [hs, run_eq_sum a h h0 hs n, ← sum_range_succ]

end Cert.Bridge.BlockSum
-- ==== Proof.Val.Loss7Pay.lean ====
/-
  The loss kernel's payloads read at an index, at the ideal reals. A row's inner product of two [2000,256] blocks kept
  as a [2000,1] column is the sum over the 256 lanes of the products; its positive part is the larger of it and zero;
  the positive edges' value is half the features' inner product plus half the positive part of the embeddings'; each
  accumulator's update at its one element is what it held plus the sum over the block's 2000 rows of the weighted
  squares; the reset values are zero.
-/
import proofs.«160566_j58506044506613_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Loss7Pay

open Cert.KernelIdeal Cert.KernelIdeal.Gen
open Idealize.ShloMosaic Idealize.ShloMosaic.ValueIdx

/-- An [a] vector cast to an [a, 1] column reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a [2000,256] block at row r: the sum over the 256 lanes of the row's entries. -/
theorem laneSum_apply (src : FVec Ideal S2000x256 .f32) (h : S2000x256.Reduces [1] S2000) (hφ : FKind.Formats .f32)
    (hacc : (0x00000000#32 : BitVec 32) = 0x00000000#32) (r : Fin 2000) :
    multiReduction .add [1] S2000 src 0x00000000#32 h hφ hacc (ix1 r) = ∑ k : Fin 256, src (ix2 r k) := by
  refine (Ideal.multiReduction_add_single src 0x00000000#32 h hφ hacc (ix1 r)).trans ?_
  show ∑ k : Fin 256, src (h.lift (ix1 r) k) = _
  refine Finset.sum_congr rfl fun k _ => congrArg src ?_
  funext c
  apply Fin.ext
  match c with
  | ⟨0, _⟩ => rfl
  | ⟨1, _⟩ => rfl

/-- The sum along the rows of a [2000,1] column at its one lane: the sum over the 2000 rows of the column's entries. -/
theorem rowSum_apply (src : FVec Ideal S2000x1 .f32) (h : S2000x1.Reduces [0] S1) (hφ : FKind.Formats .f32)
    (hacc : (0x00000000#32 : BitVec 32) = 0x00000000#32) (u : Fin 1) :
    multiReduction .add [0] S1 src 0x00000000#32 h hφ hacc (ix1 u) = ∑ r : Fin 2000, src (ix2 r u) := by
  refine (Ideal.multiReduction_add_single src 0x00000000#32 h hφ hacc (ix1 u)).trans ?_
  show ∑ r : Fin 2000, src (h.lift (ix1 u) r) = _
  refine Finset.sum_congr rfl fun r _ => congrArg src ?_
  funext c
  apply Fin.ext
  match c with
  | ⟨0, _⟩ => rfl
  | ⟨1, _⟩ => rfl

/-- The f32 zero word read at the ideal reals, as a scalar. -/
theorem scalar_zero : (Scalar.ofBits (F := Ideal) .f32 0x00000000#32) = (0 : EReal) := Ideal.ofBits_zero_f32

/-- The positive part of the rows' inner product of two blocks, at row r. -/
theorem pay5_apply (x y : Vec Ideal S2000x256 .f32) (r : Fin 2000) (u : Fin 1) :
    k7_pay5 x y (ix2 r u) = max (∑ k : Fin 256, x (ix2 r k) * y (ix2 r k)) 0 := by
  unfold k7_pay5
  dsimp only
  rw [maximumf_apply, broadcast_apply, scalar_zero, shapeCast_a_a1_apply, laneSum_apply]
  simp only [mulf_apply, shapeCast_self]

/-- The positive edges' value at row r: half the features' rows' inner product plus half the positive part of the
    embeddings' rows' inner product. -/
theorem pay6_apply (a b c d : Vec Ideal S2000x256 .f32) (r : Fin 2000) (u : Fin 1) :
    k7_pay6 a b c d (ix2 r u)
      = (∑ k : Fin 256, c (ix2 r k) * d (ix2 r k)) * Ideal.ofBits .f32 0x3F000000#32
        + max (∑ k : Fin 256, a (ix2 r k) * b (ix2 r k)) 0 * Ideal.ofBits .f32 0x3F000000#32 := by
  unfold k7_pay6
  dsimp only
  rw [addf_apply, mulf_apply, mulf_apply, maximumf_apply, broadcast_apply, broadcast_apply, scalar_zero,
    shapeCast_a_a1_apply, shapeCast_a_a1_apply, laneSum_apply, laneSum_apply]
  simp only [mulf_apply, shapeCast_self]
  rfl

/-- A staged [2000,1] column passes through unchanged. -/
theorem pay7_eq (v : Vec Ideal S2000x1 .f32) : k7_pay7 v = v := by
  unfold k7_pay7
  dsimp only
  rw [shapeCast_self]

/-- The first accumulator's update at its one element: what it held plus the sum over the block's rows of
    (mask · score) · score. -/
theorem pay1_apply (w m : FVec Ideal S2000x1 .f32) (s : Vec Ideal S1x1 .f32) (p q : Fin 1) :
    k7_pay1 w m s (ix2 p q) = s (ix2 p q) + ∑ r : Fin 2000, (m (ix2 r q) * w (ix2 r q)) * w (ix2 r q) := by
  unfold k7_pay1
  dsimp only
  rw [shapeCast_self, addf_apply, shapeCast_a_1a_apply, rowSum_apply]
  simp only [mulf_apply]

/-- The second accumulator's update at its one element: what it held plus the sum over the block's rows of
    (mask · error) · error, the error the value less the label. -/
theorem pay2_apply (v : FVec Ideal S2000x1 .f32) (lab m : Vec Ideal S2000x1 .f32) (s : Vec Ideal S1x1 .f32) (p q : Fin 1) :
    k7_pay2 v lab m s (ix2 p q)
      = s (ix2 p q) + ∑ r : Fin 2000, (m (ix2 r q) * (v (ix2 r q) - lab (ix2 r q))) * (v (ix2 r q) - lab (ix2 r q)) := by
  unfold k7_pay2
  dsimp only
  rw [shapeCast_self, addf_apply, shapeCast_a_1a_apply, rowSum_apply]
  simp only [mulf_apply, subf_apply, shapeCast_self]

/-- The two reset values are zero. -/
theorem pay3_apply (j : S1x1.Idx) : k7_pay3 (F := Ideal) j = (0 : EReal) := by
  unfold k7_pay3
  rw [shapeCast_self, broadcast_apply, scalar_zero]
theorem pay4_apply (j : S1x1.Idx) : k7_pay4 (F := Ideal) j = (0 : EReal) := by
  unfold k7_pay4
  rw [shapeCast_self, broadcast_apply, scalar_zero]

/-- One point's step of the first running sum at its one element, over the staged blocks: what it held plus the sum over
    the block's rows of (mask · score) · score, the score the positive part of the rows' inner product. -/
theorem negStep_apply (x2 x3 : Vec Ideal S2000x256 .f32) (m : Vec Ideal S2000x1 .f32) (s : Vec Ideal S1x1 .f32) :
    k7_pay1 (k7_pay5 x2 x3) (k7_pay7 m) s (ix2 (0 : Fin 1) (0 : Fin 1))
      = s (ix2 (0 : Fin 1) (0 : Fin 1)) + ∑ r : Fin 2000,
          (m (ix2 r (0 : Fin 1)) * max (∑ k : Fin 256, x2 (ix2 r k) * x3 (ix2 r k)) 0)
            * max (∑ k : Fin 256, x2 (ix2 r k) * x3 (ix2 r k)) 0 := by
  rw [pay1_apply, pay7_eq]
  simp only [pay5_apply]

/-- One point's step of the second running sum at its one element, over the staged blocks: what it held plus the sum
    over the block's rows of (mask · error) · error, the error the positive edges' value less the label. -/
theorem posStep_apply (x0 x1 x4 x5 : Vec Ideal S2000x256 .f32) (lab m : Vec Ideal S2000x1 .f32) (s : Vec Ideal S1x1 .f32) :
    k7_pay2 (k7_pay6 x0 x1 x4 x5) lab m s (ix2 (0 : Fin 1) (0 : Fin 1))
      = s (ix2 (0 : Fin 1) (0 : Fin 1)) + ∑ r : Fin 2000,
          (m (ix2 r (0 : Fin 1))
              * ((∑ k : Fin 256, x4 (ix2 r k) * x5 (ix2 r k)) * Ideal.ofBits .f32 0x3F000000#32
                  + max (∑ k : Fin 256, x0 (ix2 r k) * x1 (ix2 r k)) 0 * Ideal.ofBits .f32 0x3F000000#32
                  - lab (ix2 r (0 : Fin 1))))
            * ((∑ k : Fin 256, x4 (ix2 r k) * x5 (ix2 r k)) * Ideal.ofBits .f32 0x3F000000#32
                  + max (∑ k : Fin 256, x0 (ix2 r k) * x1 (ix2 r k)) 0 * Ideal.ofBits .f32 0x3F000000#32
                  - lab (ix2 r (0 : Fin 1))) := by
  rw [pay2_apply]
  simp only [pay6_apply]

end Cert.Bridge.Loss7Pay

end
-- ==== Proof.Val.Loss7.lean ====
/-
  Region 7 (the edge reconstruction loss) at the ideal reals, joined to the reference's two totals. The output array
  is written back once, at the last point, from the staging buffer holding the two running sums at its two elements;
  each running sum is, point by point, zero plus the block totals so far of the weighted squares; a block's row r at
  point t is row 2000·t + r of every per-edge array; so each element of the output is zero plus the sum over all
  800000 edges of the weighted squares, which is what the reference's total of the same per-edge product is.
-/
import proofs.«160566_j58506044506613_1_alg».proof.Proof.KI.Reg7
import proofs.«160566_j58506044506613_1_alg».proof.Proof.Val.Spec
import proofs.«160566_j58506044506613_1_alg».proof.Proof.Val.BlockSum
import proofs.«160566_j58506044506613_1_alg».proof.Proof.Val.Loss7Pay
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.Bridge.Loss7

open Cert.Bridge.BlockSum Cert.Bridge.Loss7Pay
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The per-edge summands -/

/-- A per-edge quantity as a function of the edge's number, zero past the last edge. -/
def ext (f : Fin 800000 → EReal) (i : ℕ) : EReal := if h : i < 800000 then f ⟨i, h⟩ else 0

theorem ext_of_lt (f : Fin 800000 → EReal) (i : ℕ) (h : i < 800000) : ext f i = f ⟨i, h⟩ := dif_pos h

/-- The negative edges' summand at edge i: (mask · score) · score, the score the positive part of the inner product of
    the edge's two rows. -/
def negRow (m : S800000x1.Idx → EReal) (A B : S800000x256.Idx → EReal) (i : Fin 800000) : EReal :=
  (m (ix2 i (0 : Fin 1)) * max (∑ k : Fin 256, A (ix2 i k) * B (ix2 i k)) 0) * max (∑ k : Fin 256, A (ix2 i k) * B (ix2 i k)) 0

/-- The positive edges' summand at edge i: (mask · error) · error, the error half the features' rows' inner product plus
    half the positive part of the embeddings' rows' inner product, less the label. -/
def posRow (m lab : S800000x1.Idx → EReal) (A B C D : S800000x256.Idx → EReal) (i : Fin 800000) : EReal :=
  (m (ix2 i (0 : Fin 1))
      * ((∑ k : Fin 256, C (ix2 i k) * D (ix2 i k)) * Ideal.ofBits .f32 0x3F000000#32
          + max (∑ k : Fin 256, A (ix2 i k) * B (ix2 i k)) 0 * Ideal.ofBits .f32 0x3F000000#32
          - lab (ix2 i (0 : Fin 1))))
    * ((∑ k : Fin 256, C (ix2 i k) * D (ix2 i k)) * Ideal.ofBits .f32 0x3F000000#32
          + max (∑ k : Fin 256, A (ix2 i k) * B (ix2 i k)) 0 * Ideal.ofBits .f32 0x3F000000#32
          - lab (ix2 i (0 : Fin 1)))

/-! ## The blocks read off the arrays -/

/-- The printed index maps over the grid: every input's block is block t of the rows, the output's the one block. -/
theorem idx_facts7 : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = t.val ∧ win7_2.index t (1 : Fin 2) = 0)
    ∧ (win7_3.index t (0 : Fin 2) = t.val ∧ win7_3.index t (1 : Fin 2) = 0)
    ∧ (win7_4.index t (0 : Fin 2) = t.val ∧ win7_4.index t (1 : Fin 2) = 0)
    ∧ (win7_5.index t (0 : Fin 2) = t.val ∧ win7_5.index t (1 : Fin 2) = 0)
    ∧ (win7_6.index t (0 : Fin 2) = t.val ∧ win7_6.index t (1 : Fin 2) = 0)
    ∧ (win7_7.index t (0 : Fin 2) = t.val ∧ win7_7.index t (1 : Fin 2) = 0)
    ∧ (win7_8.index t (0 : Fin 2) = t.val ∧ win7_8.index t (1 : Fin 2) = 0)
    ∧ (win7_9.index t (0 : Fin 2) = 0 ∧ win7_9.index t (1 : Fin 2) = 0) :=
  (by decide +kernel : ∀ t : Fin grid7.N, _)

/-- Row r of block t is a row of the array. -/
theorem rowBound (t : Fin cfg7.N) (r : Fin 2000) : 2000 * t.val + r.val < 800000 := by
  have hN : grid7.N = 400 := N_7
  have ht : t.val < 400 := by rw [← hN]; exact t.isLt
  have := r.isLt
  omega

/-- Row r, lane k of window 0's block at point t is row 2000·t + r, lane k of its array. -/
theorem iblk7_0_apply (c : Dev nD) (t : Fin cfg7.N) (r : Fin 2000) (k : Fin 256) :
    iblk7 V c 0 t (ix2 r k) = V c main_v88 (ix2 ⟨2000 * t.val + r.val, rowBound t r⟩ k) := by
  obtain ⟨⟨e0, e1⟩, -⟩ := idx_facts7 t
  unfold iblk7
  rw [View.read_apply]
  show V c main_v88 (((cfg7.win 0).blk t).view.emb (ix2 r k)) = _
  refine congrArg _ (funext fun a => Fin.ext ?_)
  match a with
  | ⟨0, _⟩ => show win7_0.index t 0 * 2000 + 1 * r.val = 2000 * t.val + r.val; rw [e0]; omega
  | ⟨1, _⟩ => show win7_0.index t 1 * 256 + 1 * k.val = k.val; rw [e1]; omega

/-- Row r, lane k of window 1's block at point t is row 2000·t + r, lane k of its array. -/
theorem iblk7_1_apply (c : Dev nD) (t : Fin cfg7.N) (r : Fin 2000) (k : Fin 256) :
    iblk7 V c 1 t (ix2 r k) = V c main_v95 (ix2 ⟨2000 * t.val + r.val, rowBound t r⟩ k) := by
  obtain ⟨-, ⟨e0, e1⟩, -⟩ := idx_facts7 t
  unfold iblk7
  rw [View.read_apply]
  show V c main_v95 (((cfg7.win 1).blk t).view.emb (ix2 r k)) = _
  refine congrArg _ (funext fun a => Fin.ext ?_)
  match a with
  | ⟨0, _⟩ => show win7_1.index t 0 * 2000 + 1 * r.val = 2000 * t.val + r.val; rw [e0]; omega
  | ⟨1, _⟩ => show win7_1.index t 1 * 256 + 1 * k.val = k.val; rw [e1]; omega

/-- Row r, lane k of window 2's block at point t is row 2000·t + r, lane k of its array. -/
theorem iblk7_2_apply (c : Dev nD) (t : Fin cfg7.N) (r : Fin 2000) (k : Fin 256) :
    iblk7 V c 2 t (ix2 r k) = V c main_v102 (ix2 ⟨2000 * t.val + r.val, rowBound t r⟩ k) := by
  obtain ⟨-, -, ⟨e0, e1⟩, -⟩ := idx_facts7 t
  unfold iblk7
  rw [View.read_apply]
  show V c main_v102 (((cfg7.win 2).blk t).view.emb (ix2 r k)) = _
  refine congrArg _ (funext fun a => Fin.ext ?_)
  match a with
  | ⟨0, _⟩ => show win7_2.index t 0 * 2000 + 1 * r.val = 2000 * t.val + r.val; rw [e0]; omega
  | ⟨1, _⟩ => show win7_2.index t 1 * 256 + 1 * k.val = k.val; rw [e1]; omega

/-- Row r, lane k of window 3's block at point t is row 2000·t + r, lane k of its array. -/
theorem iblk7_3_apply (c : Dev nD) (t : Fin cfg7.N) (r : Fin 2000) (k : Fin 256) :
    iblk7 V c 3 t (ix2 r k) = V c main_v109 (ix2 ⟨2000 * t.val + r.val, rowBound t r⟩ k) := by
  obtain ⟨-, -, -, ⟨e0, e1⟩, -⟩ := idx_facts7 t
  unfold iblk7
  rw [View.read_apply]
  show V c main_v109 (((cfg7.win 3).blk t).view.emb (ix2 r k)) = _
  refine congrArg _ (funext fun a => Fin.ext ?_)
  match a with
  | ⟨0, _⟩ => show win7_3.index t 0 * 2000 + 1 * r.val = 2000 * t.val + r.val; rw [e0]; omega
  | ⟨1, _⟩ => show win7_3.index t 1 * 256 + 1 * k.val = k.val; rw [e1]; omega

/-- Row r, lane k of window 4's block at point t is row 2000·t + r, lane k of its array. -/
theorem iblk7_4_apply (c : Dev nD) (t : Fin cfg7.N) (r : Fin 2000) (k : Fin 256) :
    iblk7 V c 4 t (ix2 r k) = V c main_v116 (ix2 ⟨2000 * t.val + r.val, rowBound t r⟩ k) := by
  obtain ⟨-, -, -, -, ⟨e0, e1⟩, -⟩ := idx_facts7 t
  unfold iblk7
  rw [View.read_apply]
  show V c main_v116 (((cfg7.win 4).blk t).view.emb (ix2 r k)) = _
  refine congrArg _ (funext fun a => Fin.ext ?_)
  match a with
  | ⟨0, _⟩ => show win7_4.index t 0 * 2000 + 1 * r.val = 2000 * t.val + r.val; rw [e0]; omega
  | ⟨1, _⟩ => show win7_4.index t 1 * 256 + 1 * k.val = k.val; rw [e1]; omega

/-- Row r, lane k of window 5's block at point t is row 2000·t + r, lane k of its array. -/
theorem iblk7_5_apply (c : Dev nD) (t : Fin cfg7.N) (r : Fin 2000) (k : Fin 256) :
    iblk7 V c 5 t (ix2 r k) = V c main_v123 (ix2 ⟨2000 * t.val + r.val, rowBound t r⟩ k) := by
  obtain ⟨-, -, -, -, -, ⟨e0, e1⟩, -⟩ := idx_facts7 t
  unfold iblk7
  rw [View.read_apply]
  show V c main_v123 (((cfg7.win 5).blk t).view.emb (ix2 r k)) = _
  refine congrArg _ (funext fun a => Fin.ext ?_)
  match a with
  | ⟨0, _⟩ => show win7_5.index t 0 * 2000 + 1 * r.val = 2000 * t.val + r.val; rw [e0]; omega
  | ⟨1, _⟩ => show win7_5.index t 1 * 256 + 1 * k.val = k.val; rw [e1]; omega

/-- Row r, lane k of window 6's block at point t is row 2000·t + r, lane k of its array. -/
theorem iblk7_6_apply (c : Dev nD) (t : Fin cfg7.N) (r : Fin 2000) (k : Fin 1) :
    iblk7 V c 6 t (ix2 r k) = V c main_v124 (ix2 ⟨2000 * t.val + r.val, rowBound t r⟩ k) := by
  obtain ⟨-, -, -, -, -, -, ⟨e0, e1⟩, -⟩ := idx_facts7 t
  unfold iblk7
  rw [View.read_apply]
  show V c main_v124 (((cfg7.win 6).blk t).view.emb (ix2 r k)) = _
  refine congrArg _ (funext fun a => Fin.ext ?_)
  match a with
  | ⟨0, _⟩ => show win7_6.index t 0 * 2000 + 1 * r.val = 2000 * t.val + r.val; rw [e0]; omega
  | ⟨1, _⟩ => show win7_6.index t 1 * 1 + 1 * k.val = k.val; rw [e1]; omega

/-- Row r, lane k of window 7's block at point t is row 2000·t + r, lane k of its array. -/
theorem iblk7_7_apply (c : Dev nD) (t : Fin cfg7.N) (r : Fin 2000) (k : Fin 1) :
    iblk7 V c 7 t (ix2 r k) = V c main_v125 (ix2 ⟨2000 * t.val + r.val, rowBound t r⟩ k) := by
  obtain ⟨-, -, -, -, -, -, -, ⟨e0, e1⟩, -⟩ := idx_facts7 t
  unfold iblk7
  rw [View.read_apply]
  show V c main_v125 (((cfg7.win 7).blk t).view.emb (ix2 r k)) = _
  refine congrArg _ (funext fun a => Fin.ext ?_)
  match a with
  | ⟨0, _⟩ => show win7_7.index t 0 * 2000 + 1 * r.val = 2000 * t.val + r.val; rw [e0]; omega
  | ⟨1, _⟩ => show win7_7.index t 1 * 1 + 1 * k.val = k.val; rw [e1]; omega

/-- Row r, lane k of window 8's block at point t is row 2000·t + r, lane k of its array. -/
theorem iblk7_8_apply (c : Dev nD) (t : Fin cfg7.N) (r : Fin 2000) (k : Fin 1) :
    iblk7 V c 8 t (ix2 r k) = V c main_v126 (ix2 ⟨2000 * t.val + r.val, rowBound t r⟩ k) := by
  obtain ⟨-, -, -, -, -, -, -, -, ⟨e0, e1⟩, -⟩ := idx_facts7 t
  unfold iblk7
  rw [View.read_apply]
  show V c main_v126 (((cfg7.win 8).blk t).view.emb (ix2 r k)) = _
  refine congrArg _ (funext fun a => Fin.ext ?_)
  match a with
  | ⟨0, _⟩ => show win7_8.index t 0 * 2000 + 1 * r.val = 2000 * t.val + r.val; rw [e0]; omega
  | ⟨1, _⟩ => show win7_8.index t 1 * 1 + 1 * k.val = k.val; rw [e1]; omega

/-! ## The running sums -/

/-- The total over block t (its 2000 rows) of a quantity given per edge number. -/
def blkTot (f : ℕ → EReal) (t : ℕ) : EReal := ∑ r : Fin 2000, f (2000 * t + r.val)

/-- The 400 block totals add up to the total over all 800000 edges. -/
theorem total_blocks (f : Fin 800000 → EReal) : ∑ t ∈ Finset.range 400, blkTot (ext f) t = ∑ i : Fin 800000, f i := by
  rw [Finset.sum_range]
  show ∑ t : Fin 400, ∑ r : Fin 2000, ext f (2000 * t.val + r.val) = _
  rw [sum_fin_blocks (ext f) 400 2000]
  show ∑ i : Fin 800000, ext f i.val = _
  exact Finset.sum_congr rfl fun i _ => ext_of_lt f i.val i.isLt

/-- One point's step of the first running sum, at its one element: the point's block total of the negative edges'
    summand more. -/
theorem step7_fst (c : Dev nD) (t : Fin cfg7.N) (s : Vec Ideal S1x1 .f32 × Vec Ideal S1x1 .f32) :
    (step7 V c t s).1 (ix2 (0 : Fin 1) (0 : Fin 1))
      = s.1 (ix2 (0 : Fin 1) (0 : Fin 1)) + blkTot (ext (negRow (V c main_v126) (V c main_v102) (V c main_v109))) t.val := by
  refine (negStep_apply (iblk7 V c 2 t) (iblk7 V c 3 t) (iblk7 V c 8 t) s.1).trans ?_
  refine congrArg (s.1 (ix2 (0 : Fin 1) (0 : Fin 1)) + ·) (Finset.sum_congr rfl fun r _ => ?_)
  rw [ext_of_lt _ _ (rowBound t r)]
  unfold negRow
  simp only [iblk7_2_apply, iblk7_3_apply, iblk7_8_apply]

/-- One point's step of the second running sum, at its one element: the point's block total of the positive edges'
    summand more. -/
theorem step7_snd (c : Dev nD) (t : Fin cfg7.N) (s : Vec Ideal S1x1 .f32 × Vec Ideal S1x1 .f32) :
    (step7 V c t s).2 (ix2 (0 : Fin 1) (0 : Fin 1))
      = s.2 (ix2 (0 : Fin 1) (0 : Fin 1))
        + blkTot (ext (posRow (V c main_v125) (V c main_v124) (V c main_v88) (V c main_v95) (V c main_v116) (V c main_v123))) t.val := by
  refine (posStep_apply (iblk7 V c 0 t) (iblk7 V c 1 t) (iblk7 V c 4 t) (iblk7 V c 5 t) (iblk7 V c 6 t) (iblk7 V c 7 t) s.2).trans ?_
  refine congrArg (s.2 (ix2 (0 : Fin 1) (0 : Fin 1)) + ·) (Finset.sum_congr rfl fun r _ => ?_)
  rw [ext_of_lt _ _ (rowBound t r)]
  unfold posRow
  simp only [iblk7_0_apply, iblk7_1_apply, iblk7_4_apply, iblk7_5_apply, iblk7_6_apply, iblk7_7_apply]

/-- The first running sum after point n is the sum of the block totals up to n. -/
theorem accs7_fst (c : Dev nD) : ∀ (n : ℕ) (hn : n < cfg7.N),
    (accs7 V c n hn).1 (ix2 (0 : Fin 1) (0 : Fin 1))
      = ∑ t ∈ Finset.range (n + 1), blkTot (ext (negRow (V c main_v126) (V c main_v102) (V c main_v109))) t
  | 0, hn => by
    show (step7 V c ⟨0, hn⟩ (k7_pay3 (F := Ideal), k7_pay4 (F := Ideal))).1 (ix2 (0 : Fin 1) (0 : Fin 1)) = _
    rw [step7_fst, Finset.sum_range_one]
    show k7_pay3 (F := Ideal) (ix2 (0 : Fin 1) (0 : Fin 1)) + _ = _
    rw [pay3_apply, zero_add]
  | n + 1, hn => by
    show (step7 V c ⟨n + 1, hn⟩ (accs7 V c n (Nat.lt_of_succ_lt hn))).1 (ix2 (0 : Fin 1) (0 : Fin 1)) = _
    rw [step7_fst, accs7_fst c n]
    exact (Finset.sum_range_succ _ (n + 1)).symm

/-- The second running sum after point n is the sum of the block totals up to n. -/
theorem accs7_snd (c : Dev nD) : ∀ (n : ℕ) (hn : n < cfg7.N),
    (accs7 V c n hn).2 (ix2 (0 : Fin 1) (0 : Fin 1))
      = ∑ t ∈ Finset.range (n + 1),
          blkTot (ext (posRow (V c main_v125) (V c main_v124) (V c main_v88) (V c main_v95) (V c main_v116) (V c main_v123))) t
  | 0, hn => by
    show (step7 V c ⟨0, hn⟩ (k7_pay3 (F := Ideal), k7_pay4 (F := Ideal))).2 (ix2 (0 : Fin 1) (0 : Fin 1)) = _
    rw [step7_snd, Finset.sum_range_one]
    show k7_pay4 (F := Ideal) (ix2 (0 : Fin 1) (0 : Fin 1)) + _ = _
    rw [pay4_apply, zero_add]
  | n + 1, hn => by
    show (step7 V c ⟨n + 1, hn⟩ (accs7 V c n (Nat.lt_of_succ_lt hn))).2 (ix2 (0 : Fin 1) (0 : Fin 1)) = _
    rw [step7_snd, accs7_snd c n]
    exact (Finset.sum_range_succ _ (n + 1)).symm

/-! ## The output array after the region -/

/-- Element (0,0) of the output's staging buffer is the first sum's one element. -/
theorem out7_00 (a0 a1 : Vec Ideal S1x1 .f32) :
    out7 a0 a1 (ix2 (0 : Fin 1) (0 : Fin 2)) = a0 (ix2 (0 : Fin 1) (0 : Fin 1)) := by
  unfold out7
  rw [View.canon_cons_of_not_mem]
  · have e : (ix2 (0 : Fin 1) (0 : Fin 2) : S1x2.Idx) = (r00).emb (ix2 (0 : Fin 1) (0 : Fin 1)) :=
      funext fun a => Fin.ext (by match a with | ⟨0, _⟩ => rfl | ⟨1, _⟩ => rfl)
    rw [e]
    exact View.canon_cons_emb r00 a0 [] _
  · rw [Rect.mem_set_unit]
    intro h
    have h1 : (1 : ℕ) ≤ 0 := (h 1).1
    omega

/-- Element (0,1) of the output's staging buffer is the second sum's one element. -/
theorem out7_01 (a0 a1 : Vec Ideal S1x1 .f32) :
    out7 a0 a1 (ix2 (0 : Fin 1) (1 : Fin 2)) = a1 (ix2 (0 : Fin 1) (0 : Fin 1)) := by
  unfold out7
  have e : (ix2 (0 : Fin 1) (1 : Fin 2) : S1x2.Idx) = (r01).emb (ix2 (0 : Fin 1) (0 : Fin 1)) :=
    funext fun a => Fin.ext (by match a with | ⟨0, _⟩ => rfl | ⟨1, _⟩ => rfl)
  rw [e]
  exact View.canon_cons_emb r01 a1 _ _

/-- The last point of the grid. -/
theorem last7 : 399 < cfg7.N := by
  have hN : grid7.N = 400 := N_7
  show 399 < grid7.N
  omega

/-- What the region leaves in the output array: the two sums after the last point at its two elements. -/
def result7 (c : Dev nD) : Buf (Elt Ideal) ((c : Thread nD τ).loc main_v127) :=
  out7 (accs7 V c 399 last7).1 (accs7 V c 399 last7).2

/-- The one write-back, at the last point, writes it: the output's one block is the whole [1,2] array. -/
theorem flushed7_eq (c : Dev nD) (t : Fin cfg7.N) (hf : (cfg7.win 9).flush t = true) :
    (dat7 V c).flushed 9 t = ((cfg7.win 9).blk t).view.read (Elt Ideal) (result7 V c) := by
  have hN : grid7.N = 400 := N_7
  have ht : t.val < 400 := by rw [← hN]; exact t.isLt
  have h3 : t.val = 399 := by have := (flush7_9 t).mp hf; omega
  obtain rfl : t = ⟨399, last7⟩ := Fin.ext h3
  show (cfg7.win 9).cut (grid7.coords ⟨399, last7⟩) ((dat7 V c).after 9 ⟨399, last7⟩) = _
  rw [after7_9]
  have hz' : (fun a => win7_9.index ⟨399, last7⟩ a * main_v127.ty.shape.size a) = fun _ => 0 :=
    funext fun a => by fin_cases a <;> decide +kernel
  exact (Memref.read_access_unit_zero (Elt Ideal) main_v127 hz' (fun a => by rw [congrFun hz' a]; simp) (result7 V c)).symm

/-- So the output array ends holding the two sums after the last point. -/
theorem final7 (c : Dev nD) : (dat7 V c).arrAt 9 cfg7.N = result7 V c :=
  (dat7 V c).arrAt_eq_of_cover 9 (result7 V c) (flushed7_eq V c) fun i =>
    ⟨⟨399, last7⟩, (flush7_9 ⟨399, last7⟩).mpr (by decide), by
      show i ∈ ((View.whole main_v127).slice (win7_9.rect ⟨399, last7⟩)).set
      rw [View.set_slice_whole, Rect.mem_set_unit]
      intro a
      have h0 : (i 0 : Nat) < 1 := (i 0).isLt
      have h1 : (i 1 : Nat) < 2 := (i 1).isLt
      match a with
      | ⟨0, _⟩ =>
        show win7_9.index ⟨399, last7⟩ 0 * win7_9.size 0 ≤ (i 0 : Nat)
          ∧ (i 0 : Nat) < win7_9.index ⟨399, last7⟩ 0 * win7_9.size 0 + win7_9.xsize (grid7.coords ⟨399, last7⟩) 0
        rw [show win7_9.index ⟨399, last7⟩ 0 * win7_9.size 0 = 0 from by decide +kernel,
          show win7_9.xsize (grid7.coords ⟨399, last7⟩) 0 = 1 from by decide +kernel]
        omega
      | ⟨1, _⟩ =>
        show win7_9.index ⟨399, last7⟩ 1 * win7_9.size 1 ≤ (i 1 : Nat)
          ∧ (i 1 : Nat) < win7_9.index ⟨399, last7⟩ 1 * win7_9.size 1 + win7_9.xsize (grid7.coords ⟨399, last7⟩) 1
        rw [show win7_9.index ⟨399, last7⟩ 1 * win7_9.size 1 = 0 from by decide +kernel,
          show win7_9.xsize (grid7.coords ⟨399, last7⟩) 1 = 2 from by decide +kernel]
        omega⟩

/-- A [1,1] array cast to a scalar reads its one element. -/
theorem shapeCast_11_scalar_apply {α : Type} (x : S1x1.Idx → α) (h : S1x1.ShapeCasts S_) (j : S_.Idx) :
    shapeCast S_ x h j = x (ix2 (0 : Fin 1) (0 : Fin 1)) :=
  shapeCast_apply x h j _ (by
    rw [Shape.rowMajor_val_two]
    show 0 * 1 + 0 = (Shape.rowMajorPi S_.size j).val
    rw [Shape.rowMajorPi_zero])

/-- The host's two reads of the output array: the scalar cut at element (0,0) … -/
theorem read7_0 (X : S1x2.Idx → EReal) (h : S1x2.Slices ![0, 0] S1x1) (h' : S1x1.ShapeCasts S_) (j : S_.Idx) :
    shapeCast S_ (extractStridedSlice S1x1 ![0, 0] X h) h' j = X (ix2 (0 : Fin 1) (0 : Fin 2)) := by
  rw [shapeCast_11_scalar_apply]
  exact extractStridedSlice_apply ![0, 0] X h (ix2 (0 : Fin 1) (0 : Fin 1)) (ix2 (0 : Fin 1) (0 : Fin 2)) fun a => by
    match a with
    | ⟨0, _⟩ => rfl
    | ⟨1, _⟩ => rfl

/-- … and at element (0,1). -/
theorem read7_1 (X : S1x2.Idx → EReal) (h : S1x2.Slices ![0, 1] S1x1) (h' : S1x1.ShapeCasts S_) (j : S_.Idx) :
    shapeCast S_ (extractStridedSlice S1x1 ![0, 1] X h) h' j = X (ix2 (0 : Fin 1) (1 : Fin 2)) := by
  rw [shapeCast_11_scalar_apply]
  exact extractStridedSlice_apply ![0, 1] X h (ix2 (0 : Fin 1) (0 : Fin 1)) (ix2 (0 : Fin 1) (1 : Fin 2)) fun a => by
    match a with
    | ⟨0, _⟩ => rfl
    | ⟨1, _⟩ => rfl

/-! ## The reference's operations at an index -/

/-- The rows' inner product at edge i: the sum over the 256 lanes of the products. -/
theorem rowDot_apply (A B : Spec.FEH (F := Ideal)) (i : Fin 800000) :
    Spec.rowDot A B (ix1 i) = ∑ k : Fin 256, A (ix2 i k) * B (ix2 i k) := by
  unfold Spec.rowDot
  rw [hostReduceAdd_apply]
  refine (Ideal.hostReduceAdd_single _ (by decide : Cert.ReferenceIdeal.S800000x256.Reduces [1] Cert.ReferenceIdeal.S800000) _ _ (ix1 i)).trans ?_
  rw [constant_apply, Ideal.ofBits_zero_f32, zero_add]
  refine Finset.sum_congr rfl fun k _ => ?_
  rw [mulf_apply]
  have e : (by decide : Cert.ReferenceIdeal.S800000x256.Reduces [1] Cert.ReferenceIdeal.S800000).lift (ix1 i) k = ix2 i k :=
    funext fun a => Fin.ext (by match a with | ⟨0, _⟩ => rfl | ⟨1, _⟩ => rfl)
  rw [e]
  rfl

/-- The positive part at edge i. -/
theorem relu_apply (v : Spec.FE (F := Ideal)) (i : Fin 800000) : Spec.relu v (ix1 i) = max (v (ix1 i)) 0 := by
  unfold Spec.relu
  rw [maximumf_apply, broadcastInDim_scalar_apply, constant_apply, Ideal.ofBits_zero_f32]

/-- The constant one half at edge i. -/
theorem half_apply (i : Fin 800000) : Spec.half (F := Ideal) (ix1 i) = Ideal.ofBits .f32 0x3F000000#32 := by
  unfold Spec.half
  rw [broadcastInDim_scalar_apply, constant_apply]

/-- A sum over the indices of a vector is the sum over its one coordinate. -/
theorem sum_idx1 {M : Type*} [AddCommMonoid M] {n : ℕ} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The total of a per-edge array: zero plus the sum over the 800000 edges. -/
theorem total_apply (v : Spec.FE (F := Ideal)) (j : S_.Idx) : Spec.total v j = 0 + ∑ i : Fin 800000, v (ix1 i) := by
  unfold Spec.total
  rw [hostReduceAdd_apply]
  refine (Ideal.hostReduceAdd_total _ (fun b => b.elim0) v _ j).trans ?_
  rw [constant_apply, Ideal.ofBits_zero_f32]
  exact congrArg (0 + ·) (sum_idx1 (n := 800000) v)

/-- The reference's negative edges' term: zero plus the sum over all edges of (mask · score) · score. -/
theorem negOf_apply (nm : Spec.FE (F := Ideal)) (A B : Spec.FEH (F := Ideal)) (j : S_.Idx) :
    Spec.negOf nm A B j
      = 0 + ∑ i : Fin 800000, (nm (ix1 i) * max (∑ k : Fin 256, A (ix2 i k) * B (ix2 i k)) 0)
              * max (∑ k : Fin 256, A (ix2 i k) * B (ix2 i k)) 0 := by
  unfold Spec.negOf
  rw [total_apply]
  refine congrArg (0 + ·) (Finset.sum_congr rfl fun i _ => ?_)
  rw [mulf_apply, mulf_apply, relu_apply, rowDot_apply]

/-- The reference's positive edges' term: zero plus the sum over all edges of mask · (error · error). -/
theorem posOf_apply (pm lab : Spec.FE (F := Ideal)) (A B C D : Spec.FEH (F := Ideal)) (j : S_.Idx) :
    Spec.posOf pm lab A B C D j
      = 0 + ∑ i : Fin 800000, pm (ix1 i)
          * (((∑ k : Fin 256, C (ix2 i k) * D (ix2 i k)) * Ideal.ofBits .f32 0x3F000000#32
                + max (∑ k : Fin 256, A (ix2 i k) * B (ix2 i k)) 0 * Ideal.ofBits .f32 0x3F000000#32 - lab (ix1 i))
              * ((∑ k : Fin 256, C (ix2 i k) * D (ix2 i k)) * Ideal.ofBits .f32 0x3F000000#32
                + max (∑ k : Fin 256, A (ix2 i k) * B (ix2 i k)) 0 * Ideal.ofBits .f32 0x3F000000#32 - lab (ix1 i))) := by
  unfold Spec.posOf
  rw [total_apply]
  refine congrArg (0 + ·) (Finset.sum_congr rfl fun i _ => ?_)
  rw [mulf_apply, mulf_apply, subf_apply]
  unfold Spec.posValOf
  rw [addf_apply, mulf_apply, mulf_apply, relu_apply, rowDot_apply, rowDot_apply, half_apply]

end Cert.Bridge.Loss7

namespace Cert.Bridge

open Cert.Bridge.BlockSum Cert.Bridge.Loss7Pay Cert.Bridge.Loss7
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The first element of the array region 7 leaves, as the host reads it, is the reference's negative edges' term of the
    arrays the region is entered from. -/
theorem region7_neg (c : Dev nD) (nm : Spec.FE (F := Ideal))
    (hnm : V c main_v126 = shapeCast S800000x1 nm Cert.KernelIdeal.Gen.shapeCasts_S800000_S800000x1) :
    shapeCast S_ (extractStridedSlice S1x1 ![0, 0] ((dat7 (F := Ideal) V c).arrAt 9 cfg7.N) Cert.KernelIdeal.Gen.slices_S1x2_S1x1_0_0)
        Cert.KernelIdeal.Gen.shapeCasts_S1x1_S_
      = Cert.Spec.negOf nm (V c main_v102) (V c main_v109) := by
  funext j
  rw [final7]
  refine (read7_0 (result7 V c) _ _ j).trans ?_
  rw [negOf_apply, zero_add]
  unfold result7
  rw [out7_00, accs7_fst]
  refine (total_blocks _).trans ?_
  refine Finset.sum_congr rfl fun i _ => ?_
  unfold negRow
  rw [hnm, shapeCast_a_a1_apply]

/-- The second element of the array region 7 leaves, as the host reads it, is the reference's positive edges' term of
    the arrays the region is entered from. -/
theorem region7_pos (c : Dev nD) (pm lab : Spec.FE (F := Ideal))
    (hpm : V c main_v125 = shapeCast S800000x1 pm Cert.KernelIdeal.Gen.shapeCasts_S800000_S800000x1)
    (hlab : V c main_v124 = shapeCast S800000x1 lab Cert.KernelIdeal.Gen.shapeCasts_S800000_S800000x1) :
    shapeCast S_ (extractStridedSlice S1x1 ![0, 1] ((dat7 (F := Ideal) V c).arrAt 9 cfg7.N) Cert.KernelIdeal.Gen.slices_S1x2_S1x1_0_1)
        Cert.KernelIdeal.Gen.shapeCasts_S1x1_S_
      = Cert.Spec.posOf pm lab (V c main_v88) (V c main_v95) (V c main_v116) (V c main_v123) := by
  funext j
  rw [final7]
  refine (read7_1 (result7 V c) _ _ j).trans ?_
  rw [posOf_apply, zero_add]
  unfold result7
  rw [out7_01, accs7_snd]
  refine (total_blocks _).trans ?_
  refine Finset.sum_congr rfl fun i _ => ?_
  unfold posRow
  rw [hpm, hlab, shapeCast_a_a1_apply, shapeCast_a_a1_apply]
  exact mul_assoc _ _ _

end Cert.Bridge

end
-- ==== Proof.Val.KWalk.lean ====
/-
  The kernel program's buffers at every boundary of @main's items, as the reference's named operations (Val/Spec.lean)
  of the ten argument arrays a0 … a9: walked item by item along the fold of Fold.lean. A host stretch's results come
  from its operations read at the contents before it; a region's output array from that region's value lemma; a buffer
  an item does not write keeps what it held.
-/
import proofs.«160566_j58506044506613_1_alg».proof.Proof.KI.Fold
import proofs.«160566_j58506044506613_1_alg».proof.Proof.KI.Steps
import proofs.«160566_j58506044506613_1_alg».proof.Proof.Val.Spec
import proofs.«160566_j58506044506613_1_alg».proof.Proof.Val.KStretch
import proofs.«160566_j58506044506613_1_alg».proof.Proof.Val.MM0
import proofs.«160566_j58506044506613_1_alg».proof.Proof.Val.MM2
import proofs.«160566_j58506044506613_1_alg».proof.Proof.Val.MM5
import proofs.«160566_j58506044506613_1_alg».proof.Proof.Val.Bias1
import proofs.«160566_j58506044506613_1_alg».proof.Proof.Val.Bias3
import proofs.«160566_j58506044506613_1_alg».proof.Proof.Val.Bias6
import proofs.«160566_j58506044506613_1_alg».proof.Proof.Val.Norm4
import proofs.«160566_j58506044506613_1_alg».proof.Proof.Val.Loss7
import Idealize.ShloMosaic.PureOps.Ideal

set_option maxRecDepth 16384

noncomputable section

namespace Cert.Bridge.KW

open Cert.KernelIdeal Cert.KernelIdeal.Gen Cert.KernelIdeal.Hand
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- Argument 0 at launch. -/
abbrev a0 := m ((c : Thread nD τ).loc main_arg0)
/-- Argument 1 at launch. -/
abbrev a1 := m ((c : Thread nD τ).loc main_arg1)
/-- Argument 2 at launch. -/
abbrev a2 := m ((c : Thread nD τ).loc main_arg2)
/-- Argument 3 at launch. -/
abbrev a3 := m ((c : Thread nD τ).loc main_arg3)
/-- Argument 4 at launch. -/
abbrev a4 := m ((c : Thread nD τ).loc main_arg4)
/-- Argument 5 at launch. -/
abbrev a5 := m ((c : Thread nD τ).loc main_arg5)
/-- Argument 6 at launch. -/
abbrev a6 := m ((c : Thread nD τ).loc main_arg6)
/-- Argument 7 at launch. -/
abbrev a7 := m ((c : Thread nD τ).loc main_arg7)
/-- Argument 8 at launch. -/
abbrev a8 := m ((c : Thread nD τ).loc main_arg8)
/-- Argument 9 at launch. -/
abbrev a9 := m ((c : Thread nD τ).loc main_arg9)

/-! ## The arguments reach every item that reads them unchanged -/

theorem arg0_at0 : W0 m ρ c (Proc.devRef .tc main_arg0) = a0 m c := rfl
theorem arg0_at1 : W1 m ρ c (Proc.devRef .tc main_arg0) = a0 m c := (keep0 m ρ c main_arg0 (by decide)).trans (arg0_at0 m ρ c)
theorem arg0_at2 : W2 m ρ c (Proc.devRef .tc main_arg0) = a0 m c := (keep1 m ρ c main_arg0 (by decide)).trans (arg0_at1 m ρ c)
theorem arg0_at3 : W3 m ρ c (Proc.devRef .tc main_arg0) = a0 m c := (keep2 m ρ c main_arg0 (by decide)).trans (arg0_at2 m ρ c)
theorem arg0_at4 : W4 m ρ c (Proc.devRef .tc main_arg0) = a0 m c := (keep3 m ρ c main_arg0 (by decide)).trans (arg0_at3 m ρ c)
theorem arg0_at5 : W5 m ρ c (Proc.devRef .tc main_arg0) = a0 m c := (keep4 m ρ c main_arg0 (by decide)).trans (arg0_at4 m ρ c)
theorem arg0_at6 : W6 m ρ c (Proc.devRef .tc main_arg0) = a0 m c := (keep5 m ρ c main_arg0 (by decide)).trans (arg0_at5 m ρ c)
theorem arg0_at7 : W7 m ρ c (Proc.devRef .tc main_arg0) = a0 m c := (keep6 m ρ c main_arg0 (by decide)).trans (arg0_at6 m ρ c)
theorem arg0_at8 : W8 m ρ c (Proc.devRef .tc main_arg0) = a0 m c := (keep7 m ρ c main_arg0 (by decide)).trans (arg0_at7 m ρ c)
theorem arg0_at9 : W9 m ρ c (Proc.devRef .tc main_arg0) = a0 m c := (keep8 m ρ c main_arg0 (by decide)).trans (arg0_at8 m ρ c)
theorem arg0_at10 : W10 m ρ c (Proc.devRef .tc main_arg0) = a0 m c := (keep9 m ρ c main_arg0 (by decide)).trans (arg0_at9 m ρ c)
theorem arg0_at11 : W11 m ρ c (Proc.devRef .tc main_arg0) = a0 m c := (keep10 m ρ c main_arg0 (by decide)).trans (arg0_at10 m ρ c)
theorem arg0_at12 : W12 m ρ c (Proc.devRef .tc main_arg0) = a0 m c := (keep11 m ρ c main_arg0 (by decide)).trans (arg0_at11 m ρ c)
theorem arg0_at13 : W13 m ρ c (Proc.devRef .tc main_arg0) = a0 m c := (keep12 m ρ c main_arg0 (by decide)).trans (arg0_at12 m ρ c)
theorem arg0_at14 : W14 m ρ c (Proc.devRef .tc main_arg0) = a0 m c := (keep13 m ρ c main_arg0 (by decide)).trans (arg0_at13 m ρ c)
theorem arg0_at15 : W15 m ρ c (Proc.devRef .tc main_arg0) = a0 m c := (keep14 m ρ c main_arg0 (by decide)).trans (arg0_at14 m ρ c)
theorem arg0_at16 : W16 m ρ c (Proc.devRef .tc main_arg0) = a0 m c := (keep15 m ρ c main_arg0 (by decide)).trans (arg0_at15 m ρ c)
theorem arg1_at0 : W0 m ρ c (Proc.devRef .tc main_arg1) = a1 m c := rfl
theorem arg1_at1 : W1 m ρ c (Proc.devRef .tc main_arg1) = a1 m c := (keep0 m ρ c main_arg1 (by decide)).trans (arg1_at0 m ρ c)
theorem arg1_at2 : W2 m ρ c (Proc.devRef .tc main_arg1) = a1 m c := (keep1 m ρ c main_arg1 (by decide)).trans (arg1_at1 m ρ c)
theorem arg1_at3 : W3 m ρ c (Proc.devRef .tc main_arg1) = a1 m c := (keep2 m ρ c main_arg1 (by decide)).trans (arg1_at2 m ρ c)
theorem arg1_at4 : W4 m ρ c (Proc.devRef .tc main_arg1) = a1 m c := (keep3 m ρ c main_arg1 (by decide)).trans (arg1_at3 m ρ c)
theorem arg1_at5 : W5 m ρ c (Proc.devRef .tc main_arg1) = a1 m c := (keep4 m ρ c main_arg1 (by decide)).trans (arg1_at4 m ρ c)
theorem arg1_at6 : W6 m ρ c (Proc.devRef .tc main_arg1) = a1 m c := (keep5 m ρ c main_arg1 (by decide)).trans (arg1_at5 m ρ c)
theorem arg1_at7 : W7 m ρ c (Proc.devRef .tc main_arg1) = a1 m c := (keep6 m ρ c main_arg1 (by decide)).trans (arg1_at6 m ρ c)
theorem arg1_at8 : W8 m ρ c (Proc.devRef .tc main_arg1) = a1 m c := (keep7 m ρ c main_arg1 (by decide)).trans (arg1_at7 m ρ c)
theorem arg1_at9 : W9 m ρ c (Proc.devRef .tc main_arg1) = a1 m c := (keep8 m ρ c main_arg1 (by decide)).trans (arg1_at8 m ρ c)
theorem arg1_at10 : W10 m ρ c (Proc.devRef .tc main_arg1) = a1 m c := (keep9 m ρ c main_arg1 (by decide)).trans (arg1_at9 m ρ c)
theorem arg1_at11 : W11 m ρ c (Proc.devRef .tc main_arg1) = a1 m c := (keep10 m ρ c main_arg1 (by decide)).trans (arg1_at10 m ρ c)
theorem arg1_at12 : W12 m ρ c (Proc.devRef .tc main_arg1) = a1 m c := (keep11 m ρ c main_arg1 (by decide)).trans (arg1_at11 m ρ c)
theorem arg1_at13 : W13 m ρ c (Proc.devRef .tc main_arg1) = a1 m c := (keep12 m ρ c main_arg1 (by decide)).trans (arg1_at12 m ρ c)
theorem arg1_at14 : W14 m ρ c (Proc.devRef .tc main_arg1) = a1 m c := (keep13 m ρ c main_arg1 (by decide)).trans (arg1_at13 m ρ c)
theorem arg1_at15 : W15 m ρ c (Proc.devRef .tc main_arg1) = a1 m c := (keep14 m ρ c main_arg1 (by decide)).trans (arg1_at14 m ρ c)
theorem arg1_at16 : W16 m ρ c (Proc.devRef .tc main_arg1) = a1 m c := (keep15 m ρ c main_arg1 (by decide)).trans (arg1_at15 m ρ c)
theorem arg1_at17 : W17 m ρ c (Proc.devRef .tc main_arg1) = a1 m c := (keep16 m ρ c main_arg1 (by decide)).trans (arg1_at16 m ρ c)
theorem arg2_at0 : W0 m ρ c (Proc.devRef .tc main_arg2) = a2 m c := rfl
theorem arg2_at1 : W1 m ρ c (Proc.devRef .tc main_arg2) = a2 m c := (keep0 m ρ c main_arg2 (by decide)).trans (arg2_at0 m ρ c)
theorem arg2_at2 : W2 m ρ c (Proc.devRef .tc main_arg2) = a2 m c := (keep1 m ρ c main_arg2 (by decide)).trans (arg2_at1 m ρ c)
theorem arg2_at3 : W3 m ρ c (Proc.devRef .tc main_arg2) = a2 m c := (keep2 m ρ c main_arg2 (by decide)).trans (arg2_at2 m ρ c)
theorem arg2_at4 : W4 m ρ c (Proc.devRef .tc main_arg2) = a2 m c := (keep3 m ρ c main_arg2 (by decide)).trans (arg2_at3 m ρ c)
theorem arg2_at5 : W5 m ρ c (Proc.devRef .tc main_arg2) = a2 m c := (keep4 m ρ c main_arg2 (by decide)).trans (arg2_at4 m ρ c)
theorem arg2_at6 : W6 m ρ c (Proc.devRef .tc main_arg2) = a2 m c := (keep5 m ρ c main_arg2 (by decide)).trans (arg2_at5 m ρ c)
theorem arg2_at7 : W7 m ρ c (Proc.devRef .tc main_arg2) = a2 m c := (keep6 m ρ c main_arg2 (by decide)).trans (arg2_at6 m ρ c)
theorem arg2_at8 : W8 m ρ c (Proc.devRef .tc main_arg2) = a2 m c := (keep7 m ρ c main_arg2 (by decide)).trans (arg2_at7 m ρ c)
theorem arg2_at9 : W9 m ρ c (Proc.devRef .tc main_arg2) = a2 m c := (keep8 m ρ c main_arg2 (by decide)).trans (arg2_at8 m ρ c)
theorem arg2_at10 : W10 m ρ c (Proc.devRef .tc main_arg2) = a2 m c := (keep9 m ρ c main_arg2 (by decide)).trans (arg2_at9 m ρ c)
theorem arg2_at11 : W11 m ρ c (Proc.devRef .tc main_arg2) = a2 m c := (keep10 m ρ c main_arg2 (by decide)).trans (arg2_at10 m ρ c)
theorem arg2_at12 : W12 m ρ c (Proc.devRef .tc main_arg2) = a2 m c := (keep11 m ρ c main_arg2 (by decide)).trans (arg2_at11 m ρ c)
theorem arg2_at13 : W13 m ρ c (Proc.devRef .tc main_arg2) = a2 m c := (keep12 m ρ c main_arg2 (by decide)).trans (arg2_at12 m ρ c)
theorem arg2_at14 : W14 m ρ c (Proc.devRef .tc main_arg2) = a2 m c := (keep13 m ρ c main_arg2 (by decide)).trans (arg2_at13 m ρ c)
theorem arg2_at15 : W15 m ρ c (Proc.devRef .tc main_arg2) = a2 m c := (keep14 m ρ c main_arg2 (by decide)).trans (arg2_at14 m ρ c)
theorem arg2_at16 : W16 m ρ c (Proc.devRef .tc main_arg2) = a2 m c := (keep15 m ρ c main_arg2 (by decide)).trans (arg2_at15 m ρ c)
theorem arg2_at17 : W17 m ρ c (Proc.devRef .tc main_arg2) = a2 m c := (keep16 m ρ c main_arg2 (by decide)).trans (arg2_at16 m ρ c)
theorem arg3_at0 : W0 m ρ c (Proc.devRef .tc main_arg3) = a3 m c := rfl
theorem arg3_at1 : W1 m ρ c (Proc.devRef .tc main_arg3) = a3 m c := (keep0 m ρ c main_arg3 (by decide)).trans (arg3_at0 m ρ c)
theorem arg3_at2 : W2 m ρ c (Proc.devRef .tc main_arg3) = a3 m c := (keep1 m ρ c main_arg3 (by decide)).trans (arg3_at1 m ρ c)
theorem arg3_at3 : W3 m ρ c (Proc.devRef .tc main_arg3) = a3 m c := (keep2 m ρ c main_arg3 (by decide)).trans (arg3_at2 m ρ c)
theorem arg3_at4 : W4 m ρ c (Proc.devRef .tc main_arg3) = a3 m c := (keep3 m ρ c main_arg3 (by decide)).trans (arg3_at3 m ρ c)
theorem arg3_at5 : W5 m ρ c (Proc.devRef .tc main_arg3) = a3 m c := (keep4 m ρ c main_arg3 (by decide)).trans (arg3_at4 m ρ c)
theorem arg3_at6 : W6 m ρ c (Proc.devRef .tc main_arg3) = a3 m c := (keep5 m ρ c main_arg3 (by decide)).trans (arg3_at5 m ρ c)
theorem arg3_at7 : W7 m ρ c (Proc.devRef .tc main_arg3) = a3 m c := (keep6 m ρ c main_arg3 (by decide)).trans (arg3_at6 m ρ c)
theorem arg3_at8 : W8 m ρ c (Proc.devRef .tc main_arg3) = a3 m c := (keep7 m ρ c main_arg3 (by decide)).trans (arg3_at7 m ρ c)
theorem arg3_at9 : W9 m ρ c (Proc.devRef .tc main_arg3) = a3 m c := (keep8 m ρ c main_arg3 (by decide)).trans (arg3_at8 m ρ c)
theorem arg3_at10 : W10 m ρ c (Proc.devRef .tc main_arg3) = a3 m c := (keep9 m ρ c main_arg3 (by decide)).trans (arg3_at9 m ρ c)
theorem arg3_at11 : W11 m ρ c (Proc.devRef .tc main_arg3) = a3 m c := (keep10 m ρ c main_arg3 (by decide)).trans (arg3_at10 m ρ c)
theorem arg3_at12 : W12 m ρ c (Proc.devRef .tc main_arg3) = a3 m c := (keep11 m ρ c main_arg3 (by decide)).trans (arg3_at11 m ρ c)
theorem arg3_at13 : W13 m ρ c (Proc.devRef .tc main_arg3) = a3 m c := (keep12 m ρ c main_arg3 (by decide)).trans (arg3_at12 m ρ c)
theorem arg3_at14 : W14 m ρ c (Proc.devRef .tc main_arg3) = a3 m c := (keep13 m ρ c main_arg3 (by decide)).trans (arg3_at13 m ρ c)
theorem arg3_at15 : W15 m ρ c (Proc.devRef .tc main_arg3) = a3 m c := (keep14 m ρ c main_arg3 (by decide)).trans (arg3_at14 m ρ c)
theorem arg3_at16 : W16 m ρ c (Proc.devRef .tc main_arg3) = a3 m c := (keep15 m ρ c main_arg3 (by decide)).trans (arg3_at15 m ρ c)
theorem arg4_at0 : W0 m ρ c (Proc.devRef .tc main_arg4) = a4 m c := rfl
theorem arg4_at1 : W1 m ρ c (Proc.devRef .tc main_arg4) = a4 m c := (keep0 m ρ c main_arg4 (by decide)).trans (arg4_at0 m ρ c)
theorem arg4_at2 : W2 m ρ c (Proc.devRef .tc main_arg4) = a4 m c := (keep1 m ρ c main_arg4 (by decide)).trans (arg4_at1 m ρ c)
theorem arg4_at3 : W3 m ρ c (Proc.devRef .tc main_arg4) = a4 m c := (keep2 m ρ c main_arg4 (by decide)).trans (arg4_at2 m ρ c)
theorem arg4_at4 : W4 m ρ c (Proc.devRef .tc main_arg4) = a4 m c := (keep3 m ρ c main_arg4 (by decide)).trans (arg4_at3 m ρ c)
theorem arg4_at5 : W5 m ρ c (Proc.devRef .tc main_arg4) = a4 m c := (keep4 m ρ c main_arg4 (by decide)).trans (arg4_at4 m ρ c)
theorem arg5_at0 : W0 m ρ c (Proc.devRef .tc main_arg5) = a5 m c := rfl
theorem arg5_at1 : W1 m ρ c (Proc.devRef .tc main_arg5) = a5 m c := (keep0 m ρ c main_arg5 (by decide)).trans (arg5_at0 m ρ c)
theorem arg5_at2 : W2 m ρ c (Proc.devRef .tc main_arg5) = a5 m c := (keep1 m ρ c main_arg5 (by decide)).trans (arg5_at1 m ρ c)
theorem arg5_at3 : W3 m ρ c (Proc.devRef .tc main_arg5) = a5 m c := (keep2 m ρ c main_arg5 (by decide)).trans (arg5_at2 m ρ c)
theorem arg5_at4 : W4 m ρ c (Proc.devRef .tc main_arg5) = a5 m c := (keep3 m ρ c main_arg5 (by decide)).trans (arg5_at3 m ρ c)
theorem arg5_at5 : W5 m ρ c (Proc.devRef .tc main_arg5) = a5 m c := (keep4 m ρ c main_arg5 (by decide)).trans (arg5_at4 m ρ c)
theorem arg5_at6 : W6 m ρ c (Proc.devRef .tc main_arg5) = a5 m c := (keep5 m ρ c main_arg5 (by decide)).trans (arg5_at5 m ρ c)
theorem arg5_at7 : W7 m ρ c (Proc.devRef .tc main_arg5) = a5 m c := (keep6 m ρ c main_arg5 (by decide)).trans (arg5_at6 m ρ c)
theorem arg6_at0 : W0 m ρ c (Proc.devRef .tc main_arg6) = a6 m c := rfl
theorem arg6_at1 : W1 m ρ c (Proc.devRef .tc main_arg6) = a6 m c := (keep0 m ρ c main_arg6 (by decide)).trans (arg6_at0 m ρ c)
theorem arg6_at2 : W2 m ρ c (Proc.devRef .tc main_arg6) = a6 m c := (keep1 m ρ c main_arg6 (by decide)).trans (arg6_at1 m ρ c)
theorem arg6_at3 : W3 m ρ c (Proc.devRef .tc main_arg6) = a6 m c := (keep2 m ρ c main_arg6 (by decide)).trans (arg6_at2 m ρ c)
theorem arg6_at4 : W4 m ρ c (Proc.devRef .tc main_arg6) = a6 m c := (keep3 m ρ c main_arg6 (by decide)).trans (arg6_at3 m ρ c)
theorem arg6_at5 : W5 m ρ c (Proc.devRef .tc main_arg6) = a6 m c := (keep4 m ρ c main_arg6 (by decide)).trans (arg6_at4 m ρ c)
theorem arg6_at6 : W6 m ρ c (Proc.devRef .tc main_arg6) = a6 m c := (keep5 m ρ c main_arg6 (by decide)).trans (arg6_at5 m ρ c)
theorem arg6_at7 : W7 m ρ c (Proc.devRef .tc main_arg6) = a6 m c := (keep6 m ρ c main_arg6 (by decide)).trans (arg6_at6 m ρ c)
theorem arg6_at8 : W8 m ρ c (Proc.devRef .tc main_arg6) = a6 m c := (keep7 m ρ c main_arg6 (by decide)).trans (arg6_at7 m ρ c)
theorem arg6_at9 : W9 m ρ c (Proc.devRef .tc main_arg6) = a6 m c := (keep8 m ρ c main_arg6 (by decide)).trans (arg6_at8 m ρ c)
theorem arg7_at0 : W0 m ρ c (Proc.devRef .tc main_arg7) = a7 m c := rfl
theorem arg7_at1 : W1 m ρ c (Proc.devRef .tc main_arg7) = a7 m c := (keep0 m ρ c main_arg7 (by decide)).trans (arg7_at0 m ρ c)
theorem arg7_at2 : W2 m ρ c (Proc.devRef .tc main_arg7) = a7 m c := (keep1 m ρ c main_arg7 (by decide)).trans (arg7_at1 m ρ c)
theorem arg7_at3 : W3 m ρ c (Proc.devRef .tc main_arg7) = a7 m c := (keep2 m ρ c main_arg7 (by decide)).trans (arg7_at2 m ρ c)
theorem arg7_at4 : W4 m ρ c (Proc.devRef .tc main_arg7) = a7 m c := (keep3 m ρ c main_arg7 (by decide)).trans (arg7_at3 m ρ c)
theorem arg7_at5 : W5 m ρ c (Proc.devRef .tc main_arg7) = a7 m c := (keep4 m ρ c main_arg7 (by decide)).trans (arg7_at4 m ρ c)
theorem arg7_at6 : W6 m ρ c (Proc.devRef .tc main_arg7) = a7 m c := (keep5 m ρ c main_arg7 (by decide)).trans (arg7_at5 m ρ c)
theorem arg7_at7 : W7 m ρ c (Proc.devRef .tc main_arg7) = a7 m c := (keep6 m ρ c main_arg7 (by decide)).trans (arg7_at6 m ρ c)
theorem arg7_at8 : W8 m ρ c (Proc.devRef .tc main_arg7) = a7 m c := (keep7 m ρ c main_arg7 (by decide)).trans (arg7_at7 m ρ c)
theorem arg7_at9 : W9 m ρ c (Proc.devRef .tc main_arg7) = a7 m c := (keep8 m ρ c main_arg7 (by decide)).trans (arg7_at8 m ρ c)
theorem arg7_at10 : W10 m ρ c (Proc.devRef .tc main_arg7) = a7 m c := (keep9 m ρ c main_arg7 (by decide)).trans (arg7_at9 m ρ c)
theorem arg8_at0 : W0 m ρ c (Proc.devRef .tc main_arg8) = a8 m c := rfl
theorem arg8_at1 : W1 m ρ c (Proc.devRef .tc main_arg8) = a8 m c := (keep0 m ρ c main_arg8 (by decide)).trans (arg8_at0 m ρ c)
theorem arg8_at2 : W2 m ρ c (Proc.devRef .tc main_arg8) = a8 m c := (keep1 m ρ c main_arg8 (by decide)).trans (arg8_at1 m ρ c)
theorem arg8_at3 : W3 m ρ c (Proc.devRef .tc main_arg8) = a8 m c := (keep2 m ρ c main_arg8 (by decide)).trans (arg8_at2 m ρ c)
theorem arg8_at4 : W4 m ρ c (Proc.devRef .tc main_arg8) = a8 m c := (keep3 m ρ c main_arg8 (by decide)).trans (arg8_at3 m ρ c)
theorem arg8_at5 : W5 m ρ c (Proc.devRef .tc main_arg8) = a8 m c := (keep4 m ρ c main_arg8 (by decide)).trans (arg8_at4 m ρ c)
theorem arg8_at6 : W6 m ρ c (Proc.devRef .tc main_arg8) = a8 m c := (keep5 m ρ c main_arg8 (by decide)).trans (arg8_at5 m ρ c)
theorem arg8_at7 : W7 m ρ c (Proc.devRef .tc main_arg8) = a8 m c := (keep6 m ρ c main_arg8 (by decide)).trans (arg8_at6 m ρ c)
theorem arg8_at8 : W8 m ρ c (Proc.devRef .tc main_arg8) = a8 m c := (keep7 m ρ c main_arg8 (by decide)).trans (arg8_at7 m ρ c)
theorem arg8_at9 : W9 m ρ c (Proc.devRef .tc main_arg8) = a8 m c := (keep8 m ρ c main_arg8 (by decide)).trans (arg8_at8 m ρ c)
theorem arg8_at10 : W10 m ρ c (Proc.devRef .tc main_arg8) = a8 m c := (keep9 m ρ c main_arg8 (by decide)).trans (arg8_at9 m ρ c)
theorem arg8_at11 : W11 m ρ c (Proc.devRef .tc main_arg8) = a8 m c := (keep10 m ρ c main_arg8 (by decide)).trans (arg8_at10 m ρ c)
theorem arg8_at12 : W12 m ρ c (Proc.devRef .tc main_arg8) = a8 m c := (keep11 m ρ c main_arg8 (by decide)).trans (arg8_at11 m ρ c)
theorem arg8_at13 : W13 m ρ c (Proc.devRef .tc main_arg8) = a8 m c := (keep12 m ρ c main_arg8 (by decide)).trans (arg8_at12 m ρ c)
theorem arg9_at0 : W0 m ρ c (Proc.devRef .tc main_arg9) = a9 m c := rfl
theorem arg9_at1 : W1 m ρ c (Proc.devRef .tc main_arg9) = a9 m c := (keep0 m ρ c main_arg9 (by decide)).trans (arg9_at0 m ρ c)
theorem arg9_at2 : W2 m ρ c (Proc.devRef .tc main_arg9) = a9 m c := (keep1 m ρ c main_arg9 (by decide)).trans (arg9_at1 m ρ c)
theorem arg9_at3 : W3 m ρ c (Proc.devRef .tc main_arg9) = a9 m c := (keep2 m ρ c main_arg9 (by decide)).trans (arg9_at2 m ρ c)
theorem arg9_at4 : W4 m ρ c (Proc.devRef .tc main_arg9) = a9 m c := (keep3 m ρ c main_arg9 (by decide)).trans (arg9_at3 m ρ c)
theorem arg9_at5 : W5 m ρ c (Proc.devRef .tc main_arg9) = a9 m c := (keep4 m ρ c main_arg9 (by decide)).trans (arg9_at4 m ρ c)
theorem arg9_at6 : W6 m ρ c (Proc.devRef .tc main_arg9) = a9 m c := (keep5 m ρ c main_arg9 (by decide)).trans (arg9_at5 m ρ c)
theorem arg9_at7 : W7 m ρ c (Proc.devRef .tc main_arg9) = a9 m c := (keep6 m ρ c main_arg9 (by decide)).trans (arg9_at6 m ρ c)
theorem arg9_at8 : W8 m ρ c (Proc.devRef .tc main_arg9) = a9 m c := (keep7 m ρ c main_arg9 (by decide)).trans (arg9_at7 m ρ c)
theorem arg9_at9 : W9 m ρ c (Proc.devRef .tc main_arg9) = a9 m c := (keep8 m ρ c main_arg9 (by decide)).trans (arg9_at8 m ρ c)
theorem arg9_at10 : W10 m ρ c (Proc.devRef .tc main_arg9) = a9 m c := (keep9 m ρ c main_arg9 (by decide)).trans (arg9_at9 m ρ c)
theorem arg9_at11 : W11 m ρ c (Proc.devRef .tc main_arg9) = a9 m c := (keep10 m ρ c main_arg9 (by decide)).trans (arg9_at10 m ρ c)
theorem arg9_at12 : W12 m ρ c (Proc.devRef .tc main_arg9) = a9 m c := (keep11 m ρ c main_arg9 (by decide)).trans (arg9_at11 m ρ c)
theorem arg9_at13 : W13 m ρ c (Proc.devRef .tc main_arg9) = a9 m c := (keep12 m ρ c main_arg9 (by decide)).trans (arg9_at12 m ρ c)
theorem arg9_at14 : W14 m ρ c (Proc.devRef .tc main_arg9) = a9 m c := (keep13 m ρ c main_arg9 (by decide)).trans (arg9_at13 m ρ c)

/-! ## Items 0–4: the endpoints, the degree, its inverse square root, the edge weights -/

theorem v3_at1 : W1 m ρ c (Proc.devRef .tc main_v3) = Cert.Spec.row (a0 m c) := (KS.i0_v3 (W0 m ρ c)).trans (by rw [arg0_at0])
theorem v6_at1 : W1 m ρ c (Proc.devRef .tc main_v6) = Cert.Spec.col (a0 m c) := (KS.i0_v6 (W0 m ρ c)).trans (by rw [arg0_at0])
theorem v10_at1 : W1 m ρ c (Proc.devRef .tc main_v10) = Cert.Spec.deg (a0 m c) := (KS.i0_v10 (W0 m ρ c)).trans (by rw [arg0_at0])
theorem v12_at1 : W1 m ρ c (Proc.devRef .tc main_v12) = Cert.Spec.degPos (a0 m c) := (KS.i0_v12 (W0 m ρ c)).trans (by rw [arg0_at0])
theorem cst2_at1 : W1 m ρ c (Proc.devRef .tc main_cst_2) = constant (F := Ideal) S_ .f32 0x3F800000#32 := KS.i0_cst2 (W0 m ρ c)
theorem v13_at2 : W2 m ρ c (Proc.devRef .tc main_v13) = Cert.Spec.degSafe (a0 m c) :=
  (KS.i1_v13 (W1 m ρ c)).trans (by rw [v12_at1, v10_at1, cst2_at1]; rfl)
theorem v10_at2 : W2 m ρ c (Proc.devRef .tc main_v10) = Cert.Spec.deg (a0 m c) := (keep1 m ρ c main_v10 (by decide)).trans (v10_at1 m ρ c)
theorem v15_at3 : W3 m ρ c (Proc.devRef .tc main_v15) = Cert.Spec.degPos (a0 m c) := (KS.i2_v15 (W2 m ρ c)).trans (by rw [v10_at2]; rfl)
theorem v16_at3 : W3 m ρ c (Proc.devRef .tc main_v16) = Host.rsqrt (Cert.Spec.degSafe (a0 m c)) := (KS.i2_v16 (W2 m ρ c)).trans (by rw [v13_at2])
theorem cst4_at3 : W3 m ρ c (Proc.devRef .tc main_cst_4) = constant (F := Ideal) S_ .f32 0x00000000#32 := KS.i2_cst4 (W2 m ρ c)
theorem v17_at4 : W4 m ρ c (Proc.devRef .tc main_v17) = Cert.Spec.dinv (a0 m c) :=
  (KS.i3_v17 (W3 m ρ c)).trans (by rw [v15_at3, v16_at3, cst4_at3]; rfl)
theorem v3_at2 : W2 m ρ c (Proc.devRef .tc main_v3) = Cert.Spec.row (a0 m c) := (keep1 m ρ c main_v3 (by decide)).trans (v3_at1 m ρ c)
theorem v3_at3 : W3 m ρ c (Proc.devRef .tc main_v3) = Cert.Spec.row (a0 m c) := (keep2 m ρ c main_v3 (by decide)).trans (v3_at2 m ρ c)
theorem v3_at4 : W4 m ρ c (Proc.devRef .tc main_v3) = Cert.Spec.row (a0 m c) := (keep3 m ρ c main_v3 (by decide)).trans (v3_at3 m ρ c)
theorem v3_at5 : W5 m ρ c (Proc.devRef .tc main_v3) = Cert.Spec.row (a0 m c) := (keep4 m ρ c main_v3 (by decide)).trans (v3_at4 m ρ c)
theorem v3_at6 : W6 m ρ c (Proc.devRef .tc main_v3) = Cert.Spec.row (a0 m c) := (keep5 m ρ c main_v3 (by decide)).trans (v3_at5 m ρ c)
theorem v3_at7 : W7 m ρ c (Proc.devRef .tc main_v3) = Cert.Spec.row (a0 m c) := (keep6 m ρ c main_v3 (by decide)).trans (v3_at6 m ρ c)
theorem v3_at8 : W8 m ρ c (Proc.devRef .tc main_v3) = Cert.Spec.row (a0 m c) := (keep7 m ρ c main_v3 (by decide)).trans (v3_at7 m ρ c)
theorem v3_at9 : W9 m ρ c (Proc.devRef .tc main_v3) = Cert.Spec.row (a0 m c) := (keep8 m ρ c main_v3 (by decide)).trans (v3_at8 m ρ c)
theorem v3_at10 : W10 m ρ c (Proc.devRef .tc main_v3) = Cert.Spec.row (a0 m c) := (keep9 m ρ c main_v3 (by decide)).trans (v3_at9 m ρ c)
theorem v6_at2 : W2 m ρ c (Proc.devRef .tc main_v6) = Cert.Spec.col (a0 m c) := (keep1 m ρ c main_v6 (by decide)).trans (v6_at1 m ρ c)
theorem v6_at3 : W3 m ρ c (Proc.devRef .tc main_v6) = Cert.Spec.col (a0 m c) := (keep2 m ρ c main_v6 (by decide)).trans (v6_at2 m ρ c)
theorem v6_at4 : W4 m ρ c (Proc.devRef .tc main_v6) = Cert.Spec.col (a0 m c) := (keep3 m ρ c main_v6 (by decide)).trans (v6_at3 m ρ c)
theorem v6_at5 : W5 m ρ c (Proc.devRef .tc main_v6) = Cert.Spec.col (a0 m c) := (keep4 m ρ c main_v6 (by decide)).trans (v6_at4 m ρ c)
theorem v6_at6 : W6 m ρ c (Proc.devRef .tc main_v6) = Cert.Spec.col (a0 m c) := (keep5 m ρ c main_v6 (by decide)).trans (v6_at5 m ρ c)
theorem v6_at7 : W7 m ρ c (Proc.devRef .tc main_v6) = Cert.Spec.col (a0 m c) := (keep6 m ρ c main_v6 (by decide)).trans (v6_at6 m ρ c)
theorem v6_at8 : W8 m ρ c (Proc.devRef .tc main_v6) = Cert.Spec.col (a0 m c) := (keep7 m ρ c main_v6 (by decide)).trans (v6_at7 m ρ c)
theorem v6_at9 : W9 m ρ c (Proc.devRef .tc main_v6) = Cert.Spec.col (a0 m c) := (keep8 m ρ c main_v6 (by decide)).trans (v6_at8 m ρ c)
theorem v6_at10 : W10 m ρ c (Proc.devRef .tc main_v6) = Cert.Spec.col (a0 m c) := (keep9 m ρ c main_v6 (by decide)).trans (v6_at9 m ρ c)
theorem v33_at5 : W5 m ρ c (Proc.devRef .tc main_v33) = Cert.Spec.normcol (a0 m c) :=
  (KS.i4_v33 (W4 m ρ c)).trans (by rw [v17_at4, v3_at4, v6_at4]; rfl)
theorem v33_at6 : W6 m ρ c (Proc.devRef .tc main_v33) = Cert.Spec.normcol (a0 m c) := (keep5 m ρ c main_v33 (by decide)).trans (v33_at5 m ρ c)
theorem v33_at7 : W7 m ρ c (Proc.devRef .tc main_v33) = Cert.Spec.normcol (a0 m c) := (keep6 m ρ c main_v33 (by decide)).trans (v33_at6 m ρ c)
theorem v33_at8 : W8 m ρ c (Proc.devRef .tc main_v33) = Cert.Spec.normcol (a0 m c) := (keep7 m ρ c main_v33 (by decide)).trans (v33_at7 m ρ c)
theorem v33_at9 : W9 m ρ c (Proc.devRef .tc main_v33) = Cert.Spec.normcol (a0 m c) := (keep8 m ρ c main_v33 (by decide)).trans (v33_at8 m ρ c)
theorem v33_at10 : W10 m ρ c (Proc.devRef .tc main_v33) = Cert.Spec.normcol (a0 m c) := (keep9 m ρ c main_v33 (by decide)).trans (v33_at9 m ρ c)

/-! ## The first layer: region 0 (product), items 6–7 (aggregation, the bias row), region 1 (bias, maximum with zero) -/

abbrev h1 := Cert.Spec.mmH (a1 m c) (a4 m c)
theorem v34_at6 : W6 m ρ c (Proc.devRef .tc main_v34) = h1 m c :=
  (W6_arr m ρ c 2).trans ((Cert.Bridge.region0 (V5 m ρ) c).trans (by rw [show V5 m ρ c main_arg1 = a1 m c from arg1_at5 m ρ c, show V5 m ρ c main_arg4 = a4 m c from arg4_at5 m ρ c]; rfl))
theorem v46_at7 : W7 m ρ c (Proc.devRef .tc main_v46) = Cert.Spec.agg (a0 m c) (h1 m c) :=
  (KS.i6_v46 (W6 m ρ c)).trans (by rw [v3_at6, v6_at6, v33_at6, v34_at6]; rfl)
theorem v46_at8 : W8 m ρ c (Proc.devRef .tc main_v46) = Cert.Spec.agg (a0 m c) (h1 m c) := (keep7 m ρ c main_v46 (by decide)).trans (v46_at7 m ρ c)
theorem v47_at8 : W8 m ρ c (Proc.devRef .tc main_v47) = shapeCast S1x256 (a5 m c) shapeCasts_S256_S1x256 := (KS.i7_v47 (W7 m ρ c)).trans (by rw [arg5_at7])
abbrev x1 := Cert.Spec.x1 (a0 m c) (a1 m c) (a4 m c) (a5 m c)
theorem v48_at9 : W9 m ρ c (Proc.devRef .tc main_v48) = x1 m c :=
  (W9_arr m ρ c 2).trans ((Cert.Bridge.region1 (V8 m ρ) c (a5 m c) (v47_at8 m ρ c)).trans (by rw [show V8 m ρ c main_v46 = _ from v46_at8 m ρ c]; rfl))

/-! ## The second layer: region 2 (product), item 10 (aggregation, the bias row), region 3 (bias) -/

abbrev h2 := Cert.Spec.mmH (x1 m c) (a6 m c)
theorem v49_at10 : W10 m ρ c (Proc.devRef .tc main_v49) = h2 m c :=
  (W10_arr m ρ c 2).trans ((Cert.Bridge.region2 (V9 m ρ) c).trans (by rw [show V9 m ρ c main_v48 = _ from v48_at9 m ρ c, show V9 m ρ c main_arg6 = a6 m c from arg6_at9 m ρ c]; rfl))
theorem v61_at11 : W11 m ρ c (Proc.devRef .tc main_v61) = Cert.Spec.agg (a0 m c) (h2 m c) :=
  (KS.i10_v61 (W10 m ρ c)).trans (by rw [v3_at10, v6_at10, v33_at10, v49_at10]; rfl)
theorem v62_at11 : W11 m ρ c (Proc.devRef .tc main_v62) = shapeCast S1x256 (a7 m c) shapeCasts_S256_S1x256 := (KS.i10_v62 (W10 m ρ c)).trans (by rw [arg7_at10])
abbrev x2 := Cert.Spec.x2 (a0 m c) (x1 m c) (a6 m c) (a7 m c)
theorem v63_at12 : W12 m ρ c (Proc.devRef .tc main_v63) = x2 m c :=
  (W12_arr m ρ c 2).trans ((Cert.Bridge.region3 (V11 m ρ) c (a7 m c) (v62_at11 m ρ c)).trans (by rw [show V11 m ρ c main_v61 = _ from v61_at11 m ρ c]; rfl))

/-! ## The embeddings (region 4) and the read-out (region 5, item 14, region 6) -/

abbrev rep := Cert.Spec.rep (a0 m c) (a1 m c) (a4 m c) (a5 m c) (a6 m c) (a7 m c)
theorem v64_at13 : W13 m ρ c (Proc.devRef .tc main_v64) = rep m c :=
  (W13_arr m ρ c 1).trans ((Cert.Bridge.region4 (V12 m ρ) c).trans (by rw [show V12 m ρ c main_v63 = _ from v63_at12 m ρ c]; rfl))
theorem v64_at14 : W14 m ρ c (Proc.devRef .tc main_v64) = rep m c := (keep13 m ρ c main_v64 (by decide)).trans (v64_at13 m ρ c)
theorem v64_at15 : W15 m ρ c (Proc.devRef .tc main_v64) = rep m c := (keep14 m ρ c main_v64 (by decide)).trans (v64_at14 m ρ c)
theorem v64_at16 : W16 m ρ c (Proc.devRef .tc main_v64) = rep m c := (keep15 m ρ c main_v64 (by decide)).trans (v64_at15 m ρ c)
theorem v64_at17 : W17 m ρ c (Proc.devRef .tc main_v64) = rep m c := (keep16 m ρ c main_v64 (by decide)).trans (v64_at16 m ρ c)
theorem v64_at18 : W18 m ρ c (Proc.devRef .tc main_v64) = rep m c := (keep17 m ρ c main_v64 (by decide)).trans (v64_at17 m ρ c)
theorem v64_at19 : W19 m ρ c (Proc.devRef .tc main_v64) = rep m c := (keep18 m ρ c main_v64 (by decide)).trans (v64_at18 m ρ c)
theorem v64_at20 : W20 m ρ c (Proc.devRef .tc main_v64) = rep m c := (keep19 m ρ c main_v64 (by decide)).trans (v64_at19 m ρ c)
theorem v65_at14 : W14 m ρ c (Proc.devRef .tc main_v65) = Cert.Spec.mmC (rep m c) (a8 m c) :=
  (W14_arr m ρ c 2).trans ((Cert.Bridge.region5 (V13 m ρ) c).trans (by rw [show V13 m ρ c main_v64 = _ from v64_at13 m ρ c, show V13 m ρ c main_arg8 = a8 m c from arg8_at13 m ρ c]; rfl))
theorem v65_at15 : W15 m ρ c (Proc.devRef .tc main_v65) = Cert.Spec.mmC (rep m c) (a8 m c) := (keep14 m ρ c main_v65 (by decide)).trans (v65_at14 m ρ c)
theorem v66_at15 : W15 m ρ c (Proc.devRef .tc main_v66) = shapeCast S1x64 (a9 m c) shapeCasts_S64_S1x64 := (KS.i14_v66 (W14 m ρ c)).trans (by rw [arg9_at14])
abbrev yOut := Cert.Spec.yOut (rep m c) (a8 m c) (a9 m c)
theorem v67_at16 : W16 m ρ c (Proc.devRef .tc main_v67) = yOut m c :=
  (W16_arr m ρ c 2).trans ((Cert.Bridge.region6 (V15 m ρ) c (a9 m c) (v66_at15 m ρ c)).trans (by rw [show V15 m ρ c main_v65 = _ from v65_at15 m ρ c]; rfl))
theorem v67_at17 : W17 m ρ c (Proc.devRef .tc main_v67) = yOut m c := (keep16 m ρ c main_v67 (by decide)).trans (v67_at16 m ρ c)
theorem v67_at18 : W18 m ρ c (Proc.devRef .tc main_v67) = yOut m c := (keep17 m ρ c main_v67 (by decide)).trans (v67_at17 m ρ c)
theorem v67_at19 : W19 m ρ c (Proc.devRef .tc main_v67) = yOut m c := (keep18 m ρ c main_v67 (by decide)).trans (v67_at18 m ρ c)
theorem v67_at20 : W20 m ρ c (Proc.devRef .tc main_v67) = yOut m c := (keep19 m ρ c main_v67 (by decide)).trans (v67_at19 m ρ c)

/-! ## The loss: items 16–17 (the kernel's operands), region 7 (the two totals), item 19 (the quotient) -/

abbrev e0 := Cert.Spec.ends0 (a0 m c)
abbrev e1 := Cert.Spec.ends1 (a0 m c)
abbrev n0 := Cert.Spec.ends0 (a3 m c)
abbrev n1 := Cert.Spec.ends1 (a3 m c)
theorem v69_at17 : W17 m ρ c (Proc.devRef .tc main_v69) = e0 m c := (KS.i16_v69 (W16 m ρ c)).trans (by rw [arg0_at16])
theorem v71_at17 : W17 m ρ c (Proc.devRef .tc main_v71) = e1 m c := (KS.i16_v71 (W16 m ρ c)).trans (by rw [arg0_at16])
theorem v73_at17 : W17 m ρ c (Proc.devRef .tc main_v73) = n0 m c := (KS.i16_v73 (W16 m ρ c)).trans (by rw [arg3_at16])
theorem v75_at17 : W17 m ρ c (Proc.devRef .tc main_v75) = n1 m c := (KS.i16_v75 (W16 m ρ c)).trans (by rw [arg3_at16])
theorem v77_at17 : W17 m ρ c (Proc.devRef .tc main_v77) = Cert.Spec.mask (e0 m c) (e1 m c) := (KS.i16_v77 (W16 m ρ c)).trans (by rw [arg0_at16])
theorem v79_at17 : W17 m ρ c (Proc.devRef .tc main_v79) = Cert.Spec.mask (n0 m c) (n1 m c) := (KS.i16_v79 (W16 m ρ c)).trans (by rw [arg3_at16])
theorem v80_at17 : W17 m ρ c (Proc.devRef .tc main_v80) = Cert.Spec.total (Cert.Spec.mask (e0 m c) (e1 m c)) := (KS.i16_v80 (W16 m ρ c)).trans (by rw [arg0_at16])
theorem v81_at17 : W17 m ρ c (Proc.devRef .tc main_v81) = Cert.Spec.total (Cert.Spec.mask (n0 m c) (n1 m c)) := (KS.i16_v81 (W16 m ρ c)).trans (by rw [arg3_at16])
theorem v88_at17 : W17 m ρ c (Proc.devRef .tc main_v88) = Cert.Spec.rowsAt (rep m c) (e0 m c) := (KS.i16_v88 (W16 m ρ c)).trans (by rw [v64_at16, arg0_at16])
theorem v95_at17 : W17 m ρ c (Proc.devRef .tc main_v95) = Cert.Spec.rowsAt (rep m c) (e1 m c) := (KS.i16_v95 (W16 m ρ c)).trans (by rw [v64_at16, arg0_at16])
theorem v96_at17 : W17 m ρ c (Proc.devRef .tc main_v96) = broadcastInDim S800000 ![] bcast_S_S800000 (constantI S_ 32 0#32) := KS.i16_v96 (W16 m ρ c)
theorem v88_at18 : W18 m ρ c (Proc.devRef .tc main_v88) = Cert.Spec.rowsAt (rep m c) (e0 m c) := (keep17 m ρ c main_v88 (by decide)).trans (v88_at17 m ρ c)
theorem v95_at18 : W18 m ρ c (Proc.devRef .tc main_v95) = Cert.Spec.rowsAt (rep m c) (e1 m c) := (keep17 m ρ c main_v95 (by decide)).trans (v95_at17 m ρ c)
theorem v102_at18 : W18 m ρ c (Proc.devRef .tc main_v102) = Cert.Spec.rowsAt (rep m c) (n0 m c) := (KS.i17_v102 (W17 m ρ c) (v96_at17 m ρ c)).trans (by rw [v64_at17, v73_at17])
theorem v109_at18 : W18 m ρ c (Proc.devRef .tc main_v109) = Cert.Spec.rowsAt (rep m c) (n1 m c) := (KS.i17_v109 (W17 m ρ c)).trans (by rw [v64_at17, v75_at17])
theorem v116_at18 : W18 m ρ c (Proc.devRef .tc main_v116) = Cert.Spec.rowsAt (a1 m c) (e0 m c) := (KS.i17_v116 (W17 m ρ c)).trans (by rw [arg1_at17, v69_at17])
theorem v123_at18 : W18 m ρ c (Proc.devRef .tc main_v123) = Cert.Spec.rowsAt (a1 m c) (e1 m c) := (KS.i17_v123 (W17 m ρ c)).trans (by rw [arg1_at17, v71_at17])
theorem v124_at18 : W18 m ρ c (Proc.devRef .tc main_v124) = shapeCast S800000x1 (a2 m c) shapeCasts_S800000_S800000x1 := (KS.i17_v124 (W17 m ρ c)).trans (by rw [arg2_at17])
theorem v125_at18 : W18 m ρ c (Proc.devRef .tc main_v125) = shapeCast S800000x1 (Cert.Spec.mask (e0 m c) (e1 m c)) shapeCasts_S800000_S800000x1 := (KS.i17_v125 (W17 m ρ c)).trans (by rw [v77_at17])
theorem v126_at18 : W18 m ρ c (Proc.devRef .tc main_v126) = shapeCast S800000x1 (Cert.Spec.mask (n0 m c) (n1 m c)) shapeCasts_S800000_S800000x1 := (KS.i17_v126 (W17 m ρ c)).trans (by rw [v79_at17])
theorem v80_at19 : W19 m ρ c (Proc.devRef .tc main_v80) = Cert.Spec.total (Cert.Spec.mask (e0 m c) (e1 m c)) := (keep18 m ρ c main_v80 (by decide)).trans ((keep17 m ρ c main_v80 (by decide)).trans (v80_at17 m ρ c))
theorem v81_at19 : W19 m ρ c (Proc.devRef .tc main_v81) = Cert.Spec.total (Cert.Spec.mask (n0 m c) (n1 m c)) := (keep18 m ρ c main_v81 (by decide)).trans ((keep17 m ρ c main_v81 (by decide)).trans (v81_at17 m ρ c))

/-- The negative edges' total, read off region 7's output. -/
theorem neg_at19 : shapeCast S_ (extractStridedSlice S1x1 ![0, 0] (W19 m ρ c (Proc.devRef .tc main_v127)) slices_S1x2_S1x1_0_0) shapeCasts_S1x1_S_ = Cert.Spec.negLoss (rep m c) (a3 m c) := by
  rw [W19_arr m ρ c 9]
  refine (Cert.Bridge.region7_neg (V18 m ρ) c _ (v126_at18 m ρ c)).trans ?_
  rw [show V18 m ρ c main_v102 = _ from v102_at18 m ρ c, show V18 m ρ c main_v109 = _ from v109_at18 m ρ c]; rfl
/-- The positive edges' total. -/
theorem pos_at19 : shapeCast S_ (extractStridedSlice S1x1 ![0, 1] (W19 m ρ c (Proc.devRef .tc main_v127)) slices_S1x2_S1x1_0_1) shapeCasts_S1x1_S_ = Cert.Spec.posLoss (rep m c) (a1 m c) (a0 m c) (a2 m c) := by
  rw [W19_arr m ρ c 9]
  refine (Cert.Bridge.region7_pos (V18 m ρ) c _ _ (v125_at18 m ρ c) (v124_at18 m ρ c)).trans ?_
  rw [show V18 m ρ c main_v88 = _ from v88_at18 m ρ c, show V18 m ρ c main_v95 = _ from v95_at18 m ρ c, show V18 m ρ c main_v116 = _ from v116_at18 m ρ c, show V18 m ρ c main_v123 = _ from v123_at18 m ρ c]; rfl
abbrev loss := Cert.Spec.loss (rep m c) (a1 m c) (a0 m c) (a3 m c) (a2 m c)
theorem v135_at20 : W20 m ρ c (Proc.devRef .tc main_v135) = loss m c :=
  (KS.i19_v135 (W19 m ρ c)).trans (by rw [neg_at19, pos_at19, v81_at19, v80_at19]; rfl)

end Cert.Bridge.KW

end
-- ==== Proof.Val.Algebraic.lean ====
/-
  The two idealized programs, run from memories that agree on the arguments, end with equal results: the kernel
  program's three result buffers hold the reference's named operations of its arguments (the walk of Val/KWalk.lean
  over the run of KI/Run.lean), the reference's hold the same operations of its own arguments (Val/RefValue.lean),
  and the arguments agree.
-/
import proofs.«160566_j58506044506613_1_alg».proof.Defs
import proofs.«160566_j58506044506613_1_alg».proof.Proof.KI.Run
import proofs.«160566_j58506044506613_1_alg».proof.Proof.KI.Args
import proofs.«160566_j58506044506613_1_alg».proof.Proof.Val.KWalk
import proofs.«160566_j58506044506613_1_alg».proof.Proof.Val.RefValue

set_option maxRecDepth 16384

noncomputable section

namespace Cert.Bridge

open Idealize.ShloMosaic Idealize.ShloMosaic.TcCoe Idealize.SL.Sem

/-- The idealized kernel program's run with its three results named and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v64) = KW.rep m c
      ∧ r.2.mem ((c.tc : Thread Cert.KernelIdeal.nD Cert.KernelIdeal.τ).loc Cert.KernelIdeal.main_v135) = KW.loss m c
      ∧ r.2.mem ((c.tc : Thread Cert.KernelIdeal.nD Cert.KernelIdeal.τ).loc Cert.KernelIdeal.main_v67) = KW.yOut m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run (Cert.KernelIdeal.defs (F := Ideal)) _ _).mono (fun r h c =>
    ⟨(h c _ (Cert.KernelIdeal.Hand.mem_uc Cert.KernelIdeal.main_v64 (by decide))).trans (KW.v64_at20 m ρ c),
     (h c _ (Cert.KernelIdeal.Hand.mem_uc Cert.KernelIdeal.main_v135 (by decide))).trans (KW.v135_at20 m ρ c),
     (h c _ (Cert.KernelIdeal.Hand.mem_uc Cert.KernelIdeal.main_v67 (by decide))).trans (KW.v67_at20 m ρ c),
     (h c _ (Cert.KernelIdeal.Hand.mem_uc Cert.KernelIdeal.main_arg0 (by decide))).trans (Cert.KernelIdeal.Hand.W20_main_arg0 m ρ c),
     (h c _ (Cert.KernelIdeal.Hand.mem_uc Cert.KernelIdeal.main_arg1 (by decide))).trans (Cert.KernelIdeal.Hand.W20_main_arg1 m ρ c),
     (h c _ (Cert.KernelIdeal.Hand.mem_uc Cert.KernelIdeal.main_arg2 (by decide))).trans (Cert.KernelIdeal.Hand.W20_main_arg2 m ρ c),
     (h c _ (Cert.KernelIdeal.Hand.mem_uc Cert.KernelIdeal.main_arg3 (by decide))).trans (Cert.KernelIdeal.Hand.W20_main_arg3 m ρ c),
     (h c _ (Cert.KernelIdeal.Hand.mem_uc Cert.KernelIdeal.main_arg4 (by decide))).trans (Cert.KernelIdeal.Hand.W20_main_arg4 m ρ c),
     (h c _ (Cert.KernelIdeal.Hand.mem_uc Cert.KernelIdeal.main_arg5 (by decide))).trans (Cert.KernelIdeal.Hand.W20_main_arg5 m ρ c),
     (h c _ (Cert.KernelIdeal.Hand.mem_uc Cert.KernelIdeal.main_arg6 (by decide))).trans (Cert.KernelIdeal.Hand.W20_main_arg6 m ρ c),
     (h c _ (Cert.KernelIdeal.Hand.mem_uc Cert.KernelIdeal.main_arg7 (by decide))).trans (Cert.KernelIdeal.Hand.W20_main_arg7 m ρ c),
     (h c _ (Cert.KernelIdeal.Hand.mem_uc Cert.KernelIdeal.main_arg8 (by decide))).trans (Cert.KernelIdeal.Hand.W20_main_arg8 m ρ c),
     (h c _ (Cert.KernelIdeal.Hand.mem_uc Cert.KernelIdeal.main_arg9 (by decide))).trans (Cert.KernelIdeal.Hand.W20_main_arg9 m ρ c)⟩)
    (Cert.KernelIdeal.Hand.run_main (F := Ideal) m ρ)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => KW.rep m c, fun c => KW.loss m c, fun c => KW.yOut m c, kernel_run m ρ, ?_⟩
  refine (θ_run (Cert.ReferenceIdeal.defs (F := Ideal)) _ _).mono (fun r h c => ?_) (Cert.Bridge.ref_run m' ρ')
  obtain ⟨g0, g1, g2, g3, g4, g5, g6, g7, g8, g9⟩ := hagree c
  obtain ⟨hrep, hloss, hy, hargs⟩ := h c
  refine ⟨hrep.trans ?_, hloss.trans ?_, hy.trans ?_, hargs⟩
  · rw [g0, g1, g4, g5, g6, g7]
  · rw [g0, g1, g2, g3, g4, g5, g6, g7]
  · rw [g0, g1, g4, g5, g6, g7, g8, g9]

end Cert.Bridge

end
-- ==== Proof.lean ====
/-
  The certificate of the graph-convolution kernel against its reference.
  The kernel program is eight kernel regions among stretches of host operations: two graph-convolution layers
  (a product with the weights, then on the host a gather of the rows at the edges' sources, a scaling by the edges'
  symmetric-degree weights and a scatter-add over the targets, then the bias and, after the first layer, the maximum
  with zero), the rows normalised twice, a linear read-out, and a loss that sums over 800000 edges in blocks of 2000
  with two running sums kept between grid points. At the ideal instance every region computes the reference's
  operation on the same operands — a blocked product is the whole product, a row-wise operation done 5000 rows at a
  time is the whole operation, a sum taken block by block is the sum (addition of extended reals is commutative and
  associative, and so is multiplication: no finiteness is used) — and the host stretches are the reference's own
  operations. The frames: each program's run through its items, every argument array read back unchanged.
  The ideal pass rewrote nothing, so the preservation claim is the trivial one.
-/
import proofs.«160566_j58506044506613_1_alg».proof.Defs
import proofs.«160566_j58506044506613_1_alg».proof.Proof.Gen.Kernel
import proofs.«160566_j58506044506613_1_alg».proof.Proof.Gen.KernelIdeal
import proofs.«160566_j58506044506613_1_alg».proof.Proof.Gen.ReferenceIdeal
import proofs.«160566_j58506044506613_1_alg».proof.Proof.Gen.Pre_finite_inputs
import proofs.«160566_j58506044506613_1_alg».proof.Proof.K.Args
import proofs.«160566_j58506044506613_1_alg».proof.Proof.KI.Args
import proofs.«160566_j58506044506613_1_alg».proof.Proof.Val.RefValue
import proofs.«160566_j58506044506613_1_alg».proof.Proof.Val.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.Bridge.frame_ri,
  trivial,
  Cert.Bridge.algebraic⟩

end Cert.Proof

end
